-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200x128 : Shape := ⟨3, ![1024, 200, 128]⟩
abbrev S1024x50x128 : Shape := ⟨3, ![1024, 50, 128]⟩
abbrev S_ : Shape := ⟨0, ![]⟩

class Facts : Prop where
  bcast_S_S1024x200x128 : S_.BroadcastsInDim S1024x200x128 (![] : Fin 0 → Fin S1024x200x128.rank)
  reducesTo_S1024x200x128_S_d0_1_2 : S1024x200x128.ReducesTo [0, 1, 2] S_
  h_S_ : 0 < S_.numel
  bcast_S_S1024x50x128 : S_.BroadcastsInDim S1024x50x128 (![] : Fin 0 → Fin S1024x50x128.rank)
  reducesTo_S1024x50x128_S_d0_1_2 : S1024x50x128.ReducesTo [0, 1, 2] S_

variable [Facts]

def fn {F : FTy → Type} [FloatOps F] (main_arg0 : FVec F S1024x200x128 .f32) (main_arg1 : IVec S1024x50x128 32) : IVec S_ 1 :=
  let main_v0 : FVec F S1024x200x128 .f32 := Host.absf main_arg0
  let main_cst : FVec F S_ .f32 := constant S_ .f32 0x7F800000#32
  let main_v1 : FVec F S1024x200x128 .f32 := broadcastInDim S1024x200x128 ![] bcast_S_S1024x200x128 main_cst
  let main_v2 : IVec S1024x200x128 1 := cmpf .olt main_v0 main_v1
  let main_c : IVec S_ 1 := constantI S_ 1 1#1
  let main_v3 : IVec S_ 1 := (fun x v => Host.reduce IntOp.andi x v reducesTo_S1024x200x128_S_d0_1_2 h_S_) main_v2 main_c
  let main_c_0 : IVec S_ 32 := constantI S_ 32 0#32
  let main_v4 : IVec S1024x50x128 32 := broadcastInDim S1024x50x128 ![] bcast_S_S1024x50x128 main_c_0
  let main_v5 : IVec S1024x50x128 1 := cmpi .sge main_arg1 main_v4
  let main_c_1 : IVec S_ 32 := constantI S_ 32 199#32
  let main_v6 : IVec S1024x50x128 32 := broadcastInDim S1024x50x128 ![] bcast_S_S1024x50x128 main_c_1
  let main_v7 : IVec S1024x50x128 1 := cmpi .sle main_arg1 main_v6
  let main_v8 : IVec S1024x50x128 1 := andi main_v5 main_v7
  let main_c_2 : IVec S_ 1 := constantI S_ 1 1#1
  let main_v9 : IVec S_ 1 := (fun x v => Host.reduce IntOp.andi x v reducesTo_S1024x50x128_S_d0_1_2 h_S_) main_v8 main_c_2
  let main_v10 : IVec S_ 1 := andi main_v3 main_v9
  main_v10
-- ==== Kernel.lean ====
abbrev S1024x200x128 : Shape := ⟨3, ![1024, 200, 128]⟩
abbrev S1024x50x128 : Shape := ⟨3, ![1024, 50, 128]⟩
abbrev S50x1024x128 : Shape := ⟨3, ![50, 1024, 128]⟩
abbrev S200x128 : Shape := ⟨2, ![200, 128]⟩
abbrev S50x128 : Shape := ⟨2, ![50, 128]⟩
abbrev S_ : Shape := ⟨0, ![]⟩
abbrev S16 : Shape := ⟨1, ![16]⟩
abbrev S96x128 : Shape := ⟨2, ![96, 128]⟩
abbrev S1x96x128 : Shape := ⟨3, ![1, 96, 128]⟩
abbrev S104x128 : Shape := ⟨2, ![104, 128]⟩
abbrev S1x104x128 : Shape := ⟨3, ![1, 104, 128]⟩
abbrev S50x1x128 : Shape := ⟨3, ![50, 1, 128]⟩
abbrev S1x16 : Shape := ⟨2, ![1, 16]⟩

abbrev nBuf : Table → Nat
  | .hbm => 5
  | .local .scVector .vmem => 6
  | _ => 0

abbrev bufTy : (tb : Table) → Fin (nBuf tb) → BufTy
  | .hbm, ⟨0, _⟩ => ⟨S1024x200x128, .f32⟩
  | .hbm, ⟨1, _⟩ => ⟨S1024x50x128, .i32⟩
  | .hbm, ⟨2, _⟩ => ⟨S50x1024x128, .i32⟩
  | .hbm, ⟨3, _⟩ => ⟨S50x1024x128, .f32⟩
  | .hbm, ⟨4, _⟩ => ⟨S1024x50x128, .f32⟩
  | .local .scVector .vmem, ⟨0, _⟩ => ⟨S200x128, .f32⟩
  | .local .scVector .vmem, ⟨1, _⟩ => ⟨S200x128, .f32⟩
  | .local .scVector .vmem, ⟨2, _⟩ => ⟨S50x128, .i32⟩
  | .local .scVector .vmem, ⟨3, _⟩ => ⟨S50x128, .i32⟩
  | .local .scVector .vmem, ⟨4, _⟩ => ⟨S50x128, .f32⟩
  | .local .scVector .vmem, ⟨5, _⟩ => ⟨S50x128, .f32⟩
  | _, _ => ⟨S1024x200x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3 : BitVec 32 := 0#32
  let c0_i32_4 : BitVec 32 := 0#32
  ![v2.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c96_i32_11 : BitVec 32 := 96#32
  let c0_i32_12 : BitVec 32 := 0#32
  ![v2.toNat, 96, 0]
def k0_off3 (i : grid0.Coords) : Fin 3 → Nat :=
  let c0_i32_17 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_18 : BitVec 32 := 0#32
  ![0, v2.toNat, 0]
@[reducible] def k0_t1_loop : Scf.Loop 32 :=
  let c0_i32_22 : BitVec 32 := 0#32
  let c16_i32_23 : BitVec 32 := 16#32
  let v36 : BitVec 32 := Scalar.addi c0_i32_22 c16_i32_23
  let c1_i32 : BitVec 32 := 1#32
  ⟨c0_i32_22, v36, c1_i32⟩
def k0_cond1 (k0_t1 : Fin k0_t1_loop.trips) : BitVec 1 :=
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let c0_i32_39 : BitVec 32 := 0#32
  let v52 : BitVec 32 := Scalar.addi v49 c0_i32_39
  let c1_i32_40 : BitVec 32 := 1#32
  let v53 : BitVec 32 := Scalar.addi v52 c1_i32_40
  let c32_i32_41 : BitVec 32 := 32#32
  let v54 : BitVec 1 := Scalar.cmpi .slt v53 c32_i32_41
  let v55 : BitVec 32 := Scalar.extui v54
  let c0_i32_42 : BitVec 32 := 0#32
  let v56 : BitVec 1 := Scalar.cmpi .ne v55 c0_i32_42
  v56

def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let c0_i32_39 : BitVec 32 := 0#32
  let v52 : BitVec 32 := Scalar.addi v49 c0_i32_39
  let c1_i32_40 : BitVec 32 := 1#32
  let v53 : BitVec 32 := Scalar.addi v52 c1_i32_40
  let v112 : BitVec 32 := Scalar.addi v2 v53
  let c0_i32_111 : BitVec 32 := 0#32
  let c0_i32_112 : BitVec 32 := 0#32
  ![v112.toNat, 0, 0]
def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let c0_i32_39 : BitVec 32 := 0#32
  let v52 : BitVec 32 := Scalar.addi v49 c0_i32_39
  let c1_i32_40 : BitVec 32 := 1#32
  let v53 : BitVec 32 := Scalar.addi v52 c1_i32_40
  let v112 : BitVec 32 := Scalar.addi v2 v53
  let c96_i32_119 : BitVec 32 := 96#32
  let c0_i32_120 : BitVec 32 := 0#32
  ![v112.toNat, 96, 0]
def k0_off6 (i : grid0.Coords) (k0_t1 : Fin k0_t1_loop.trips) : Fin 3 → Nat :=
  let c0_i32_125 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let c0_i32_39 : BitVec 32 := 0#32
  let v52 : BitVec 32 := Scalar.addi v49 c0_i32_39
  let c1_i32_40 : BitVec 32 := 1#32
  let v53 : BitVec 32 := Scalar.addi v52 c1_i32_40
  let v112 : BitVec 32 := Scalar.addi v2 v53
  let c0_i32_126 : BitVec 32 := 0#32
  ![0, v112.toNat, 0]
def k0_cond2 (k0_t1 : Fin k0_t1_loop.trips) : BitVec 1 :=
  let c0_i32_22 : BitVec 32 := 0#32
  let c1_i32 : BitVec 32 := 1#32
  let arg19 : BitVec 32 := Scf.iv c0_i32_22 c1_i32 k0_t1
  let c0_i32_43 : BitVec 32 := 0#32
  let v57 : BitVec 1 := Scalar.cmpi .sgt arg19 c0_i32_43
  let v58 : BitVec 32 := Scalar.extui v57
  let c0_i32_44 : BitVec 32 := 0#32
  let v59 : BitVec 1 := Scalar.cmpi .ne v58 c0_i32_44
  v59

def k0_off7 (i : grid0.Coords) (k0_t1 : Fin k0_t1_loop.trips) : Fin 3 → Nat :=
  let c0_i32_110 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let v50 : BitVec 32 := Scalar.addi v2 v49
  let c0_i32_38 : BitVec 32 := 0#32
  let v51 : BitVec 32 := Scalar.addi v50 c0_i32_38
  let c2_i32_109 : BitVec 32 := 2#32
  let v112 : BitVec 32 := Scalar.subi v51 c2_i32_109
  let c0_i32_111 : BitVec 32 := 0#32
  ![0, v112.toNat, 0]
def k0_off8 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let v50 : BitVec 32 := Scalar.addi v2 v49
  let c0_i32_38 : BitVec 32 := 0#32
  let v51 : BitVec 32 := Scalar.addi v50 c0_i32_38
  let c0_i32_47 : BitVec 32 := 0#32
  let c0_i32_48 : BitVec 32 := 0#32
  ![v51.toNat, 0, 0]
def k0_off9 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let v50 : BitVec 32 := Scalar.addi v2 v49
  let c0_i32_38 : BitVec 32 := 0#32
  let v51 : BitVec 32 := Scalar.addi v50 c0_i32_38
  let c96_i32_55 : BitVec 32 := 96#32
  let c0_i32_56 : BitVec 32 := 0#32
  ![v51.toNat, 96, 0]
def k0_off10 (i : grid0.Coords) (k0_t1 : Fin k0_t1_loop.trips) : Fin 3 → Nat :=
  let c0_i32_61 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let v50 : BitVec 32 := Scalar.addi v2 v49
  let c0_i32_38 : BitVec 32 := 0#32
  let v51 : BitVec 32 := Scalar.addi v50 c0_i32_38
  let c0_i32_62 : BitVec 32 := 0#32
  ![0, v51.toNat, 0]
@[reducible] def k0_t2_loop : Scf.Loop 32 :=
  let c0_i32_66 : BitVec 32 := 0#32
  let c50_i32 : BitVec 32 := 50#32
  let v76 : BitVec 32 := Scalar.addi c0_i32_66 c50_i32
  let c1_i32_67 : BitVec 32 := 1#32
  ⟨c0_i32_66, v76, c1_i32_67⟩
def k0_off11 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v112 : Index := Scalar.indexCast arg20
  let c0 : Index := 0#32
  ![v112.toNat, 0]

def k0_chk1 (v5 : IVec S16 32) (v113 : IVec S16 32) : Prop :=
  (∀ a x, ((![v113, v5] : Fin 2 → IVec S16 32) a x).toNat < S200x128.size a)
instance k0_chk1.dec : ∀ (v5 : IVec S16 32) (v113 : IVec S16 32), Decidable (k0_chk1 v5 v113) := fun v5 v113 => decidable_of_iff' _ (Iff.of_eq (k0_chk1.eq_1 v5 v113))
theorem k0_idx1_inb : ∀ (v5 : IVec S16 32) (v113 : IVec S16 32) (k0_hw1 : k0_chk1 v5 v113), ∀ a x, ((![v113, v5] : Fin 2 → IVec S16 32) a x).toNat < S200x128.size a := fun v5 v113 k0_hw1 => k0_hw1
def k0_off12 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v115 : Index := Scalar.indexCast arg20
  let c0_109 : Index := 0#32
  ![v115.toNat, 0]
def k0_off13 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v117 : Index := Scalar.indexCast arg20
  let c16 : Index := 16#32
  ![v117.toNat, 16]

def k0_chk2 (v7 : IVec S16 32) (v118 : IVec S16 32) : Prop :=
  (∀ a x, ((![v118, v7] : Fin 2 → IVec S16 32) a x).toNat < S200x128.size a)
instance k0_chk2.dec : ∀ (v7 : IVec S16 32) (v118 : IVec S16 32), Decidable (k0_chk2 v7 v118) := fun v7 v118 => decidable_of_iff' _ (Iff.of_eq (k0_chk2.eq_1 v7 v118))
theorem k0_idx2_inb : ∀ (v7 : IVec S16 32) (v118 : IVec S16 32) (k0_hw2 : k0_chk2 v7 v118), ∀ a x, ((![v118, v7] : Fin 2 → IVec S16 32) a x).toNat < S200x128.size a := fun v7 v118 k0_hw2 => k0_hw2
def k0_off14 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v120 : Index := Scalar.indexCast arg20
  let c16_110 : Index := 16#32
  ![v120.toNat, 16]
def k0_off15 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v122 : Index := Scalar.indexCast arg20
  let c32 : Index := 32#32
  ![v122.toNat, 32]

def k0_chk3 (v9 : IVec S16 32) (v123 : IVec S16 32) : Prop :=
  (∀ a x, ((![v123, v9] : Fin 2 → IVec S16 32) a x).toNat < S200x128.size a)
instance k0_chk3.dec : ∀ (v9 : IVec S16 32) (v123 : IVec S16 32), Decidable (k0_chk3 v9 v123) := fun v9 v123 => decidable_of_iff' _ (Iff.of_eq (k0_chk3.eq_1 v9 v123))
theorem k0_idx3_inb : ∀ (v9 : IVec S16 32) (v123 : IVec S16 32) (k0_hw3 : k0_chk3 v9 v123), ∀ a x, ((![v123, v9] : Fin 2 → IVec S16 32) a x).toNat < S200x128.size a := fun v9 v123 k0_hw3 => k0_hw3
def k0_off16 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v125 : Index := Scalar.indexCast arg20
  let c32_111 : Index := 32#32
  ![v125.toNat, 32]
def k0_off17 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v127 : Index := Scalar.indexCast arg20
  let c48 : Index := 48#32
  ![v127.toNat, 48]

def k0_chk4 (v11 : IVec S16 32) (v128 : IVec S16 32) : Prop :=
  (∀ a x, ((![v128, v11] : Fin 2 → IVec S16 32) a x).toNat < S200x128.size a)
instance k0_chk4.dec : ∀ (v11 : IVec S16 32) (v128 : IVec S16 32), Decidable (k0_chk4 v11 v128) := fun v11 v128 => decidable_of_iff' _ (Iff.of_eq (k0_chk4.eq_1 v11 v128))
theorem k0_idx4_inb : ∀ (v11 : IVec S16 32) (v128 : IVec S16 32) (k0_hw4 : k0_chk4 v11 v128), ∀ a x, ((![v128, v11] : Fin 2 → IVec S16 32) a x).toNat < S200x128.size a := fun v11 v128 k0_hw4 => k0_hw4
def k0_off18 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v130 : Index := Scalar.indexCast arg20
  let c48_112 : Index := 48#32
  ![v130.toNat, 48]
def k0_off19 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v132 : Index := Scalar.indexCast arg20
  let c64 : Index := 64#32
  ![v132.toNat, 64]

def k0_chk5 (v13 : IVec S16 32) (v133 : IVec S16 32) : Prop :=
  (∀ a x, ((![v133, v13] : Fin 2 → IVec S16 32) a x).toNat < S200x128.size a)
instance k0_chk5.dec : ∀ (v13 : IVec S16 32) (v133 : IVec S16 32), Decidable (k0_chk5 v13 v133) := fun v13 v133 => decidable_of_iff' _ (Iff.of_eq (k0_chk5.eq_1 v13 v133))
theorem k0_idx5_inb : ∀ (v13 : IVec S16 32) (v133 : IVec S16 32) (k0_hw5 : k0_chk5 v13 v133), ∀ a x, ((![v133, v13] : Fin 2 → IVec S16 32) a x).toNat < S200x128.size a := fun v13 v133 k0_hw5 => k0_hw5
def k0_off20 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v135 : Index := Scalar.indexCast arg20
  let c64_113 : Index := 64#32
  ![v135.toNat, 64]
def k0_off21 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v137 : Index := Scalar.indexCast arg20
  let c80 : Index := 80#32
  ![v137.toNat, 80]

def k0_chk6 (v15 : IVec S16 32) (v138 : IVec S16 32) : Prop :=
  (∀ a x, ((![v138, v15] : Fin 2 → IVec S16 32) a x).toNat < S200x128.size a)
instance k0_chk6.dec : ∀ (v15 : IVec S16 32) (v138 : IVec S16 32), Decidable (k0_chk6 v15 v138) := fun v15 v138 => decidable_of_iff' _ (Iff.of_eq (k0_chk6.eq_1 v15 v138))
theorem k0_idx6_inb : ∀ (v15 : IVec S16 32) (v138 : IVec S16 32) (k0_hw6 : k0_chk6 v15 v138), ∀ a x, ((![v138, v15] : Fin 2 → IVec S16 32) a x).toNat < S200x128.size a := fun v15 v138 k0_hw6 => k0_hw6
def k0_off22 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v140 : Index := Scalar.indexCast arg20
  let c80_114 : Index := 80#32
  ![v140.toNat, 80]
def k0_off23 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v142 : Index := Scalar.indexCast arg20
  let c96 : Index := 96#32
  ![v142.toNat, 96]

def k0_chk7 (v17 : IVec S16 32) (v143 : IVec S16 32) : Prop :=
  (∀ a x, ((![v143, v17] : Fin 2 → IVec S16 32) a x).toNat < S200x128.size a)
instance k0_chk7.dec : ∀ (v17 : IVec S16 32) (v143 : IVec S16 32), Decidable (k0_chk7 v17 v143) := fun v17 v143 => decidable_of_iff' _ (Iff.of_eq (k0_chk7.eq_1 v17 v143))
theorem k0_idx7_inb : ∀ (v17 : IVec S16 32) (v143 : IVec S16 32) (k0_hw7 : k0_chk7 v17 v143), ∀ a x, ((![v143, v17] : Fin 2 → IVec S16 32) a x).toNat < S200x128.size a := fun v17 v143 k0_hw7 => k0_hw7
def k0_off24 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v145 : Index := Scalar.indexCast arg20
  let c96_115 : Index := 96#32
  ![v145.toNat, 96]
def k0_off25 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v147 : Index := Scalar.indexCast arg20
  let c112 : Index := 112#32
  ![v147.toNat, 112]

def k0_chk8 (v19 : IVec S16 32) (v148 : IVec S16 32) : Prop :=
  (∀ a x, ((![v148, v19] : Fin 2 → IVec S16 32) a x).toNat < S200x128.size a)
instance k0_chk8.dec : ∀ (v19 : IVec S16 32) (v148 : IVec S16 32), Decidable (k0_chk8 v19 v148) := fun v19 v148 => decidable_of_iff' _ (Iff.of_eq (k0_chk8.eq_1 v19 v148))
theorem k0_idx8_inb : ∀ (v19 : IVec S16 32) (v148 : IVec S16 32) (k0_hw8 : k0_chk8 v19 v148), ∀ a x, ((![v148, v19] : Fin 2 → IVec S16 32) a x).toNat < S200x128.size a := fun v19 v148 k0_hw8 => k0_hw8
def k0_off26 (k0_t2 : Fin k0_t2_loop.trips) : Fin 2 → Nat :=
  let c0_i32_66 : BitVec 32 := 0#32
  let c1_i32_67 : BitVec 32 := 1#32
  let arg20 : BitVec 32 := Scf.iv c0_i32_66 c1_i32_67 k0_t2
  let v150 : Index := Scalar.indexCast arg20
  let c112_116 : Index := 112#32
  ![v150.toNat, 112]
def k0_off27 (i : grid0.Coords) (k0_t1 : Fin k0_t1_loop.trips) (c0_i32_38 : BitVec 32) : Fin 3 → Nat :=
  let c0_i32_69 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let v50 : BitVec 32 := Scalar.addi v2 v49
  let v51 : BitVec 32 := Scalar.addi v50 c0_i32_38
  let c0_i32_70 : BitVec 32 := 0#32
  ![0, v51.toNat, 0]
def k0_cond3 (k0_t1 : Fin k0_t1_loop.trips) : BitVec 1 :=
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let c1_i32_74 : BitVec 32 := 1#32
  let v83 : BitVec 32 := Scalar.addi v49 c1_i32_74
  let c1_i32_75 : BitVec 32 := 1#32
  let v84 : BitVec 32 := Scalar.addi v83 c1_i32_75
  let c32_i32_76 : BitVec 32 := 32#32
  let v85 : BitVec 1 := Scalar.cmpi .slt v84 c32_i32_76
  let v86 : BitVec 32 := Scalar.extui v85
  let c0_i32_77 : BitVec 32 := 0#32
  let v87 : BitVec 1 := Scalar.cmpi .ne v86 c0_i32_77
  v87

def k0_off28 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let c1_i32_74 : BitVec 32 := 1#32
  let v83 : BitVec 32 := Scalar.addi v49 c1_i32_74
  let c1_i32_75 : BitVec 32 := 1#32
  let v84 : BitVec 32 := Scalar.addi v83 c1_i32_75
  let v112 : BitVec 32 := Scalar.addi v2 v84
  let c0_i32_111 : BitVec 32 := 0#32
  let c0_i32_112 : BitVec 32 := 0#32
  ![v112.toNat, 0, 0]
def k0_off29 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let c1_i32_74 : BitVec 32 := 1#32
  let v83 : BitVec 32 := Scalar.addi v49 c1_i32_74
  let c1_i32_75 : BitVec 32 := 1#32
  let v84 : BitVec 32 := Scalar.addi v83 c1_i32_75
  let v112 : BitVec 32 := Scalar.addi v2 v84
  let c96_i32_119 : BitVec 32 := 96#32
  let c0_i32_120 : BitVec 32 := 0#32
  ![v112.toNat, 96, 0]
def k0_off30 (i : grid0.Coords) (k0_t1 : Fin k0_t1_loop.trips) : Fin 3 → Nat :=
  let c0_i32_125 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let c1_i32_74 : BitVec 32 := 1#32
  let v83 : BitVec 32 := Scalar.addi v49 c1_i32_74
  let c1_i32_75 : BitVec 32 := 1#32
  let v84 : BitVec 32 := Scalar.addi v83 c1_i32_75
  let v112 : BitVec 32 := Scalar.addi v2 v84
  let c0_i32_126 : BitVec 32 := 0#32
  ![0, v112.toNat, 0]
def k0_cond4 (k0_t1 : Fin k0_t1_loop.trips) : BitVec 1 :=
  let c0_i32_22 : BitVec 32 := 0#32
  let c1_i32 : BitVec 32 := 1#32
  let arg19 : BitVec 32 := Scf.iv c0_i32_22 c1_i32 k0_t1
  let c0_i32_78 : BitVec 32 := 0#32
  let v88 : BitVec 1 := Scalar.cmpi .sgt arg19 c0_i32_78
  let v89 : BitVec 32 := Scalar.extui v88
  let c0_i32_79 : BitVec 32 := 0#32
  let v90 : BitVec 1 := Scalar.cmpi .ne v89 c0_i32_79
  v90

def k0_off31 (i : grid0.Coords) (k0_t1 : Fin k0_t1_loop.trips) : Fin 3 → Nat :=
  let c0_i32_110 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let v81 : BitVec 32 := Scalar.addi v2 v49
  let c1_i32_73 : BitVec 32 := 1#32
  let v82 : BitVec 32 := Scalar.addi v81 c1_i32_73
  let c2_i32_109 : BitVec 32 := 2#32
  let v112 : BitVec 32 := Scalar.subi v82 c2_i32_109
  let c0_i32_111 : BitVec 32 := 0#32
  ![0, v112.toNat, 0]
def k0_off32 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let v81 : BitVec 32 := Scalar.addi v2 v49
  let c1_i32_73 : BitVec 32 := 1#32
  let v82 : BitVec 32 := Scalar.addi v81 c1_i32_73
  let c0_i32_82 : BitVec 32 := 0#32
  let c0_i32_83 : BitVec 32 := 0#32
  ![v82.toNat, 0, 0]
def k0_off33 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_37 : BitVec 32 := 2#32
  let c0_i32_22 : BitVec 32 := 0#32
  let c1_i32 : BitVec 32 := 1#32
  let arg19 : BitVec 32 := Scf.iv c0_i32_22 c1_i32 k0_t1
  let v49 : BitVec 32 := Scalar.muli c2_i32_37 arg19
  let v81 : BitVec 32 := Scalar.addi v2 v49
  let c1_i32_73 : BitVec 32 := 1#32
  let v82 : BitVec 32 := Scalar.addi v81 c1_i32_73
  let c96_i32_90 : BitVec 32 := 96#32
  let c0_i32_91 : BitVec 32 := 0#32
  ![v82.toNat, 96, 0]
@[reducible] def k0_t3_loop : Scf.Loop 32 :=
  let c0_i32_101 : BitVec 32 := 0#32
  let c50_i32_102 : BitVec 32 := 50#32
  let v107 : BitVec 32 := Scalar.addi c0_i32_101 c50_i32_102
  let c1_i32_103 : BitVec 32 := 1#32
  ⟨c0_i32_101, v107, c1_i32_103⟩
def k0_off34 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v112 : Index := Scalar.indexCast arg20
  let c0 : Index := 0#32
  ![v112.toNat, 0]

def k0_chk9 (v5 : IVec S16 32) (v113 : IVec S16 32) : Prop :=
  (∀ a x, ((![v113, v5] : Fin 2 → IVec S16 32) a x).toNat < S200x128.size a)
instance k0_chk9.dec : ∀ (v5 : IVec S16 32) (v113 : IVec S16 32), Decidable (k0_chk9 v5 v113) := fun v5 v113 => decidable_of_iff' _ (Iff.of_eq (k0_chk9.eq_1 v5 v113))
theorem k0_idx9_inb : ∀ (v5 : IVec S16 32) (v113 : IVec S16 32) (k0_hw9 : k0_chk9 v5 v113), ∀ a x, ((![v113, v5] : Fin 2 → IVec S16 32) a x).toNat < S200x128.size a := fun v5 v113 k0_hw9 => k0_hw9
def k0_off35 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v115 : Index := Scalar.indexCast arg20
  let c0_109 : Index := 0#32
  ![v115.toNat, 0]
def k0_off36 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v117 : Index := Scalar.indexCast arg20
  let c16 : Index := 16#32
  ![v117.toNat, 16]

def k0_chk10 (v7 : IVec S16 32) (v118 : IVec S16 32) : Prop :=
  (∀ a x, ((![v118, v7] : Fin 2 → IVec S16 32) a x).toNat < S200x128.size a)
instance k0_chk10.dec : ∀ (v7 : IVec S16 32) (v118 : IVec S16 32), Decidable (k0_chk10 v7 v118) := fun v7 v118 => decidable_of_iff' _ (Iff.of_eq (k0_chk10.eq_1 v7 v118))
theorem k0_idx10_inb : ∀ (v7 : IVec S16 32) (v118 : IVec S16 32) (k0_hw10 : k0_chk10 v7 v118), ∀ a x, ((![v118, v7] : Fin 2 → IVec S16 32) a x).toNat < S200x128.size a := fun v7 v118 k0_hw10 => k0_hw10
def k0_off37 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v120 : Index := Scalar.indexCast arg20
  let c16_110 : Index := 16#32
  ![v120.toNat, 16]
def k0_off38 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v122 : Index := Scalar.indexCast arg20
  let c32 : Index := 32#32
  ![v122.toNat, 32]

def k0_chk11 (v9 : IVec S16 32) (v123 : IVec S16 32) : Prop :=
  (∀ a x, ((![v123, v9] : Fin 2 → IVec S16 32) a x).toNat < S200x128.size a)
instance k0_chk11.dec : ∀ (v9 : IVec S16 32) (v123 : IVec S16 32), Decidable (k0_chk11 v9 v123) := fun v9 v123 => decidable_of_iff' _ (Iff.of_eq (k0_chk11.eq_1 v9 v123))
theorem k0_idx11_inb : ∀ (v9 : IVec S16 32) (v123 : IVec S16 32) (k0_hw11 : k0_chk11 v9 v123), ∀ a x, ((![v123, v9] : Fin 2 → IVec S16 32) a x).toNat < S200x128.size a := fun v9 v123 k0_hw11 => k0_hw11
def k0_off39 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v125 : Index := Scalar.indexCast arg20
  let c32_111 : Index := 32#32
  ![v125.toNat, 32]
def k0_off40 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v127 : Index := Scalar.indexCast arg20
  let c48 : Index := 48#32
  ![v127.toNat, 48]

def k0_chk12 (v11 : IVec S16 32) (v128 : IVec S16 32) : Prop :=
  (∀ a x, ((![v128, v11] : Fin 2 → IVec S16 32) a x).toNat < S200x128.size a)
instance k0_chk12.dec : ∀ (v11 : IVec S16 32) (v128 : IVec S16 32), Decidable (k0_chk12 v11 v128) := fun v11 v128 => decidable_of_iff' _ (Iff.of_eq (k0_chk12.eq_1 v11 v128))
theorem k0_idx12_inb : ∀ (v11 : IVec S16 32) (v128 : IVec S16 32) (k0_hw12 : k0_chk12 v11 v128), ∀ a x, ((![v128, v11] : Fin 2 → IVec S16 32) a x).toNat < S200x128.size a := fun v11 v128 k0_hw12 => k0_hw12
def k0_off41 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v130 : Index := Scalar.indexCast arg20
  let c48_112 : Index := 48#32
  ![v130.toNat, 48]
def k0_off42 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v132 : Index := Scalar.indexCast arg20
  let c64 : Index := 64#32
  ![v132.toNat, 64]

def k0_chk13 (v13 : IVec S16 32) (v133 : IVec S16 32) : Prop :=
  (∀ a x, ((![v133, v13] : Fin 2 → IVec S16 32) a x).toNat < S200x128.size a)
instance k0_chk13.dec : ∀ (v13 : IVec S16 32) (v133 : IVec S16 32), Decidable (k0_chk13 v13 v133) := fun v13 v133 => decidable_of_iff' _ (Iff.of_eq (k0_chk13.eq_1 v13 v133))
theorem k0_idx13_inb : ∀ (v13 : IVec S16 32) (v133 : IVec S16 32) (k0_hw13 : k0_chk13 v13 v133), ∀ a x, ((![v133, v13] : Fin 2 → IVec S16 32) a x).toNat < S200x128.size a := fun v13 v133 k0_hw13 => k0_hw13
def k0_off43 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v135 : Index := Scalar.indexCast arg20
  let c64_113 : Index := 64#32
  ![v135.toNat, 64]
def k0_off44 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v137 : Index := Scalar.indexCast arg20
  let c80 : Index := 80#32
  ![v137.toNat, 80]

def k0_chk14 (v15 : IVec S16 32) (v138 : IVec S16 32) : Prop :=
  (∀ a x, ((![v138, v15] : Fin 2 → IVec S16 32) a x).toNat < S200x128.size a)
instance k0_chk14.dec : ∀ (v15 : IVec S16 32) (v138 : IVec S16 32), Decidable (k0_chk14 v15 v138) := fun v15 v138 => decidable_of_iff' _ (Iff.of_eq (k0_chk14.eq_1 v15 v138))
theorem k0_idx14_inb : ∀ (v15 : IVec S16 32) (v138 : IVec S16 32) (k0_hw14 : k0_chk14 v15 v138), ∀ a x, ((![v138, v15] : Fin 2 → IVec S16 32) a x).toNat < S200x128.size a := fun v15 v138 k0_hw14 => k0_hw14
def k0_off45 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v140 : Index := Scalar.indexCast arg20
  let c80_114 : Index := 80#32
  ![v140.toNat, 80]
def k0_off46 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v142 : Index := Scalar.indexCast arg20
  let c96 : Index := 96#32
  ![v142.toNat, 96]

def k0_chk15 (v17 : IVec S16 32) (v143 : IVec S16 32) : Prop :=
  (∀ a x, ((![v143, v17] : Fin 2 → IVec S16 32) a x).toNat < S200x128.size a)
instance k0_chk15.dec : ∀ (v17 : IVec S16 32) (v143 : IVec S16 32), Decidable (k0_chk15 v17 v143) := fun v17 v143 => decidable_of_iff' _ (Iff.of_eq (k0_chk15.eq_1 v17 v143))
theorem k0_idx15_inb : ∀ (v17 : IVec S16 32) (v143 : IVec S16 32) (k0_hw15 : k0_chk15 v17 v143), ∀ a x, ((![v143, v17] : Fin 2 → IVec S16 32) a x).toNat < S200x128.size a := fun v17 v143 k0_hw15 => k0_hw15
def k0_off47 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v145 : Index := Scalar.indexCast arg20
  let c96_115 : Index := 96#32
  ![v145.toNat, 96]
def k0_off48 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v147 : Index := Scalar.indexCast arg20
  let c112 : Index := 112#32
  ![v147.toNat, 112]

def k0_chk16 (v19 : IVec S16 32) (v148 : IVec S16 32) : Prop :=
  (∀ a x, ((![v148, v19] : Fin 2 → IVec S16 32) a x).toNat < S200x128.size a)
instance k0_chk16.dec : ∀ (v19 : IVec S16 32) (v148 : IVec S16 32), Decidable (k0_chk16 v19 v148) := fun v19 v148 => decidable_of_iff' _ (Iff.of_eq (k0_chk16.eq_1 v19 v148))
theorem k0_idx16_inb : ∀ (v19 : IVec S16 32) (v148 : IVec S16 32) (k0_hw16 : k0_chk16 v19 v148), ∀ a x, ((![v148, v19] : Fin 2 → IVec S16 32) a x).toNat < S200x128.size a := fun v19 v148 k0_hw16 => k0_hw16
def k0_off49 (k0_t3 : Fin k0_t3_loop.trips) : Fin 2 → Nat :=
  let c0_i32_101 : BitVec 32 := 0#32
  let c1_i32_103 : BitVec 32 := 1#32
  let arg20 : BitVec 32 := Scf.iv c0_i32_101 c1_i32_103 k0_t3
  let v150 : Index := Scalar.indexCast arg20
  let c112_116 : Index := 112#32
  ![v150.toNat, 112]
def k0_off50 (i : grid0.Coords) (c2_i32_26 : BitVec 32) : Fin 3 → Nat :=
  let c0_i32_27 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_25 : BitVec 32 := 32#32
  let v37 : BitVec 32 := Scalar.addi v2 c32_i32_25
  let v38 : BitVec 32 := Scalar.subi v37 c2_i32_26
  let c0_i32_28 : BitVec 32 := 0#32
  ![0, v38.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x50x128_S50x1024x128_1_0_2 : S1024x50x128.Transposes [1, 0, 2] S50x1024x128
  iota_S16_d0_w32_scVector : S16.Iotas .scVector 32 [0]
  inb_S200x128_S96x128_0_0 : ∀ a, (![0, 0] : Fin 2 → Nat) a + S96x128.size a ≤ S200x128.size a
  squeezes_S1x96x128_S96x128 : S1x96x128.Squeezes S96x128
  inb_S200x128_S104x128_96_0 : ∀ a, (![96, 0] : Fin 2 → Nat) a + S104x128.size a ≤ S200x128.size a
  squeezes_S1x104x128_S104x128 : S1x104x128.Squeezes S104x128
  squeezes_S50x1x128_S50x128 : S50x1x128.Squeezes S50x128
  h_S1x16 : 0 < S1x16.numel
  shapeCasts_S1x16_S16 : S1x16.ShapeCasts S16
  h_S200x128 : 0 < S200x128.numel
  shapeCasts_S16_S1x16 : S16.ShapeCasts S1x16
  transposes_S50x1024x128_S1024x50x128_1_0_2 : S50x1024x128.Transposes [1, 0, 2] S1024x50x128
  hcc0_scratch6 : 0 + S_.numel ≤ 8
  hcc0_scratch7 : 1 + S_.numel ≤ 8
  hcc0_scratch8 : 2 + S_.numel ≤ 8
  hcc0_scratch9 : 3 + S_.numel ≤ 8
  hcc0_scratch10 : 4 + S_.numel ≤ 8
  hcc0_scratch11 : 5 + S_.numel ≤ 8
  hcc0_scratch12 : 6 + S_.numel ≤ 8
  hcc0_scratch13 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x96x128.size a ≤ S1024x200x128.size a
  k0_off2_inb : ∀ i : grid0.Coords, ∀ a, (k0_off2 i) a + S1x104x128.size a ≤ S1024x200x128.size a
  k0_off3_inb : ∀ i : grid0.Coords, ∀ a, (k0_off3 i) a + S50x1x128.size a ≤ S50x1024x128.size a
  k0_t1_ok : k0_t1_loop.OK
  k0_off4_inb : ∀ (i : grid0.Coords) (k0_t1 : Fin k0_t1_loop.trips), ∀ (k0_h1 : k0_cond1 k0_t1 = 1#1), ∀ a, (k0_off4 i k0_t1) a + S1x96x128.size a ≤ S1024x200x128.size a
  k0_off5_inb : ∀ (i : grid0.Coords) (k0_t1 : Fin k0_t1_loop.trips), ∀ (k0_h1 : k0_cond1 k0_t1 = 1#1), ∀ a, (k0_off5 i k0_t1) a + S1x104x128.size a ≤ S1024x200x128.size a
  k0_off6_inb : ∀ (i : grid0.Coords) (k0_t1 : Fin k0_t1_loop.trips), ∀ (k0_h1 : k0_cond1 k0_t1 = 1#1), ∀ a, (k0_off6 i k0_t1) a + S50x1x128.size a ≤ S50x1024x128.size a
  k0_off7_inb : ∀ (i : grid0.Coords) (k0_t1 : Fin k0_t1_loop.trips), ∀ (k0_h2 : k0_cond2 k0_t1 = 1#1), ∀ a, (k0_off7 i k0_t1) a + S50x1x128.size a ≤ S50x1024x128.size a
  k0_off8_inb : ∀ (i : grid0.Coords) (k0_t1 : Fin k0_t1_loop.trips), ∀ a, (k0_off8 i k0_t1) a + S1x96x128.size a ≤ S1024x200x128.size a
  k0_off9_inb : ∀ (i : grid0.Coords) (k0_t1 : Fin k0_t1_loop.trips), ∀ a, (k0_off9 i k0_t1) a + S1x104x128.size a ≤ S1024x200x128.size a
  k0_off10_inb : ∀ (i : grid0.Coords) (k0_t1 : Fin k0_t1_loop.trips), ∀ a, (k0_off10 i k0_t1) a + S50x1x128.size a ≤ S50x1024x128.size a
  k0_t2_ok : k0_t2_loop.OK
  k0_off11_inb : ∀ k0_t2 : Fin k0_t2_loop.trips, ∀ a, (k0_off11 k0_t2) a + S1x16.size a ≤ S50x128.size a
  k0_off12_inb : ∀ k0_t2 : Fin k0_t2_loop.trips, ∀ a, (k0_off12 k0_t2) a + S1x16.size a ≤ S50x128.size a
  k0_off13_inb : ∀ k0_t2 : Fin k0_t2_loop.trips, ∀ a, (k0_off13 k0_t2) a + S1x16.size a ≤ S50x128.size a
  k0_off14_inb : ∀ k0_t2 : Fin k0_t2_loop.trips, ∀ a, (k0_off14 k0_t2) a + S1x16.size a ≤ S50x128.size a
  k0_off15_inb : ∀ k0_t2 : Fin k0_t2_loop.trips, ∀ a, (k0_off15 k0_t2) a + S1x16.size a ≤ S50x128.size a
  k0_off16_inb : ∀ k0_t2 : Fin k0_t2_loop.trips, ∀ a, (k0_off16 k0_t2) a + S1x16.size a ≤ S50x128.size a
  k0_off17_inb : ∀ k0_t2 : Fin k0_t2_loop.trips, ∀ a, (k0_off17 k0_t2) a + S1x16.size a ≤ S50x128.size a
  k0_off18_inb : ∀ k0_t2 : Fin k0_t2_loop.trips, ∀ a, (k0_off18 k0_t2) a + S1x16.size a ≤ S50x128.size a
  k0_off19_inb : ∀ k0_t2 : Fin k0_t2_loop.trips, ∀ a, (k0_off19 k0_t2) a + S1x16.size a ≤ S50x128.size a
  k0_off20_inb : ∀ k0_t2 : Fin k0_t2_loop.trips, ∀ a, (k0_off20 k0_t2) a + S1x16.size a ≤ S50x128.size a
  k0_off21_inb : ∀ k0_t2 : Fin k0_t2_loop.trips, ∀ a, (k0_off21 k0_t2) a + S1x16.size a ≤ S50x128.size a
  k0_off22_inb : ∀ k0_t2 : Fin k0_t2_loop.trips, ∀ a, (k0_off22 k0_t2) a + S1x16.size a ≤ S50x128.size a
  k0_off23_inb : ∀ k0_t2 : Fin k0_t2_loop.trips, ∀ a, (k0_off23 k0_t2) a + S1x16.size a ≤ S50x128.size a
  k0_off24_inb : ∀ k0_t2 : Fin k0_t2_loop.trips, ∀ a, (k0_off24 k0_t2) a + S1x16.size a ≤ S50x128.size a
  k0_off25_inb : ∀ k0_t2 : Fin k0_t2_loop.trips, ∀ a, (k0_off25 k0_t2) a + S1x16.size a ≤ S50x128.size a
  k0_off26_inb : ∀ k0_t2 : Fin k0_t2_loop.trips, ∀ a, (k0_off26 k0_t2) a + S1x16.size a ≤ S50x128.size a
  k0_off27_inb : ∀ (i : grid0.Coords) (k0_t1 : Fin k0_t1_loop.trips), ∀ (r : Fin 2), ∀ a, (k0_off27 i k0_t1 (BitVec.ofNat 32 r.val)) a + S50x1x128.size a ≤ S50x1024x128.size a
  k0_off28_inb : ∀ (i : grid0.Coords) (k0_t1 : Fin k0_t1_loop.trips), ∀ (k0_h3 : k0_cond3 k0_t1 = 1#1), ∀ a, (k0_off28 i k0_t1) a + S1x96x128.size a ≤ S1024x200x128.size a
  k0_off29_inb : ∀ (i : grid0.Coords) (k0_t1 : Fin k0_t1_loop.trips), ∀ (k0_h3 : k0_cond3 k0_t1 = 1#1), ∀ a, (k0_off29 i k0_t1) a + S1x104x128.size a ≤ S1024x200x128.size a
  k0_off30_inb : ∀ (i : grid0.Coords) (k0_t1 : Fin k0_t1_loop.trips), ∀ (k0_h3 : k0_cond3 k0_t1 = 1#1), ∀ a, (k0_off30 i k0_t1) a + S50x1x128.size a ≤ S50x1024x128.size a
  k0_off31_inb : ∀ (i : grid0.Coords) (k0_t1 : Fin k0_t1_loop.trips), ∀ (k0_h4 : k0_cond4 k0_t1 = 1#1), ∀ a, (k0_off31 i k0_t1) a + S50x1x128.size a ≤ S50x1024x128.size a
  k0_off32_inb : ∀ (i : grid0.Coords) (k0_t1 : Fin k0_t1_loop.trips), ∀ a, (k0_off32 i k0_t1) a + S1x96x128.size a ≤ S1024x200x128.size a
  k0_off33_inb : ∀ (i : grid0.Coords) (k0_t1 : Fin k0_t1_loop.trips), ∀ a, (k0_off33 i k0_t1) a + S1x104x128.size a ≤ S1024x200x128.size a
  k0_t3_ok : k0_t3_loop.OK
  k0_off34_inb : ∀ k0_t3 : Fin k0_t3_loop.trips, ∀ a, (k0_off34 k0_t3) a + S1x16.size a ≤ S50x128.size a
  k0_off35_inb : ∀ k0_t3 : Fin k0_t3_loop.trips, ∀ a, (k0_off35 k0_t3) a + S1x16.size a ≤ S50x128.size a
  k0_off36_inb : ∀ k0_t3 : Fin k0_t3_loop.trips, ∀ a, (k0_off36 k0_t3) a + S1x16.size a ≤ S50x128.size a
  k0_off37_inb : ∀ k0_t3 : Fin k0_t3_loop.trips, ∀ a, (k0_off37 k0_t3) a + S1x16.size a ≤ S50x128.size a
  k0_off38_inb : ∀ k0_t3 : Fin k0_t3_loop.trips, ∀ a, (k0_off38 k0_t3) a + S1x16.size a ≤ S50x128.size a
  k0_off39_inb : ∀ k0_t3 : Fin k0_t3_loop.trips, ∀ a, (k0_off39 k0_t3) a + S1x16.size a ≤ S50x128.size a
  k0_off40_inb : ∀ k0_t3 : Fin k0_t3_loop.trips, ∀ a, (k0_off40 k0_t3) a + S1x16.size a ≤ S50x128.size a
  k0_off41_inb : ∀ k0_t3 : Fin k0_t3_loop.trips, ∀ a, (k0_off41 k0_t3) a + S1x16.size a ≤ S50x128.size a
  k0_off42_inb : ∀ k0_t3 : Fin k0_t3_loop.trips, ∀ a, (k0_off42 k0_t3) a + S1x16.size a ≤ S50x128.size a
  k0_off43_inb : ∀ k0_t3 : Fin k0_t3_loop.trips, ∀ a, (k0_off43 k0_t3) a + S1x16.size a ≤ S50x128.size a
  k0_off44_inb : ∀ k0_t3 : Fin k0_t3_loop.trips, ∀ a, (k0_off44 k0_t3) a + S1x16.size a ≤ S50x128.size a
  k0_off45_inb : ∀ k0_t3 : Fin k0_t3_loop.trips, ∀ a, (k0_off45 k0_t3) a + S1x16.size a ≤ S50x128.size a
  k0_off46_inb : ∀ k0_t3 : Fin k0_t3_loop.trips, ∀ a, (k0_off46 k0_t3) a + S1x16.size a ≤ S50x128.size a
  k0_off47_inb : ∀ k0_t3 : Fin k0_t3_loop.trips, ∀ a, (k0_off47 k0_t3) a + S1x16.size a ≤ S50x128.size a
  k0_off48_inb : ∀ k0_t3 : Fin k0_t3_loop.trips, ∀ a, (k0_off48 k0_t3) a + S1x16.size a ≤ S50x128.size a
  k0_off49_inb : ∀ k0_t3 : Fin k0_t3_loop.trips, ∀ a, (k0_off49 k0_t3) a + S1x16.size a ≤ S50x128.size a
  k0_off50_inb : ∀ i : grid0.Coords, ∀ (r : Fin 2), ∀ a, (k0_off50 i (BitVec.ofNat 32 (1 + r.val))) a + S50x1x128.size a ≤ S50x1024x128.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13

class Facts : Prop extends Facts₀ where

variable [Facts]
-- ==== ReferenceIdeal.lean ====
abbrev S1024x200x128 : Shape := ⟨3, ![1024, 200, 128]⟩
abbrev S1024x50x128 : Shape := ⟨3, ![1024, 50, 128]⟩
abbrev S_ : Shape := ⟨0, ![]⟩
abbrev S1024x50x128x1 : Shape := ⟨4, ![1024, 50, 128, 1]⟩
abbrev S1 : Shape := ⟨1, ![1]⟩
abbrev S1x1x1x1 : Shape := ⟨4, ![1, 1, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S1024x200x128, .f32⟩
  | .hbm, ⟨1, _⟩ => ⟨S1024x50x128, .i32⟩
  | .hbm, ⟨2, _⟩ => ⟨S_, .i32⟩
  | .hbm, ⟨3, _⟩ => ⟨S1024x50x128, .i32⟩
  | .hbm, ⟨4, _⟩ => ⟨S1024x50x128, .i1⟩
  | .hbm, ⟨5, _⟩ => ⟨S_, .i32⟩
  | .hbm, ⟨6, _⟩ => ⟨S1024x50x128, .i32⟩
  | .hbm, ⟨7, _⟩ => ⟨S1024x50x128, .i32⟩
  | .hbm, ⟨8, _⟩ => ⟨S1024x50x128, .i32⟩
  | .hbm, ⟨9, _⟩ => ⟨S1024x50x128x1, .i32⟩
  | .hbm, ⟨10, _⟩ => ⟨S1, .i32⟩
  | .hbm, ⟨11, _⟩ => ⟨S_, .i32⟩
  | .hbm, ⟨12, _⟩ => ⟨S1024x50x128x1, .i32⟩
  | .hbm, ⟨13, _⟩ => ⟨S1024x50x128x1, .i1⟩
  | .hbm, ⟨14, _⟩ => ⟨S1x1x1x1, .i32⟩
  | .hbm, ⟨15, _⟩ => ⟨S1024x50x128x1, .i32⟩
  | .hbm, ⟨16, _⟩ => ⟨S1024x50x128x1, .i1⟩
  | .hbm, ⟨17, _⟩ => ⟨S1024x50x128x1, .i1⟩
  | .hbm, ⟨18, _⟩ => ⟨S_, .i1⟩
  | .hbm, ⟨19, _⟩ => ⟨S1024x50x128, .i1⟩
  | .hbm, ⟨20, _⟩ => ⟨S1024x50x128, .f32⟩
  | .hbm, ⟨21, _⟩ => ⟨S_, .f32⟩
  | .hbm, ⟨22, _⟩ => ⟨S1024x50x128, .f32⟩
  | .hbm, ⟨23, _⟩ => ⟨S1024x50x128, .f32⟩
  | _, _ => ⟨S1024x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]

class Facts₀ : Prop where
  bcast_S_S1024x50x128 : S_.BroadcastsInDim S1024x50x128 (![] : Fin 0 → Fin S1024x50x128.rank)
  shapeCasts_S1024x50x128_S1024x50x128x1 : S1024x50x128.ShapeCasts S1024x50x128x1
  bcast_S_S1024x50x128x1 : S_.BroadcastsInDim S1024x50x128x1 (![] : Fin 0 → Fin S1024x50x128x1.rank)
  bcast_S1_S1x1x1x1_3 : S1.BroadcastsInDim S1x1x1x1 (![3] : Fin 1 → Fin S1x1x1x1.rank)
  bcast_S1x1x1x1_S1024x50x128x1_0_1_2_3 : S1x1x1x1.BroadcastsInDim S1024x50x128x1 (![0, 1, 2, 3] : Fin 4 → Fin S1024x50x128x1.rank)
  reducesTo_S1024x50x128x1_S1024x50x128_d3 : S1024x50x128x1.ReducesTo [3] S1024x50x128
  h_S_ : 0 < S_.numel
  gather_S1024x200x128_S1024x50x128x1_S1024x50x128_n_1_02_02_1_3_111_wf : GatherDims.WF S1024x200x128 S1024x50x128x1 S1024x50x128 [] [1] [0, 2] [1] [0, 2] 3 ![1, 1, 1]

variable [Facts₀]

def gather_S1024x200x128_S1024x50x128x1_S1024x50x128_n_1_02_02_1_3_111 : GatherDims S1024x200x128 S1024x50x128x1 S1024x50x128 where
  offsetDims := []
  collapsedSliceDims := [1]
  operandBatchingDims := [0, 2]
  startIndicesBatchingDims := [0, 2]
  startIndexMap := [1]
  indexVectorDim := 3
  sliceSizes := ![1, 1, 1]
  wf := gather_S1024x200x128_S1024x50x128x1_S1024x50x128_n_1_02_02_1_3_111_wf

class Facts : Prop extends Facts₀ where

variable [Facts]
-- ==== Proof.PreDecode.lean ====
/-
  The index range, read out of the precondition.

  The precondition is one bit: "every table entry is finite" and "every index word w satisfies 0 ≤ w ≤ 199 as a signed
  32-bit integer", each an and-reduction over a whole array, joined by one more and. From the bit being one we read the
  second half at a single position of the index array: there the two signed comparisons hold, and a word that is
  non-negative as a signed integer is its own unsigned value, so that value is at most 199.
-/
import proofs.«216842_g32469952758108_cont_8to1_b_497_34_alg».proof.Pre_input_domain
import proofs.«216842_g32469952758108_cont_8to1_b_497_34_alg».proof.Proof.Gen.Pre_input_domain
import Idealize.ShloMosaic.Lib.ReduceAll
import Idealize.ShloMosaic.Lib.ValueIdx

noncomputable section

namespace Cert.Proof.PreDecode

open Idealize.ShloMosaic Idealize.ShloMosaic.ValueIdx

/-- The result of a reduction over every axis has exactly one position. -/
instance subsingleton_scalar_idx : Subsingleton Cert.Pre_input_domain.S_.Idx := ⟨fun a b => funext fun d => d.elim0⟩

/-- A 32-bit word between 0 and 199 as a signed integer has an unsigned value below 200. -/
theorem toNat_lt_of_signed_range (w : BitVec 32)
    (h0 : IntOp.cmpi .sge w 0#32 = 1#1) (h1 : IntOp.cmpi .sle w 199#32 = 1#1) : w.toNat < 200 := by
  rw [IntOp.cmpi_sge] at h0
  rw [IntOp.cmpi_sle] at h1
  rw [show (0#32 : BitVec 32).toInt = 0 from by decide] at h0
  rw [show (199#32 : BitVec 32).toInt = 199 from by decide] at h1
  rw [BitVec.toInt_eq_toNat_cond] at h0 h1
  split at h0 <;> omega

/-- Under the precondition every index word is below 200 (as an unsigned value), whatever the float instance. -/
theorem idx_lt_of_pre {F : FTy → Type} [FloatOps F] (x : FVec F Cert.Pre_input_domain.S1024x200x128 .f32)
    (idx : IVec Cert.Pre_input_domain.S1024x50x128 32)
    (h : Cert.Pre_input_domain.fn (F := F) x idx = fun _ => 1#1) : ∀ j, (idx j).toNat < 200 := by
  intro j
  have e := congrFun h ix0
  dsimp only [Cert.Pre_input_domain.fn] at e
  have e2 := (IntOp.andi_eq_one.1 e).2
  have e3 := Host.reduce_andi_all _ _ _ _ _ e2 j
  obtain ⟨h0, h1⟩ := IntOp.andi_eq_one.1 e3
  exact toNat_lt_of_signed_range (idx j) h0 h1

end Cert.Proof.PreDecode

end
-- ==== Proof.Spec.lean ====
/-
  The function both programs compute, stated once over index tuples and independently of either program.

  The result at batch `b`, index row `i`, lane `c` is the table entry `x[b, idx[b, i, c], c]`: row `idx[b, i, c]`
  of batch `b`'s table, read in lane `c`. One program computes it directly in the batch-major layout
  `[1024, 50, 128]`; the other carries the index array to the layout `[50, 1024, 128]` (index row first), gathers
  there, and carries the result back. A transpose only renames positions, so the two agree entry by entry.
-/
import Idealize.ShloMosaic.PureOps
import Idealize.ShloMosaic.Lib.ValueIdx
import Idealize.ShloMosaic.Lib.Pipeline.Value

noncomputable section

namespace Cert.Spec

open Idealize.ShloMosaic Idealize.ShloMosaic.ValueIdx

/-- The tables: 1024 batches of 200 rows of 128 lanes. -/
abbrev SX : Shape := ⟨3, ![1024, 200, 128]⟩
/-- The index array and the result, batch-major: 1024 batches of 50 index rows of 128 lanes. -/
abbrev SB : Shape := ⟨3, ![1024, 50, 128]⟩
/-- The same entries with the index row first: 50 index rows of 1024 batches of 128 lanes. -/
abbrev ST : Shape := ⟨3, ![50, 1024, 128]⟩

/-- The row of a table an index word names: the word's value, reduced below the number of rows, so that a word
    below 200 names the row of its own value. -/
def rowOf (w : BitVec 32) : Fin 200 := ⟨w.toNat % 200, Nat.mod_lt _ (by decide)⟩

theorem rowOf_val_of_lt {w : BitVec 32} (h : w.toNat < 200) : (rowOf w).val = w.toNat := Nat.mod_eq_of_lt h

variable {α : Type}

/-- The gather in the batch-major layout: entry `(b, i, c)` is `x[b, idx[b, i, c], c]`. -/
def gatherB (x : SX.Idx → α) (idx : SB.Idx → BitVec 32) : SB.Idx → α :=
  fun j => x (ix3 (j 0) (rowOf (idx j)) (j 2))

/-- The gather with the index row first: entry `(i, b, c)` is `x[b, it[i, b, c], c]`. -/
def gatherT (x : SX.Idx → α) (it : ST.Idx → BitVec 32) : ST.Idx → α :=
  fun j => x (ix3 (j 1) (rowOf (it j)) (j 2))

/-- Exchanging the first two axes of the index array, gathering with the index row first, and exchanging the axes of
    the result back is the batch-major gather: at `(b, i, c)` both read `x[b, idx[b, i, c], c]`. -/
theorem transpose_gatherT (x : SX.Idx → α) (idx : SB.Idx → BitVec 32)
    (h1 : SB.Transposes [1, 0, 2] ST) (h2 : ST.Transposes [1, 0, 2] SB) :
    transpose SB [1, 0, 2] (gatherT x (transpose ST [1, 0, 2] idx h1)) h2 = gatherB x idx := by
  funext j
  have hj : j = ix3 (j 0) (j 1) (j 2) := eq_ix3 j
  rw [transpose_apply [1, 0, 2] _ h2 j (ix3 (j 1) (j 0) (j 2))
    (fun b => by match b with | ⟨0, _⟩ => rfl | ⟨1, _⟩ => rfl | ⟨2, _⟩ => rfl)]
  unfold gatherT gatherB
  rw [transpose_apply [1, 0, 2] idx h1 (ix3 (j 1) (j 0) (j 2)) j
    (fun b => by match b with | ⟨0, _⟩ => rfl | ⟨1, _⟩ => rfl | ⟨2, _⟩ => rfl)]

end Cert.Spec

end
-- ==== Proof.RefTerm.lean ====
/-
  The reference's result as one term of its two arguments, cut into its stages.

  `jnp.take_along_axis(x, idx, axis=1)` lowers to: wrap negative indices around (add the number of rows, 200, to an
  entry that is negative as a signed integer); give each wrapped index a trailing axis of extent one, so that it is a
  one-component start index; gather, clamping the start index into the table; and finally keep the gathered entry only
  where the start index was inside the table, putting a fixed filler word elsewhere.
-/
import proofs.«216842_g32469952758108_cont_8to1_b_497_34_alg».proof.ReferenceIdeal
import proofs.«216842_g32469952758108_cont_8to1_b_497_34_alg».proof.Proof.Gen.ReferenceIdeal

noncomputable section

namespace Cert.Proof.RefTerm

open Cert.ReferenceIdeal Cert.ReferenceIdeal.Gen Idealize.ShloMosaic

/-- The index array with negative entries wrapped around: an entry that is negative as a signed integer is raised by
    the number of rows, 200; every other entry is kept. -/
def wrapIdx (idx : IVec S1024x50x128 32) : IVec S1024x50x128 32 :=
  select (cmpi .slt idx (broadcastInDim S1024x50x128 ![] bcast_S_S1024x50x128 (constantI S_ 32 0#32)))
    (addi idx (broadcastInDim S1024x50x128 ![] bcast_S_S1024x50x128 (constantI S_ 32 200#32))) idx

/-- The wrapped indices as one-component start indices: the same entries in the shape `[1024, 50, 128, 1]`. -/
def startIdx (idx : IVec S1024x50x128 32) : IVec S1024x50x128x1 32 :=
  shapeCast S1024x50x128x1 (wrapIdx idx) shapeCasts_S1024x50x128_S1024x50x128x1

/-- Which result positions have their start index inside the table: the bit "0 ≤ start ≤ 199", and-reduced over the
    one component of the start index. -/
def inRange (idx : IVec S1024x50x128 32) : IVec S1024x50x128 1 :=
  Host.reduce IntOp.andi
    (andi (cmpi .sge (startIdx idx) (broadcastInDim S1024x50x128x1 ![] bcast_S_S1024x50x128x1 (constantI S_ 32 0#32)))
      (cmpi .sle (startIdx idx) (broadcastInDim S1024x50x128x1 ![0, 1, 2, 3] bcast_S1x1x1x1_S1024x50x128x1_0_1_2_3
        (broadcastInDim S1x1x1x1 ![3] bcast_S1_S1x1x1x1_3 (constantI S1 32 199#32)))))
    (constantI S_ 1 1#1) reducesTo_S1024x50x128x1_S1024x50x128_d3 h_S_

/-- What the reference computes from the table `x` and the index array `idx`: the gathered entry where the start
    index is inside the table, and a fixed filler word elsewhere. -/
def refTerm {F : FTy → Type} [FloatOps F] (x : FVec F S1024x200x128 .f32) (idx : IVec S1024x50x128 32) :
    FVec F S1024x50x128 .f32 :=
  select (inRange idx)
    (Host.gather gather_S1024x200x128_S1024x50x128x1_S1024x50x128_n_1_02_02_1_3_111 x (startIdx idx))
    (broadcastInDim S1024x50x128 ![] bcast_S_S1024x50x128 (constant S_ .f32 0x7FC00000#32))

end Cert.Proof.RefTerm

end
-- ==== Proof.RefRun.lean ====
/-
  The reference's run, read back.

  The reference has no kernel: its entry point is a straight line of 22 array operations, each writing one buffer of its
  own from the whole contents of its operand buffers. Run from any memory, every weakly fair execution terminates, the
  two argument arrays are never written, and the result buffer ends at the operations' composed term of the two
  arguments, which is the staged term of the sibling module.
-/
import proofs.«216842_g32469952758108_cont_8to1_b_497_34_alg».proof.Proof.RefTerm
import Idealize.ShloMosaic.Lib.StableHlo.Run

noncomputable section

namespace Cert.Proof.RefRun

open Cert.ReferenceIdeal Cert.ReferenceIdeal.Gen Idealize.ShloMosaic Idealize.ShloMosaic.TcCoe Idealize.SL.Sem
  Idealize.ShloMosaic.StableHlo Cert.Proof.RefTerm

variable {F : FTy → Type} [FloatOps F]

/-- The entry point's 22 operations, in order, each at its own result buffer: the wrap-around of negative indices
    (a comparison with zero, the sum with 200, the select), the trailing unit axis, the range test of the start
    indices (two comparisons, their and, the and-reduction over the unit axis), the gather, and the final select
    between the gathered entries and the filler. -/
abbrev ops : List (HloOp τ sig (Elt F)) :=
  [ nullary main_call0_c (constantI S_ 32 0#32),
    unary main_call0_c main_call0_v0 (broadcastInDim S1024x50x128 ![] bcast_S_S1024x50x128),
    binary main_arg1 main_call0_v0 main_call0_v1 (cmpi .slt),
    nullary main_call0_c_0 (constantI S_ 32 200#32),
    unary main_call0_c_0 main_call0_v2 (broadcastInDim S1024x50x128 ![] bcast_S_S1024x50x128),
    binary main_arg1 main_call0_v2 main_call0_v3 addi,
    ternary main_call0_v1 main_call0_v3 main_arg1 main_call0_v4 select,
    reshape main_call0_v4 main_call0_v5 rfl shapeCasts_S1024x50x128_S1024x50x128x1,
    nullary main_call0_c_1 (constantI S1 32 199#32),
    nullary main_call0_c_2 (constantI S_ 32 0#32),
    unary main_call0_c_2 main_call0_v6 (broadcastInDim S1024x50x128x1 ![] bcast_S_S1024x50x128x1),
    binary main_call0_v5 main_call0_v6 main_call0_v7 (cmpi .sge),
    unary main_call0_c_1 main_call0_v8 (broadcastInDim S1x1x1x1 ![3] bcast_S1_S1x1x1x1_3),
    unary main_call0_v8 main_call0_v9 (broadcastInDim S1024x50x128x1 ![0, 1, 2, 3] bcast_S1x1x1x1_S1024x50x128x1_0_1_2_3),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S1024x50x128x1_S1024x50x128_d3 h_S_),
    binary main_arg0 main_call0_v5 main_call0_v13 (fun x i => Host.gather gather_S1024x200x128_S1024x50x128x1_S1024x50x128_n_1_02_02_1_3_111 x i),
    nullary main_call0_cst (constant S_ .f32 0x7FC00000#32),
    unary main_call0_cst main_call0_v14 (broadcastInDim S1024x50x128 ![] bcast_S_S1024x50x128),
    ternary main_call0_v12 main_call0_v13 main_call0_v14 main_v0 select ]

-- the two folds over whole arrays stay folded while the two spellings of each operation are compared
attribute [local irreducible] Host.reduce Host.gather in
/-- The entry point is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

-- the two folds over whole arrays stay folded: the equation never looks inside them
attribute [local irreducible] Host.reduce Host.gather in
set_option maxHeartbeats 2000000 in
/-- After the 22 operations the result buffer holds the staged term of the two argument buffers' contents. -/
theorem after_v0 (V : Valuation τ sig (Elt F)) :
    after (ops (F := F)) V (Proc.devRef .tc main_v0)
      = refTerm (F := F) (V (Proc.devRef .tc main_arg0)) (V (Proc.devRef .tc main_arg1)) := by
  after_results
  rfl

/-- No operation writes the table. -/
theorem after_arg0 (V : Valuation τ sig (Elt F)) :
    after (ops (F := F)) V (Proc.devRef .tc main_arg0) = V (Proc.devRef .tc main_arg0) := by
  after_results <;> rfl

/-- No operation writes the index array. -/
theorem after_arg1 (V : Valuation τ sig (Elt F)) :
    after (ops (F := F)) V (Proc.devRef .tc main_arg1) = V (Proc.devRef .tc main_arg1) := by
  after_results <;> rfl

/-- On every device, for any float values, from any memory with zero counters: every weakly fair execution of the
    entry point terminates, the result buffer at the staged term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
        = refTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (after_v0 (launchContents m c)),
      (h c main_arg0).trans (after_arg0 (launchContents m c)),
      (h c main_arg1).trans (after_arg1 (launchContents m c))⟩)
    (run_seq scopedRefs_eq scopedSems_eq defs main (fun _ => ops) main_eq (fun _ => ops_sub) m ρ)

end Cert.Proof.RefRun

end
-- ==== Proof.RefValue.lean ====
/-
  Under the index range the reference's term is the gather of the specification.

  Every index word is below 200 as an unsigned value. Then it is non-negative as a signed integer, so the wrap-around
  keeps it; its start index lies inside the table, so the in-range bit is one at every position and the clamp does
  nothing; and the gather at `(b, i, l)` reads batch `b`, lane `l` and the row named by the start index at
  `[b, i, l, 0]`, which is the index word at `(b, i, l)`. So the result at `(b, i, l)` is `x[b, idx[b, i, l], l]`.
-/
import proofs.«216842_g32469952758108_cont_8to1_b_497_34_alg».proof.Proof.RefTerm
import proofs.«216842_g32469952758108_cont_8to1_b_497_34_alg».proof.Proof.Spec
import Idealize.ShloMosaic.Lib.ReduceAll
import Idealize.ShloMosaic.Lib.ValueIdx
import Idealize.ShloMosaic.Lib.Pipeline.Value

noncomputable section

namespace Cert.Proof.RefValue

open Idealize.ShloMosaic Idealize.ShloMosaic.ValueIdx Cert.ReferenceIdeal Cert.ReferenceIdeal.Gen Cert.Proof.RefTerm

/-! ## The gather read at a position -/

/-- The dimension numbers of the reference's gather: batch axes 0 and 2 shared by the table and the index array, the
    row axis 1 collapsed and named by the one-component start index. -/
abbrev gd : GatherDims S1024x200x128 S1024x50x128x1 S1024x50x128 :=
  gather_S1024x200x128_S1024x50x128x1_S1024x50x128_n_1_02_02_1_3_111

/-- The position `[b, i, l, 0]` of the start-index array that result position `(b, i, l)` reads. -/
abbrev startPos (y : S1024x50x128.Idx) : S1024x50x128x1.Idx := ix4 (y 0) (y 1) (y 2) (0 : Fin 1)

/-- The three axes of the table. -/
abbrev ax0 : Fin S1024x200x128.rank := ⟨0, by decide⟩
abbrev ax1 : Fin S1024x200x128.rank := ⟨1, by decide⟩
abbrev ax2 : Fin S1024x200x128.rank := ⟨2, by decide⟩

/-- On the batch axis 0 the gather reads the result position's own batch. -/
theorem operand_ax0 (idx : IVec S1024x50x128x1 32) (y : S1024x50x128.Idx) :
    (gd.operandIdx y idx ax0).val = (y 0).val := by
  show gd.start y idx ax0 + gd.batchCoord y ax0 + gd.offCoord y ax0 = _
  rw [GatherDims.start_batching _ _ _ _ (by decide),
    GatherDims.offCoord_eq_zero _ _ _ (fun h => ((GatherDims.mem_sKept _ _).mp h).2 (by decide)),
    Nat.zero_add, Nat.add_zero]
  rfl

/-- On the lane axis 2 the gather reads the result position's own lane. -/
theorem operand_ax2 (idx : IVec S1024x50x128x1 32) (y : S1024x50x128.Idx) :
    (gd.operandIdx y idx ax2).val = (y 2).val := by
  show gd.start y idx ax2 + gd.batchCoord y ax2 + gd.offCoord y ax2 = _
  rw [GatherDims.start_batching _ _ _ _ (by decide),
    GatherDims.offCoord_eq_zero _ _ _ (fun h => ((GatherDims.mem_sKept _ _).mp h).2 (by decide)),
    Nat.zero_add, Nat.add_zero]
  rfl

/-- On the row axis 1 the gather reads the row named by the start index, read signed and clamped into `[0, 199]`. -/
theorem operand_ax1 (idx : IVec S1024x50x128x1 32) (y : S1024x50x128.Idx) :
    (gd.operandIdx y idx ax1).val = min (idx (startPos y)).toInt.toNat 199 := by
  show gd.start y idx ax1 + gd.batchCoord y ax1 + gd.offCoord y ax1 = _
  rw [GatherDims.batchCoord_eq_zero _ _ _ (by decide),
    GatherDims.offCoord_eq_zero _ _ _ (fun h => ((GatherDims.mem_sKept _ _).mp h).1 (by decide)),
    Nat.add_zero]
  unfold GatherDims.start
  rw [dif_pos (show ax1 ∈ gd.startIndexMap from by decide)]
  have hsi : gd.siIdx y ⟨List.idxOf ax1 gd.startIndexMap, List.idxOf_lt_length_iff.2 (by decide)⟩ = startPos y := by
    funext b; refine Fin.ext ?_
    match b with
    | ⟨0, _⟩ => rfl
    | ⟨1, _⟩ => rfl
    | ⟨2, _⟩ => rfl
    | ⟨3, _⟩ => rfl
  rw [hsi]
  rfl

/-- The reference's gather read at `(b, i, l)`: the table entry of batch `b` and lane `l` in the row named by the start
    index at `[b, i, l, 0]`, read as a signed integer and clamped into `[0, 199]`. -/
theorem gather_apply {α : Type} (x : S1024x200x128.Idx → α) (idx : IVec S1024x50x128x1 32) (y : S1024x50x128.Idx) :
    Host.gather gather_S1024x200x128_S1024x50x128x1_S1024x50x128_n_1_02_02_1_3_111 x idx y
      = x (ix3 (y 0) (⟨min (idx (startPos y)).toInt.toNat 199, by omega⟩ : Fin 200) (y 2) : S1024x200x128.Idx) := by
  unfold Host.gather
  congr 1
  funext a
  refine Fin.ext ?_
  match a with
  | ⟨0, _⟩ => exact operand_ax0 idx y
  | ⟨1, _⟩ => exact operand_ax1 idx y
  | ⟨2, _⟩ => exact operand_ax2 idx y

/-! ## Words in range -/

/-- A word below 200 is not negative as a signed integer. -/
theorem slt_zero_of_lt (v : BitVec 32) (hv : v.toNat < 200) : IntOp.cmpi .slt v 0#32 = 0#1 := by
  refine eq_zero_of_ne_one fun h => ?_
  rw [IntOp.cmpi_slt, show (0#32 : BitVec 32).toInt = 0 from by decide, BitVec.toInt_eq_toNat_cond] at h
  split at h <;> omega

/-- A word below 200 passes the range test `0 ≤ v ≤ 199` on signed integers. -/
theorem range_bit_of_lt (v : BitVec 32) (hv : v.toNat < 200) :
    IntOp.andi (IntOp.cmpi .sge v 0#32) (IntOp.cmpi .sle v 199#32) = 1#1 := by
  have hi : v.toInt = (v.toNat : Int) := by rw [BitVec.toInt_eq_toNat_cond]; split <;> omega
  rw [IntOp.andi_eq_one, IntOp.cmpi_sge, IntOp.cmpi_sle, show (0#32 : BitVec 32).toInt = 0 from by decide,
    show (199#32 : BitVec 32).toInt = 199 from by decide, hi]
  omega

/-- A word below 200, read signed and clamped into `[0, 199]`, is its own value. -/
theorem clamp_of_lt (v : BitVec 32) (hv : v.toNat < 200) : min v.toInt.toNat 199 = v.toNat := by
  have hi : v.toInt = (v.toNat : Int) := by rw [BitVec.toInt_eq_toNat_cond]; split <;> omega
  rw [hi]; omega

/-- An and-fold of ones from one is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## The stages under the index range -/

variable (idx : IVec S1024x50x128 32) (hidx : ∀ j, (idx j).toNat < 200)
include hidx

/-- No index is negative, so the wrap-around keeps every index. -/
theorem wrapIdx_eq : wrapIdx idx = idx := by
  funext i
  show Scalar.select (IntOp.cmpi .slt (idx i) 0#32) (IntOp.addi (idx i) 200#32) (idx i) = idx i
  rw [slt_zero_of_lt _ (hidx i), select_zero]

omit hidx in
/-- The start index at `[b, i, l, 0]` is the wrapped index at `(b, i, l)`. -/
theorem startIdx_startPos (y : S1024x50x128.Idx) : startIdx idx (startPos y) = wrapIdx idx y := by
  unfold startIdx
  refine shapeCast_apply (wrapIdx idx) shapeCasts_S1024x50x128_S1024x50x128x1 (startPos y) y ?_
  rw [Shape.rowMajor_val_three, Shape.rowMajor_val_four]
  show ((y 0).val * 50 + (y 1).val) * 128 + (y 2).val = (((y 0).val * 50 + (y 1).val) * 128 + (y 2).val) * 1 + 0
  omega

/-- Every start index is one of the index words, hence below 200. -/
theorem startIdx_lt (k : S1024x50x128x1.Idx) : (startIdx idx k).toNat < 200 := by
  unfold startIdx shapeCast
  rw [wrapIdx_eq idx hidx]
  exact hidx _

/-- Every start index is inside the table: the in-range bit is one at every position. -/
theorem inRange_eq_one (j : S1024x50x128.Idx) : inRange idx j = 1#1 := by
  unfold inRange
  rw [Host.reduce_eq_foldl]
  refine foldl_andi_one _ (fun k => ?_) _
  show IntOp.andi (IntOp.cmpi .sge (startIdx idx k) 0#32) (IntOp.cmpi .sle (startIdx idx k) 199#32) = 1#1
  exact range_bit_of_lt _ (startIdx_lt idx hidx k)

/-- THE REFERENCE IS THE GATHER: with every index word below 200, the reference's term at `(b, i, l)` is
    `x[b, idx[b, i, l], l]`. -/
theorem refTerm_eq_gatherB {F : FTy → Type} [FloatOps F] (x : FVec F S1024x200x128 .f32) :
    refTerm x idx = Cert.Spec.gatherB x idx := by
  funext j
  have hs : startIdx idx (startPos j) = idx j := by rw [startIdx_startPos, wrapIdx_eq idx hidx]
  unfold refTerm
  rw [select_apply, inRange_eq_one idx hidx j, select_one, gather_apply]
  unfold Cert.Spec.gatherB
  refine congrArg x ?_
  funext a
  refine Fin.ext ?_
  match a with
  | ⟨0, _⟩ => rfl
  | ⟨1, _⟩ =>
    show min (startIdx idx (startPos j)).toInt.toNat 199 = (Cert.Spec.rowOf (idx j)).val
    rw [hs, Cert.Spec.rowOf_val_of_lt (hidx j)]
    exact clamp_of_lt _ (hidx j)
  | ⟨2, _⟩ => rfl

end Cert.Proof.RefValue

end
-- ==== Proof.RefSide.lean ====
/-
  The reference side of the certificate.

  The reference runs to the end from any memory, leaves its two arguments unchanged, and, when every index word lies
  in `[0, 199]` as the precondition says, its result is the batch-major gather of the specification:
  `result[b, i, l] = input[b, index[b, i, l], l]`.
-/
import proofs.«216842_g32469952758108_cont_8to1_b_497_34_alg».proof.Defs
import proofs.«216842_g32469952758108_cont_8to1_b_497_34_alg».proof.Proof.Spec
import proofs.«216842_g32469952758108_cont_8to1_b_497_34_alg».proof.Proof.PreDecode
import proofs.«216842_g32469952758108_cont_8to1_b_497_34_alg».proof.Proof.RefRun
import proofs.«216842_g32469952758108_cont_8to1_b_497_34_alg».proof.Proof.RefValue

noncomputable section

namespace Cert.Proof.RefSide

open Idealize.ShloMosaic Idealize.SL.Sem

/-- The reference terminates without a fault and its argument arrays end unchanged: its run with the result dropped. -/
theorem frame_ref : Cert.frame_ReferenceIdeal (hReferenceIdeal := Cert.ReferenceIdeal.Gen.facts)
    (hPre_input_domain := Cert.Pre_input_domain.Gen.facts) := fun m ρ _ =>
  (θ_run Cert.ReferenceIdeal.defs _ _).mono (fun _ h c => (h c).2) (Cert.Proof.RefRun.run (F := Ideal) m ρ)

/-- Under the precondition the reference ends with the gather of the specification in its result buffer and its
    arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg)
    (hpre : Cert.Pre_ReferenceIdeal (hPre_input_domain := Cert.Pre_input_domain.Gen.facts) m') :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v0)
          = Cert.Spec.gatherB
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run Cert.ReferenceIdeal.defs _ _).mono
    (fun _ h c => ⟨(h c).1.trans
        (Cert.Proof.RefValue.refTerm_eq_gatherB _ (Cert.Proof.PreDecode.idx_lt_of_pre _ _ (hpre c)) _), (h c).2⟩)
    (Cert.Proof.RefRun.run (F := Ideal) m' g')

/-- The reference, run from a memory that agrees with the kernel's on the two arguments, under the kernel's
    precondition: its result is the gather of the kernel's arguments. -/
theorem ref_run_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v0)
          = Cert.Spec.gatherB
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) := by
  have hpre' : Cert.Pre_ReferenceIdeal (hPre_input_domain := Cert.Pre_input_domain.Gen.facts) m' := by
    intro c
    rw [(hagree c).1, (hagree c).2]
    exact hpre c
  refine (θ_run Cert.ReferenceIdeal.defs _ _).mono (fun _ h c => ⟨?_, (h c).2⟩) (ref_run m' g' hpre')
  rw [(h c).1, (hagree c).1, (hagree c).2]

end Cert.Proof.RefSide

end
-- ==== Proof.OnKernel.Common.lean ====
/-
  What the two halves of the proof about this program share: how the launch sees the program, the arrays and what
  they are expected to hold, and what travels with each handshake of the launch.

  The program moves data only. On the host the index array `idx : [1024, 50, 128]` is carried to the layout
  `[50, 1024, 128]` (index row first); thirty-two vector subcores then each take thirty-two consecutive batches —
  subcore `s` of core `c` the batches `64 s + 32 c + k`, `k < 32` — and for each batch `b` bring the table `x[b]`
  (200 rows of 128 lanes) and the index rows `it[:, b, :]` into their own memory, read lane `l` of row `it[i, b, l]`
  of the table for every index row `i` and lane `l`, and write the 50 rows so obtained to `ot[:, b, :]`; the host
  carries `ot` back to the batch-major layout. So `ot[i, b, l] = x[b, it[i, b, l], l]` (`Spec.gatherT`) and the
  result is `Spec.gatherB x idx`.

  The tables and the index array are only read: every subcore holds a share of each, whole. The result array is
  written: it is cut into its 1024 columns `ot[:, b, :]`, each owned outright by the one subcore that writes it.
-/
import proofs.«216842_g32469952758108_cont_8to1_b_497_34_alg».proof.Kernel
import proofs.«216842_g32469952758108_cont_8to1_b_497_34_alg».proof.Proof.Gen.Kernel
import proofs.«216842_g32469952758108_cont_8to1_b_497_34_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the counters of the subcores' own copies -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and what they hold -/

variable (m : (ℓ : Loc nD τ sig) → Buf (Elt F) ℓ) (ρ : Dev nD → PrngReg)

/-- The tables `x` and the index array `idx` (the arguments); `it`, the index array with the index row first; `ot`, the
    result with the index row first; `res`, the result. -/
abbrev xLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- What `it` holds once the host has exchanged the index array's first two axes. -/
def itOf (d : Dev nD) : Buf (Elt F) (tLoc d) :=
  transpose S50x1024x128 [1, 0, 2] (m (iLoc d)) transposes_S1024x50x128_S50x1024x128_1_0_2
/-- What the subcores leave in `ot`: entry `(i, b, l)` is `x[b, it[i, b, l], l]`. -/
def otOf (d : Dev nD) : Buf (Elt F) (oLoc d) := Cert.Spec.gatherT (m (xLoc d)) (itOf m d)
/-- What the program returns: entry `(b, i, l)` is `x[b, idx[b, i, l], l]`. -/
def resOf (d : Dev nD) : Buf (Elt F) (rLoc d) := Cert.Spec.gatherB (m (xLoc d)) (m (iLoc d))

/-- Every index word names a row of its table. -/
def PreOK : Prop := ∀ (d : Dev nD) (j : S1024x50x128.Idx), (m (iLoc d) j).toNat < 200

/-! ## Shares of the arrays that are only read, columns of the one that is written -/

/-- Core `c`'s share of an array every subcore reads, and subcore `s`'s share of that. -/
def coreShare (c : ℕ) : PosShare TreeShare := Transfers.shareTokN fullShare c
def tileShare (c s : ℕ) : PosShare TreeShare := Transfers.shareTokN (coreShare c) s

theorem hdivB : 1024 ∣ S50x1024x128.size 1 := ⟨1, rfl⟩
/-- Column `b` of `ot`: the entries `ot[:, b, :]` (empty for a number that is no batch). -/
def colSet (b : ℕ) : Finset S50x1024x128.Idx :=
  if h : b < 1024 then (Rect.part (s := S50x1024x128) (a₀ := 1) hdivB ⟨b, h⟩).set else ∅
/-- The `k`-th batch of subcore `s` of core `c`. -/
def batchOf (c s k : ℕ) : ℕ := 64 * s + 32 * c + k

variable [FloatOps F]

abbrev xPts (d : Dev nD) (q : PosShare TreeShare) : sProp 𝕄 := xLoc d ↦{q} m (xLoc d)
abbrev tPts (d : Dev nD) (q : PosShare TreeShare) : sProp 𝕄 := tLoc d ↦{q} itOf m d
abbrev oCol (d : Dev nD) (b : ℕ) (f : Buf (Elt F) (oLoc d)) : sProp 𝕄 := oLoc d ↦[colSet b]{fullShare} f

/-- What the handshakes carry. To core `c`: its share of `x` and of `it`, and the 512 columns of `ot` its subcores
    write, at whatever they hold; back: the same with every column at its expected contents. To subcore `s` of core
    `c`: its share of `x` and of `it` and its 32 columns; back: the same, the columns written. -/
def P : (K (F := F)).Pay (nD := nD) (Val := Elt F) (Name := ℕ) (U := UU) where
  st := fun _ d c => iprop(xPts m d (coreShare c.val) ∗ tPts m d (coreShare c.val)
    ∗ bigSep Finset.univ fun s : Fin 16 => bigSep Finset.univ fun k : Fin 32 => iprop(∃ f, oCol d (batchOf c.val s.val k.val) f))
  dn := fun _ d c => iprop(xPts m d (coreShare c.val) ∗ tPts m d (coreShare c.val)
    ∗ bigSep Finset.univ fun s : Fin 16 => bigSep Finset.univ fun k : Fin 32 => oCol d (batchOf c.val s.val k.val) (otOf m d))
  go := fun _ d c s => iprop(xPts m d (tileShare c.val s.val) ∗ tPts m d (tileShare c.val s.val)
    ∗ bigSep Finset.univ fun k : Fin 32 => iprop(∃ f, oCol d (batchOf c.val s.val k.val) f))
  td := fun _ d c s => iprop(xPts m d (tileShare c.val s.val) ∗ tPts m d (tileShare c.val s.val)
    ∗ bigSep Finset.univ fun k : Fin 32 => oCol d (batchOf c.val s.val k.val) (otOf m d))
  x := fun _ _ => iprop(emp)

instance P_storable : (P (F := F) m).IsStorable where
  st _ d c := by unfold P; infer_instance
  dn _ d c := by unfold P; infer_instance
  go _ d c s := by unfold P; infer_instance
  td _ d c s := by unfold P; infer_instance

end Cert.Proof.OnKernel

end
-- ==== Proof.OnKernel.Launch.lean ====
/-
  The launch of the program: what the launch theorem asks beside the subcores' body.

  The tables `x` and the index array with the index row first, `it`, are only read. Each goes out as read shares:
  the TensorCore halves its full share once per core and keeps the remainder, and a core does the same with its share
  once per subcore. The result array `ot` is written: held whole, it is the separating conjunction of its 1024 columns
  `ot[:, b, :]`, and the columns are regrouped by core, subcore and batch number, column `64 s + 32 c + k` going to
  subcore `s` of core `c` as its `k`-th. Everything comes back the same way. On the host, the first transpose makes
  `it` out of `idx`, and the second makes the result out of `ot`; that the result is the batch-major gather is
  `Spec.transpose_gatherT`.
-/
import proofs.«216842_g32469952758108_cont_8to1_b_497_34_alg».proof.Proof.OnKernel.Common

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry, as equations -/

theorem P_st (d : Dev nD) (c : Fin ((K (F := F)).nCore 0)) : (P m).st 0 d c = iprop(xPts m d (coreShare c.val) ∗ tPts m d (coreShare c.val)
    ∗ bigSep Finset.univ fun s : Fin 16 => bigSep Finset.univ fun k : Fin 32 => iprop(∃ f, oCol d (batchOf c.val s.val k.val) f)) := rfl
theorem P_dn (d : Dev nD) (c : Fin ((K (F := F)).nCore 0)) : (P m).dn 0 d c = iprop(xPts m d (coreShare c.val) ∗ tPts m d (coreShare c.val)
    ∗ bigSep Finset.univ fun s : Fin 16 => bigSep Finset.univ fun k : Fin 32 => oCol d (batchOf c.val s.val k.val) (otOf m d)) := rfl
theorem P_go (d : Dev nD) (c : Fin ((K (F := F)).nCore 0)) (s : Fin ((K (F := F)).nSub 0)) : (P m).go 0 d c s = iprop(xPts m d (tileShare c.val s.val) ∗ tPts m d (tileShare c.val s.val)
    ∗ bigSep Finset.univ fun k : Fin 32 => iprop(∃ f, oCol d (batchOf c.val s.val k.val) f)) := rfl
theorem P_td (d : Dev nD) (c : Fin ((K (F := F)).nCore 0)) (s : Fin ((K (F := F)).nSub 0)) : (P m).td 0 d c s = iprop(xPts m d (tileShare c.val s.val) ∗ tPts m d (tileShare c.val s.val)
    ∗ bigSep Finset.univ fun k : Fin 32 => oCol d (batchOf c.val s.val k.val) (otOf m d)) := rfl

omit [FloatOps F] in
theorem bigSep_subs (Φ : ℕ → sProp 𝕄) :
    (bigSep Finset.univ fun i : Fin ((K (F := F)).nSub 0) => Φ i.val) = bigSep Finset.univ fun i : Fin 16 => Φ i.val := rfl
omit [FloatOps F] in
theorem bigSep_cores (Φ : ℕ → sProp 𝕄) :
    (bigSep Finset.univ fun i : Fin ((K (F := F)).nCore 0) => Φ i.val) = bigSep Finset.univ fun i : Fin 2 => Φ i.val := rfl

/-! ## The 1024 columns, by core, subcore and batch number -/

/-- Column `64 s + 32 c + k` is the `k`-th of subcore `s` of core `c`: every column below 1024 is exactly one of these. -/
def colEquiv : Fin 2 × Fin 16 × Fin 32 ≃ Fin 1024 where
  toFun p := ⟨batchOf p.1.val p.2.1.val p.2.2.val, by
    have h1 := p.1.isLt; have h2 := p.2.1.isLt; have h3 := p.2.2.isLt; unfold batchOf; omega⟩
  invFun b := (⟨(b.val / 32) % 2, Nat.mod_lt _ (by decide)⟩, ⟨b.val / 64, by have := b.isLt; omega⟩, ⟨b.val % 32, Nat.mod_lt _ (by decide)⟩)
  left_inv p := by
    obtain ⟨⟨c, hc⟩, ⟨s, hs⟩, ⟨k, hk⟩⟩ := p
    simp only [batchOf, Prod.mk.injEq, Fin.mk.injEq]
    refine ⟨?_, ?_, ?_⟩ <;> omega
  right_inv b := by
    obtain ⟨b, hb⟩ := b
    simp only [batchOf, Fin.mk.injEq]
    omega

omit [FloatOps F] in
/-- A separating conjunction over the 1024 columns, regrouped by core, subcore and batch number. -/
theorem bigSep_cols (Φ : ℕ → sProp 𝕄) :
    (bigSep Finset.univ fun b : Fin 1024 => Φ b.val)
      = bigSep Finset.univ fun c : Fin 2 => bigSep Finset.univ fun s : Fin 16 => bigSep Finset.univ fun k : Fin 32 => Φ (batchOf c.val s.val k.val) := by
  rw [bigSep_univ_equiv colEquiv (fun b : Fin 1024 => Φ b.val), bigSep_univ_prod]
  refine bigSep_congr fun c _ => ?_
  rw [bigSep_univ_prod]
  rfl

omit [FloatOps F] in
theorem colSet_fin (b : Fin 1024) : colSet b.val = (Rect.part (s := S50x1024x128) (a₀ := 1) hdivB b).set := by
  unfold colSet; rw [dif_pos b.isLt]

omit [FloatOps F] in
theorem cols_disjoint : ∀ i ∈ (Finset.univ : Finset (Fin 1024)), ∀ j ∈ (Finset.univ : Finset (Fin 1024)), i ≠ j → Disjoint (colSet i.val) (colSet j.val) :=
  fun i _ j _ h => by rw [colSet_fin, colSet_fin]; exact Rect.part_disjoint hdivB h
omit [FloatOps F] in
theorem cols_cover : (Finset.univ : Finset (Fin 1024)).biUnion (fun b => colSet b.val) = Finset.univ :=
  (Finset.biUnion_congr rfl fun i _ => colSet_fin i).trans (Rect.biUnion_part hdivB)

omit [FloatOps F] in
/-- `ot` held whole is its 1024 columns held each. -/
theorem oPts_cols (d : Dev nD) (f : Buf (Elt F) (oLoc d)) :
    (oLoc d ↦{fullShare} f : sProp 𝕄) = bigSep Finset.univ fun b : Fin 1024 => oCol d b.val f := by
  rw [← pointsTo_biUnion Finset.univ (ℓ := oLoc d) (fun b : Fin 1024 => colSet b.val) cols_disjoint, cols_cover]; try rfl

omit [FloatOps F] in
/-- `ot` held whole is its columns held each, by core, subcore and batch number. -/
theorem oPts_grid (d : Dev nD) (f : Buf (Elt F) (oLoc d)) :
    (oLoc d ↦{fullShare} f : sProp 𝕄)
      = bigSep Finset.univ fun c : Fin 2 => bigSep Finset.univ fun s : Fin 16 => bigSep Finset.univ fun k : Fin 32 => oCol d (batchOf c.val s.val k.val) f := by
  rw [oPts_cols, bigSep_cols (fun b => oCol d b f)]

omit [FloatOps F] in
/-- A column held at known contents is a column held at some contents. -/
theorem oGrid_some (d : Dev nD) (f : Buf (Elt F) (oLoc d)) :
    (bigSep Finset.univ fun c : Fin 2 => bigSep Finset.univ fun s : Fin 16 => bigSep Finset.univ fun k : Fin 32 => oCol d (batchOf c.val s.val k.val) f)
      ⊢ (bigSep Finset.univ fun c : Fin 2 => bigSep Finset.univ fun s : Fin 16 => bigSep Finset.univ fun k : Fin 32 =>
          (iprop(∃ f, oCol d (batchOf c.val s.val k.val) f) : sProp 𝕄)) :=
  bigSep_mono fun c _ => bigSep_mono fun s _ => bigSep_mono fun k _ => by
    show (oCol d (batchOf c.val s.val k.val) f : sProp 𝕄) ⊢ iprop(∃ f, oCol d (batchOf c.val s.val k.val) f)
    iintro H; iexists f; iexact H

/-! ## A core's operands among its subcores -/

theorem vecSplit : (K (F := F)).VecSplit' (P m) 0 := by
  intro d c
  simp only [P_st, P_dn, P_go, P_td]
  rw [bigSep_subs (F := F) (fun s => iprop(xPts m d (tileShare c.val s) ∗ tPts m d (tileShare c.val s)
      ∗ bigSep Finset.univ fun k : Fin 32 => iprop(∃ f, oCol d (batchOf c.val s k.val) f))),
    bigSep_subs (F := F) (fun s => iprop(xPts m d (tileShare c.val s) ∗ tPts m d (tileShare c.val s)
      ∗ bigSep Finset.univ fun k : Fin 32 => oCol d (batchOf c.val s k.val) (otOf m d))),
    bigSep_sep', bigSep_sep', bigSep_sep', bigSep_sep']
  iintro ⟨Hx, Ht, Ho⟩
  ihave Hx' := (Transfers.pointsTo_toks_split (coreShare c.val) 16) $$ Hx
  ihave Ht' := (Transfers.pointsTo_toks_split (coreShare c.val) 16) $$ Ht
  icases Hx' with ⟨Hxr, Hxs⟩
  icases Ht' with ⟨Htr, Hts⟩
  imodintro
  isplitl [Hxs Hts Ho]
  · isplitl [Hxs]; · iexact Hxs
    isplitl [Hts]; · iexact Hts
    iexact Ho
  iintro ⟨Hxs, Hts, Ho⟩
  isplitl [Hxr Hxs]
  · iapply (Transfers.pointsTo_toks_join (coreShare c.val) 16)
    isplitl [Hxr]; · iexact Hxr
    iexact Hxs
  isplitl [Htr Hts]
  · iapply (Transfers.pointsTo_toks_join (coreShare c.val) 16)
    isplitl [Htr]; · iexact Htr
    iexact Hts
  iexact Ho

/-! ## The launch element: the handshakes' rounds; the counters are dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr) = (iprop(emp) : sProp 𝕄) from by
    rw [bigSep_congr fun thr _ => show (bigSep Finset.univ fun q : Fin 1 => (P m).x q thr) = (iprop(emp) : sProp 𝕄) from bigSep_emp' _, bigSep_emp']]
  iempintro

/-! ## @main on the TensorCore -/

abbrev x' : DevRef τ sig := Proc.devRef .tc (main_arg0 : Ref sig .tc)
abbrev i' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The host's two operations: the index array to the index-row-first layout, the result back to the batch-major one. -/
abbrev opT : HloOp τ sig (Elt F) := StableHlo.unary main_arg1 main_v0 ((transpose S50x1024x128 [1, 0, 2] · transposes_S1024x50x128_S50x1024x128_1_0_2) : (⟨S1024x50x128, .i32⟩ : BufTy).Contents (Elt F) → (⟨S50x1024x128, .i32⟩ : BufTy).Contents (Elt F))
abbrev opR : HloOp τ sig (Elt F) := StableHlo.unary main_v1 main_v2 ((transpose S1024x50x128 [1, 0, 2] · transposes_S50x1024x128_S1024x50x128_1_0_2) : (⟨S50x1024x128, .f32⟩ : BufTy).Contents (Elt F) → (⟨S1024x50x128, .f32⟩ : BufTy).Contents (Elt F))

/-- The TensorCore's arrays, all unscoped. -/
abbrev S5 : Finset (DevRef τ sig) := {x', i', t', o', r'}

omit [FloatOps F] in
theorem held_S5 (d : Dev nD) (W : Valuation τ sig (Elt F)) :
    (held (T d) S5 W : sProp 𝕄) = iprop((xLoc d ↦{fullShare} W x') ∗ (iLoc d ↦{fullShare} W i') ∗ (tLoc d ↦{fullShare} W t')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S5 (V0 m d) := by
  rw [unscopedBufs_eq, held_S5]; rfl

theorem opT_sub : (opT (F := F)).bufs ⊆ S5 := show ({i', t'} : Finset (DevRef τ sig)) ⊆ S5 by decide
theorem opR_sub : (opR (F := F)).bufs ⊆ S5 := show ({o', r'} : Finset (DevRef τ sig)) ⊆ S5 by decide

/-! After the first transpose `it` holds the index array with the index row first; nothing else has changed. -/

theorem V1_x (d : Dev nD) : (opT (F := F)).result (V0 m d) x' = m (xLoc d) :=
  StableHlo.unary_result_ne _ _ _ _ _ (V0 m d) (show (main_arg0 : Ref sig .tc) ≠ main_v0 by decide)
theorem V1_i (d : Dev nD) : (opT (F := F)).result (V0 m d) i' = m (iLoc d) :=
  StableHlo.unary_result_ne _ _ _ _ _ (V0 m d) (show (main_arg1 : Ref sig .tc) ≠ main_v0 by decide)
theorem V1_t (d : Dev nD) : (opT (F := F)).result (V0 m d) t' = itOf m d :=
  StableHlo.unary_result _ _ _ _ _ (V0 m d)
theorem V1_o (d : Dev nD) : (opT (F := F)).result (V0 m d) o' = m (oLoc d) :=
  StableHlo.unary_result_ne _ _ _ _ _ (V0 m d) (show (main_v1 : Ref sig .tc) ≠ main_v0 by decide)
theorem V1_r (d : Dev nD) : (opT (F := F)).result (V0 m d) r' = m (rLoc d) :=
  StableHlo.unary_result_ne _ _ _ _ _ (V0 m d) (show (main_v2 : Ref sig .tc) ≠ main_v0 by decide)

theorem held_V1 (d : Dev nD) :
    (held (T d) S5 ((opT (F := F)).result (V0 m d)) : sProp 𝕄)
      = iprop((xLoc d ↦{fullShare} m (xLoc d)) ∗ (iLoc d ↦{fullShare} m (iLoc d)) ∗ (tLoc d ↦{fullShare} itOf m d)
          ∗ (oLoc d ↦{fullShare} m (oLoc d)) ∗ rLoc d ↦{fullShare} m (rLoc d)) := by
  rw [held_S5, V1_x, V1_i, V1_t, V1_o, V1_r]

/-- The arrays once the subcores are done: `it` as the first transpose left it, `ot` at the gather. -/
def V2 (d : Dev nD) : Valuation τ sig (Elt F) := Function.update (Function.update (V0 m d) t' (itOf m d)) o' (otOf m d)

theorem V2_x (d : Dev nD) : V2 m d x' = m (xLoc d) :=
  (Function.update_of_ne (show x' ≠ o' by decide) _ _).trans (Function.update_of_ne (show x' ≠ t' by decide) _ _)
theorem V2_i (d : Dev nD) : V2 m d i' = m (iLoc d) :=
  (Function.update_of_ne (show i' ≠ o' by decide) _ _).trans (Function.update_of_ne (show i' ≠ t' by decide) _ _)
theorem V2_t (d : Dev nD) : V2 m d t' = itOf m d :=
  (Function.update_of_ne (show t' ≠ o' by decide) _ _).trans (Function.update_self _ _ _)
theorem V2_o (d : Dev nD) : V2 m d o' = otOf m d := Function.update_self _ _ _
theorem V2_r (d : Dev nD) : V2 m d r' = m (rLoc d) :=
  (Function.update_of_ne (show r' ≠ o' by decide) _ _).trans (Function.update_of_ne (show r' ≠ t' by decide) _ _)

theorem held_V2 (d : Dev nD) :
    (held (T d) S5 (V2 m d) : sProp 𝕄)
      = iprop((xLoc d ↦{fullShare} m (xLoc d)) ∗ (iLoc d ↦{fullShare} m (iLoc d)) ∗ (tLoc d ↦{fullShare} itOf m d)
          ∗ (oLoc d ↦{fullShare} otOf m d) ∗ rLoc d ↦{fullShare} m (rLoc d)) := by
  rw [held_S5, V2_x, V2_i, V2_t, V2_o, V2_r]

/-! After the second transpose the result array holds the batch-major gather. -/

theorem V3_x (d : Dev nD) : (opR (F := F)).result (V2 m d) x' = m (xLoc d) :=
  (StableHlo.unary_result_ne _ _ _ _ _ (V2 m d) (show (main_arg0 : Ref sig .tc) ≠ main_v2 by decide)).trans (V2_x m d)
theorem V3_i (d : Dev nD) : (opR (F := F)).result (V2 m d) i' = m (iLoc d) :=
  (StableHlo.unary_result_ne _ _ _ _ _ (V2 m d) (show (main_arg1 : Ref sig .tc) ≠ main_v2 by decide)).trans (V2_i m d)
theorem V3_r (d : Dev nD) : (opR (F := F)).result (V2 m d) r' = resOf m d := by
  refine (StableHlo.unary_result _ _ _ _ _ (V2 m d)).trans ?_
  show transpose S1024x50x128 [1, 0, 2] (V2 m d o') transposes_S50x1024x128_S1024x50x128_1_0_2 = resOf m d
  rw [V2_o]
  exact Cert.Spec.transpose_gatherT _ _ _ _

theorem held_V3 (d : Dev nD) :
    (held (T d) S5 ((opR (F := F)).result (V2 m d)) : sProp 𝕄)
      = iprop((xLoc d ↦{fullShare} m (xLoc d)) ∗ (iLoc d ↦{fullShare} m (iLoc d)) ∗ (tLoc d ↦{fullShare} (opR (F := F)).result (V2 m d) t')
          ∗ (oLoc d ↦{fullShare} (opR (F := F)).result (V2 m d) o') ∗ rLoc d ↦{fullShare} resOf m d) := by
  rw [held_S5, V3_x, V3_i, V3_r]

/-- What the call takes for the two cores, and what it hands back. -/
theorem st0_eq (d : Dev nD) : (bigSep Finset.univ fun c : Fin ((K (F := F)).nCore 0) => (P m).st 0 d c)
    = iprop((bigSep Finset.univ fun c : Fin 2 => xPts m d (coreShare c.val)) ∗ (bigSep Finset.univ fun c : Fin 2 => tPts m d (coreShare c.val))
        ∗ bigSep Finset.univ fun c : Fin 2 => bigSep Finset.univ fun s : Fin 16 => bigSep Finset.univ fun k : Fin 32 =>
            iprop(∃ f, oCol d (batchOf c.val s.val k.val) f)) := by
  simp only [P_st]
  rw [bigSep_cores (F := F) (fun c => iprop(xPts m d (coreShare c) ∗ tPts m d (coreShare c)
      ∗ bigSep Finset.univ fun s : Fin 16 => bigSep Finset.univ fun k : Fin 32 => iprop(∃ f, oCol d (batchOf c s.val k.val) f))),
    bigSep_sep', bigSep_sep']
theorem dn0_eq (d : Dev nD) : (bigSep Finset.univ fun c : Fin ((K (F := F)).nCore 0) => (P m).dn 0 d c)
    = iprop((bigSep Finset.univ fun c : Fin 2 => xPts m d (coreShare c.val)) ∗ (bigSep Finset.univ fun c : Fin 2 => tPts m d (coreShare c.val))
        ∗ bigSep Finset.univ fun c : Fin 2 => bigSep Finset.univ fun s : Fin 16 => bigSep Finset.univ fun k : Fin 32 =>
            oCol d (batchOf c.val s.val k.val) (otOf m d)) := by
  simp only [P_dn]
  rw [bigSep_cores (F := F) (fun c => iprop(xPts m d (coreShare c) ∗ tPts m d (coreShare c)
      ∗ bigSep Finset.univ fun s : Fin 16 => bigSep Finset.univ fun k : Fin 32 => oCol d (batchOf c s.val k.val) (otOf m d))),
    bigSep_sep', bigSep_sep']

/-- What @main leaves the claim: the arguments at their launch contents, the result at the batch-major gather. -/
abbrev FIN (d : Dev nD) : sProp 𝕄 := iprop((xLoc d ↦{fullShare} m (xLoc d)) ∗ (iLoc d ↦{fullShare} m (iLoc d)) ∗ rLoc d ↦{fullShare} resOf m d)

/-- @main on device `d`'s TensorCore: the first transpose, the call (each core its shares of `x` and `it` and its
    columns of `ot`, all back with the columns written), the second transpose; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose, over `idx` and `it`
  iapply (wp_hlo_within 𝒱 (SparseCore.T d) none Set.univ (op := opT) (S := S5) opT_sub (V := V0 m d)) $$ [Hb Hheld]
  · isplitl [Hb]; · iexact Hb
    iexact Hheld
  iintro ⟨Hb, Hheld⟩
  ihave Hh := (Entails.of_eq (held_V1 m d)) $$ Hheld
  icases Hh with ⟨Hx, Hi, Ht, Ho, Hr⟩
  rw [wp_ret]; imodintro
  -- the shares of `x` and `it`, the columns of `ot`
  ihave Hx' := (Transfers.pointsTo_toks_split fullShare 2) $$ Hx
  icases Hx' with ⟨Hxr, Hxs⟩
  ihave Ht' := (Transfers.pointsTo_toks_split fullShare 2) $$ Ht
  icases Ht' with ⟨Htr, Hts⟩
  ihave Ho' := (Entails.of_eq (oPts_grid d (m (oLoc d)))) $$ Ho
  ihave Ho'' := (oGrid_some d (m (oLoc d))) $$ Ho'
  -- the call
  iapply ((K (F := F)).wp_run (D (F := F)) 𝒱 (EH := EH) (P := P m) κ d 0) $$ [Hst Hxs Hts Ho'' Hxr Htr Hb Hi Hr]
  isplitr; · iexact Hctx
  isplitl [Hst]; · iexact Hst
  isplitl [Hxs Hts Ho'']
  · rw [st0_eq]
    isplitl [Hxs]; · iexact Hxs
    isplitl [Hts]; · iexact Hts
    iexact Ho''
  iintro ⟨Hst, Hdn⟩
  ihave Hdn' := (Entails.of_eq (dn0_eq m d)) $$ Hdn
  icases Hdn' with ⟨Hxs, Hts, Ho⟩
  ihave Hx := (Transfers.pointsTo_toks_join fullShare 2) $$ [Hxr Hxs]
  · isplitl [Hxr]; · iexact Hxr
    iexact Hxs
  ihave Ht := (Transfers.pointsTo_toks_join fullShare 2) $$ [Htr Hts]
  · isplitl [Htr]; · iexact Htr
    iexact Hts
  ihave Ho' := (Entails.of_eq (oPts_grid d (otOf m d)).symm) $$ Ho
  -- the second transpose, over `ot` and the result
  iapply (wp_hlo_within 𝒱 (SparseCore.T d) none Set.univ (op := opR) (S := S5) opR_sub (V := V2 m d)) $$ [Hb Hx Hi Ht Ho' Hr]
  · isplitl [Hb]; · iexact Hb
    rw [held_V2]
    isplitl [Hx]; · iexact Hx
    isplitl [Hi]; · iexact Hi
    isplitl [Ht]; · iexact Ht
    isplitl [Ho']; · iexact Ho'
    iexact Hr
  iintro ⟨Hb, Hheld⟩
  ihave Hh := (Entails.of_eq (held_V3 m d)) $$ Hheld
  icases Hh with ⟨Hx, Hi, -, -, Hr⟩
  rw [wp_ret]; imodintro; imodintro
  isplitl [Hst]; · iexact Hst
  isplitl [Hx]; · iexact Hx
  isplitl [Hi]; · iexact Hi
  iexact Hr

/-! ## The final memory -/

def fq (d : Dev nD) (s' : Phys nD τ sig (Elt F)) : Prop :=
  s'.mem.mem (rLoc d) = resOf m d ∧ s'.mem.mem (xLoc d) = m (xLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hx, Hi, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := rLoc d) (I := Finset.univ) (q := fullShare) (f := resOf m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD, r.2.mem (rLoc c) = resOf m c ∧ r.2.mem (xLoc c) = m (xLoc c) ∧ r.2.mem (iLoc c) = m (iLoc c)

/-- The run of the program from the launch memory `m`, given the subcores' body: every weakly fair execution ends,
    nothing faults, the result array holds the batch-major gather of the arguments, and the arguments are unchanged. -/
theorem run_main [∀ e, Nonempty (Elt F e)] (hT : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.OnKernel

end
-- ==== Proof.OnKernelIdeal.Common.lean ====
/-
  What the two halves of the proof about this program share: how the launch sees the program, the arrays and what
  they are expected to hold, and what travels with each handshake of the launch.

  The program moves data only. On the host the index array `idx : [1024, 50, 128]` is carried to the layout
  `[50, 1024, 128]` (index row first); thirty-two vector subcores then each take thirty-two consecutive batches —
  subcore `s` of core `c` the batches `64 s + 32 c + k`, `k < 32` — and for each batch `b` bring the table `x[b]`
  (200 rows of 128 lanes) and the index rows `it[:, b, :]` into their own memory, read lane `l` of row `it[i, b, l]`
  of the table for every index row `i` and lane `l`, and write the 50 rows so obtained to `ot[:, b, :]`; the host
  carries `ot` back to the batch-major layout. So `ot[i, b, l] = x[b, it[i, b, l], l]` (`Spec.gatherT`) and the
  result is `Spec.gatherB x idx`.

  The tables and the index array are only read: every subcore holds a share of each, whole. The result array is
  written: it is cut into its 1024 columns `ot[:, b, :]`, each owned outright by the one subcore that writes it.
-/
import proofs.«216842_g32469952758108_cont_8to1_b_497_34_alg».proof.KernelIdeal
import proofs.«216842_g32469952758108_cont_8to1_b_497_34_alg».proof.Proof.Gen.KernelIdeal
import proofs.«216842_g32469952758108_cont_8to1_b_497_34_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the counters of the subcores' own copies -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and what they hold -/

variable (m : (ℓ : Loc nD τ sig) → Buf (Elt F) ℓ) (ρ : Dev nD → PrngReg)

/-- The tables `x` and the index array `idx` (the arguments); `it`, the index array with the index row first; `ot`, the
    result with the index row first; `res`, the result. -/
abbrev xLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- What `it` holds once the host has exchanged the index array's first two axes. -/
def itOf (d : Dev nD) : Buf (Elt F) (tLoc d) :=
  transpose S50x1024x128 [1, 0, 2] (m (iLoc d)) transposes_S1024x50x128_S50x1024x128_1_0_2
/-- What the subcores leave in `ot`: entry `(i, b, l)` is `x[b, it[i, b, l], l]`. -/
def otOf (d : Dev nD) : Buf (Elt F) (oLoc d) := Cert.Spec.gatherT (m (xLoc d)) (itOf m d)
/-- What the program returns: entry `(b, i, l)` is `x[b, idx[b, i, l], l]`. -/
def resOf (d : Dev nD) : Buf (Elt F) (rLoc d) := Cert.Spec.gatherB (m (xLoc d)) (m (iLoc d))

/-- Every index word names a row of its table. -/
def PreOK : Prop := ∀ (d : Dev nD) (j : S1024x50x128.Idx), (m (iLoc d) j).toNat < 200

/-! ## Shares of the arrays that are only read, columns of the one that is written -/

/-- Core `c`'s share of an array every subcore reads, and subcore `s`'s share of that. -/
def coreShare (c : ℕ) : PosShare TreeShare := Transfers.shareTokN fullShare c
def tileShare (c s : ℕ) : PosShare TreeShare := Transfers.shareTokN (coreShare c) s

theorem hdivB : 1024 ∣ S50x1024x128.size 1 := ⟨1, rfl⟩
/-- Column `b` of `ot`: the entries `ot[:, b, :]` (empty for a number that is no batch). -/
def colSet (b : ℕ) : Finset S50x1024x128.Idx :=
  if h : b < 1024 then (Rect.part (s := S50x1024x128) (a₀ := 1) hdivB ⟨b, h⟩).set else ∅
/-- The `k`-th batch of subcore `s` of core `c`. -/
def batchOf (c s k : ℕ) : ℕ := 64 * s + 32 * c + k

variable [FloatOps F]

abbrev xPts (d : Dev nD) (q : PosShare TreeShare) : sProp 𝕄 := xLoc d ↦{q} m (xLoc d)
abbrev tPts (d : Dev nD) (q : PosShare TreeShare) : sProp 𝕄 := tLoc d ↦{q} itOf m d
abbrev oCol (d : Dev nD) (b : ℕ) (f : Buf (Elt F) (oLoc d)) : sProp 𝕄 := oLoc d ↦[colSet b]{fullShare} f

/-- What the handshakes carry. To core `c`: its share of `x` and of `it`, and the 512 columns of `ot` its subcores
    write, at whatever they hold; back: the same with every column at its expected contents. To subcore `s` of core
    `c`: its share of `x` and of `it` and its 32 columns; back: the same, the columns written. -/
def P : (K (F := F)).Pay (nD := nD) (Val := Elt F) (Name := ℕ) (U := UU) where
  st := fun _ d c => iprop(xPts m d (coreShare c.val) ∗ tPts m d (coreShare c.val)
    ∗ bigSep Finset.univ fun s : Fin 16 => bigSep Finset.univ fun k : Fin 32 => iprop(∃ f, oCol d (batchOf c.val s.val k.val) f))
  dn := fun _ d c => iprop(xPts m d (coreShare c.val) ∗ tPts m d (coreShare c.val)
    ∗ bigSep Finset.univ fun s : Fin 16 => bigSep Finset.univ fun k : Fin 32 => oCol d (batchOf c.val s.val k.val) (otOf m d))
  go := fun _ d c s => iprop(xPts m d (tileShare c.val s.val) ∗ tPts m d (tileShare c.val s.val)
    ∗ bigSep Finset.univ fun k : Fin 32 => iprop(∃ f, oCol d (batchOf c.val s.val k.val) f))
  td := fun _ d c s => iprop(xPts m d (tileShare c.val s.val) ∗ tPts m d (tileShare c.val s.val)
    ∗ bigSep Finset.univ fun k : Fin 32 => oCol d (batchOf c.val s.val k.val) (otOf m d))
  x := fun _ _ => iprop(emp)

instance P_storable : (P (F := F) m).IsStorable where
  st _ d c := by unfold P; infer_instance
  dn _ d c := by unfold P; infer_instance
  go _ d c s := by unfold P; infer_instance
  td _ d c s := by unfold P; infer_instance

end Cert.Proof.OnKernelIdeal

end
-- ==== Proof.OnKernelIdeal.Launch.lean ====
/-
  The launch of the program: what the launch theorem asks beside the subcores' body.

  The tables `x` and the index array with the index row first, `it`, are only read. Each goes out as read shares:
  the TensorCore halves its full share once per core and keeps the remainder, and a core does the same with its share
  once per subcore. The result array `ot` is written: held whole, it is the separating conjunction of its 1024 columns
  `ot[:, b, :]`, and the columns are regrouped by core, subcore and batch number, column `64 s + 32 c + k` going to
  subcore `s` of core `c` as its `k`-th. Everything comes back the same way. On the host, the first transpose makes
  `it` out of `idx`, and the second makes the result out of `ot`; that the result is the batch-major gather is
  `Spec.transpose_gatherT`.
-/
import proofs.«216842_g32469952758108_cont_8to1_b_497_34_alg».proof.Proof.OnKernelIdeal.Common

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry, as equations -/

theorem P_st (d : Dev nD) (c : Fin ((K (F := F)).nCore 0)) : (P m).st 0 d c = iprop(xPts m d (coreShare c.val) ∗ tPts m d (coreShare c.val)
    ∗ bigSep Finset.univ fun s : Fin 16 => bigSep Finset.univ fun k : Fin 32 => iprop(∃ f, oCol d (batchOf c.val s.val k.val) f)) := rfl
theorem P_dn (d : Dev nD) (c : Fin ((K (F := F)).nCore 0)) : (P m).dn 0 d c = iprop(xPts m d (coreShare c.val) ∗ tPts m d (coreShare c.val)
    ∗ bigSep Finset.univ fun s : Fin 16 => bigSep Finset.univ fun k : Fin 32 => oCol d (batchOf c.val s.val k.val) (otOf m d)) := rfl
theorem P_go (d : Dev nD) (c : Fin ((K (F := F)).nCore 0)) (s : Fin ((K (F := F)).nSub 0)) : (P m).go 0 d c s = iprop(xPts m d (tileShare c.val s.val) ∗ tPts m d (tileShare c.val s.val)
    ∗ bigSep Finset.univ fun k : Fin 32 => iprop(∃ f, oCol d (batchOf c.val s.val k.val) f)) := rfl
theorem P_td (d : Dev nD) (c : Fin ((K (F := F)).nCore 0)) (s : Fin ((K (F := F)).nSub 0)) : (P m).td 0 d c s = iprop(xPts m d (tileShare c.val s.val) ∗ tPts m d (tileShare c.val s.val)
    ∗ bigSep Finset.univ fun k : Fin 32 => oCol d (batchOf c.val s.val k.val) (otOf m d)) := rfl

omit [FloatOps F] in
theorem bigSep_subs (Φ : ℕ → sProp 𝕄) :
    (bigSep Finset.univ fun i : Fin ((K (F := F)).nSub 0) => Φ i.val) = bigSep Finset.univ fun i : Fin 16 => Φ i.val := rfl
omit [FloatOps F] in
theorem bigSep_cores (Φ : ℕ → sProp 𝕄) :
    (bigSep Finset.univ fun i : Fin ((K (F := F)).nCore 0) => Φ i.val) = bigSep Finset.univ fun i : Fin 2 => Φ i.val := rfl

/-! ## The 1024 columns, by core, subcore and batch number -/

/-- Column `64 s + 32 c + k` is the `k`-th of subcore `s` of core `c`: every column below 1024 is exactly one of these. -/
def colEquiv : Fin 2 × Fin 16 × Fin 32 ≃ Fin 1024 where
  toFun p := ⟨batchOf p.1.val p.2.1.val p.2.2.val, by
    have h1 := p.1.isLt; have h2 := p.2.1.isLt; have h3 := p.2.2.isLt; unfold batchOf; omega⟩
  invFun b := (⟨(b.val / 32) % 2, Nat.mod_lt _ (by decide)⟩, ⟨b.val / 64, by have := b.isLt; omega⟩, ⟨b.val % 32, Nat.mod_lt _ (by decide)⟩)
  left_inv p := by
    obtain ⟨⟨c, hc⟩, ⟨s, hs⟩, ⟨k, hk⟩⟩ := p
    simp only [batchOf, Prod.mk.injEq, Fin.mk.injEq]
    refine ⟨?_, ?_, ?_⟩ <;> omega
  right_inv b := by
    obtain ⟨b, hb⟩ := b
    simp only [batchOf, Fin.mk.injEq]
    omega

omit [FloatOps F] in
/-- A separating conjunction over the 1024 columns, regrouped by core, subcore and batch number. -/
theorem bigSep_cols (Φ : ℕ → sProp 𝕄) :
    (bigSep Finset.univ fun b : Fin 1024 => Φ b.val)
      = bigSep Finset.univ fun c : Fin 2 => bigSep Finset.univ fun s : Fin 16 => bigSep Finset.univ fun k : Fin 32 => Φ (batchOf c.val s.val k.val) := by
  rw [bigSep_univ_equiv colEquiv (fun b : Fin 1024 => Φ b.val), bigSep_univ_prod]
  refine bigSep_congr fun c _ => ?_
  rw [bigSep_univ_prod]
  rfl

omit [FloatOps F] in
theorem colSet_fin (b : Fin 1024) : colSet b.val = (Rect.part (s := S50x1024x128) (a₀ := 1) hdivB b).set := by
  unfold colSet; rw [dif_pos b.isLt]

omit [FloatOps F] in
theorem cols_disjoint : ∀ i ∈ (Finset.univ : Finset (Fin 1024)), ∀ j ∈ (Finset.univ : Finset (Fin 1024)), i ≠ j → Disjoint (colSet i.val) (colSet j.val) :=
  fun i _ j _ h => by rw [colSet_fin, colSet_fin]; exact Rect.part_disjoint hdivB h
omit [FloatOps F] in
theorem cols_cover : (Finset.univ : Finset (Fin 1024)).biUnion (fun b => colSet b.val) = Finset.univ :=
  (Finset.biUnion_congr rfl fun i _ => colSet_fin i).trans (Rect.biUnion_part hdivB)

omit [FloatOps F] in
/-- `ot` held whole is its 1024 columns held each. -/
theorem oPts_cols (d : Dev nD) (f : Buf (Elt F) (oLoc d)) :
    (oLoc d ↦{fullShare} f : sProp 𝕄) = bigSep Finset.univ fun b : Fin 1024 => oCol d b.val f := by
  rw [← pointsTo_biUnion Finset.univ (ℓ := oLoc d) (fun b : Fin 1024 => colSet b.val) cols_disjoint, cols_cover]; try rfl

omit [FloatOps F] in
/-- `ot` held whole is its columns held each, by core, subcore and batch number. -/
theorem oPts_grid (d : Dev nD) (f : Buf (Elt F) (oLoc d)) :
    (oLoc d ↦{fullShare} f : sProp 𝕄)
      = bigSep Finset.univ fun c : Fin 2 => bigSep Finset.univ fun s : Fin 16 => bigSep Finset.univ fun k : Fin 32 => oCol d (batchOf c.val s.val k.val) f := by
  rw [oPts_cols, bigSep_cols (fun b => oCol d b f)]

omit [FloatOps F] in
/-- A column held at known contents is a column held at some contents. -/
theorem oGrid_some (d : Dev nD) (f : Buf (Elt F) (oLoc d)) :
    (bigSep Finset.univ fun c : Fin 2 => bigSep Finset.univ fun s : Fin 16 => bigSep Finset.univ fun k : Fin 32 => oCol d (batchOf c.val s.val k.val) f)
      ⊢ (bigSep Finset.univ fun c : Fin 2 => bigSep Finset.univ fun s : Fin 16 => bigSep Finset.univ fun k : Fin 32 =>
          (iprop(∃ f, oCol d (batchOf c.val s.val k.val) f) : sProp 𝕄)) :=
  bigSep_mono fun c _ => bigSep_mono fun s _ => bigSep_mono fun k _ => by
    show (oCol d (batchOf c.val s.val k.val) f : sProp 𝕄) ⊢ iprop(∃ f, oCol d (batchOf c.val s.val k.val) f)
    iintro H; iexists f; iexact H

/-! ## A core's operands among its subcores -/

theorem vecSplit : (K (F := F)).VecSplit' (P m) 0 := by
  intro d c
  simp only [P_st, P_dn, P_go, P_td]
  rw [bigSep_subs (F := F) (fun s => iprop(xPts m d (tileShare c.val s) ∗ tPts m d (tileShare c.val s)
      ∗ bigSep Finset.univ fun k : Fin 32 => iprop(∃ f, oCol d (batchOf c.val s k.val) f))),
    bigSep_subs (F := F) (fun s => iprop(xPts m d (tileShare c.val s) ∗ tPts m d (tileShare c.val s)
      ∗ bigSep Finset.univ fun k : Fin 32 => oCol d (batchOf c.val s k.val) (otOf m d))),
    bigSep_sep', bigSep_sep', bigSep_sep', bigSep_sep']
  iintro ⟨Hx, Ht, Ho⟩
  ihave Hx' := (Transfers.pointsTo_toks_split (coreShare c.val) 16) $$ Hx
  ihave Ht' := (Transfers.pointsTo_toks_split (coreShare c.val) 16) $$ Ht
  icases Hx' with ⟨Hxr, Hxs⟩
  icases Ht' with ⟨Htr, Hts⟩
  imodintro
  isplitl [Hxs Hts Ho]
  · isplitl [Hxs]; · iexact Hxs
    isplitl [Hts]; · iexact Hts
    iexact Ho
  iintro ⟨Hxs, Hts, Ho⟩
  isplitl [Hxr Hxs]
  · iapply (Transfers.pointsTo_toks_join (coreShare c.val) 16)
    isplitl [Hxr]; · iexact Hxr
    iexact Hxs
  isplitl [Htr Hts]
  · iapply (Transfers.pointsTo_toks_join (coreShare c.val) 16)
    isplitl [Htr]; · iexact Htr
    iexact Hts
  iexact Ho

/-! ## The launch element: the handshakes' rounds; the counters are dropped -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr) = (iprop(emp) : sProp 𝕄) from by
    rw [bigSep_congr fun thr _ => show (bigSep Finset.univ fun q : Fin 1 => (P m).x q thr) = (iprop(emp) : sProp 𝕄) from bigSep_emp' _, bigSep_emp']]
  iempintro

/-! ## @main on the TensorCore -/

abbrev x' : DevRef τ sig := Proc.devRef .tc (main_arg0 : Ref sig .tc)
abbrev i' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The host's two operations: the index array to the index-row-first layout, the result back to the batch-major one. -/
abbrev opT : HloOp τ sig (Elt F) := StableHlo.unary main_arg1 main_v0 ((transpose S50x1024x128 [1, 0, 2] · transposes_S1024x50x128_S50x1024x128_1_0_2) : (⟨S1024x50x128, .i32⟩ : BufTy).Contents (Elt F) → (⟨S50x1024x128, .i32⟩ : BufTy).Contents (Elt F))
abbrev opR : HloOp τ sig (Elt F) := StableHlo.unary main_v1 main_v2 ((transpose S1024x50x128 [1, 0, 2] · transposes_S50x1024x128_S1024x50x128_1_0_2) : (⟨S50x1024x128, .f32⟩ : BufTy).Contents (Elt F) → (⟨S1024x50x128, .f32⟩ : BufTy).Contents (Elt F))

/-- The TensorCore's arrays, all unscoped. -/
abbrev S5 : Finset (DevRef τ sig) := {x', i', t', o', r'}

omit [FloatOps F] in
theorem held_S5 (d : Dev nD) (W : Valuation τ sig (Elt F)) :
    (held (T d) S5 W : sProp 𝕄) = iprop((xLoc d ↦{fullShare} W x') ∗ (iLoc d ↦{fullShare} W i') ∗ (tLoc d ↦{fullShare} W t')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S5 (V0 m d) := by
  rw [unscopedBufs_eq, held_S5]; rfl

theorem opT_sub : (opT (F := F)).bufs ⊆ S5 := show ({i', t'} : Finset (DevRef τ sig)) ⊆ S5 by decide
theorem opR_sub : (opR (F := F)).bufs ⊆ S5 := show ({o', r'} : Finset (DevRef τ sig)) ⊆ S5 by decide

/-! After the first transpose `it` holds the index array with the index row first; nothing else has changed. -/

theorem V1_x (d : Dev nD) : (opT (F := F)).result (V0 m d) x' = m (xLoc d) :=
  StableHlo.unary_result_ne _ _ _ _ _ (V0 m d) (show (main_arg0 : Ref sig .tc) ≠ main_v0 by decide)
theorem V1_i (d : Dev nD) : (opT (F := F)).result (V0 m d) i' = m (iLoc d) :=
  StableHlo.unary_result_ne _ _ _ _ _ (V0 m d) (show (main_arg1 : Ref sig .tc) ≠ main_v0 by decide)
theorem V1_t (d : Dev nD) : (opT (F := F)).result (V0 m d) t' = itOf m d :=
  StableHlo.unary_result _ _ _ _ _ (V0 m d)
theorem V1_o (d : Dev nD) : (opT (F := F)).result (V0 m d) o' = m (oLoc d) :=
  StableHlo.unary_result_ne _ _ _ _ _ (V0 m d) (show (main_v1 : Ref sig .tc) ≠ main_v0 by decide)
theorem V1_r (d : Dev nD) : (opT (F := F)).result (V0 m d) r' = m (rLoc d) :=
  StableHlo.unary_result_ne _ _ _ _ _ (V0 m d) (show (main_v2 : Ref sig .tc) ≠ main_v0 by decide)

theorem held_V1 (d : Dev nD) :
    (held (T d) S5 ((opT (F := F)).result (V0 m d)) : sProp 𝕄)
      = iprop((xLoc d ↦{fullShare} m (xLoc d)) ∗ (iLoc d ↦{fullShare} m (iLoc d)) ∗ (tLoc d ↦{fullShare} itOf m d)
          ∗ (oLoc d ↦{fullShare} m (oLoc d)) ∗ rLoc d ↦{fullShare} m (rLoc d)) := by
  rw [held_S5, V1_x, V1_i, V1_t, V1_o, V1_r]

/-- The arrays once the subcores are done: `it` as the first transpose left it, `ot` at the gather. -/
def V2 (d : Dev nD) : Valuation τ sig (Elt F) := Function.update (Function.update (V0 m d) t' (itOf m d)) o' (otOf m d)

theorem V2_x (d : Dev nD) : V2 m d x' = m (xLoc d) :=
  (Function.update_of_ne (show x' ≠ o' by decide) _ _).trans (Function.update_of_ne (show x' ≠ t' by decide) _ _)
theorem V2_i (d : Dev nD) : V2 m d i' = m (iLoc d) :=
  (Function.update_of_ne (show i' ≠ o' by decide) _ _).trans (Function.update_of_ne (show i' ≠ t' by decide) _ _)
theorem V2_t (d : Dev nD) : V2 m d t' = itOf m d :=
  (Function.update_of_ne (show t' ≠ o' by decide) _ _).trans (Function.update_self _ _ _)
theorem V2_o (d : Dev nD) : V2 m d o' = otOf m d := Function.update_self _ _ _
theorem V2_r (d : Dev nD) : V2 m d r' = m (rLoc d) :=
  (Function.update_of_ne (show r' ≠ o' by decide) _ _).trans (Function.update_of_ne (show r' ≠ t' by decide) _ _)

theorem held_V2 (d : Dev nD) :
    (held (T d) S5 (V2 m d) : sProp 𝕄)
      = iprop((xLoc d ↦{fullShare} m (xLoc d)) ∗ (iLoc d ↦{fullShare} m (iLoc d)) ∗ (tLoc d ↦{fullShare} itOf m d)
          ∗ (oLoc d ↦{fullShare} otOf m d) ∗ rLoc d ↦{fullShare} m (rLoc d)) := by
  rw [held_S5, V2_x, V2_i, V2_t, V2_o, V2_r]

/-! After the second transpose the result array holds the batch-major gather. -/

theorem V3_x (d : Dev nD) : (opR (F := F)).result (V2 m d) x' = m (xLoc d) :=
  (StableHlo.unary_result_ne _ _ _ _ _ (V2 m d) (show (main_arg0 : Ref sig .tc) ≠ main_v2 by decide)).trans (V2_x m d)
theorem V3_i (d : Dev nD) : (opR (F := F)).result (V2 m d) i' = m (iLoc d) :=
  (StableHlo.unary_result_ne _ _ _ _ _ (V2 m d) (show (main_arg1 : Ref sig .tc) ≠ main_v2 by decide)).trans (V2_i m d)
theorem V3_r (d : Dev nD) : (opR (F := F)).result (V2 m d) r' = resOf m d := by
  refine (StableHlo.unary_result _ _ _ _ _ (V2 m d)).trans ?_
  show transpose S1024x50x128 [1, 0, 2] (V2 m d o') transposes_S50x1024x128_S1024x50x128_1_0_2 = resOf m d
  rw [V2_o]
  exact Cert.Spec.transpose_gatherT _ _ _ _

theorem held_V3 (d : Dev nD) :
    (held (T d) S5 ((opR (F := F)).result (V2 m d)) : sProp 𝕄)
      = iprop((xLoc d ↦{fullShare} m (xLoc d)) ∗ (iLoc d ↦{fullShare} m (iLoc d)) ∗ (tLoc d ↦{fullShare} (opR (F := F)).result (V2 m d) t')
          ∗ (oLoc d ↦{fullShare} (opR (F := F)).result (V2 m d) o') ∗ rLoc d ↦{fullShare} resOf m d) := by
  rw [held_S5, V3_x, V3_i, V3_r]

/-- What the call takes for the two cores, and what it hands back. -/
theorem st0_eq (d : Dev nD) : (bigSep Finset.univ fun c : Fin ((K (F := F)).nCore 0) => (P m).st 0 d c)
    = iprop((bigSep Finset.univ fun c : Fin 2 => xPts m d (coreShare c.val)) ∗ (bigSep Finset.univ fun c : Fin 2 => tPts m d (coreShare c.val))
        ∗ bigSep Finset.univ fun c : Fin 2 => bigSep Finset.univ fun s : Fin 16 => bigSep Finset.univ fun k : Fin 32 =>
            iprop(∃ f, oCol d (batchOf c.val s.val k.val) f)) := by
  simp only [P_st]
  rw [bigSep_cores (F := F) (fun c => iprop(xPts m d (coreShare c) ∗ tPts m d (coreShare c)
      ∗ bigSep Finset.univ fun s : Fin 16 => bigSep Finset.univ fun k : Fin 32 => iprop(∃ f, oCol d (batchOf c s.val k.val) f))),
    bigSep_sep', bigSep_sep']
theorem dn0_eq (d : Dev nD) : (bigSep Finset.univ fun c : Fin ((K (F := F)).nCore 0) => (P m).dn 0 d c)
    = iprop((bigSep Finset.univ fun c : Fin 2 => xPts m d (coreShare c.val)) ∗ (bigSep Finset.univ fun c : Fin 2 => tPts m d (coreShare c.val))
        ∗ bigSep Finset.univ fun c : Fin 2 => bigSep Finset.univ fun s : Fin 16 => bigSep Finset.univ fun k : Fin 32 =>
            oCol d (batchOf c.val s.val k.val) (otOf m d)) := by
  simp only [P_dn]
  rw [bigSep_cores (F := F) (fun c => iprop(xPts m d (coreShare c) ∗ tPts m d (coreShare c)
      ∗ bigSep Finset.univ fun s : Fin 16 => bigSep Finset.univ fun k : Fin 32 => oCol d (batchOf c s.val k.val) (otOf m d))),
    bigSep_sep', bigSep_sep']

/-- What @main leaves the claim: the arguments at their launch contents, the result at the batch-major gather. -/
abbrev FIN (d : Dev nD) : sProp 𝕄 := iprop((xLoc d ↦{fullShare} m (xLoc d)) ∗ (iLoc d ↦{fullShare} m (iLoc d)) ∗ rLoc d ↦{fullShare} resOf m d)

/-- @main on device `d`'s TensorCore: the first transpose, the call (each core its shares of `x` and `it` and its
    columns of `ot`, all back with the columns written), the second transpose; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose, over `idx` and `it`
  iapply (wp_hlo_within 𝒱 (SparseCore.T d) none Set.univ (op := opT) (S := S5) opT_sub (V := V0 m d)) $$ [Hb Hheld]
  · isplitl [Hb]; · iexact Hb
    iexact Hheld
  iintro ⟨Hb, Hheld⟩
  ihave Hh := (Entails.of_eq (held_V1 m d)) $$ Hheld
  icases Hh with ⟨Hx, Hi, Ht, Ho, Hr⟩
  rw [wp_ret]; imodintro
  -- the shares of `x` and `it`, the columns of `ot`
  ihave Hx' := (Transfers.pointsTo_toks_split fullShare 2) $$ Hx
  icases Hx' with ⟨Hxr, Hxs⟩
  ihave Ht' := (Transfers.pointsTo_toks_split fullShare 2) $$ Ht
  icases Ht' with ⟨Htr, Hts⟩
  ihave Ho' := (Entails.of_eq (oPts_grid d (m (oLoc d)))) $$ Ho
  ihave Ho'' := (oGrid_some d (m (oLoc d))) $$ Ho'
  -- the call
  iapply ((K (F := F)).wp_run (D (F := F)) 𝒱 (EH := EH) (P := P m) κ d 0) $$ [Hst Hxs Hts Ho'' Hxr Htr Hb Hi Hr]
  isplitr; · iexact Hctx
  isplitl [Hst]; · iexact Hst
  isplitl [Hxs Hts Ho'']
  · rw [st0_eq]
    isplitl [Hxs]; · iexact Hxs
    isplitl [Hts]; · iexact Hts
    iexact Ho''
  iintro ⟨Hst, Hdn⟩
  ihave Hdn' := (Entails.of_eq (dn0_eq m d)) $$ Hdn
  icases Hdn' with ⟨Hxs, Hts, Ho⟩
  ihave Hx := (Transfers.pointsTo_toks_join fullShare 2) $$ [Hxr Hxs]
  · isplitl [Hxr]; · iexact Hxr
    iexact Hxs
  ihave Ht := (Transfers.pointsTo_toks_join fullShare 2) $$ [Htr Hts]
  · isplitl [Htr]; · iexact Htr
    iexact Hts
  ihave Ho' := (Entails.of_eq (oPts_grid d (otOf m d)).symm) $$ Ho
  -- the second transpose, over `ot` and the result
  iapply (wp_hlo_within 𝒱 (SparseCore.T d) none Set.univ (op := opR) (S := S5) opR_sub (V := V2 m d)) $$ [Hb Hx Hi Ht Ho' Hr]
  · isplitl [Hb]; · iexact Hb
    rw [held_V2]
    isplitl [Hx]; · iexact Hx
    isplitl [Hi]; · iexact Hi
    isplitl [Ht]; · iexact Ht
    isplitl [Ho']; · iexact Ho'
    iexact Hr
  iintro ⟨Hb, Hheld⟩
  ihave Hh := (Entails.of_eq (held_V3 m d)) $$ Hheld
  icases Hh with ⟨Hx, Hi, -, -, Hr⟩
  rw [wp_ret]; imodintro; imodintro
  isplitl [Hst]; · iexact Hst
  isplitl [Hx]; · iexact Hx
  isplitl [Hi]; · iexact Hi
  iexact Hr

/-! ## The final memory -/

def fq (d : Dev nD) (s' : Phys nD τ sig (Elt F)) : Prop :=
  s'.mem.mem (rLoc d) = resOf m d ∧ s'.mem.mem (xLoc d) = m (xLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hx, Hi, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := rLoc d) (I := Finset.univ) (q := fullShare) (f := resOf m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD, r.2.mem (rLoc c) = resOf m c ∧ r.2.mem (xLoc c) = m (xLoc c) ∧ r.2.mem (iLoc c) = m (iLoc c)

/-- The run of the program from the launch memory `m`, given the subcores' body: every weakly fair execution ends,
    nothing faults, the result array holds the batch-major gather of the arguments, and the arguments are unchanged. -/
theorem run_main [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.OnKernelIdeal

end
-- ==== Proof.OnKernel.BodyLemmas.lean ====
/-
  Bookkeeping for one vector subcore's task: what it owns, cut into the pieces its copies move.

  A subcore owns six buffers of its own memory — two tables of 200 rows (each filled by two copies, rows 0–95 and rows
  96–199, so each is held as those two halves), two index blocks and two result blocks of 50 rows — and eight
  semaphores, one per copy that can be under way at a time. Of an array that is only read it holds a share, cut
  into as many smaller shares as copies may be reading the array at once.
-/
import proofs.«216842_g32469952758108_cont_8to1_b_497_34_alg».proof.Proof.OnKernel.Common

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Listed elements of a big separating conjunction -/

/-- Distinct listed members of a finite set come out of a conjunction over it one by one, the rest staying behind. -/
theorem bigSep_peel {M : Type} [URA M] {ι : Type} [DecidableEq ι] (Φ : ι → sProp M) :
    ∀ (l : List ι) (s : Finset ι), l.Nodup → (∀ a ∈ l, a ∈ s) →
      bigSep s Φ = l.foldr (fun a acc => iprop(Φ a ∗ acc)) (bigSep (l.foldl Finset.erase s) Φ)
  | [], _, _, _ => rfl
  | a :: l, s, hnd, hs => by
    rw [SparseCore.bigSep_erase' (hs a (List.mem_cons_self ..)), List.foldr_cons, List.foldl_cons]
    congr 1
    exact bigSep_peel Φ l (s.erase a) (List.nodup_cons.mp hnd).2
      (fun b hb => Finset.mem_erase.mpr ⟨fun e => (List.nodup_cons.mp hnd).1 (e ▸ hb), hs b (List.mem_cons_of_mem _ hb)⟩)

/-! ## The subcore, its semaphores and its buffers -/

abbrev cV (L : grid0.Coords) : Fin τ.nSC := (L 0).castLE hcore0
abbrev jV (L : grid0.Coords) : Fin τ.nSub := (L 1).castLE hsub0
/-- The vector subcore at grid coordinates `L` of device `d`. -/
abbrev thr (d : Dev nD) (L : grid0.Coords) : Thread nD τ := V d (cV L) (jV L)
abbrev sem (d : Dev nD) (L : grid0.Coords) (a : DmaSems sig S_) : GSem nD τ sig := (thr d L, .dma a.sem)

variable (d : Dev nD) (L : grid0.Coords)

def semList : List (DmaSem sig) :=
  [cc0_scratch6.sem, cc0_scratch7.sem, cc0_scratch8.sem, cc0_scratch9.sem, cc0_scratch10.sem, cc0_scratch11.sem, cc0_scratch12.sem, cc0_scratch13.sem]
def restCells : Finset (GSem nD τ sig) :=
  (semList.map fun a => ((thr d L, SemLoc.dma a) : GSem nD τ sig)).foldl Finset.erase (ownCells (thr d L))

/-- The subcore's own semaphores at zero: the eight its copies complete on, and the rest. -/
theorem ownSems0_V :
    (ownSems0 (thr d L) : sProp 𝕄)
      = iprop(semVal (sem d L cc0_scratch6) 0 ∗ semVal (sem d L cc0_scratch7) 0 ∗ semVal (sem d L cc0_scratch8) 0 ∗ semVal (sem d L cc0_scratch9) 0
          ∗ semVal (sem d L cc0_scratch10) 0 ∗ semVal (sem d L cc0_scratch11) 0 ∗ semVal (sem d L cc0_scratch12) 0 ∗ semVal (sem d L cc0_scratch13) 0
          ∗ bigSep (restCells d L) fun g => semVal g 0) := by
  unfold SparseCore.Cfg.ownSems0
  refine (bigSep_peel (fun g => (semVal g 0 : sProp 𝕄)) (semList.map fun a => ((thr d L, SemLoc.dma a) : GSem nD τ sig)) (ownCells (thr d L)) ?_ ?_).trans rfl
  · refine List.Nodup.map (fun a b e => ?_) (by decide +revert)
    injection e with _ e; injection e
  · intro g hg
    obtain ⟨a, ha, rfl⟩ := List.mem_map.mp hg
    have hsc : ∀ a ∈ semList, (SemLoc.dma a : SemLoc sig).isScoped .scVector = true := by decide
    exact mem_ownCells.mpr ⟨rfl, hsc a ha⟩

def refList : List (Ref sig .scVector) := [cc0_scratch0, cc0_scratch1, cc0_scratch2, cc0_scratch3, cc0_scratch4, cc0_scratch5]
def restRefs : Finset (DevRef τ sig) :=
  (refList.map fun b => (Proc.scVector (cV L) (jV L)).devRef b).foldl Finset.erase (ownRefs (τ := τ) (.scVector (cV L) (jV L)))

/-- The subcore's own buffers at some contents: the six scratch buffers, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ bigSep (restRefs L) fun b => iprop(∃ f, ((d, b) : Loc nD τ sig) ↦{fullShare} f)) := by
  unfold SparseCore.Cfg.ownBufs
  refine (bigSep_peel (fun b => (iprop(∃ f, ((d, b) : Loc nD τ sig) ↦{fullShare} f) : sProp 𝕄))
    (refList.map fun b => (Proc.scVector (cV L) (jV L)).devRef b) (ownRefs (τ := τ) (.scVector (cV L) (jV L))) ?_ ?_).trans rfl
  · have hnd : refList.Nodup := by decide
    exact List.Nodup.map (Proc.devRef_injective _) hnd
  · intro b hb
    obtain ⟨r, hr, rfl⟩ := List.mem_map.mp hb
    simp only [refList, List.mem_cons, List.mem_nil_iff, _root_.or_false] at hr
    rcases hr with rfl | rfl | rfl | rfl | rfl | rfl <;>
      exact SparseCore.Cfg.mem_ownRefs_of_owner (p := Proc.scVector (cV L) (jV L)) rfl

/-! ## A table buffer as its two halves -/

abbrev loR : Rect S200x128 := Rect.unit (s := S200x128) ![0, 0] S96x128.size inb_S200x128_S96x128_0_0
abbrev hiR : Rect S200x128 := Rect.unit (s := S200x128) ![96, 0] S104x128.size inb_S200x128_S104x128_96_0

theorem lo_hi_disjoint : Disjoint loR.set hiR.set := by
  refine Finset.disjoint_left.mpr fun i h1 h2 => ?_
  have a1 := (Rect.mem_set_unit.mp h1) 0
  have a2 := (Rect.mem_set_unit.mp h2) 0
  simp at a1 a2
  omega

theorem lo_hi_union : loR.set ∪ hiR.set = Finset.univ := by
  ext i
  simp only [Finset.mem_union, Finset.mem_univ, iff_true, Rect.mem_set_unit]
  have h0 : (i 0).val < 200 := (i 0).isLt
  have h1 : (i 1).val < 128 := (i 1).isLt
  by_cases h : (i 0).val < 96
  · left; intro a; match a with
    | ⟨0, _⟩ => exact ⟨Nat.zero_le _, by simpa using h⟩
    | ⟨1, _⟩ => exact ⟨Nat.zero_le _, by simpa using h1⟩
  · right; intro a; match a with
    | ⟨0, _⟩ => exact ⟨by simpa using Nat.le_of_not_lt h, by simp; omega⟩
    | ⟨1, _⟩ => exact ⟨Nat.zero_le _, by simpa using h1⟩

/-- The two halves of the first and of the second table buffer, as the program slices them. -/
abbrev inAlo : Memref sig .scVector .vmem S96x128 .f32 := (Memref.whole cc0_scratch0).slice loR (fun _ => rfl)
abbrev inAhi : Memref sig .scVector .vmem S104x128 .f32 := (Memref.whole cc0_scratch0).slice hiR (fun _ => rfl)
abbrev inBlo : Memref sig .scVector .vmem S96x128 .f32 := (Memref.whole cc0_scratch1).slice loR (fun _ => rfl)
abbrev inBhi : Memref sig .scVector .vmem S104x128 .f32 := (Memref.whole cc0_scratch1).slice hiR (fun _ => rfl)

theorem split_inA (f : Buf (Elt F) ((thr d L).loc cc0_scratch0)) :
    ((thr d L).loc cc0_scratch0 ↦{fullShare} f : sProp 𝕄)
      ⊣⊢ iprop((inAlo.view.loc (thr d L) ↦[inAlo.view.set]{fullShare} f) ∗ (inAhi.view.loc (thr d L) ↦[inAhi.view.set]{fullShare} f)) := by
  have e1 : inAlo.view.set = loR.set := View.set_slice_whole _ _
  have e2 : inAhi.view.set = hiR.set := View.set_slice_whole _ _
  rw [e1, e2]
  have h : ((thr d L).loc cc0_scratch0 ↦[loR.set ∪ hiR.set]{fullShare} f : sProp 𝕄) ⊣⊢ _ := pointsTo_union lo_hi_disjoint
  rw [lo_hi_union] at h
  exact h

theorem split_inB (f : Buf (Elt F) ((thr d L).loc cc0_scratch1)) :
    ((thr d L).loc cc0_scratch1 ↦{fullShare} f : sProp 𝕄)
      ⊣⊢ iprop((inBlo.view.loc (thr d L) ↦[inBlo.view.set]{fullShare} f) ∗ (inBhi.view.loc (thr d L) ↦[inBhi.view.set]{fullShare} f)) := by
  have e1 : inBlo.view.set = loR.set := View.set_slice_whole _ _
  have e2 : inBhi.view.set = hiR.set := View.set_slice_whole _ _
  rw [e1, e2]
  have h : ((thr d L).loc cc0_scratch1 ↦[loR.set ∪ hiR.set]{fullShare} f : sProp 𝕄) ⊣⊢ _ := pointsTo_union lo_hi_disjoint
  rw [lo_hi_union] at h
  exact h

/-! ## Read shares -/

section Shares
variable {ℓ : Loc nD τ sig} {I : Finset (Idx ℓ)} {f : Buf (Elt F) ℓ}

/-- What remains of a share after `k` read shares have been cut off it gives one more. -/
theorem tok_split (q : PosShare TreeShare) (k : ℕ) :
    (ℓ ↦[I]{Transfers.shareDrop q k} f : sProp 𝕄) ⊣⊢ iprop((ℓ ↦[I]{Transfers.shareDrop q (k + 1)} f) ∗ ℓ ↦[I]{Transfers.shareTokN q k} f) :=
  pointsTo_share (PosShare.mem_left_op_right _)

theorem tok_split0 (q : PosShare TreeShare) :
    (ℓ ↦[I]{q} f : sProp 𝕄) ⊣⊢ iprop((ℓ ↦[I]{Transfers.shareDrop q 1} f) ∗ ℓ ↦[I]{Transfers.shareTokN q 0} f) :=
  tok_split (F := F) q 0

/-- A share cut into four read shares and a remainder, and put back. -/
theorem toks4 (q : PosShare TreeShare) :
    (ℓ ↦[I]{q} f : sProp 𝕄) ⊣⊢ iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ ℓ ↦[I]{Transfers.shareTokN q 3} f) := by
  constructor
  · iintro H
    ihave H := (tok_split0 (F := F) q).1 $$ H; icases H with ⟨H, H0⟩
    ihave H := (tok_split (F := F) q 1).1 $$ H; icases H with ⟨H, H1⟩
    ihave H := (tok_split (F := F) q 2).1 $$ H; icases H with ⟨H, H2⟩
    ihave H := (tok_split (F := F) q 3).1 $$ H; icases H with ⟨H, H3⟩
    isplitl [H]; · iexact H
    isplitl [H0]; · iexact H0
    isplitl [H1]; · iexact H1
    isplitl [H2]; · iexact H2
    iexact H3
  · iintro ⟨H, H0, H1, H2, H3⟩
    ihave H := (tok_split (F := F) q 3).2 $$ [H H3]; · isplitl [H] <;> iassumption
    ihave H := (tok_split (F := F) q 2).2 $$ [H H2]; · isplitl [H] <;> iassumption
    ihave H := (tok_split (F := F) q 1).2 $$ [H H1]; · isplitl [H] <;> iassumption
    ihave H := (tok_split0 (F := F) q).2 $$ [H H0]; · isplitl [H] <;> iassumption
    iexact H

/-- A share cut into two read shares and a remainder, and put back. -/
theorem toks2 (q : PosShare TreeShare) :
    (ℓ ↦[I]{q} f : sProp 𝕄) ⊣⊢ iprop((ℓ ↦[I]{Transfers.shareDrop q 2} f) ∗ (ℓ ↦[I]{Transfers.shareTokN q 0} f) ∗ ℓ ↦[I]{Transfers.shareTokN q 1} f) := by
  constructor
  · iintro H
    ihave H := (tok_split0 (F := F) q).1 $$ H; icases H with ⟨H, H0⟩
    ihave H := (tok_split (F := F) q 1).1 $$ H; icases H with ⟨H, H1⟩
    isplitl [H]; · iexact H
    isplitl [H0]; · iexact H0
    iexact H1
  · iintro ⟨H, H0, H1⟩
    ihave H := (tok_split (F := F) q 1).2 $$ [H H1]; · isplitl [H] <;> iassumption
    ihave H := (tok_split0 (F := F) q).2 $$ [H H0]; · isplitl [H] <;> iassumption
    iexact H

/-- Elements lent out and the elements kept, at one share and one contents, are the whole again. -/
theorem rejoin (q : PosShare TreeShare) (J : Finset (Idx ℓ)) :
    iprop((ℓ ↦[J]{q} f) ∗ ℓ ↦[Finset.univ \ J]{q} f) ⊢ (ℓ ↦{q} f : sProp 𝕄) :=
  (pointsTo_split_subset (Finset.subset_univ J)).2

end Shares

end Cert.Proof.OnKernel

end
-- ==== Proof.OnKernel.Block.lean ====
/-
  What one batch's result block holds, as a function of the batch's table and index rows.

  With the table `tab : [200, 128]` and the index rows `ix : [50, 128]` of one batch in a subcore's memory, the
  result block is `blk[i, l] = tab[ix[i, l], l]`: for every index row `i` and lane `l`, the entry of the table in
  lane `l` of the row the index word names.
-/
import proofs.«216842_g32469952758108_cont_8to1_b_497_34_alg».proof.Proof.OnKernel.BodyLemmas

noncomputable section

namespace Cert.Proof.OnKernel

open Cert.Kernel Cert.Kernel.Gen
open Idealize.ShloMosaic Idealize.ShloMosaic.ValueIdx

variable {α : Type}

/-- The result block of one batch: entry `(i, l)` is the table's entry in lane `l` of row `ix[i, l]`. -/
def gatherBlock (tab : S200x128.Idx → α) (ix : S50x128.Idx → BitVec 32) : S50x128.Idx → α :=
  fun j => tab (ix2 (Cert.Spec.rowOf (ix j)) (j 1))

end Cert.Proof.OnKernel

end
-- ==== Proof.OnKernel.Landed.lean ====
/-
  What a landed copy holds, read at an index.

  A subcore's copies move whole rectangles: the rows 0–95 and 96–199 of batch `b`'s table `x[b]` into the two halves
  of a table buffer, the index rows `it[:, b, :]` into an index block, and a result block out to the column
  `ot[:, b, :]`. Each source or destination is a rectangle of the array with its unit axis dropped; an index of the
  smaller shape sits in the array at the rectangle's offsets, with `0` on the dropped axis. So each landed copy,
  read at an index, is the array read at the index the offsets name.
-/
import proofs.«216842_g32469952758108_cont_8to1_b_497_34_alg».proof.Proof.OnKernel.Block
import Idealize.ShloMosaic.Lib.Writes
import Idealize.ShloMosaic.Lib.Pipeline.Value

noncomputable section

namespace Cert.Proof.OnKernel

open Cert.Kernel Cert.Kernel.Gen
open Idealize.ShloMosaic Idealize.ShloMosaic.ValueIdx

variable {F : FTy → Type}

-- the kernel's memrefs, spelt as the body table passes them
local notation "xW" => (Memref.whole Cert.Kernel.main_arg0_scv : Memref Cert.Kernel.sig Kind.scVector Space.hbm Cert.Kernel.S1024x200x128 EltTy.f32)
local notation "tW" => (Memref.whole Cert.Kernel.main_v0_scv : Memref Cert.Kernel.sig Kind.scVector Space.hbm Cert.Kernel.S50x1024x128 EltTy.i32)
local notation "oW" => (Memref.whole Cert.Kernel.main_v1_scv : Memref Cert.Kernel.sig Kind.scVector Space.hbm Cert.Kernel.S50x1024x128 EltTy.f32)
local notation "ixA" => (Memref.whole Cert.Kernel.cc0_scratch2 : Memref Cert.Kernel.sig Kind.scVector Space.vmem Cert.Kernel.S50x128 EltTy.i32)
local notation "ixB" => (Memref.whole Cert.Kernel.cc0_scratch3 : Memref Cert.Kernel.sig Kind.scVector Space.vmem Cert.Kernel.S50x128 EltTy.i32)
local notation "ouA" => (Memref.whole Cert.Kernel.cc0_scratch4 : Memref Cert.Kernel.sig Kind.scVector Space.vmem Cert.Kernel.S50x128 EltTy.f32)
local notation "ouB" => (Memref.whole Cert.Kernel.cc0_scratch5 : Memref Cert.Kernel.sig Kind.scVector Space.vmem Cert.Kernel.S50x128 EltTy.f32)

/-! ## One batch of an array -/

/-- Batch `b`'s table: entry `(r, l)` is `x[b, r, l]`. -/
def tabOf {α : Type} (x : S1024x200x128.Idx → α) (b : Fin 1024) : S200x128.Idx → α := fun j => x (ix3 b (j 0) (j 1))
/-- Batch `b`'s index rows, or result rows: entry `(i, l)` is `it[i, b, l]`. -/
def colOf {α : Type} (it : S50x1024x128.Idx → α) (b : Fin 1024) : S50x128.Idx → α := fun j => it (ix3 (j 0) b (j 1))

/-! ## An index behind a dropped unit axis -/

/-- With the leading axis of size one dropped, index `(r, l)` is `(0, r, l)`: the two have the same row-major position. -/
theorem unsq_lead {n k : ℕ} (h : (⟨2, ![n, k]⟩ : Shape).numel = (⟨3, ![1, n, k]⟩ : Shape).numel) (y : (⟨2, ![n, k]⟩ : Shape).Idx) :
    Shape.reshapeEquiv h y = ix3 (n0 := 1) (n1 := n) (n2 := k) ⟨0, Nat.one_pos⟩ (y 0) (y 1) :=
  Shape.reshapeEquiv_eq_of_rowMajor h
    ((Shape.rowMajor_val_three (d := ![1, n, k]) _).trans
      ((show ((0 : ℕ) * n + (y 0).val) * k + (y 1).val = (y 0).val * k + (y 1).val by rw [Nat.zero_mul, Nat.zero_add]).trans
        (Shape.rowMajor_val_two (d := ![n, k]) y).symm))
/-- With the middle axis of size one dropped, index `(i, l)` is `(i, 0, l)`. -/
theorem unsq_mid {n k : ℕ} (h : (⟨2, ![n, k]⟩ : Shape).numel = (⟨3, ![n, 1, k]⟩ : Shape).numel) (y : (⟨2, ![n, k]⟩ : Shape).Idx) :
    Shape.reshapeEquiv h y = ix3 (n0 := n) (n1 := 1) (n2 := k) (y 0) ⟨0, Nat.one_pos⟩ (y 1) :=
  Shape.reshapeEquiv_eq_of_rowMajor h
    ((Shape.rowMajor_val_three (d := ![n, 1, k]) _).trans
      ((show ((y 0).val * 1 + 0) * k + (y 1).val = (y 0).val * k + (y 1).val by rw [Nat.mul_one, Nat.add_zero]).trans
        (Shape.rowMajor_val_two (d := ![n, k]) y).symm))

/-! ## The tables' rows, landed in a table buffer's halves -/

/-- Rows 0–95 of batch `b`'s table, read through the source of their copy. -/
theorem read_xLo (x : S1024x200x128.Idx → Elt F .f32) (b : Fin 1024) (off : Fin 3 → ℕ)
    (hin : ∀ a, off a + S1x96x128.size a ≤ S1024x200x128.size a) (hoff : off = ![b.val, 0, 0]) (y : S96x128.Idx) :
    (((xW).slice (Rect.unit (s := S1024x200x128) off S1x96x128.size hin) (fun _ => rfl)).squeeze S96x128 squeezes_S1x96x128_S96x128).view.read (Elt F) x y
      = x (ix3 b ⟨(y 0).val, by have := (y 0).isLt; simp at this; omega⟩ (y 1)) := by
  subst hoff
  show x _ = x _
  refine congrArg x (funext fun a => Fin.ext ?_)
  show (![b.val, 0, 0] : Fin 3 → ℕ) a + 1 * ((Shape.reshapeEquiv _ y : S1x96x128.Idx) a).val = _
  rw [unsq_lead]
  match a with
  | ⟨0, _⟩ => show b.val + 1 * 0 = b.val; omega
  | ⟨1, _⟩ => show 0 + 1 * (y 0).val = (y 0).val; omega
  | ⟨2, _⟩ => show 0 + 1 * (y 1).val = (y 1).val; omega

/-- Rows 96–199 of batch `b`'s table, read through the source of their copy. -/
theorem read_xHi (x : S1024x200x128.Idx → Elt F .f32) (b : Fin 1024) (off : Fin 3 → ℕ)
    (hin : ∀ a, off a + S1x104x128.size a ≤ S1024x200x128.size a) (hoff : off = ![b.val, 96, 0]) (y : S104x128.Idx) :
    (((xW).slice (Rect.unit (s := S1024x200x128) off S1x104x128.size hin) (fun _ => rfl)).squeeze S104x128 squeezes_S1x104x128_S104x128).view.read (Elt F) x y
      = x (ix3 b ⟨96 + (y 0).val, by have := (y 0).isLt; simp at this; omega⟩ (y 1)) := by
  subst hoff
  show x _ = x _
  refine congrArg x (funext fun a => Fin.ext ?_)
  show (![b.val, 96, 0] : Fin 3 → ℕ) a + 1 * ((Shape.reshapeEquiv _ y : S1x104x128.Idx) a).val = _
  rw [unsq_lead]
  match a with
  | ⟨0, _⟩ => show b.val + 1 * 0 = b.val; omega
  | ⟨1, _⟩ => show 96 + 1 * (y 0).val = 96 + (y 0).val; omega
  | ⟨2, _⟩ => show 0 + 1 * (y 1).val = (y 1).val; omega

/-- Rows 0–95 of batch `b`'s table, landed in the lower half of a table buffer: the half holds the table's rows. -/
theorem landed_Alo (x : S1024x200x128.Idx → Elt F .f32) (b : Fin 1024) (off : Fin 3 → ℕ)
    (hin : ∀ a, off a + S1x96x128.size a ≤ S1024x200x128.size a) (hoff : off = ![b.val, 0, 0]) (f0 : inAlo.view.ty.Contents (Elt F)) :
    ∀ i ∈ inAlo.view.set, inAlo.view.writes (Elt F) f0 [⟨Rect.whole S96x128, (((xW).slice (Rect.unit (s := S1024x200x128) off S1x96x128.size hin) (fun _ => rfl)).squeeze S96x128 squeezes_S1x96x128_S96x128).view.read (Elt F) x⟩] i = tabOf x b i := by
  intro i hi
  obtain ⟨y, -, rfl⟩ := Finset.mem_map.mp hi
  rw [View.writes_singleton]
  have e : inAlo.view.emb y = (inAlo.view.slice (Rect.whole S96x128)).emb y := by
    show _ = inAlo.view.emb ((Rect.whole S96x128).emb y); rw [Rect.emb_whole_apply]
  rw [e, View.write_emb_of_mem _ _ (Finset.mem_univ _), ← e]
  show (((xW).slice (Rect.unit (s := S1024x200x128) off S1x96x128.size hin) (fun _ => rfl)).squeeze S96x128 squeezes_S1x96x128_S96x128).view.read (Elt F) x y = tabOf x b _
  rw [read_xLo x b off hin hoff]
  unfold tabOf
  refine congrArg x (funext fun a => Fin.ext ?_)
  match a with
  | ⟨0, _⟩ => rfl
  | ⟨1, _⟩ => show (y 0).val = 0 + 1 * (y 0).val; omega
  | ⟨2, _⟩ => show (y 1).val = 0 + 1 * (y 1).val; omega

/-- Rows 96–199 of batch `b`'s table, landed in the upper half of a table buffer. -/
theorem landed_Ahi (x : S1024x200x128.Idx → Elt F .f32) (b : Fin 1024) (off : Fin 3 → ℕ)
    (hin : ∀ a, off a + S1x104x128.size a ≤ S1024x200x128.size a) (hoff : off = ![b.val, 96, 0]) (f0 : inAhi.view.ty.Contents (Elt F)) :
    ∀ i ∈ inAhi.view.set, inAhi.view.writes (Elt F) f0 [⟨Rect.whole S104x128, (((xW).slice (Rect.unit (s := S1024x200x128) off S1x104x128.size hin) (fun _ => rfl)).squeeze S104x128 squeezes_S1x104x128_S104x128).view.read (Elt F) x⟩] i = tabOf x b i := by
  intro i hi
  obtain ⟨y, -, rfl⟩ := Finset.mem_map.mp hi
  rw [View.writes_singleton]
  have e : inAhi.view.emb y = (inAhi.view.slice (Rect.whole S104x128)).emb y := by
    show _ = inAhi.view.emb ((Rect.whole S104x128).emb y); rw [Rect.emb_whole_apply]
  rw [e, View.write_emb_of_mem _ _ (Finset.mem_univ _), ← e]
  show (((xW).slice (Rect.unit (s := S1024x200x128) off S1x104x128.size hin) (fun _ => rfl)).squeeze S104x128 squeezes_S1x104x128_S104x128).view.read (Elt F) x y = tabOf x b _
  rw [read_xHi x b off hin hoff]
  unfold tabOf
  refine congrArg x (funext fun a => Fin.ext ?_)
  match a with
  | ⟨0, _⟩ => rfl
  | ⟨1, _⟩ => show 96 + (y 0).val = 96 + 1 * (y 0).val; omega
  | ⟨2, _⟩ => show (y 1).val = 0 + 1 * (y 1).val; omega

/-- Rows 0–95 of batch `b`'s table, landed in the lower half of a table buffer: the half holds the table's rows. -/
theorem landed_Blo (x : S1024x200x128.Idx → Elt F .f32) (b : Fin 1024) (off : Fin 3 → ℕ)
    (hin : ∀ a, off a + S1x96x128.size a ≤ S1024x200x128.size a) (hoff : off = ![b.val, 0, 0]) (f0 : inBlo.view.ty.Contents (Elt F)) :
    ∀ i ∈ inBlo.view.set, inBlo.view.writes (Elt F) f0 [⟨Rect.whole S96x128, (((xW).slice (Rect.unit (s := S1024x200x128) off S1x96x128.size hin) (fun _ => rfl)).squeeze S96x128 squeezes_S1x96x128_S96x128).view.read (Elt F) x⟩] i = tabOf x b i := by
  intro i hi
  obtain ⟨y, -, rfl⟩ := Finset.mem_map.mp hi
  rw [View.writes_singleton]
  have e : inBlo.view.emb y = (inBlo.view.slice (Rect.whole S96x128)).emb y := by
    show _ = inBlo.view.emb ((Rect.whole S96x128).emb y); rw [Rect.emb_whole_apply]
  rw [e, View.write_emb_of_mem _ _ (Finset.mem_univ _), ← e]
  show (((xW).slice (Rect.unit (s := S1024x200x128) off S1x96x128.size hin) (fun _ => rfl)).squeeze S96x128 squeezes_S1x96x128_S96x128).view.read (Elt F) x y = tabOf x b _
  rw [read_xLo x b off hin hoff]
  unfold tabOf
  refine congrArg x (funext fun a => Fin.ext ?_)
  match a with
  | ⟨0, _⟩ => rfl
  | ⟨1, _⟩ => show (y 0).val = 0 + 1 * (y 0).val; omega
  | ⟨2, _⟩ => show (y 1).val = 0 + 1 * (y 1).val; omega

/-- Rows 96–199 of batch `b`'s table, landed in the upper half of a table buffer. -/
theorem landed_Bhi (x : S1024x200x128.Idx → Elt F .f32) (b : Fin 1024) (off : Fin 3 → ℕ)
    (hin : ∀ a, off a + S1x104x128.size a ≤ S1024x200x128.size a) (hoff : off = ![b.val, 96, 0]) (f0 : inBhi.view.ty.Contents (Elt F)) :
    ∀ i ∈ inBhi.view.set, inBhi.view.writes (Elt F) f0 [⟨Rect.whole S104x128, (((xW).slice (Rect.unit (s := S1024x200x128) off S1x104x128.size hin) (fun _ => rfl)).squeeze S104x128 squeezes_S1x104x128_S104x128).view.read (Elt F) x⟩] i = tabOf x b i := by
  intro i hi
  obtain ⟨y, -, rfl⟩ := Finset.mem_map.mp hi
  rw [View.writes_singleton]
  have e : inBhi.view.emb y = (inBhi.view.slice (Rect.whole S104x128)).emb y := by
    show _ = inBhi.view.emb ((Rect.whole S104x128).emb y); rw [Rect.emb_whole_apply]
  rw [e, View.write_emb_of_mem _ _ (Finset.mem_univ _), ← e]
  show (((xW).slice (Rect.unit (s := S1024x200x128) off S1x104x128.size hin) (fun _ => rfl)).squeeze S104x128 squeezes_S1x104x128_S104x128).view.read (Elt F) x y = tabOf x b _
  rw [read_xHi x b off hin hoff]
  unfold tabOf
  refine congrArg x (funext fun a => Fin.ext ?_)
  match a with
  | ⟨0, _⟩ => rfl
  | ⟨1, _⟩ => show 96 + (y 0).val = 96 + 1 * (y 0).val; omega
  | ⟨2, _⟩ => show (y 1).val = 0 + 1 * (y 1).val; omega

/-! ## The index rows, landed in an index block -/

/-- The index rows of batch `b`, read through the source of their copy. -/
theorem read_tCol (it : S50x1024x128.Idx → BitVec 32) (b : Fin 1024) (off : Fin 3 → ℕ)
    (hin : ∀ a, off a + S50x1x128.size a ≤ S50x1024x128.size a) (hoff : off = ![0, b.val, 0]) :
    (((tW).slice (Rect.unit (s := S50x1024x128) off S50x1x128.size hin) (fun _ => rfl)).squeeze S50x128 squeezes_S50x1x128_S50x128).view.read (Elt F) it = colOf it b := by
  subst hoff
  funext y
  show it _ = it _
  refine congrArg it (funext fun a => Fin.ext ?_)
  show (![0, b.val, 0] : Fin 3 → ℕ) a + 1 * ((Shape.reshapeEquiv _ y : S50x1x128.Idx) a).val = _
  rw [unsq_mid]
  match a with
  | ⟨0, _⟩ => show 0 + 1 * (y 0).val = (y 0).val; omega
  | ⟨1, _⟩ => show b.val + 1 * 0 = b.val; omega
  | ⟨2, _⟩ => show 0 + 1 * (y 1).val = (y 1).val; omega

/-- The index rows of batch `b`, landed in the first index block: the block holds them. -/
theorem landed_ixA (it : S50x1024x128.Idx → BitVec 32) (b : Fin 1024) (off : Fin 3 → ℕ)
    (hin : ∀ a, off a + S50x1x128.size a ≤ S50x1024x128.size a) (hoff : off = ![0, b.val, 0]) (f2 : (ixA).view.ty.Contents (Elt F)) :
    View.write (Elt F) (ixA).view f2 ((((tW).slice (Rect.unit (s := S50x1024x128) off S50x1x128.size hin) (fun _ => rfl)).squeeze S50x128 squeezes_S50x1x128_S50x128).view.read (Elt F) it) Finset.univ = colOf it b := by
  rw [read_tCol (F := F) it b off hin hoff]
  exact View.write_whole_univ _ f2 (colOf it b)
/-- The same for the second index block. -/
theorem landed_ixB (it : S50x1024x128.Idx → BitVec 32) (b : Fin 1024) (off : Fin 3 → ℕ)
    (hin : ∀ a, off a + S50x1x128.size a ≤ S50x1024x128.size a) (hoff : off = ![0, b.val, 0]) (f3 : (ixB).view.ty.Contents (Elt F)) :
    View.write (Elt F) (ixB).view f3 ((((tW).slice (Rect.unit (s := S50x1024x128) off S50x1x128.size hin) (fun _ => rfl)).squeeze S50x128 squeezes_S50x1x128_S50x128).view.read (Elt F) it) Finset.univ = colOf it b := by
  rw [read_tCol (F := F) it b off hin hoff]
  exact View.write_whole_univ _ f3 (colOf it b)

/-! ## A result block, landed in its column of the result array -/

/-- The destination of a result block's copy is column `b` of the result array. -/
theorem oDst_set (b : Fin 1024) (off : Fin 3 → ℕ)
    (hin : ∀ a, off a + S50x1x128.size a ≤ S50x1024x128.size a) (hoff : off = ![0, b.val, 0]) :
    (((oW).slice (Rect.unit (s := S50x1024x128) off S50x1x128.size hin) (fun _ => rfl)).squeeze S50x128 squeezes_S50x1x128_S50x128).view.set = colSet b.val := by
  subst hoff
  rw [show colSet b.val = (Rect.part (s := S50x1024x128) (a₀ := 1) hdivB b).set from by unfold colSet; rw [dif_pos b.isLt]]
  refine ((View.set_reshape _ _).trans (View.set_slice_whole _ _)).trans ?_
  ext i
  rw [Rect.mem_set_unit, Rect.mem_set_unit]
  refine forall_congr' fun a => ?_
  match a with
  | ⟨0, _⟩ => exact Iff.of_eq (by simp [Shape.partIx, Shape.partSize])
  | ⟨1, _⟩ => exact Iff.of_eq (by simp [Shape.partIx, Shape.partSize])
  | ⟨2, _⟩ => exact Iff.of_eq (by simp [Shape.partIx, Shape.partSize])

/-- Where an index of a result block sits in the result array: `(i, l)` at `(i, b, l)`. -/
theorem oDst_emb (b : Fin 1024) (off : Fin 3 → ℕ)
    (hin : ∀ a, off a + S50x1x128.size a ≤ S50x1024x128.size a) (hoff : off = ![0, b.val, 0]) (y : S50x128.Idx) :
    (((oW).slice (Rect.unit (s := S50x1024x128) off S50x1x128.size hin) (fun _ => rfl)).squeeze S50x128 squeezes_S50x1x128_S50x128).view.emb y = ix3 (y 0) b (y 1) := by
  subst hoff
  refine funext fun a => Fin.ext ?_
  show (![0, b.val, 0] : Fin 3 → ℕ) a + 1 * ((Shape.reshapeEquiv _ y : S50x1x128.Idx) a).val = _
  rw [unsq_mid]
  match a with
  | ⟨0, _⟩ => show 0 + 1 * (y 0).val = (y 0).val; omega
  | ⟨1, _⟩ => show b.val + 1 * 0 = b.val; omega
  | ⟨2, _⟩ => show 0 + 1 * (y 1).val = (y 1).val; omega

/-- A result block written through the destination of its copy: entry `(i, b, l)` of the array is entry `(i, l)` of the block. -/
theorem landed_out_write (b : Fin 1024) (off : Fin 3 → ℕ)
    (hin : ∀ a, off a + S50x1x128.size a ≤ S50x1024x128.size a) (hoff : off = ![0, b.val, 0])
    (fd : (((oW).slice (Rect.unit (s := S50x1024x128) off S50x1x128.size hin) (fun _ => rfl)).squeeze S50x128 squeezes_S50x1x128_S50x128).view.ty.Contents (Elt F)) (blk : S50x128.Idx → Elt F .f32) :
    ∀ i ∈ (((oW).slice (Rect.unit (s := S50x1024x128) off S50x1x128.size hin) (fun _ => rfl)).squeeze S50x128 squeezes_S50x1x128_S50x128).view.set, ((((oW).slice (Rect.unit (s := S50x1024x128) off S50x1x128.size hin) (fun _ => rfl)).squeeze S50x128 squeezes_S50x1x128_S50x128).view.write (Elt F) fd blk Finset.univ) i = blk (ix2 (i 0) (i 2)) := by
  intro i hi
  obtain ⟨y, -, rfl⟩ := Finset.mem_map.mp hi
  rw [View.write_emb_of_mem _ _ (Finset.mem_univ _)]
  show blk y = _
  rw [oDst_emb b off hin hoff y]
  exact congrArg blk (eq_ix2 y)

/-- The same, the write recorded as a list of one piece. -/
theorem landed_out_writes (b : Fin 1024) (off : Fin 3 → ℕ)
    (hin : ∀ a, off a + S50x1x128.size a ≤ S50x1024x128.size a) (hoff : off = ![0, b.val, 0])
    (fd : (((oW).slice (Rect.unit (s := S50x1024x128) off S50x1x128.size hin) (fun _ => rfl)).squeeze S50x128 squeezes_S50x1x128_S50x128).view.ty.Contents (Elt F)) (blk : S50x128.Idx → Elt F .f32) :
    ∀ i ∈ (((oW).slice (Rect.unit (s := S50x1024x128) off S50x1x128.size hin) (fun _ => rfl)).squeeze S50x128 squeezes_S50x1x128_S50x128).view.set, ((((oW).slice (Rect.unit (s := S50x1024x128) off S50x1x128.size hin) (fun _ => rfl)).squeeze S50x128 squeezes_S50x1x128_S50x128).view.writes (Elt F) fd [⟨Rect.whole S50x128, blk⟩]) i = blk (ix2 (i 0) (i 2)) := by
  intro i hi
  obtain ⟨y, -, rfl⟩ := Finset.mem_map.mp hi
  rw [View.writes_singleton]
  have e : (((oW).slice (Rect.unit (s := S50x1024x128) off S50x1x128.size hin) (fun _ => rfl)).squeeze S50x128 squeezes_S50x1x128_S50x128).view.emb y = ((((oW).slice (Rect.unit (s := S50x1024x128) off S50x1x128.size hin) (fun _ => rfl)).squeeze S50x128 squeezes_S50x1x128_S50x128).view.slice (Rect.whole S50x128)).emb y := by
    show _ = (((oW).slice (Rect.unit (s := S50x1024x128) off S50x1x128.size hin) (fun _ => rfl)).squeeze S50x128 squeezes_S50x1x128_S50x128).view.emb ((Rect.whole S50x128).emb y); rw [Rect.emb_whole_apply]
  rw [e, View.write_emb_of_mem _ _ (Finset.mem_univ _), ← e]
  show blk y = _
  rw [oDst_emb b off hin hoff y]
  exact congrArg blk (eq_ix2 y)

/-- The gathered block of batch `b`, read at the block index under an entry of column `b`, is the gather at that entry. -/
theorem gatherBlock_col (x : S1024x200x128.Idx → Elt F .f32) (it : S50x1024x128.Idx → BitVec 32) (b : Fin 1024)
    (i : S50x1024x128.Idx) (hi : i ∈ colSet b.val) :
    gatherBlock (tabOf x b) (colOf it b) (ix2 (i 0) (i 2)) = Cert.Spec.gatherT x it i := by
  have hb : i 1 = b := by
    have h := hi
    rw [show colSet b.val = (Rect.part (s := S50x1024x128) (a₀ := 1) hdivB b).set from by unfold colSet; rw [dif_pos b.isLt]] at h
    have h1 := (Rect.mem_set_unit.mp h) 1
    simp [Shape.partIx, Shape.partSize] at h1
    exact Fin.ext (by omega)
  obtain ⟨a, c, l, rfl⟩ : ∃ (a : Fin 50) (c : Fin 1024) (l : Fin 128), i = ix3 a c l := ⟨i 0, i 1, i 2, eq_ix3 i⟩
  have hc : c = b := hb
  subst hc
  rfl

/-- So the gathered block of batch `b`, landed in its column, leaves the gather there. -/
theorem landed_col_write (x : S1024x200x128.Idx → Elt F .f32) (it : S50x1024x128.Idx → BitVec 32) (b : Fin 1024) (off : Fin 3 → ℕ)
    (hin : ∀ a, off a + S50x1x128.size a ≤ S50x1024x128.size a) (hoff : off = ![0, b.val, 0])
    (fd : (((oW).slice (Rect.unit (s := S50x1024x128) off S50x1x128.size hin) (fun _ => rfl)).squeeze S50x128 squeezes_S50x1x128_S50x128).view.ty.Contents (Elt F)) (blk : S50x128.Idx → Elt F .f32) (hblk : blk = gatherBlock (tabOf x b) (colOf it b)) :
    ∀ i ∈ colSet b.val, ((((oW).slice (Rect.unit (s := S50x1024x128) off S50x1x128.size hin) (fun _ => rfl)).squeeze S50x128 squeezes_S50x1x128_S50x128).view.write (Elt F) fd blk Finset.univ) i = Cert.Spec.gatherT x it i := by
  intro i hi
  rw [landed_out_write b off hin hoff fd blk i (by rw [oDst_set b off hin hoff]; exact hi), hblk]
  exact gatherBlock_col x it b i hi
theorem landed_col_writes (x : S1024x200x128.Idx → Elt F .f32) (it : S50x1024x128.Idx → BitVec 32) (b : Fin 1024) (off : Fin 3 → ℕ)
    (hin : ∀ a, off a + S50x1x128.size a ≤ S50x1024x128.size a) (hoff : off = ![0, b.val, 0])
    (fd : (((oW).slice (Rect.unit (s := S50x1024x128) off S50x1x128.size hin) (fun _ => rfl)).squeeze S50x128 squeezes_S50x1x128_S50x128).view.ty.Contents (Elt F)) (blk : S50x128.Idx → Elt F .f32) (hblk : blk = gatherBlock (tabOf x b) (colOf it b)) :
    ∀ i ∈ colSet b.val, ((((oW).slice (Rect.unit (s := S50x1024x128) off S50x1x128.size hin) (fun _ => rfl)).squeeze S50x128 squeezes_S50x1x128_S50x128).view.writes (Elt F) fd [⟨Rect.whole S50x128, blk⟩]) i = Cert.Spec.gatherT x it i := by
  intro i hi
  rw [landed_out_writes b off hin hoff fd blk i (by rw [oDst_set b off hin hoff]; exact hi), hblk]
  exact gatherBlock_col x it b i hi

/-! ## A subcore's own blocks read whole -/

theorem read_ixA (f : (ixA).view.ty.Contents (Elt F)) : (ixA).view.read (Elt F) f = f := rfl
theorem read_ixB (f : (ixB).view.ty.Contents (Elt F)) : (ixB).view.read (Elt F) f = f := rfl
theorem read_ouA (f : (ouA).view.ty.Contents (Elt F)) : (ouA).view.read (Elt F) f = f := rfl
theorem read_ouB (f : (ouB).view.ty.Contents (Elt F)) : (ouB).view.read (Elt F) f = f := rfl

end Cert.Proof.OnKernel

end
-- ==== Proof.OnKernel.Cols.lean ====
/-
  A subcore's 32 batch numbers, cut by how far its pairs of batches have progressed.

  A subcore handles its batches two at a time. At pair `k` the batches `2 k` and above are still to be started, and the
  batches below `2 k - 2` are finished (the two before `2 k` are still on their way out). A separating conjunction over
  the batches still to do gives up its first two when a pair starts; the one over the finished batches takes in two more
  when a pair ends.
-/
import proofs.«216842_g32469952758108_cont_8to1_b_497_34_alg».proof.Proof.OnKernel.Common

noncomputable section

namespace Cert.Proof.OnKernel

open Idealize.SL Idealize.SL.RA Idealize.SL.BI
open scoped Idealize.SL.BI
open Idealize.SL.BI.BIBase Idealize.SL.BI.Laws Idealize.SL.ProofMode

variable {M : Type} [URA M] (Φ : Fin 32 → sProp M)

/-- The batches from `2 k` on are `2 k`, `2 k + 1`, and those from `2 (k + 1)` on. -/
theorem todo_step (k : ℕ) (hk : k < 16) :
    bigSep (Finset.univ.filter fun j : Fin 32 => 2 * k ≤ j.val) Φ
      = iprop(Φ ⟨2 * k, by omega⟩ ∗ Φ ⟨2 * k + 1, by omega⟩ ∗ bigSep (Finset.univ.filter fun j : Fin 32 => 2 * (k + 1) ≤ j.val) Φ) := by
  have e : (Finset.univ.filter fun j : Fin 32 => 2 * k ≤ j.val)
      = insert (⟨2 * k, by omega⟩ : Fin 32) (insert (⟨2 * k + 1, by omega⟩ : Fin 32) (Finset.univ.filter fun j : Fin 32 => 2 * (k + 1) ≤ j.val)) := by
    ext j
    simp only [Finset.mem_filter, Finset.mem_univ, _root_.true_and, Finset.mem_insert, Fin.ext_iff]
    omega
  rw [e, bigSep_insert (by simp only [Finset.mem_filter, Finset.mem_univ, _root_.true_and, Finset.mem_insert, Fin.ext_iff]; omega),
    bigSep_insert (by simp only [Finset.mem_filter, Finset.mem_univ, _root_.true_and]; omega)]
  rfl

/-- The batches finished by pair `k + 1` are those finished by pair `k`, and `2 k - 2` and `2 k - 1`. -/
theorem done_step (k : ℕ) (hk0 : 0 < k) (hk : k < 16) :
    bigSep (Finset.univ.filter fun j : Fin 32 => j.val + 2 < 2 * (k + 1)) Φ
      = iprop(bigSep (Finset.univ.filter fun j : Fin 32 => j.val + 2 < 2 * k) Φ ∗ Φ ⟨2 * k - 2, by omega⟩ ∗ Φ ⟨2 * k - 1, by omega⟩) := by
  have e : (Finset.univ.filter fun j : Fin 32 => j.val + 2 < 2 * (k + 1))
      = (Finset.univ.filter fun j : Fin 32 => j.val + 2 < 2 * k) ∪ insert (⟨2 * k - 2, by omega⟩ : Fin 32) {(⟨2 * k - 1, by omega⟩ : Fin 32)} := by
    ext j
    simp only [Finset.mem_filter, Finset.mem_univ, _root_.true_and, Finset.mem_union, Finset.mem_insert, Finset.mem_singleton, Fin.ext_iff]
    omega
  have hd : Disjoint (Finset.univ.filter fun j : Fin 32 => j.val + 2 < 2 * k) (insert (⟨2 * k - 2, by omega⟩ : Fin 32) {(⟨2 * k - 1, by omega⟩ : Fin 32)}) := by
    refine Finset.disjoint_left.mpr fun j h1 h2 => ?_
    simp only [Finset.mem_filter, Finset.mem_univ, _root_.true_and] at h1
    simp only [Finset.mem_insert, Finset.mem_singleton, Fin.ext_iff] at h2
    omega
  rw [e, bigSep_union hd, bigSep_insert (by simp only [Finset.mem_singleton, Fin.ext_iff]; omega), bigSep_singleton]
  rfl

/-- Before the first pair, and before the second, no batch is finished. -/
theorem done_zero : bigSep (Finset.univ.filter fun j : Fin 32 => j.val + 2 < 2 * 0) Φ = iprop(emp) := by
  rw [show (Finset.univ.filter fun j : Fin 32 => j.val + 2 < 2 * 0) = ∅ from Finset.filter_false_of_mem fun j _ => by omega]
  rfl
theorem done_one : bigSep (Finset.univ.filter fun j : Fin 32 => j.val + 2 < 2 * (0 + 1)) Φ = iprop(emp) := by
  rw [show (Finset.univ.filter fun j : Fin 32 => j.val + 2 < 2 * (0 + 1)) = ∅ from Finset.filter_false_of_mem fun j _ => by omega]
  rfl

/-- Before the first pair every batch is still to do. -/
theorem todo_zero : bigSep (Finset.univ.filter fun j : Fin 32 => 2 * 0 ≤ j.val) Φ = bigSep Finset.univ Φ := by
  rw [show (Finset.univ.filter fun j : Fin 32 => 2 * 0 ≤ j.val) = Finset.univ from Finset.filter_true_of_mem fun j _ => by omega]

/-- After the last pair none is. -/
theorem todo_end : bigSep (Finset.univ.filter fun j : Fin 32 => 2 * 16 ≤ j.val) Φ = iprop(emp) := by
  rw [show (Finset.univ.filter fun j : Fin 32 => 2 * 16 ≤ j.val) = ∅ from Finset.filter_false_of_mem fun j _ => by have := j.isLt; omega]
  rfl

/-- All 32 batches are those finished by the last pair's start, and the last two. -/
theorem done_end :
    bigSep Finset.univ Φ = iprop(bigSep (Finset.univ.filter fun j : Fin 32 => j.val + 2 < 2 * 16) Φ ∗ Φ ⟨30, by omega⟩ ∗ Φ ⟨31, by omega⟩) := by
  have e : (Finset.univ : Finset (Fin 32))
      = (Finset.univ.filter fun j : Fin 32 => j.val + 2 < 2 * 16) ∪ insert (⟨30, by omega⟩ : Fin 32) {(⟨31, by omega⟩ : Fin 32)} := by
    ext j
    have hj := j.isLt
    constructor
    · intro _
      by_cases h : j.val + 2 < 2 * 16
      · exact Finset.mem_union_left _ (Finset.mem_filter.mpr ⟨Finset.mem_univ j, h⟩)
      · refine Finset.mem_union_right _ ?_
        simp only [Finset.mem_insert, Finset.mem_singleton, Fin.ext_iff]
        omega
    · intro _; exact Finset.mem_univ j
  have hd : Disjoint (Finset.univ.filter fun j : Fin 32 => j.val + 2 < 2 * 16) (insert (⟨30, by omega⟩ : Fin 32) {(⟨31, by omega⟩ : Fin 32)}) := by
    refine Finset.disjoint_left.mpr fun j h1 h2 => ?_
    simp only [Finset.mem_filter, Finset.mem_univ, _root_.true_and] at h1
    simp only [Finset.mem_insert, Finset.mem_singleton, Fin.ext_iff] at h2
    omega
  conv_lhs => rw [e]
  rw [bigSep_union hd, bigSep_insert (by simp only [Finset.mem_singleton, Fin.ext_iff]; omega), bigSep_singleton]
  rfl

end Cert.Proof.OnKernel

end
-- ==== Proof.OnKernel.Inv.lean ====
/-
  The state of one vector subcore between two pairs of batches.

  A subcore works through its 32 batches two at a time, one in each of two buffer slots, and keeps copies under way
  across the pairs: while it computes on one slot the next batch's table and index rows are arriving in the other, and
  the finished result rows of the previous two batches are still leaving. The invariant below says, before pair `k`,
  which copies are under way and what each will deliver, stated over the arrays' contents: batch `b`'s table is
  `x[b]`, its index rows are `it[:, b, :]`, and a finished column of the result holds the expected gather.
-/
import proofs.«216842_g32469952758108_cont_8to1_b_497_34_alg».proof.Proof.OnKernel.Landed
import proofs.«216842_g32469952758108_cont_8to1_b_497_34_alg».proof.Proof.OnKernel.Cols
import proofs.«216842_g32469952758108_cont_8to1_b_497_34_alg».proof.Proof.Gen.Kernel.Skeleton

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.Kernel.main_arg0_scv : Memref Cert.Kernel.sig Kind.scVector Space.hbm Cert.Kernel.S1024x200x128 EltTy.f32)
local notation "tW" => (Memref.whole Cert.Kernel.main_v0_scv : Memref Cert.Kernel.sig Kind.scVector Space.hbm Cert.Kernel.S50x1024x128 EltTy.i32)
local notation "oW" => (Memref.whole Cert.Kernel.main_v1_scv : Memref Cert.Kernel.sig Kind.scVector Space.hbm Cert.Kernel.S50x1024x128 EltTy.f32)
local notation "inA" => (Memref.whole Cert.Kernel.cc0_scratch0 : Memref Cert.Kernel.sig Kind.scVector Space.vmem Cert.Kernel.S200x128 EltTy.f32)
local notation "inB" => (Memref.whole Cert.Kernel.cc0_scratch1 : Memref Cert.Kernel.sig Kind.scVector Space.vmem Cert.Kernel.S200x128 EltTy.f32)
local notation "ixA" => (Memref.whole Cert.Kernel.cc0_scratch2 : Memref Cert.Kernel.sig Kind.scVector Space.vmem Cert.Kernel.S50x128 EltTy.i32)
local notation "ixB" => (Memref.whole Cert.Kernel.cc0_scratch3 : Memref Cert.Kernel.sig Kind.scVector Space.vmem Cert.Kernel.S50x128 EltTy.i32)
local notation "ouA" => (Memref.whole Cert.Kernel.cc0_scratch4 : Memref Cert.Kernel.sig Kind.scVector Space.vmem Cert.Kernel.S50x128 EltTy.f32)
local notation "ouB" => (Memref.whole Cert.Kernel.cc0_scratch5 : Memref Cert.Kernel.sig Kind.scVector Space.vmem Cert.Kernel.S50x128 EltTy.f32)

variable [FloatOps F]

section Tile
variable (d : Dev nD) (L : grid0.Coords)
omit [FloatOps F] in
theorem pts_x (q : PosShare TreeShare) (f : Buf (Elt F) (xLoc d)) : ((xW).view.loc (thr d L) ↦{q} f : sProp 𝕄) = xLoc d ↦{q} f := by
  simp only [Memref.view_whole, View.set_whole]
omit [FloatOps F] in
theorem pts_t (q : PosShare TreeShare) (f : Buf (Elt F) (tLoc d)) : ((tW).view.loc (thr d L) ↦{q} f : sProp 𝕄) = tLoc d ↦{q} f := by
  simp only [Memref.view_whole, View.set_whole]

omit [FloatOps F] in
theorem pts_ixA (f : Buf (Elt F) ((thr d L).loc cc0_scratch2)) : ((ixA).view.loc (thr d L) ↦{fullShare} f : sProp 𝕄) = (thr d L).loc cc0_scratch2 ↦{fullShare} f := rfl
omit [FloatOps F] in
theorem pts_ixB (f : Buf (Elt F) ((thr d L).loc cc0_scratch3)) : ((ixB).view.loc (thr d L) ↦{fullShare} f : sProp 𝕄) = (thr d L).loc cc0_scratch3 ↦{fullShare} f := rfl
omit [FloatOps F] in
theorem pts_ouA (f : Buf (Elt F) ((thr d L).loc cc0_scratch4)) : ((ouA).view.loc (thr d L) ↦{fullShare} f : sProp 𝕄) = (thr d L).loc cc0_scratch4 ↦{fullShare} f := rfl
omit [FloatOps F] in
theorem pts_ouB (f : Buf (Elt F) ((thr d L).loc cc0_scratch5)) : ((ouB).view.loc (thr d L) ↦{fullShare} f : sProp 𝕄) = (thr d L).loc cc0_scratch5 ↦{fullShare} f := rfl

omit [FloatOps F] in
theorem pts_inB (f : Buf (Elt F) ((thr d L).loc cc0_scratch1)) : ((inB).view.loc (thr d L) ↦{fullShare} f : sProp 𝕄) = (thr d L).loc cc0_scratch1 ↦{fullShare} f := rfl
omit [FloatOps F] in
theorem pts_inA (f : Buf (Elt F) ((thr d L).loc cc0_scratch0)) : ((inA).view.loc (thr d L) ↦{fullShare} f : sProp 𝕄) = (thr d L).loc cc0_scratch0 ↦{fullShare} f := rfl

/-- The share of the read-only arrays this subcore holds, and its `i`-th read share. -/
abbrev q0 (L : grid0.Coords) : PosShare TreeShare := tileShare (L 0).val (L 1).val
abbrev rtok (L : grid0.Coords) (i : ℕ) : PosShare TreeShare := Transfers.shareTokN (q0 L) i
/-- The subcore's `k`-th batch. -/
def bOf (L : grid0.Coords) (k : ℕ) : Fin 1024 := ⟨batchOf (L 0).val (L 1).val k % 1024, Nat.mod_lt _ (by decide)⟩

/-- A copy out of the tables under way on semaphore `sm`: it delivers `Dst` and the elements it borrowed of read share
    `i`; the other elements of that share are kept beside it. -/
def XFlight (sm : DmaSems sig S_) (N : ℕ) (i : ℕ) (Dst : sProp 𝕄) : sProp 𝕄 :=
  iprop(∃ S : Finset (Idx ((xW).view.loc (thr d L))),
    Transfers.Flight countersEmb (thr d L) (SemLoc.dma sm.sem) (default : HIx 1) N
        iprop(Dst ∗ ((xW).view.loc (thr d L) ↦[S]{rtok L i} m (xLoc d)))
      ∗ ((xW).view.loc (thr d L) ↦[Finset.univ \ S]{rtok L i} m (xLoc d)))
/-- The same out of the index array. -/
def TFlight (sm : DmaSems sig S_) (i : ℕ) (Dst : sProp 𝕄) : sProp 𝕄 :=
  iprop(∃ S : Finset (Idx ((tW).view.loc (thr d L))),
    Transfers.Flight countersEmb (thr d L) (SemLoc.dma sm.sem) (default : HIx 1) 204800
        iprop(Dst ∗ ((tW).view.loc (thr d L) ↦[S]{rtok L i} itOf m d))
      ∗ ((tW).view.loc (thr d L) ↦[Finset.univ \ S]{rtok L i} itOf m d))

/-- Before pair `k` of the subcore's batches (batches `2k` and `2k + 1`): the copies that bring batch `2k` into the
    first slot are under way (unless all sixteen pairs are done), the second slot is idle, the result rows of batches
    `2k - 2` and `2k - 1` are on their way out (unless `k = 0`), the columns of earlier batches are written and those of
    batch `2k` onward are not yet. -/
def inv (O : CellTallies nD τ sig (HIx 1)) (W : Waits sig (HIx 1)) (k : ℕ) (_ : PUnit) : sProp 𝕄 :=
  iprop(Transfers.MayWaits (thr d L) (none : HIx 1) O
    ∗ (if k < 16 then
        iprop(XFlight m d L cc0_scratch6 393216 0 (inAlo.view.loc (thr d L) ↦[inAlo.view.set]{fullShare} tabOf (m (xLoc d)) (bOf L (2 * k)))
          ∗ XFlight m d L cc0_scratch8 425984 2 (inAhi.view.loc (thr d L) ↦[inAhi.view.set]{fullShare} tabOf (m (xLoc d)) (bOf L (2 * k)))
          ∗ TFlight m d L cc0_scratch10 4 ((ixA).view.loc (thr d L) ↦{fullShare} colOf (itOf m d) (bOf L (2 * k))))
      else
        iprop((∃ f, inAlo.view.loc (thr d L) ↦[inAlo.view.set]{fullShare} f) ∗ (∃ f, inAhi.view.loc (thr d L) ↦[inAhi.view.set]{fullShare} f)
          ∗ (∃ f, (ixA).view.loc (thr d L) ↦{fullShare} f)
          ∗ ((xW).view.loc (thr d L) ↦{rtok L 0} m (xLoc d)) ∗ ((xW).view.loc (thr d L) ↦{rtok L 2} m (xLoc d))
          ∗ ((tW).view.loc (thr d L) ↦{rtok L 4} itOf m d)
          ∗ semVal (sem d L cc0_scratch6) 0 ∗ semVal (sem d L cc0_scratch8) 0 ∗ semVal (sem d L cc0_scratch10) 0))
    ∗ ((∃ f, inBlo.view.loc (thr d L) ↦[inBlo.view.set]{fullShare} f) ∗ (∃ f, inBhi.view.loc (thr d L) ↦[inBhi.view.set]{fullShare} f)
        ∗ (∃ f, (ixB).view.loc (thr d L) ↦{fullShare} f)
        ∗ ((xW).view.loc (thr d L) ↦{rtok L 1} m (xLoc d)) ∗ ((xW).view.loc (thr d L) ↦{rtok L 3} m (xLoc d))
        ∗ ((tW).view.loc (thr d L) ↦{rtok L 5} itOf m d)
        ∗ semVal (sem d L cc0_scratch7) 0 ∗ semVal (sem d L cc0_scratch9) 0 ∗ semVal (sem d L cc0_scratch11) 0)
    ∗ (if k = 0 then
        iprop((∃ f, (ouA).view.loc (thr d L) ↦{fullShare} f) ∗ (∃ f, (ouB).view.loc (thr d L) ↦{fullShare} f)
          ∗ semVal (sem d L cc0_scratch12) 0 ∗ semVal (sem d L cc0_scratch13) 0)
      else
        iprop((∃ fo, Transfers.Flight countersEmb (thr d L) (SemLoc.dma cc0_scratch12.sem) (default : HIx 1) 204800
            iprop(oCol d (bOf L (2 * k - 2)).val (otOf m d) ∗ ((ouA).view.loc (thr d L) ↦{fullShare} fo)))
          ∗ (∃ fo, Transfers.Flight countersEmb (thr d L) (SemLoc.dma cc0_scratch13.sem) (default : HIx 1) 204800
            iprop(oCol d (bOf L (2 * k - 1)).val (otOf m d) ∗ ((ouB).view.loc (thr d L) ↦{fullShare} fo)))))
    ∗ (bigSep (Finset.univ.filter fun j : Fin 32 => j.val + 2 < 2 * k) fun j => oCol d (batchOf (L 0).val (L 1).val j.val) (otOf m d))
    ∗ (bigSep (Finset.univ.filter fun j : Fin 32 => 2 * k ≤ j.val) fun j => iprop(∃ f, oCol d (batchOf (L 0).val (L 1).val j.val) f))
    ∗ ∃ W', ⌜∀ p ∈ W', p ∈ W ∨ p.2 = none⌝ ∗ owes (thr d L) O W')

omit [FloatOps F] in
theorem L_lt : (L 0).val < 2 ∧ (L 1).val < 16 := ⟨(L 0).isLt, (L 1).isLt⟩
omit [FloatOps F] in
theorem bOf_val {k : ℕ} (hk : k < 32) : (bOf L k).val = 64 * (L 1).val + 32 * (L 0).val + k := by
  have h := L_lt L
  unfold bOf batchOf
  show (64 * (L 1).val + 32 * (L 0).val + k) % 1024 = _
  exact Nat.mod_eq_of_lt (by omega)

omit [FloatOps F] in
theorem cond1_all : ∀ k : Fin k0_t1_loop.trips, k0_cond1 k = 1#1 := by decide +kernel
omit [FloatOps F] in
theorem cond2_pos : ∀ k : Fin k0_t1_loop.trips, 0 < k.val → k0_cond2 k = 1#1 := by decide +kernel
omit [FloatOps F] in
theorem cond2_neg : ∀ k : Fin k0_t1_loop.trips, k.val = 0 → ¬ k0_cond2 k = 1#1 := by decide +kernel
omit [FloatOps F] in
theorem cond4_pos : ∀ k : Fin k0_t1_loop.trips, 0 < k.val → k0_cond4 k = 1#1 := by decide +kernel
omit [FloatOps F] in
theorem cond4_neg : ∀ k : Fin k0_t1_loop.trips, k.val = 0 → ¬ k0_cond4 k = 1#1 := by decide +kernel
omit [FloatOps F] in
theorem cond3_pos : ∀ k : Fin k0_t1_loop.trips, k.val < 15 → k0_cond3 k = 1#1 := by decide +kernel
omit [FloatOps F] in
theorem cond3_neg : ∀ k : Fin k0_t1_loop.trips, k.val = 15 → ¬ k0_cond3 k = 1#1 := by decide +kernel

omit [FloatOps F] in
/-- Every index word, also read in the layout with the index row first, names a row of its table. -/
theorem itOf_lt (hpre : PreOK m) (j : S50x1024x128.Idx) : (itOf m d j).toNat < 200 := hpre d _

end Tile

end Cert.Proof.OnKernel

end
-- ==== Proof.OnKernel.Compute.lean ====
/-
  The inner loops of one vector subcore's task: one batch's gather, row by row.

  With a batch's table `tab : [200, 128]` and index rows `ix : [50, 128]` in the subcore's memory, trip `i` of the loop
  reads the 128 index words of row `i` in eight pieces of 16 lanes, reads for each piece the 16 table entries
  `tab[ix[i, l], l]` with one indexed load, and stores them to row `i` of the result block. After the 50 trips the
  result block holds `gatherBlock tab ix`. Every index word is below 200, so every indexed load is in range.
-/
import proofs.«216842_g32469952758108_cont_8to1_b_497_34_alg».proof.Proof.OnKernel.Block
import proofs.«216842_g32469952758108_cont_8to1_b_497_34_alg».proof.Proof.Gen.Kernel.Skeleton

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

-- the kernel's memrefs, spelt as the body table passes them
local notation "xW" => (Memref.whole Cert.Kernel.main_arg0_scv : Memref Cert.Kernel.sig Kind.scVector Space.hbm Cert.Kernel.S1024x200x128 EltTy.f32)
local notation "tW" => (Memref.whole Cert.Kernel.main_v0_scv : Memref Cert.Kernel.sig Kind.scVector Space.hbm Cert.Kernel.S50x1024x128 EltTy.i32)
local notation "oW" => (Memref.whole Cert.Kernel.main_v1_scv : Memref Cert.Kernel.sig Kind.scVector Space.hbm Cert.Kernel.S50x1024x128 EltTy.f32)
local notation "inA" => (Memref.whole Cert.Kernel.cc0_scratch0 : Memref Cert.Kernel.sig Kind.scVector Space.vmem Cert.Kernel.S200x128 EltTy.f32)
local notation "inB" => (Memref.whole Cert.Kernel.cc0_scratch1 : Memref Cert.Kernel.sig Kind.scVector Space.vmem Cert.Kernel.S200x128 EltTy.f32)
local notation "ixA" => (Memref.whole Cert.Kernel.cc0_scratch2 : Memref Cert.Kernel.sig Kind.scVector Space.vmem Cert.Kernel.S50x128 EltTy.i32)
local notation "ixB" => (Memref.whole Cert.Kernel.cc0_scratch3 : Memref Cert.Kernel.sig Kind.scVector Space.vmem Cert.Kernel.S50x128 EltTy.i32)
local notation "ouA" => (Memref.whole Cert.Kernel.cc0_scratch4 : Memref Cert.Kernel.sig Kind.scVector Space.vmem Cert.Kernel.S50x128 EltTy.f32)
local notation "ouB" => (Memref.whole Cert.Kernel.cc0_scratch5 : Memref Cert.Kernel.sig Kind.scVector Space.vmem Cert.Kernel.S50x128 EltTy.f32)

variable [FloatOps F]

/-! ## The eight lane vectors

Piece `g` of a row is read in the lanes `16 g … 16 g + 15`: its lane vector is the lane sequence `0 … 15` plus `16 g`. -/

omit [FloatOps F] in
theorem lanes_pay3 : ∀ x, (k0_pay3 x).toNat = (x 0).val := by
  intro x
  have hx : (x 0).val < 16 := (x 0).isLt
  simp [k0_pay3, addi, iota, broadcast, IntOp.addi, BitVec.toNat_add, BitVec.toNat_ofNat]
  omega

omit [FloatOps F] in
theorem lanes_pay4 : ∀ x, (k0_pay4 x).toNat = (x 0).val + 16 := by
  intro x
  have hx : (x 0).val < 16 := (x 0).isLt
  simp [k0_pay4, addi, iota, broadcast, IntOp.addi, BitVec.toNat_add, BitVec.toNat_ofNat]
  omega

omit [FloatOps F] in
theorem lanes_pay5 : ∀ x, (k0_pay5 x).toNat = (x 0).val + 32 := by
  intro x
  have hx : (x 0).val < 16 := (x 0).isLt
  simp [k0_pay5, addi, iota, broadcast, IntOp.addi, BitVec.toNat_add, BitVec.toNat_ofNat]
  omega

omit [FloatOps F] in
theorem lanes_pay6 : ∀ x, (k0_pay6 x).toNat = (x 0).val + 48 := by
  intro x
  have hx : (x 0).val < 16 := (x 0).isLt
  simp [k0_pay6, addi, iota, broadcast, IntOp.addi, BitVec.toNat_add, BitVec.toNat_ofNat]
  omega

omit [FloatOps F] in
theorem lanes_pay7 : ∀ x, (k0_pay7 x).toNat = (x 0).val + 64 := by
  intro x
  have hx : (x 0).val < 16 := (x 0).isLt
  simp [k0_pay7, addi, iota, broadcast, IntOp.addi, BitVec.toNat_add, BitVec.toNat_ofNat]
  omega

omit [FloatOps F] in
theorem lanes_pay8 : ∀ x, (k0_pay8 x).toNat = (x 0).val + 80 := by
  intro x
  have hx : (x 0).val < 16 := (x 0).isLt
  simp [k0_pay8, addi, iota, broadcast, IntOp.addi, BitVec.toNat_add, BitVec.toNat_ofNat]
  omega

omit [FloatOps F] in
theorem lanes_pay9 : ∀ x, (k0_pay9 x).toNat = (x 0).val + 96 := by
  intro x
  have hx : (x 0).val < 16 := (x 0).isLt
  simp [k0_pay9, addi, iota, broadcast, IntOp.addi, BitVec.toNat_add, BitVec.toNat_ofNat]
  omega

omit [FloatOps F] in
theorem lanes_pay10 : ∀ x, (k0_pay10 x).toNat = (x 0).val + 112 := by
  intro x
  have hx : (x 0).val < 16 := (x 0).isLt
  simp [k0_pay10, addi, iota, broadcast, IntOp.addi, BitVec.toNat_add, BitVec.toNat_ofNat]
  omega

/-! ## The check before an indexed load

The index words of a piece are below 200 and its lanes are below 128: the indexed load is in range. -/

omit [FloatOps F] in
theorem lane_lt {v : IVec S16 32} (c : Nat) (hc : c ≤ 112) (hv : ∀ x, (v x).toNat = (x 0).val + c) : ∀ x, (v x).toNat < 128 := by
  intro x
  have hx : (x 0).val < 16 := (x 0).isLt
  have := hv x
  omega

omit [FloatOps F] in
theorem chk_ok (v w : IVec S16 32) (hv : ∀ x, (v x).toNat < 128) (hw : ∀ x, (w x).toNat < 200) :
    ∀ a x, ((![w, v] : Fin 2 → IVec S16 32) a x).toNat < S200x128.size a := by
  intro a x
  match a with
  | ⟨0, _⟩ => exact hw x
  | ⟨1, _⟩ => exact hv x

/-! ## A table buffer held through its whole rectangle, as an indexed load reads it -/

omit [FloatOps F] in
theorem pts_inA_access (d : Dev nD) (L : grid0.Coords) (f : Buf (Elt F) ((thr d L).loc cc0_scratch0)) :
    ((inA).view.loc (thr d L) ↦{fullShare} f : sProp 𝕄) = (((inA).access (.whole S200x128)).loc (thr d L) ↦{fullShare} f) := rfl

omit [FloatOps F] in
theorem pts_inB_access (d : Dev nD) (L : grid0.Coords) (f : Buf (Elt F) ((thr d L).loc cc0_scratch1)) :
    ((inB).view.loc (thr d L) ↦{fullShare} f : sProp 𝕄) = (((inB).access (.whole S200x128)).loc (thr d L) ↦{fullShare} f) := rfl

/-! ## What the stores of one trip leave

A trip stores row `k` of the result block in eight pieces of 16 lanes, left to right. `Filled tab ix k c g` says
that the rows below `k` of `g`, and the lanes below `c` of its row `k`, hold the batch's result; each store moves
`c` on by 16, and at `c = 128` row `k` is complete. -/

/-- Rows below `k` of a block, and the lanes below `c` of its row `k`, hold the batch's result. -/
def Filled (tab : Vec F S200x128 .f32) (ix : S50x128.Idx → BitVec 32) (k c : Nat) (g : Vec F S50x128 .f32) : Prop :=
  ∀ j : S50x128.Idx, ((j 0).val < k ∨ ((j 0).val = k ∧ (j 1).val < c)) → g j = gatherBlock tab ix j

omit [FloatOps F] in
theorem filled_zero {tab : Vec F S200x128 .f32} {ix : S50x128.Idx → BitVec 32} {k : Nat} (g : Vec F S50x128 .f32)
    (h : ∀ j : S50x128.Idx, (j 0).val < k → g j = gatherBlock tab ix j) : Filled tab ix k 0 g :=
  fun j hj => h j (by omega)

omit [FloatOps F] in
theorem filled_done {tab : Vec F S200x128 .f32} {ix : S50x128.Idx → BitVec 32} {k : Nat} {g : Vec F S50x128 .f32}
    (hF : Filled tab ix k 128 g) : ∀ j : S50x128.Idx, (j 0).val < k + 1 → g j = gatherBlock tab ix j :=
  fun j hj => hF j (by have := idx2_lt1 j; omega)

omit [FloatOps F] in
/-- One more piece of row `k`, holding the result in its 16 lanes from `c`, stored over a block filled up to lane `c`. -/
theorem filled_cons {sig' : RefSig} {κ' : Kind} {sp' : Space} {tab : Vec F S200x128 .f32} {ix : S50x128.Idx → BitVec 32} {k c : Nat}
    (v : View sig' κ' sp' S50x128 .f32) (f : v.ty.Contents (Elt F)) (L : List (View.Piece (Elt F) S50x128 .f32))
    (hF : Filled tab ix k c (v.read (Elt F) (v.writes (Elt F) f L)))
    (off : Fin 2 → Nat) (hoff : off = ![k, c]) (inb : ∀ a, off a + S1x16.size a ≤ S50x128.size a) (w : S1x16.Idx → Elt F .f32)
    (hw : ∀ x : S1x16.Idx, w x = gatherBlock tab ix ((Rect.unit (s := S50x128) off S1x16.size inb).emb x)) :
    Filled tab ix k (c + 16) (v.read (Elt F) (v.writes (Elt F) f (⟨Rect.unit (s := S50x128) off S1x16.size inb, w⟩ :: L))) := by
  intro j hj
  by_cases hm : j ∈ (Rect.unit (s := S50x128) off S1x16.size inb).set
  · obtain ⟨x, rfl⟩ : ∃ x, (Rect.unit (s := S50x128) off S1x16.size inb).emb x = j := (Rect.unit (s := S50x128) off S1x16.size inb).exists_idx_of_mem hm
    rw [View.read_writes_cons_emb]; exact hw x
  · have hy' : j ∉ Finset.univ.map (Rect.unit (s := S50x128) off S1x16.size inb).emb := by rwa [Rect.map_emb_univ]
    rw [View.writes_cons, View.read_slice_write_of_not_mem _ _ _ _ hy']
    apply hF
    subst hoff
    have hm' : ¬ ((k ≤ (j 0).val ∧ (j 0).val < k + 1) ∧ (c ≤ (j 1).val ∧ (j 1).val < c + 16)) :=
      fun h => hm (Rect.mem_set_unit.mpr (Fin.forall_fin_two.mpr h))
    omega

omit [FloatOps F] in
/-- The 16 index words read at row `k` from lane `c`, as a vector: word `x` is the index row's word in lane `c + x`. -/
theorem words_at (ix : S50x128.Idx → BitVec 32) (off : Fin 2 → Nat) {k c : Nat} (hoff : off = ![k, c])
    (inb : ∀ a, off a + S1x16.size a ≤ S50x128.size a) (hc : S1x16.ShapeCasts S16) :
    ∀ (x : S16.Idx) (j : S50x128.Idx), (j 0).val = k → (j 1).val = c + (x 0).val →
      shapeCast S16 (fun y : S1x16.Idx => ix ((Rect.unit (s := S50x128) off S1x16.size inb).emb y)) hc x = ix j := by
  intro x j h0 h1
  subst hoff
  refine (shapeCast_dropUnit_apply (n := 1) ![16] _ hc x).trans ?_
  refine congrArg ix (funext fun a => Fin.ext ?_)
  match a with
  | ⟨0, _⟩ => show k + 1 * 0 = (j 0).val; omega
  | ⟨1, _⟩ => show c + 1 * (x 0).val = (j 1).val; omega

omit [FloatOps F] in
/-- The piece an indexed load reads for row `k` from lane `c`: entry `x` is the table's entry in lane `c + x` of the
    row the index word in that lane names. -/
theorem piece_val (tab tabr : Vec F S200x128 .f32) (htab : ∀ i, tabr i = tab i) (ix : S50x128.Idx → BitVec 32) (hix : ∀ j, (ix j).toNat < 200) {k c : Nat}
    (off : Fin 2 → Nat) (hoff : off = ![k, c]) (inb : ∀ a, off a + S1x16.size a ≤ S50x128.size a)
    (V W : IVec S16 32) (hV : ∀ x, (V x).toNat = (x 0).val + c)
    (hW : ∀ (x : S16.Idx) (j : S50x128.Idx), (j 0).val = k → (j 1).val = c + (x 0).val → W x = ix j)
    (h : ∀ a x, ((![W, V] : Fin 2 → IVec S16 32) a x).toNat < S200x128.size a) (hc : S16.ShapeCasts S1x16) (x : S1x16.Idx) :
    shapeCast S1x16 (loadIdx tabr ![W, V] h) hc x = gatherBlock tab ix ((Rect.unit (s := S50x128) off S1x16.size inb).emb x) := by
  subst hoff
  refine (shapeCast_addUnit_apply (n := 1) ![16] _ hc x).trans ?_
  have h0 : (x 0).val = 0 := by have h1 : (x 0).val < 1 := (x 0).isLt; omega
  have hj0 : (((Rect.unit (s := S50x128) ![k, c] S1x16.size inb).emb x) 0).val = k := by show k + 1 * (x 0).val = k; omega
  have hj1 : (((Rect.unit (s := S50x128) ![k, c] S1x16.size inb).emb x) 1).val = c + (x 1).val := by show c + 1 * (x 1).val = _; omega
  have hWx := hW (fun a => x a.succ) _ hj0 hj1
  unfold loadIdx gatherBlock
  rw [htab]
  refine congrArg tab (funext fun a => Fin.ext ?_)
  match a with
  | ⟨0, _⟩ =>
    show (W (fun a => x a.succ)).toNat = (Cert.Spec.rowOf (ix ((Rect.unit (s := S50x128) ![k, c] S1x16.size inb).emb x))).val
    rw [hWx, Cert.Spec.rowOf_val_of_lt (hix _)]
  | ⟨1, _⟩ =>
    refine (hV (fun a => x a.succ)).trans ?_
    show (x 1).val + c = (((Rect.unit (s := S50x128) ![k, c] S1x16.size inb).emb x) 1).val
    rw [hj1]; omega

omit [FloatOps F] in
/-- Read through its whole rectangle, a buffer's view reads the buffer's contents. -/
theorem read_access_whole {κ' : Kind} (b : Ref sig κ') (f : b.ty.Contents (Elt F)) (i : b.ty.shape.Idx) :
    ((Memref.whole b).access (Rect.whole b.ty.shape)).read (Elt F) f i = f i := by
  show f ((Rect.whole b.ty.shape).emb i) = f i
  rw [Rect.emb_whole_apply]

omit [FloatOps F] in
theorem trips_A : Scf.trips k0_t2_loop.lb k0_t2_loop.ub k0_t2_loop.st = 50 := by decide

omit [FloatOps F] in
theorem trips_B : Scf.trips k0_t3_loop.lb k0_t3_loop.ub k0_t3_loop.st = 50 := by decide

/-! ## The first slot's loop -/

/-- Before trip `k` of the first slot's loop: the table and the index rows as they were, the result block's rows below `k` filled. -/
def invA (d : Dev nD) (L : grid0.Coords) (tab : Buf (Elt F) ((thr d L).loc cc0_scratch0)) (ix : Buf (Elt F) ((thr d L).loc cc0_scratch2))
    (k : Nat) (_ : Unit) : sProp 𝕄 :=
  iprop(((inA).view.loc (thr d L) ↦{fullShare} tab) ∗ ((ixA).view.loc (thr d L) ↦{fullShare} ix)
    ∗ ∃ fo' : Buf (Elt F) ((thr d L).loc cc0_scratch4), ((ouA).view.loc (thr d L) ↦{fullShare} fo')
        ∗ ⌜∀ j : S50x128.Idx, (j 0).val < k → fo' j = gatherBlock tab ix j⌝)

set_option maxHeartbeats 4000000 in
theorem compute_A (d : Dev nD) (L : grid0.Coords) (v2 arg19 v49 : BitVec 32) (k0_t1 : Fin k0_t1_loop.trips) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (tab : Buf (Elt F) ((thr d L).loc cc0_scratch0)) (ix : Buf (Elt F) ((thr d L).loc cc0_scratch2)) (fo : Buf (Elt F) ((thr d L).loc cc0_scratch4))
    (hix : ∀ j, (ix j).toNat < 200) (Φ : PUnit → sProp 𝕄) :
    iprop(((inA).view.loc (thr d L) ↦{fullShare} tab) ∗ ((ixA).view.loc (thr d L) ↦{fullShare} ix) ∗ ((ouA).view.loc (thr d L) ↦{fullShare} fo)
        ∗ ((((inA).view.loc (thr d L) ↦{fullShare} tab) ∗ ((ixA).view.loc (thr d L) ↦{fullShare} ix) ∗ ((ouA).view.loc (thr d L) ↦{fullShare} gatherBlock tab ix)) -∗ Φ ⟨⟩))
      ⊢ wp frame (wpE (defs₀ (F := F)) 𝒱₀ (thr d L) none) Set.univ
          (Scf.Loop.for k0_t2_loop k0_t2_ok ⟨⟩ (k0_t2_body L xW (Memref.isWhole_whole _) tW (Memref.isWhole_whole _) oW (Memref.isWhole_whole _) inA (Memref.isWhole_whole _) inB (Memref.isWhole_whole _) ixA (Memref.isWhole_whole _) ixB (Memref.isWhole_whole _) ouA (Memref.isWhole_whole _) ouB (Memref.isWhole_whole _) cc0_scratch6 cc0_scratch7 cc0_scratch8 cc0_scratch9 cc0_scratch10 cc0_scratch11 cc0_scratch12 cc0_scratch13 v2 v5 v7 v9 v11 v13 v15 v17 v19 k0_t1 arg19 v49)) Φ := by
  iintro ⟨Htab, Hix, Hou, HΦ⟩
  sl_for (invA d L tab ix) $$ [Htab Hix Hou HΦ]
  case region =>
    intro k _
    unfold invA
    iintro ⟨Htab, Hix, ⟨%fo', Hou, %hfo⟩⟩
    -- piece 0: its index words, their check, the indexed load; then its store
    sl_exec (disch := exact chk_ok _ _ (lane_lt 0 (by omega) h5) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 1: its index words, their check, the indexed load; then its store
    sl_exec (disch := exact chk_ok _ _ (lane_lt 16 (by omega) h7) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 2: its index words, their check, the indexed load; then its store
    sl_exec (disch := exact chk_ok _ _ (lane_lt 32 (by omega) h9) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 3: its index words, their check, the indexed load; then its store
    sl_exec (disch := exact chk_ok _ _ (lane_lt 48 (by omega) h11) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 4: its index words, their check, the indexed load; then its store
    sl_exec (disch := exact chk_ok _ _ (lane_lt 64 (by omega) h13) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 5: its index words, their check, the indexed load; then its store
    sl_exec (disch := exact chk_ok _ _ (lane_lt 80 (by omega) h15) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 6: its index words, their check, the indexed load; then its store
    sl_exec (disch := exact chk_ok _ _ (lane_lt 96 (by omega) h17) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 7: its index words, their check, the indexed load; then its store
    sl_exec (disch := exact chk_ok _ _ (lane_lt 112 (by omega) h19) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    sl_exec
    sl_step
    isplitl [Htab]; · iexact Htab
    isplitl [Hix]; · iexact Hix
    iexists _
    isplitl [Hou]; · iexact Hou
    ipureintro
    -- row `k` piece by piece: after piece `g` the lanes below `16 (g + 1)` of the row are filled
    have hr : ∀ i, View.read (Elt F) ((inA).access (Rect.whole S200x128)) tab i = tab i := read_access_whole cc0_scratch0 tab
    have F0 : Filled tab ix k.val 0 ((ouA).view.read (Elt F) ((ouA).view.writes (Elt F) fo' [])) := filled_zero _ hfo
    have F1 := filled_cons (k := k.val) (c := 0) (ouA).view fo' _ F0 (k0_off12 k) (k0_off12_eq k) (k0_off12_inb k) _
      (piece_val tab _ hr ix hix (k0_off12 k) (k0_off12_eq k) (k0_off12_inb k) v5 _ h5
        (words_at ix (k0_off11 k) (k0_off11_eq k) (k0_off11_inb k) shapeCasts_S1x16_S16)
        (chk_ok _ _ (lane_lt 0 (by omega) h5) (fun x => hix _)) shapeCasts_S16_S1x16)
    have F2 := filled_cons (k := k.val) (c := 16) (ouA).view fo' _ F1 (k0_off14 k) (k0_off14_eq k) (k0_off14_inb k) _
      (piece_val tab _ hr ix hix (k0_off14 k) (k0_off14_eq k) (k0_off14_inb k) v7 _ h7
        (words_at ix (k0_off13 k) (k0_off13_eq k) (k0_off13_inb k) shapeCasts_S1x16_S16)
        (chk_ok _ _ (lane_lt 16 (by omega) h7) (fun x => hix _)) shapeCasts_S16_S1x16)
    have F3 := filled_cons (k := k.val) (c := 32) (ouA).view fo' _ F2 (k0_off16 k) (k0_off16_eq k) (k0_off16_inb k) _
      (piece_val tab _ hr ix hix (k0_off16 k) (k0_off16_eq k) (k0_off16_inb k) v9 _ h9
        (words_at ix (k0_off15 k) (k0_off15_eq k) (k0_off15_inb k) shapeCasts_S1x16_S16)
        (chk_ok _ _ (lane_lt 32 (by omega) h9) (fun x => hix _)) shapeCasts_S16_S1x16)
    have F4 := filled_cons (k := k.val) (c := 48) (ouA).view fo' _ F3 (k0_off18 k) (k0_off18_eq k) (k0_off18_inb k) _
      (piece_val tab _ hr ix hix (k0_off18 k) (k0_off18_eq k) (k0_off18_inb k) v11 _ h11
        (words_at ix (k0_off17 k) (k0_off17_eq k) (k0_off17_inb k) shapeCasts_S1x16_S16)
        (chk_ok _ _ (lane_lt 48 (by omega) h11) (fun x => hix _)) shapeCasts_S16_S1x16)
    have F5 := filled_cons (k := k.val) (c := 64) (ouA).view fo' _ F4 (k0_off20 k) (k0_off20_eq k) (k0_off20_inb k) _
      (piece_val tab _ hr ix hix (k0_off20 k) (k0_off20_eq k) (k0_off20_inb k) v13 _ h13
        (words_at ix (k0_off19 k) (k0_off19_eq k) (k0_off19_inb k) shapeCasts_S1x16_S16)
        (chk_ok _ _ (lane_lt 64 (by omega) h13) (fun x => hix _)) shapeCasts_S16_S1x16)
    have F6 := filled_cons (k := k.val) (c := 80) (ouA).view fo' _ F5 (k0_off22 k) (k0_off22_eq k) (k0_off22_inb k) _
      (piece_val tab _ hr ix hix (k0_off22 k) (k0_off22_eq k) (k0_off22_inb k) v15 _ h15
        (words_at ix (k0_off21 k) (k0_off21_eq k) (k0_off21_inb k) shapeCasts_S1x16_S16)
        (chk_ok _ _ (lane_lt 80 (by omega) h15) (fun x => hix _)) shapeCasts_S16_S1x16)
    have F7 := filled_cons (k := k.val) (c := 96) (ouA).view fo' _ F6 (k0_off24 k) (k0_off24_eq k) (k0_off24_inb k) _
      (piece_val tab _ hr ix hix (k0_off24 k) (k0_off24_eq k) (k0_off24_inb k) v17 _ h17
        (words_at ix (k0_off23 k) (k0_off23_eq k) (k0_off23_inb k) shapeCasts_S1x16_S16)
        (chk_ok _ _ (lane_lt 96 (by omega) h17) (fun x => hix _)) shapeCasts_S16_S1x16)
    have F8 := filled_cons (k := k.val) (c := 112) (ouA).view fo' _ F7 (k0_off26 k) (k0_off26_eq k) (k0_off26_inb k) _
      (piece_val tab _ hr ix hix (k0_off26 k) (k0_off26_eq k) (k0_off26_inb k) v19 _ h19
        (words_at ix (k0_off25 k) (k0_off25_eq k) (k0_off25_inb k) shapeCasts_S1x16_S16)
        (chk_ok _ _ (lane_lt 112 (by omega) h19) (fun x => hix _)) shapeCasts_S16_S1x16)
    exact filled_done F8
  isplitl [Htab Hix Hou]
  · -- before the first trip no row is asked for
    unfold invA
    isplitl [Htab]; · iexact Htab
    isplitl [Hix]; · iexact Hix
    iexists fo
    isplitl [Hou]; · iexact Hou
    ipureintro
    intro j hj
    exact absurd hj (Nat.not_lt_zero _)
  · -- after the last trip every row is filled
    iintro %acc HI
    unfold invA
    icases HI with ⟨Htab, Hix, ⟨%fo', Hou, %hfo⟩⟩
    have e : fo' = gatherBlock tab ix := funext fun j => hfo j (by rw [trips_A]; exact idx2_lt0 j)
    subst e
    iapply HΦ
    isplitl [Htab]; · iexact Htab
    isplitl [Hix]; · iexact Hix
    iexact Hou

/-! ## The second slot's loop -/

/-- Before trip `k` of the second slot's loop: the table and the index rows as they were, the result block's rows below `k` filled. -/
def invB (d : Dev nD) (L : grid0.Coords) (tab : Buf (Elt F) ((thr d L).loc cc0_scratch1)) (ix : Buf (Elt F) ((thr d L).loc cc0_scratch3))
    (k : Nat) (_ : Unit) : sProp 𝕄 :=
  iprop(((inB).view.loc (thr d L) ↦{fullShare} tab) ∗ ((ixB).view.loc (thr d L) ↦{fullShare} ix)
    ∗ ∃ fo' : Buf (Elt F) ((thr d L).loc cc0_scratch5), ((ouB).view.loc (thr d L) ↦{fullShare} fo')
        ∗ ⌜∀ j : S50x128.Idx, (j 0).val < k → fo' j = gatherBlock tab ix j⌝)

set_option maxHeartbeats 4000000 in
theorem compute_B (d : Dev nD) (L : grid0.Coords) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (tab : Buf (Elt F) ((thr d L).loc cc0_scratch1)) (ix : Buf (Elt F) ((thr d L).loc cc0_scratch3)) (fo : Buf (Elt F) ((thr d L).loc cc0_scratch5))
    (hix : ∀ j, (ix j).toNat < 200) (Φ : PUnit → sProp 𝕄) :
    iprop(((inB).view.loc (thr d L) ↦{fullShare} tab) ∗ ((ixB).view.loc (thr d L) ↦{fullShare} ix) ∗ ((ouB).view.loc (thr d L) ↦{fullShare} fo)
        ∗ ((((inB).view.loc (thr d L) ↦{fullShare} tab) ∗ ((ixB).view.loc (thr d L) ↦{fullShare} ix) ∗ ((ouB).view.loc (thr d L) ↦{fullShare} gatherBlock tab ix)) -∗ Φ ⟨⟩))
      ⊢ wp frame (wpE (defs₀ (F := F)) 𝒱₀ (thr d L) none) Set.univ
          (Scf.Loop.for k0_t3_loop k0_t3_ok ⟨⟩ (k0_t3_body L xW (Memref.isWhole_whole _) tW (Memref.isWhole_whole _) oW (Memref.isWhole_whole _) inA (Memref.isWhole_whole _) inB (Memref.isWhole_whole _) ixA (Memref.isWhole_whole _) ixB (Memref.isWhole_whole _) ouA (Memref.isWhole_whole _) ouB (Memref.isWhole_whole _) cc0_scratch6 cc0_scratch7 cc0_scratch8 cc0_scratch9 cc0_scratch10 cc0_scratch11 cc0_scratch12 cc0_scratch13 v5 v7 v9 v11 v13 v15 v17 v19)) Φ := by
  iintro ⟨Htab, Hix, Hou, HΦ⟩
  sl_for (invB d L tab ix) $$ [Htab Hix Hou HΦ]
  case region =>
    intro k _
    unfold invB
    iintro ⟨Htab, Hix, ⟨%fo', Hou, %hfo⟩⟩
    -- piece 0: its index words, their check, the indexed load; then its store
    sl_exec (disch := exact chk_ok _ _ (lane_lt 0 (by omega) h5) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 1: its index words, their check, the indexed load; then its store
    sl_exec (disch := exact chk_ok _ _ (lane_lt 16 (by omega) h7) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 2: its index words, their check, the indexed load; then its store
    sl_exec (disch := exact chk_ok _ _ (lane_lt 32 (by omega) h9) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 3: its index words, their check, the indexed load; then its store
    sl_exec (disch := exact chk_ok _ _ (lane_lt 48 (by omega) h11) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 4: its index words, their check, the indexed load; then its store
    sl_exec (disch := exact chk_ok _ _ (lane_lt 64 (by omega) h13) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 5: its index words, their check, the indexed load; then its store
    sl_exec (disch := exact chk_ok _ _ (lane_lt 80 (by omega) h15) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 6: its index words, their check, the indexed load; then its store
    sl_exec (disch := exact chk_ok _ _ (lane_lt 96 (by omega) h17) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 7: its index words, their check, the indexed load; then its store
    sl_exec (disch := exact chk_ok _ _ (lane_lt 112 (by omega) h19) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    sl_exec
    sl_step
    isplitl [Htab]; · iexact Htab
    isplitl [Hix]; · iexact Hix
    iexists _
    isplitl [Hou]; · iexact Hou
    ipureintro
    -- row `k` piece by piece: after piece `g` the lanes below `16 (g + 1)` of the row are filled
    have hr : ∀ i, View.read (Elt F) ((inB).access (Rect.whole S200x128)) tab i = tab i := read_access_whole cc0_scratch1 tab
    have F0 : Filled tab ix k.val 0 ((ouB).view.read (Elt F) ((ouB).view.writes (Elt F) fo' [])) := filled_zero _ hfo
    have F1 := filled_cons (k := k.val) (c := 0) (ouB).view fo' _ F0 (k0_off35 k) (k0_off35_eq k) (k0_off35_inb k) _
      (piece_val tab _ hr ix hix (k0_off35 k) (k0_off35_eq k) (k0_off35_inb k) v5 _ h5
        (words_at ix (k0_off34 k) (k0_off34_eq k) (k0_off34_inb k) shapeCasts_S1x16_S16)
        (chk_ok _ _ (lane_lt 0 (by omega) h5) (fun x => hix _)) shapeCasts_S16_S1x16)
    have F2 := filled_cons (k := k.val) (c := 16) (ouB).view fo' _ F1 (k0_off37 k) (k0_off37_eq k) (k0_off37_inb k) _
      (piece_val tab _ hr ix hix (k0_off37 k) (k0_off37_eq k) (k0_off37_inb k) v7 _ h7
        (words_at ix (k0_off36 k) (k0_off36_eq k) (k0_off36_inb k) shapeCasts_S1x16_S16)
        (chk_ok _ _ (lane_lt 16 (by omega) h7) (fun x => hix _)) shapeCasts_S16_S1x16)
    have F3 := filled_cons (k := k.val) (c := 32) (ouB).view fo' _ F2 (k0_off39 k) (k0_off39_eq k) (k0_off39_inb k) _
      (piece_val tab _ hr ix hix (k0_off39 k) (k0_off39_eq k) (k0_off39_inb k) v9 _ h9
        (words_at ix (k0_off38 k) (k0_off38_eq k) (k0_off38_inb k) shapeCasts_S1x16_S16)
        (chk_ok _ _ (lane_lt 32 (by omega) h9) (fun x => hix _)) shapeCasts_S16_S1x16)
    have F4 := filled_cons (k := k.val) (c := 48) (ouB).view fo' _ F3 (k0_off41 k) (k0_off41_eq k) (k0_off41_inb k) _
      (piece_val tab _ hr ix hix (k0_off41 k) (k0_off41_eq k) (k0_off41_inb k) v11 _ h11
        (words_at ix (k0_off40 k) (k0_off40_eq k) (k0_off40_inb k) shapeCasts_S1x16_S16)
        (chk_ok _ _ (lane_lt 48 (by omega) h11) (fun x => hix _)) shapeCasts_S16_S1x16)
    have F5 := filled_cons (k := k.val) (c := 64) (ouB).view fo' _ F4 (k0_off43 k) (k0_off43_eq k) (k0_off43_inb k) _
      (piece_val tab _ hr ix hix (k0_off43 k) (k0_off43_eq k) (k0_off43_inb k) v13 _ h13
        (words_at ix (k0_off42 k) (k0_off42_eq k) (k0_off42_inb k) shapeCasts_S1x16_S16)
        (chk_ok _ _ (lane_lt 64 (by omega) h13) (fun x => hix _)) shapeCasts_S16_S1x16)
    have F6 := filled_cons (k := k.val) (c := 80) (ouB).view fo' _ F5 (k0_off45 k) (k0_off45_eq k) (k0_off45_inb k) _
      (piece_val tab _ hr ix hix (k0_off45 k) (k0_off45_eq k) (k0_off45_inb k) v15 _ h15
        (words_at ix (k0_off44 k) (k0_off44_eq k) (k0_off44_inb k) shapeCasts_S1x16_S16)
        (chk_ok _ _ (lane_lt 80 (by omega) h15) (fun x => hix _)) shapeCasts_S16_S1x16)
    have F7 := filled_cons (k := k.val) (c := 96) (ouB).view fo' _ F6 (k0_off47 k) (k0_off47_eq k) (k0_off47_inb k) _
      (piece_val tab _ hr ix hix (k0_off47 k) (k0_off47_eq k) (k0_off47_inb k) v17 _ h17
        (words_at ix (k0_off46 k) (k0_off46_eq k) (k0_off46_inb k) shapeCasts_S1x16_S16)
        (chk_ok _ _ (lane_lt 96 (by omega) h17) (fun x => hix _)) shapeCasts_S16_S1x16)
    have F8 := filled_cons (k := k.val) (c := 112) (ouB).view fo' _ F7 (k0_off49 k) (k0_off49_eq k) (k0_off49_inb k) _
      (piece_val tab _ hr ix hix (k0_off49 k) (k0_off49_eq k) (k0_off49_inb k) v19 _ h19
        (words_at ix (k0_off48 k) (k0_off48_eq k) (k0_off48_inb k) shapeCasts_S1x16_S16)
        (chk_ok _ _ (lane_lt 112 (by omega) h19) (fun x => hix _)) shapeCasts_S16_S1x16)
    exact filled_done F8
  isplitl [Htab Hix Hou]
  · -- before the first trip no row is asked for
    unfold invB
    isplitl [Htab]; · iexact Htab
    isplitl [Hix]; · iexact Hix
    iexists fo
    isplitl [Hou]; · iexact Hou
    ipureintro
    intro j hj
    exact absurd hj (Nat.not_lt_zero _)
  · -- after the last trip every row is filled
    iintro %acc HI
    unfold invB
    icases HI with ⟨Htab, Hix, ⟨%fo', Hou, %hfo⟩⟩
    have e : fo' = gatherBlock tab ix := funext fun j => hfo j (by rw [trips_B]; exact idx2_lt0 j)
    subst e
    iapply HΦ
    isplitl [Htab]; · iexact Htab
    isplitl [Hix]; · iexact Hix
    iexact Hou

end Cert.Proof.OnKernel

end
-- ==== Proof.OnKernel.TripLemmas.lean ====
/-
  What the proofs of one pair of batches share: a landed column of the result read as the expected gather, a result
  column spelt as the program slices it, and the two compute loops placed in front of the rest of the program.
-/
import proofs.«216842_g32469952758108_cont_8to1_b_497_34_alg».proof.Proof.OnKernel.Inv
import proofs.«216842_g32469952758108_cont_8to1_b_497_34_alg».proof.Proof.OnKernel.Compute

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.Kernel.main_arg0_scv : Memref Cert.Kernel.sig Kind.scVector Space.hbm Cert.Kernel.S1024x200x128 EltTy.f32)
local notation "tW" => (Memref.whole Cert.Kernel.main_v0_scv : Memref Cert.Kernel.sig Kind.scVector Space.hbm Cert.Kernel.S50x1024x128 EltTy.i32)
local notation "oW" => (Memref.whole Cert.Kernel.main_v1_scv : Memref Cert.Kernel.sig Kind.scVector Space.hbm Cert.Kernel.S50x1024x128 EltTy.f32)
local notation "inA" => (Memref.whole Cert.Kernel.cc0_scratch0 : Memref Cert.Kernel.sig Kind.scVector Space.vmem Cert.Kernel.S200x128 EltTy.f32)
local notation "inB" => (Memref.whole Cert.Kernel.cc0_scratch1 : Memref Cert.Kernel.sig Kind.scVector Space.vmem Cert.Kernel.S200x128 EltTy.f32)
local notation "ixA" => (Memref.whole Cert.Kernel.cc0_scratch2 : Memref Cert.Kernel.sig Kind.scVector Space.vmem Cert.Kernel.S50x128 EltTy.i32)
local notation "ixB" => (Memref.whole Cert.Kernel.cc0_scratch3 : Memref Cert.Kernel.sig Kind.scVector Space.vmem Cert.Kernel.S50x128 EltTy.i32)
local notation "ouA" => (Memref.whole Cert.Kernel.cc0_scratch4 : Memref Cert.Kernel.sig Kind.scVector Space.vmem Cert.Kernel.S50x128 EltTy.f32)
local notation "ouB" => (Memref.whole Cert.Kernel.cc0_scratch5 : Memref Cert.Kernel.sig Kind.scVector Space.vmem Cert.Kernel.S50x128 EltTy.f32)

variable [FloatOps F]

section Tile
variable (d : Dev nD) (L : grid0.Coords)

theorem pts_congr' {ℓ : Loc nD τ sig} {I : Finset (Idx ℓ)} {q : PosShare TreeShare} {f g : Buf (Elt F) ℓ} (h : ∀ i ∈ I, f i = g i) :
    (ℓ ↦[I]{q} f : sProp 𝕄) ⊢ ℓ ↦[I]{q} g := Entails.of_eq (pointsTo_congr h)

theorem pts_eq' {ℓ : Loc nD τ sig} {I : Finset (Idx ℓ)} {q : PosShare TreeShare} {f g : Buf (Elt F) ℓ} (h : f = g) :
    (ℓ ↦[I]{q} f : sProp 𝕄) ⊢ ℓ ↦[I]{q} g := Entails.of_eq (congrArg _ h)

/-- The columns of the result a pair's two copy-outs write, as the program slices them. -/
abbrev oDst0 (k : Fin k0_t1_loop.trips) : Memref sig .scVector .hbm S50x128 .f32 :=
  ((oW).slice (Rect.unit (s := S50x1024x128) (k0_off27 L k 0#32) S50x1x128.size (k0_off27_inb L k 0)) (fun _ => rfl)).squeeze S50x128 squeezes_S50x1x128_S50x128
abbrev oDst1 (k : Fin k0_t1_loop.trips) : Memref sig .scVector .hbm S50x128 .f32 :=
  ((oW).slice (Rect.unit (s := S50x1024x128) (k0_off27 L k 1#32) S50x1x128.size (k0_off27_inb L k 1)) (fun _ => rfl)).squeeze S50x128 squeezes_S50x1x128_S50x128

omit [FloatOps F] in
theorem off27_eq (k : Fin k0_t1_loop.trips) (r : Fin 2) (hk : k.val < 16) :
    k0_off27 L k (BitVec.ofNat 32 r.val) = ![0, (bOf L (2 * k.val + r.val)).val, 0] := by
  have hb := bOf_val L (k := 2 * k.val + r.val) (by have := r.isLt; omega)
  rw [k0_off27_eq, hb, Nat.add_assoc]

omit [FloatOps F] in
theorem col0_as_dst (k : Fin k0_t1_loop.trips) (hk : k.val < 16) (f : Buf (Elt F) (oLoc d)) :
    (oCol d (batchOf (L 0).val (L 1).val (2 * k.val)) f : sProp 𝕄) = ((oDst0 L k).view.loc (thr d L) ↦[(oDst0 L k).view.set]{fullShare} f) := by
  have hb := bOf_val L (k := 2 * k.val + 0) (by omega)
  show _ = ((oDst0 L k).view.loc (thr d L) ↦[(oDst0 L k).view.set]{fullShare} f)
  rw [oDst_set (bOf L (2 * k.val + 0)) (k0_off27 L k 0#32) (k0_off27_inb L k 0) (off27_eq L k 0 hk), hb]
  rfl
omit [FloatOps F] in
theorem col1_as_dst (k : Fin k0_t1_loop.trips) (hk : k.val < 16) (f : Buf (Elt F) (oLoc d)) :
    (oCol d (batchOf (L 0).val (L 1).val (2 * k.val + 1)) f : sProp 𝕄) = ((oDst1 L k).view.loc (thr d L) ↦[(oDst1 L k).view.set]{fullShare} f) := by
  have hb := bOf_val L (k := 2 * k.val + 1) (by omega)
  show _ = ((oDst1 L k).view.loc (thr d L) ↦[(oDst1 L k).view.set]{fullShare} f)
  rw [oDst_set (bOf L (2 * k.val + 1)) (k0_off27 L k 1#32) (k0_off27_inb L k 1) (off27_eq L k 1 hk), hb]
  rfl

/-- The first slot's compute loop in front of the rest of the program. -/
theorem compute_A_bind {β : Type} (v2 arg19 v49 : BitVec 32) (k0_t1 : Fin k0_t1_loop.trips) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (tab : Buf (Elt F) ((thr d L).loc cc0_scratch0)) (ix : Buf (Elt F) ((thr d L).loc cc0_scratch2)) (fo : Buf (Elt F) ((thr d L).loc cc0_scratch4))
    (hix : ∀ j, (ix j).toNat < 200)
    (kk : PUnit → Prog (TpuEff nD τ sig (Elt F) Λ₀ (.scVector ((L 0).castLE hcore0) ((L 1).castLE hsub0))) β) (Q : β → sProp 𝕄) :
    iprop(((inA).view.loc (thr d L) ↦{fullShare} tab) ∗ ((ixA).view.loc (thr d L) ↦{fullShare} ix) ∗ ((ouA).view.loc (thr d L) ↦{fullShare} fo)
        ∗ ((((inA).view.loc (thr d L) ↦{fullShare} tab) ∗ ((ixA).view.loc (thr d L) ↦{fullShare} ix) ∗ ((ouA).view.loc (thr d L) ↦{fullShare} gatherBlock tab ix))
            -∗ wp frame (wpE (defs₀ (F := F)) 𝒱₀ (thr d L) none) Set.univ (kk ⟨⟩) Q))
      ⊢ wp frame (wpE (defs₀ (F := F)) 𝒱₀ (thr d L) none) Set.univ
          (Scf.Loop.for k0_t2_loop k0_t2_ok ⟨⟩ (k0_t2_body L xW (Memref.isWhole_whole _) tW (Memref.isWhole_whole _) oW (Memref.isWhole_whole _) inA (Memref.isWhole_whole _) inB (Memref.isWhole_whole _) ixA (Memref.isWhole_whole _) ixB (Memref.isWhole_whole _) ouA (Memref.isWhole_whole _) ouB (Memref.isWhole_whole _) cc0_scratch6 cc0_scratch7 cc0_scratch8 cc0_scratch9 cc0_scratch10 cc0_scratch11 cc0_scratch12 cc0_scratch13 v2 v5 v7 v9 v11 v13 v15 v17 v19 k0_t1 arg19 v49) >>= kk) Q := by
  rw [wp_bind]
  exact compute_A (F := F) d L v2 arg19 v49 k0_t1 v5 v7 v9 v11 v13 v15 v17 v19 h5 h7 h9 h11 h13 h15 h17 h19 tab ix fo hix
    (fun r => wp frame (wpE (defs₀ (F := F)) 𝒱₀ (thr d L) none) Set.univ (kk r) Q)

/-- The second slot's compute loop in front of the rest of the program. -/
theorem compute_B_bind {β : Type} (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (tab : Buf (Elt F) ((thr d L).loc cc0_scratch1)) (ix : Buf (Elt F) ((thr d L).loc cc0_scratch3)) (fo : Buf (Elt F) ((thr d L).loc cc0_scratch5))
    (hix : ∀ j, (ix j).toNat < 200)
    (kk : PUnit → Prog (TpuEff nD τ sig (Elt F) Λ₀ (.scVector ((L 0).castLE hcore0) ((L 1).castLE hsub0))) β) (Q : β → sProp 𝕄) :
    iprop(((inB).view.loc (thr d L) ↦{fullShare} tab) ∗ ((ixB).view.loc (thr d L) ↦{fullShare} ix) ∗ ((ouB).view.loc (thr d L) ↦{fullShare} fo)
        ∗ ((((inB).view.loc (thr d L) ↦{fullShare} tab) ∗ ((ixB).view.loc (thr d L) ↦{fullShare} ix) ∗ ((ouB).view.loc (thr d L) ↦{fullShare} gatherBlock tab ix))
            -∗ wp frame (wpE (defs₀ (F := F)) 𝒱₀ (thr d L) none) Set.univ (kk ⟨⟩) Q))
      ⊢ wp frame (wpE (defs₀ (F := F)) 𝒱₀ (thr d L) none) Set.univ
          (Scf.Loop.for k0_t3_loop k0_t3_ok ⟨⟩ (k0_t3_body L xW (Memref.isWhole_whole _) tW (Memref.isWhole_whole _) oW (Memref.isWhole_whole _) inA (Memref.isWhole_whole _) inB (Memref.isWhole_whole _) ixA (Memref.isWhole_whole _) ixB (Memref.isWhole_whole _) ouA (Memref.isWhole_whole _) ouB (Memref.isWhole_whole _) cc0_scratch6 cc0_scratch7 cc0_scratch8 cc0_scratch9 cc0_scratch10 cc0_scratch11 cc0_scratch12 cc0_scratch13 v5 v7 v9 v11 v13 v15 v17 v19) >>= kk) Q := by
  rw [wp_bind]
  exact compute_B (F := F) d L v5 v7 v9 v11 v13 v15 v17 v19 h5 h7 h9 h11 h13 h15 h17 h19 tab ix fo hix
    (fun r => wp frame (wpE (defs₀ (F := F)) 𝒱₀ (thr d L) none) Set.univ (kk r) Q)

omit [FloatOps F] in
/-- The index rows of any batch name rows of the table. -/
theorem colOf_lt (hpre : PreOK m) (b : Fin 1024) (j : S50x128.Idx) : (colOf (itOf m d) b j).toNat < 200 := itOf_lt m d hpre _

omit [FloatOps F] in
theorem bOf_batch {j : ℕ} (hj : j < 32) : (bOf L j).val = batchOf (L 0).val (L 1).val j := by rw [bOf_val L hj]; rfl

omit [FloatOps F] in
theorem ouA_set (f : Buf (Elt F) ((thr d L).loc cc0_scratch4)) :
    ((ouA).view.loc (thr d L) ↦[(ouA).view.set]{fullShare} f : sProp 𝕄) = ((ouA).view.loc (thr d L) ↦{fullShare} f) := by
  simp only [Memref.view_whole, View.set_whole]
omit [FloatOps F] in
theorem ouB_set (f : Buf (Elt F) ((thr d L).loc cc0_scratch5)) :
    ((ouB).view.loc (thr d L) ↦[(ouB).view.set]{fullShare} f : sProp 𝕄) = ((ouB).view.loc (thr d L) ↦{fullShare} f) := by
  simp only [Memref.view_whole, View.set_whole]

/-- What a pair's first copy-out lands in its column is the expected gather there. -/
theorem out_landed0 (k : Fin k0_t1_loop.trips) (hk : k.val < 16) (fc0 : Buf (Elt F) (oLoc d)) (blk : S50x128.Idx → Elt F .f32)
    (hblk : blk = gatherBlock (tabOf (m (xLoc d)) (bOf L (2 * k.val))) (colOf (itOf m d) (bOf L (2 * k.val)))) :
    ((oDst0 L k).view.loc (thr d L) ↦[(oDst0 L k).view.set]{fullShare} (oDst0 L k).view.writes (Elt F) fc0 [⟨Rect.whole S50x128, blk⟩] : sProp 𝕄)
      ⊢ oCol d (bOf L (2 * k.val)).val (otOf m d) := by
  rw [← col0_as_dst (F := F) d L k hk, ← bOf_batch L (j := 2 * k.val) (by omega)]
  exact Entails.of_eq (pointsTo_congr (fun i hi =>
    landed_col_writes (F := F) (m (xLoc d)) (itOf m d) (bOf L (2 * k.val)) (k0_off27 L k 0#32) (k0_off27_inb L k 0) (off27_eq L k 0 hk) fc0 blk hblk i hi))
/-- The same for the pair's second copy-out. -/
theorem out_landed1 (k : Fin k0_t1_loop.trips) (hk : k.val < 16) (fc1 : Buf (Elt F) (oLoc d)) (blk : S50x128.Idx → Elt F .f32)
    (hblk : blk = gatherBlock (tabOf (m (xLoc d)) (bOf L (2 * k.val + 1))) (colOf (itOf m d) (bOf L (2 * k.val + 1)))) :
    ((oDst1 L k).view.loc (thr d L) ↦[(oDst1 L k).view.set]{fullShare} (oDst1 L k).view.writes (Elt F) fc1 [⟨Rect.whole S50x128, blk⟩] : sProp 𝕄)
      ⊢ oCol d (bOf L (2 * k.val + 1)).val (otOf m d) := by
  rw [← col1_as_dst (F := F) d L k hk, ← bOf_batch L (j := 2 * k.val + 1) (by omega)]
  exact Entails.of_eq (pointsTo_congr (fun i hi =>
    landed_col_writes (F := F) (m (xLoc d)) (itOf m d) (bOf L (2 * k.val + 1)) (k0_off27 L k 1#32) (k0_off27_inb L k 1) (off27_eq L k 1 hk) fc1 blk hblk i hi))

end Tile

end Cert.Proof.OnKernel

end
-- ==== Proof.OnKernel.TripFirst.lean ====
/-
  The first pair of batches on one vector subcore.

  Before the first pair the first slot's table and index rows are arriving, and nothing is leaving yet: both result
  blocks are idle. The subcore starts the copies of the second batch into the second slot, waits for the first
  slot's incoming table and index rows (there is no outgoing block to wait for), gathers, sends the block out; then
  starts the copies of the next pair's first batch into the first slot, waits for the second slot's incoming table
  and index rows, gathers, sends that block out. No column of the result is finished before this pair, and none
  after it: the two blocks just sent are still on their way. The state before the second pair is the general one,
  with batches 0 and 1 leaving.
-/
import proofs.«216842_g32469952758108_cont_8to1_b_497_34_alg».proof.Proof.OnKernel.TripLemmas

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.Kernel.main_arg0_scv : Memref Cert.Kernel.sig Kind.scVector Space.hbm Cert.Kernel.S1024x200x128 EltTy.f32)
local notation "tW" => (Memref.whole Cert.Kernel.main_v0_scv : Memref Cert.Kernel.sig Kind.scVector Space.hbm Cert.Kernel.S50x1024x128 EltTy.i32)
local notation "oW" => (Memref.whole Cert.Kernel.main_v1_scv : Memref Cert.Kernel.sig Kind.scVector Space.hbm Cert.Kernel.S50x1024x128 EltTy.f32)
local notation "inA" => (Memref.whole Cert.Kernel.cc0_scratch0 : Memref Cert.Kernel.sig Kind.scVector Space.vmem Cert.Kernel.S200x128 EltTy.f32)
local notation "inB" => (Memref.whole Cert.Kernel.cc0_scratch1 : Memref Cert.Kernel.sig Kind.scVector Space.vmem Cert.Kernel.S200x128 EltTy.f32)
local notation "ixA" => (Memref.whole Cert.Kernel.cc0_scratch2 : Memref Cert.Kernel.sig Kind.scVector Space.vmem Cert.Kernel.S50x128 EltTy.i32)
local notation "ixB" => (Memref.whole Cert.Kernel.cc0_scratch3 : Memref Cert.Kernel.sig Kind.scVector Space.vmem Cert.Kernel.S50x128 EltTy.i32)
local notation "ouA" => (Memref.whole Cert.Kernel.cc0_scratch4 : Memref Cert.Kernel.sig Kind.scVector Space.vmem Cert.Kernel.S50x128 EltTy.f32)
local notation "ouB" => (Memref.whole Cert.Kernel.cc0_scratch5 : Memref Cert.Kernel.sig Kind.scVector Space.vmem Cert.Kernel.S50x128 EltTy.f32)

variable [FloatOps F]

section Tile
variable (d : Dev nD) (L : grid0.Coords)

set_option maxHeartbeats 4000000 in
theorem trip_first (O : CellTallies nD τ sig (HIx 1)) (W : Waits sig (HIx 1)) (v2 : BitVec 32) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (hpre : PreOK m) (k : Fin k0_t1_loop.trips) (acc : PUnit) (hk0 : k.val = 0) :
    inv m d L O W k.val acc ⊢ wp frame (wpE (defs₀ (F := F)) 𝒱₀ (thr d L) none) Set.univ
      (k0_t1_body L xW (Memref.isWhole_whole _) tW (Memref.isWhole_whole _) oW (Memref.isWhole_whole _)
        inA (Memref.isWhole_whole _) inB (Memref.isWhole_whole _) ixA (Memref.isWhole_whole _) ixB (Memref.isWhole_whole _)
        ouA (Memref.isWhole_whole _) ouB (Memref.isWhole_whole _)
        cc0_scratch6 cc0_scratch7 cc0_scratch8 cc0_scratch9 cc0_scratch10 cc0_scratch11 cc0_scratch12 cc0_scratch13
        v2 v5 v7 v9 v11 v13 v15 v17 v19 k acc)
      (inv m d L O W (k.val + 1)) := by
  have hk : k.val < 16 := by omega
  have hk15 : k.val < 15 := by omega
  have k0_h1 : k0_cond1 k = 1#1 := cond1_all k
  have k0_h2 : ¬ k0_cond2 k = 1#1 := cond2_neg k hk0
  have k0_h3 : k0_cond3 k = 1#1 := cond3_pos k hk15
  have k0_h4 : ¬ k0_cond4 k = 1#1 := cond4_neg k hk0
  unfold inv XFlight TFlight
  rw [if_pos hk, if_pos hk0, if_pos (by omega : k.val + 1 < 16), if_neg (by omega : ¬ k.val + 1 = 0),
    show 2 * (k.val + 1) - 2 = 2 * k.val from by omega, show 2 * (k.val + 1) - 1 = 2 * k.val + 1 from by omega]
  iintro ⟨#Hmw, ⟨⟨%SA, HfA, HrA⟩, ⟨%SB, HfB, HrB⟩, ⟨%ST, HfT, HrT⟩⟩, ⟨⟨%g1l, Hb1lo⟩, ⟨%g1h, Hb1hi⟩, ⟨%g3, Hb3⟩, Hx1, Hx3, Ht5, Hs7, Hs9, Hs11⟩, ⟨⟨%foA, HouA0⟩, ⟨%foB, HouB0⟩, Hs12, Hs13⟩, Hdone, Htodo, %W', %hW', HO⟩
  unfold k0_t1_body
  rw [k0_part4_eq_skeleton]
  sl_exec
  -- the first slot: its table from the two halves, the gather, the block on its way out
  ihave HinA := (split_inA (F := F) d L _).2 $$ [HfA_dst HfB_dst]
  · isplitl [HfA_dst] <;> iassumption
  ihave HinA := (Entails.of_eq (pts_inA (F := F) d L _).symm) $$ HinA
  iapply (compute_A_bind (F := F) d L v2 _ _ k v5 v7 v9 v11 v13 v15 v17 v19 h5 h7 h9 h11 h13 h15 h17 h19 _ _ _ (colOf_lt m d hpre _))
  isplitl [HinA]; · iexact HinA
  isplitl [HfT_dst]; · iexact HfT_dst
  isplitl [HouA0]; · iexact HouA0
  iintro ⟨HinA, HixA, HouA⟩
  ihave HinA := (Entails.of_eq (pts_inA (F := F) d L _)) $$ HinA
  ihave Hh := (split_inA (F := F) d L _).1 $$ HinA
  icases Hh with ⟨Hb0lo, Hb0hi⟩
  ihave Ht2 := (Entails.of_eq (todo_step (fun j : Fin 32 => (iprop(∃ f, oCol d (batchOf (L 0).val (L 1).val j.val) f) : sProp 𝕄)) k.val hk)) $$ Htodo
  icases Ht2 with ⟨⟨%fc0, Hc0⟩, ⟨%fc1, Hc1⟩, Htodo⟩
  ihave Hc0 := (Entails.of_eq (col0_as_dst (F := F) d L k hk fc0)) $$ Hc0
  ihave Hc1 := (Entails.of_eq (col1_as_dst (F := F) d L k hk fc1)) $$ Hc1
  sl_exec
  -- the second slot: what landed is the next batch's table and index rows
  have hb1 : (bOf L (2 * k.val + 1)).val = 64 * (L 1).val + 32 * (L 0).val + (2 * k.val + 1) := bOf_val L (by omega)
  ihave Hb1lo := (pts_congr' (F := F) (g := tabOf (m (xLoc d)) (bOf L (2 * k.val + 1))) ?hBlo) $$ Hb1lo
  case hBlo =>
    exact landed_Blo (m (xLoc d)) (bOf L (2 * k.val + 1)) (k0_off4 L k) (k0_off4_inb L k k0_h1) (by rw [k0_off4_eq, hb1, Nat.add_assoc]) _
  ihave Hb1hi := (pts_congr' (F := F) (g := tabOf (m (xLoc d)) (bOf L (2 * k.val + 1))) ?hBhi) $$ Hb1hi
  case hBhi =>
    exact landed_Bhi (m (xLoc d)) (bOf L (2 * k.val + 1)) (k0_off5 L k) (k0_off5_inb L k k0_h1) (by rw [k0_off5_eq, hb1, Nat.add_assoc]) _
  ihave Hb3 := (pts_eq' (F := F) (g := colOf (itOf m d) (bOf L (2 * k.val + 1))) ?hBix) $$ Hb3
  case hBix =>
    exact landed_ixB (F := F) (itOf m d) (bOf L (2 * k.val + 1)) (k0_off6 L k) (k0_off6_inb L k k0_h1) (by rw [k0_off6_eq, hb1, Nat.add_assoc]) g3
  ihave HinB := (split_inB (F := F) d L _).2 $$ [Hb1lo Hb1hi]
  · isplitl [Hb1lo] <;> iassumption
  ihave HinB := (Entails.of_eq (pts_inB (F := F) d L _).symm) $$ HinB
  iapply (compute_B_bind (F := F) d L v5 v7 v9 v11 v13 v15 v17 v19 h5 h7 h9 h11 h13 h15 h17 h19 _ _ _ (colOf_lt m d hpre _))
  isplitl [HinB]; · iexact HinB
  isplitl [Hb3]; · iexact Hb3
  isplitl [HouB0]; · iexact HouB0
  iintro ⟨HinB, HixB, HouB⟩
  ihave HinB := (Entails.of_eq (pts_inB (F := F) d L _)) $$ HinB
  ihave Hh := (split_inB (F := F) d L _).1 $$ HinB
  icases Hh with ⟨Hb1lo, Hb1hi⟩
  sl_exec
  sl_step
  -- the invariant before the next pair
  have hb2 : (bOf L (2 * (k.val + 1))).val = 64 * (L 1).val + 32 * (L 0).val + 2 * (k.val + 1) := bOf_val L (by omega)
  have e28 : 64 * (L 1).val + 32 * (L 0).val + 2 * k.val + 2 = 64 * (L 1).val + 32 * (L 0).val + 2 * (k.val + 1) := by omega
  isplitr; · iexact Hmw
  isplitl [HfA HrA HfB HrB HfT HrT]
  · isplitl [HfA HrA]
    · ihave HfA := (Transfers.Flight_mono countersEmb (thr d L)
          (D' := iprop((inAlo.view.loc (thr d L) ↦[inAlo.view.set]{fullShare} tabOf (m (xLoc d)) (bOf L (2 * (k.val + 1)))) ∗ ((xW).view.loc (thr d L) ↦[_]{rtok L 0} m (xLoc d)))) ?hA) $$ HfA
      case hA =>
        exact sep_mono_left (Entails.of_eq (pointsTo_congr (landed_Alo (F := F) (m (xLoc d)) (bOf L (2 * (k.val + 1))) (k0_off28 L k) (k0_off28_inb L k k0_h3) (by rw [k0_off28_eq, hb2, e28]) _)))
      iexists _; isplitl [HfA]; · iexact HfA
      iexact HrA
    isplitl [HfB HrB]
    · ihave HfB := (Transfers.Flight_mono countersEmb (thr d L)
          (D' := iprop((inAhi.view.loc (thr d L) ↦[inAhi.view.set]{fullShare} tabOf (m (xLoc d)) (bOf L (2 * (k.val + 1)))) ∗ ((xW).view.loc (thr d L) ↦[_]{rtok L 2} m (xLoc d)))) ?hB) $$ HfB
      case hB =>
        exact sep_mono_left (Entails.of_eq (pointsTo_congr (landed_Ahi (F := F) (m (xLoc d)) (bOf L (2 * (k.val + 1))) (k0_off29 L k) (k0_off29_inb L k k0_h3) (by rw [k0_off29_eq, hb2, e28]) _)))
      iexists _; isplitl [HfB]; · iexact HfB
      iexact HrB
    · ihave HfT := (Transfers.Flight_mono countersEmb (thr d L)
          (D' := iprop(((ixA).view.loc (thr d L) ↦{fullShare} colOf (itOf m d) (bOf L (2 * (k.val + 1)))) ∗ ((tW).view.loc (thr d L) ↦[_]{rtok L 4} itOf m d))) ?hT) $$ HfT
      case hT =>
        exact sep_mono_left (pts_eq' (F := F) (landed_ixA (F := F) (itOf m d) (bOf L (2 * (k.val + 1))) (k0_off30 L k) (k0_off30_inb L k k0_h3) (by rw [k0_off30_eq, hb2, e28]) _))
      iexists _; isplitl [HfT]; · iexact HfT
      iexact HrT
  isplitl [Hb1lo Hb1hi HixB Hx1 Hx3 Ht5 Hs7 Hs9 Hs11]
  · isplitl [Hb1lo]; · iexists _; iexact Hb1lo
    isplitl [Hb1hi]; · iexists _; iexact Hb1hi
    isplitl [HixB]; · iexists _; iexact HixB
    isplitl [Hx1]; · iexact Hx1
    isplitl [Hx3]; · iexact Hx3
    isplitl [Ht5]; · iexact Ht5
    isplitl [Hs7]; · iexact Hs7
    isplitl [Hs9]; · iexact Hs9
    iexact Hs11
  isplitl [Hs12 Hs13]
  · isplitl [Hs12]
    · ihave Hs12 := (Transfers.Flight_mono countersEmb (thr d L)
          (D' := iprop(oCol d (bOf L (2 * k.val)).val (otOf m d) ∗ ((ouA).view.loc (thr d L) ↦{fullShare} _))) ?hoA) $$ Hs12
      case hoA => exact BIClass.sep_mono (out_landed0 (F := F) m d L k hk fc0 _ rfl) (Entails.of_eq (ouA_set (F := F) d L _))
      iexists _; iexact Hs12
    · ihave Hs13 := (Transfers.Flight_mono countersEmb (thr d L)
          (D' := iprop(oCol d (bOf L (2 * k.val + 1)).val (otOf m d) ∗ ((ouB).view.loc (thr d L) ↦{fullShare} _))) ?hoB) $$ Hs13
      case hoB => exact BIClass.sep_mono (out_landed1 (F := F) m d L k hk fc1 _ rfl) (Entails.of_eq (ouB_set (F := F) d L _))
      iexists _; iexact Hs13
  isplitl [Hdone]
  · -- no column is finished before the first pair, and none before the second
    have hd : (bigSep (Finset.univ.filter fun j : Fin 32 => j.val + 2 < 2 * (k.val + 1)) fun j : Fin 32 => (oCol d (batchOf (L 0).val (L 1).val j.val) (otOf m d) : sProp 𝕄))
        = bigSep (Finset.univ.filter fun j : Fin 32 => j.val + 2 < 2 * k.val) fun j : Fin 32 => (oCol d (batchOf (L 0).val (L 1).val j.val) (otOf m d) : sProp 𝕄) := by
      rw [hk0, done_one, done_zero]
    iapply (Entails.of_eq hd.symm); iexact Hdone
  isplitl [Htodo]; · iexact Htodo
  iexists _; isplitr
  rotate_left
  · iexact HO
  · ipureintro
    intro p hp
    simp only [Finset.mem_insert] at hp
    rcases hp with rfl | rfl | rfl | rfl | rfl | rfl | hp
    all_goals first | exact .inr rfl | exact hW' p hp

end Tile

end Cert.Proof.OnKernel

end
-- ==== Proof.OnKernel.TripMid.lean ====
/-
  One pair of batches on one vector subcore, neither the first pair nor the last.

  Before the pair the first slot's table and index rows are arriving and the previous pair's result blocks are
  leaving. The subcore starts the copies of the second batch into the second slot, waits for the first slot's
  outgoing block and for its incoming table and index rows, gathers, sends the block out; then starts the copies of
  the next pair's first batch into the first slot, waits likewise on the second slot, gathers, sends that block out.
  Every wait hands back what its copy delivered, stated over the arrays' contents, so the two columns written hold
  the expected gather and the state before the next pair is as before this one, two batches on.
-/
import proofs.«216842_g32469952758108_cont_8to1_b_497_34_alg».proof.Proof.OnKernel.TripLemmas

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.Kernel.main_arg0_scv : Memref Cert.Kernel.sig Kind.scVector Space.hbm Cert.Kernel.S1024x200x128 EltTy.f32)
local notation "tW" => (Memref.whole Cert.Kernel.main_v0_scv : Memref Cert.Kernel.sig Kind.scVector Space.hbm Cert.Kernel.S50x1024x128 EltTy.i32)
local notation "oW" => (Memref.whole Cert.Kernel.main_v1_scv : Memref Cert.Kernel.sig Kind.scVector Space.hbm Cert.Kernel.S50x1024x128 EltTy.f32)
local notation "inA" => (Memref.whole Cert.Kernel.cc0_scratch0 : Memref Cert.Kernel.sig Kind.scVector Space.vmem Cert.Kernel.S200x128 EltTy.f32)
local notation "inB" => (Memref.whole Cert.Kernel.cc0_scratch1 : Memref Cert.Kernel.sig Kind.scVector Space.vmem Cert.Kernel.S200x128 EltTy.f32)
local notation "ixA" => (Memref.whole Cert.Kernel.cc0_scratch2 : Memref Cert.Kernel.sig Kind.scVector Space.vmem Cert.Kernel.S50x128 EltTy.i32)
local notation "ixB" => (Memref.whole Cert.Kernel.cc0_scratch3 : Memref Cert.Kernel.sig Kind.scVector Space.vmem Cert.Kernel.S50x128 EltTy.i32)
local notation "ouA" => (Memref.whole Cert.Kernel.cc0_scratch4 : Memref Cert.Kernel.sig Kind.scVector Space.vmem Cert.Kernel.S50x128 EltTy.f32)
local notation "ouB" => (Memref.whole Cert.Kernel.cc0_scratch5 : Memref Cert.Kernel.sig Kind.scVector Space.vmem Cert.Kernel.S50x128 EltTy.f32)

variable [FloatOps F]

section Tile
variable (d : Dev nD) (L : grid0.Coords)

set_option maxHeartbeats 4000000 in
theorem trip_mid (O : CellTallies nD τ sig (HIx 1)) (W : Waits sig (HIx 1)) (v2 : BitVec 32) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (hpre : PreOK m) (k : Fin k0_t1_loop.trips) (acc : PUnit) (hk0 : 0 < k.val) (hk15 : k.val < 15) :
    inv m d L O W k.val acc ⊢ wp frame (wpE (defs₀ (F := F)) 𝒱₀ (thr d L) none) Set.univ
      (k0_t1_body L xW (Memref.isWhole_whole _) tW (Memref.isWhole_whole _) oW (Memref.isWhole_whole _)
        inA (Memref.isWhole_whole _) inB (Memref.isWhole_whole _) ixA (Memref.isWhole_whole _) ixB (Memref.isWhole_whole _)
        ouA (Memref.isWhole_whole _) ouB (Memref.isWhole_whole _)
        cc0_scratch6 cc0_scratch7 cc0_scratch8 cc0_scratch9 cc0_scratch10 cc0_scratch11 cc0_scratch12 cc0_scratch13
        v2 v5 v7 v9 v11 v13 v15 v17 v19 k acc)
      (inv m d L O W (k.val + 1)) := by
  have hk : k.val < 16 := by omega
  have k0_h1 : k0_cond1 k = 1#1 := cond1_all k
  have k0_h2 : k0_cond2 k = 1#1 := cond2_pos k hk0
  have k0_h3 : k0_cond3 k = 1#1 := cond3_pos k hk15
  have k0_h4 : k0_cond4 k = 1#1 := cond4_pos k hk0
  unfold inv XFlight TFlight
  rw [if_pos hk, if_neg (by omega : ¬ k.val = 0), if_pos (by omega : k.val + 1 < 16), if_neg (by omega : ¬ k.val + 1 = 0),
    show 2 * (k.val + 1) - 2 = 2 * k.val from by omega, show 2 * (k.val + 1) - 1 = 2 * k.val + 1 from by omega]
  iintro ⟨#Hmw, ⟨⟨%SA, HfA, HrA⟩, ⟨%SB, HfB, HrB⟩, ⟨%ST, HfT, HrT⟩⟩, ⟨⟨%g1l, Hb1lo⟩, ⟨%g1h, Hb1hi⟩, ⟨%g3, Hb3⟩, Hx1, Hx3, Ht5, Hs7, Hs9, Hs11⟩, ⟨⟨%foA, HfoA⟩, ⟨%foB, HfoB⟩⟩, Hdone, Htodo, %W', %hW', HO⟩
  unfold k0_t1_body
  rw [k0_part4_eq_skeleton]
  sl_exec
  -- the first slot: its table from the two halves, the gather, the block on its way out
  ihave HinA := (split_inA (F := F) d L _).2 $$ [HfA_dst HfB_dst]
  · isplitl [HfA_dst] <;> iassumption
  ihave HinA := (Entails.of_eq (pts_inA (F := F) d L _).symm) $$ HinA
  iapply (compute_A_bind (F := F) d L v2 _ _ k v5 v7 v9 v11 v13 v15 v17 v19 h5 h7 h9 h11 h13 h15 h17 h19 _ _ _ (colOf_lt m d hpre _))
  isplitl [HinA]; · iexact HinA
  isplitl [HfT_dst]; · iexact HfT_dst
  isplitl [HfoA_src]; · iexact HfoA_src
  iintro ⟨HinA, HixA, HouA⟩
  ihave HinA := (Entails.of_eq (pts_inA (F := F) d L _)) $$ HinA
  ihave Hh := (split_inA (F := F) d L _).1 $$ HinA
  icases Hh with ⟨Hb0lo, Hb0hi⟩
  ihave Ht2 := (Entails.of_eq (todo_step (fun j : Fin 32 => (iprop(∃ f, oCol d (batchOf (L 0).val (L 1).val j.val) f) : sProp 𝕄)) k.val hk)) $$ Htodo
  icases Ht2 with ⟨⟨%fc0, Hc0⟩, ⟨%fc1, Hc1⟩, Htodo⟩
  ihave Hc0 := (Entails.of_eq (col0_as_dst (F := F) d L k hk fc0)) $$ Hc0
  ihave Hc1 := (Entails.of_eq (col1_as_dst (F := F) d L k hk fc1)) $$ Hc1
  sl_exec
  -- the second slot: what landed is the next batch's table and index rows
  have hb1 : (bOf L (2 * k.val + 1)).val = 64 * (L 1).val + 32 * (L 0).val + (2 * k.val + 1) := bOf_val L (by omega)
  ihave Hb1lo := (pts_congr' (F := F) (g := tabOf (m (xLoc d)) (bOf L (2 * k.val + 1))) ?hBlo) $$ Hb1lo
  case hBlo =>
    exact landed_Blo (m (xLoc d)) (bOf L (2 * k.val + 1)) (k0_off4 L k) (k0_off4_inb L k k0_h1) (by rw [k0_off4_eq, hb1, Nat.add_assoc]) _
  ihave Hb1hi := (pts_congr' (F := F) (g := tabOf (m (xLoc d)) (bOf L (2 * k.val + 1))) ?hBhi) $$ Hb1hi
  case hBhi =>
    exact landed_Bhi (m (xLoc d)) (bOf L (2 * k.val + 1)) (k0_off5 L k) (k0_off5_inb L k k0_h1) (by rw [k0_off5_eq, hb1, Nat.add_assoc]) _
  ihave Hb3 := (pts_eq' (F := F) (g := colOf (itOf m d) (bOf L (2 * k.val + 1))) ?hBix) $$ Hb3
  case hBix =>
    exact landed_ixB (F := F) (itOf m d) (bOf L (2 * k.val + 1)) (k0_off6 L k) (k0_off6_inb L k k0_h1) (by rw [k0_off6_eq, hb1, Nat.add_assoc]) g3
  ihave HinB := (split_inB (F := F) d L _).2 $$ [Hb1lo Hb1hi]
  · isplitl [Hb1lo] <;> iassumption
  ihave HinB := (Entails.of_eq (pts_inB (F := F) d L _).symm) $$ HinB
  iapply (compute_B_bind (F := F) d L v5 v7 v9 v11 v13 v15 v17 v19 h5 h7 h9 h11 h13 h15 h17 h19 _ _ _ (colOf_lt m d hpre _))
  isplitl [HinB]; · iexact HinB
  isplitl [Hb3]; · iexact Hb3
  isplitl [HfoB_src]; · iexact HfoB_src
  iintro ⟨HinB, HixB, HouB⟩
  ihave HinB := (Entails.of_eq (pts_inB (F := F) d L _)) $$ HinB
  ihave Hh := (split_inB (F := F) d L _).1 $$ HinB
  icases Hh with ⟨Hb1lo, Hb1hi⟩
  sl_exec
  sl_step
  -- the invariant before the next pair
  have hb2 : (bOf L (2 * (k.val + 1))).val = 64 * (L 1).val + 32 * (L 0).val + 2 * (k.val + 1) := bOf_val L (by omega)
  have e28 : 64 * (L 1).val + 32 * (L 0).val + 2 * k.val + 2 = 64 * (L 1).val + 32 * (L 0).val + 2 * (k.val + 1) := by omega
  isplitr; · iexact Hmw
  isplitl [HfA HrA HfB HrB HfT HrT]
  · isplitl [HfA HrA]
    · ihave HfA := (Transfers.Flight_mono countersEmb (thr d L)
          (D' := iprop((inAlo.view.loc (thr d L) ↦[inAlo.view.set]{fullShare} tabOf (m (xLoc d)) (bOf L (2 * (k.val + 1)))) ∗ ((xW).view.loc (thr d L) ↦[_]{rtok L 0} m (xLoc d)))) ?hA) $$ HfA
      case hA =>
        exact sep_mono_left (Entails.of_eq (pointsTo_congr (landed_Alo (F := F) (m (xLoc d)) (bOf L (2 * (k.val + 1))) (k0_off28 L k) (k0_off28_inb L k k0_h3) (by rw [k0_off28_eq, hb2, e28]) _)))
      iexists _; isplitl [HfA]; · iexact HfA
      iexact HrA
    isplitl [HfB HrB]
    · ihave HfB := (Transfers.Flight_mono countersEmb (thr d L)
          (D' := iprop((inAhi.view.loc (thr d L) ↦[inAhi.view.set]{fullShare} tabOf (m (xLoc d)) (bOf L (2 * (k.val + 1)))) ∗ ((xW).view.loc (thr d L) ↦[_]{rtok L 2} m (xLoc d)))) ?hB) $$ HfB
      case hB =>
        exact sep_mono_left (Entails.of_eq (pointsTo_congr (landed_Ahi (F := F) (m (xLoc d)) (bOf L (2 * (k.val + 1))) (k0_off29 L k) (k0_off29_inb L k k0_h3) (by rw [k0_off29_eq, hb2, e28]) _)))
      iexists _; isplitl [HfB]; · iexact HfB
      iexact HrB
    · ihave HfT := (Transfers.Flight_mono countersEmb (thr d L)
          (D' := iprop(((ixA).view.loc (thr d L) ↦{fullShare} colOf (itOf m d) (bOf L (2 * (k.val + 1)))) ∗ ((tW).view.loc (thr d L) ↦[_]{rtok L 4} itOf m d))) ?hT) $$ HfT
      case hT =>
        exact sep_mono_left (pts_eq' (F := F) (landed_ixA (F := F) (itOf m d) (bOf L (2 * (k.val + 1))) (k0_off30 L k) (k0_off30_inb L k k0_h3) (by rw [k0_off30_eq, hb2, e28]) _))
      iexists _; isplitl [HfT]; · iexact HfT
      iexact HrT
  isplitl [Hb1lo Hb1hi HixB Hx1 Hx3 Ht5 Hs7 Hs9 Hs11]
  · isplitl [Hb1lo]; · iexists _; iexact Hb1lo
    isplitl [Hb1hi]; · iexists _; iexact Hb1hi
    isplitl [HixB]; · iexists _; iexact HixB
    isplitl [Hx1]; · iexact Hx1
    isplitl [Hx3]; · iexact Hx3
    isplitl [Ht5]; · iexact Ht5
    isplitl [Hs7]; · iexact Hs7
    isplitl [Hs9]; · iexact Hs9
    iexact Hs11
  isplitl [HfoA HfoB]
  · isplitl [HfoA]
    · ihave HfoA := (Transfers.Flight_mono countersEmb (thr d L)
          (D' := iprop(oCol d (bOf L (2 * k.val)).val (otOf m d) ∗ ((ouA).view.loc (thr d L) ↦{fullShare} _))) ?hoA) $$ HfoA
      case hoA => exact BIClass.sep_mono (out_landed0 (F := F) m d L k hk fc0 _ rfl) (Entails.of_eq (ouA_set (F := F) d L _))
      iexists _; iexact HfoA
    · ihave HfoB := (Transfers.Flight_mono countersEmb (thr d L)
          (D' := iprop(oCol d (bOf L (2 * k.val + 1)).val (otOf m d) ∗ ((ouB).view.loc (thr d L) ↦{fullShare} _))) ?hoB) $$ HfoB
      case hoB => exact BIClass.sep_mono (out_landed1 (F := F) m d L k hk fc1 _ rfl) (Entails.of_eq (ouB_set (F := F) d L _))
      iexists _; iexact HfoB
  isplitl [Hdone HfoA_dst HfoB_dst]
  · iapply (Entails.of_eq (done_step (fun j : Fin 32 => (oCol d (batchOf (L 0).val (L 1).val j.val) (otOf m d) : sProp 𝕄)) k.val hk0 hk).symm)
    isplitl [Hdone]; · iexact Hdone
    isplitl [HfoA_dst]
    · iapply (Entails.of_eq (congrArg (fun b => (oCol d b (otOf m d) : sProp 𝕄)) (bOf_batch L (j := 2 * k.val - 2) (by omega)))); iexact HfoA_dst
    · iapply (Entails.of_eq (congrArg (fun b => (oCol d b (otOf m d) : sProp 𝕄)) (bOf_batch L (j := 2 * k.val - 1) (by omega)))); iexact HfoB_dst
  isplitl [Htodo]; · iexact Htodo
  iexists _; isplitr
  rotate_left
  · iexact HO
  · ipureintro
    intro p hp
    simp only [Finset.mem_insert] at hp
    rcases hp with rfl | rfl | rfl | rfl | rfl | rfl | rfl | rfl | hp
    all_goals first | exact .inr rfl | exact hW' p hp

end Tile

end Cert.Proof.OnKernel

end
-- ==== Proof.OnKernel.TripLast.lean ====
/-
  The last pair of batches on one vector subcore.

  Before the pair the first slot's table and index rows (batch 30 of the subcore's 32) are arriving and the previous
  pair's result blocks are leaving. The subcore starts the copies of batch 31 into the second slot, waits for the first
  slot's outgoing block and for its incoming table and index rows, gathers, sends the block out. There is no further
  batch, so nothing is fetched into the first slot again: it stays idle, its read shares of the tables and of the
  index array whole and its three semaphores at zero. Then the subcore waits likewise on the second slot, gathers,
  sends that block out. The two columns written hold the expected gather, no column is left to start, and the state
  after the pair is the loop's invariant at sixteen pairs done.
-/
import proofs.«216842_g32469952758108_cont_8to1_b_497_34_alg».proof.Proof.OnKernel.TripLemmas

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.Kernel.main_arg0_scv : Memref Cert.Kernel.sig Kind.scVector Space.hbm Cert.Kernel.S1024x200x128 EltTy.f32)
local notation "tW" => (Memref.whole Cert.Kernel.main_v0_scv : Memref Cert.Kernel.sig Kind.scVector Space.hbm Cert.Kernel.S50x1024x128 EltTy.i32)
local notation "oW" => (Memref.whole Cert.Kernel.main_v1_scv : Memref Cert.Kernel.sig Kind.scVector Space.hbm Cert.Kernel.S50x1024x128 EltTy.f32)
local notation "inA" => (Memref.whole Cert.Kernel.cc0_scratch0 : Memref Cert.Kernel.sig Kind.scVector Space.vmem Cert.Kernel.S200x128 EltTy.f32)
local notation "inB" => (Memref.whole Cert.Kernel.cc0_scratch1 : Memref Cert.Kernel.sig Kind.scVector Space.vmem Cert.Kernel.S200x128 EltTy.f32)
local notation "ixA" => (Memref.whole Cert.Kernel.cc0_scratch2 : Memref Cert.Kernel.sig Kind.scVector Space.vmem Cert.Kernel.S50x128 EltTy.i32)
local notation "ixB" => (Memref.whole Cert.Kernel.cc0_scratch3 : Memref Cert.Kernel.sig Kind.scVector Space.vmem Cert.Kernel.S50x128 EltTy.i32)
local notation "ouA" => (Memref.whole Cert.Kernel.cc0_scratch4 : Memref Cert.Kernel.sig Kind.scVector Space.vmem Cert.Kernel.S50x128 EltTy.f32)
local notation "ouB" => (Memref.whole Cert.Kernel.cc0_scratch5 : Memref Cert.Kernel.sig Kind.scVector Space.vmem Cert.Kernel.S50x128 EltTy.f32)

variable [FloatOps F]

section Tile
variable (d : Dev nD) (L : grid0.Coords)

set_option maxHeartbeats 4000000 in
theorem trip_last (O : CellTallies nD τ sig (HIx 1)) (W : Waits sig (HIx 1)) (v2 : BitVec 32) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (hpre : PreOK m) (k : Fin k0_t1_loop.trips) (acc : PUnit) (hk15 : k.val = 15) :
    inv m d L O W k.val acc ⊢ wp frame (wpE (defs₀ (F := F)) 𝒱₀ (thr d L) none) Set.univ
      (k0_t1_body L xW (Memref.isWhole_whole _) tW (Memref.isWhole_whole _) oW (Memref.isWhole_whole _)
        inA (Memref.isWhole_whole _) inB (Memref.isWhole_whole _) ixA (Memref.isWhole_whole _) ixB (Memref.isWhole_whole _)
        ouA (Memref.isWhole_whole _) ouB (Memref.isWhole_whole _)
        cc0_scratch6 cc0_scratch7 cc0_scratch8 cc0_scratch9 cc0_scratch10 cc0_scratch11 cc0_scratch12 cc0_scratch13
        v2 v5 v7 v9 v11 v13 v15 v17 v19 k acc)
      (inv m d L O W (k.val + 1)) := by
  have hk : k.val < 16 := by omega
  have hk0 : 0 < k.val := by omega
  have k0_h1 : k0_cond1 k = 1#1 := cond1_all k
  have k0_h2 : k0_cond2 k = 1#1 := cond2_pos k hk0
  have k0_h3 : ¬ k0_cond3 k = 1#1 := cond3_neg k hk15
  have k0_h4 : k0_cond4 k = 1#1 := cond4_pos k hk0
  unfold inv XFlight TFlight
  rw [if_pos hk, if_neg (by omega : ¬ k.val = 0), if_neg (by omega : ¬ k.val + 1 < 16), if_neg (by omega : ¬ k.val + 1 = 0),
    show 2 * (k.val + 1) - 2 = 2 * k.val from by omega, show 2 * (k.val + 1) - 1 = 2 * k.val + 1 from by omega]
  iintro ⟨#Hmw, ⟨⟨%SA, HfA, HrA⟩, ⟨%SB, HfB, HrB⟩, ⟨%ST, HfT, HrT⟩⟩, ⟨⟨%g1l, Hb1lo⟩, ⟨%g1h, Hb1hi⟩, ⟨%g3, Hb3⟩, Hx1, Hx3, Ht5, Hs7, Hs9, Hs11⟩, ⟨⟨%foA, HfoA⟩, ⟨%foB, HfoB⟩⟩, Hdone, Htodo, %W', %hW', HO⟩
  unfold k0_t1_body
  rw [k0_part4_eq_skeleton]
  sl_exec
  -- the first slot: its table from the two halves, the gather, the block on its way out
  ihave HinA := (split_inA (F := F) d L _).2 $$ [HfA_dst HfB_dst]
  · isplitl [HfA_dst] <;> iassumption
  ihave HinA := (Entails.of_eq (pts_inA (F := F) d L _).symm) $$ HinA
  iapply (compute_A_bind (F := F) d L v2 _ _ k v5 v7 v9 v11 v13 v15 v17 v19 h5 h7 h9 h11 h13 h15 h17 h19 _ _ _ (colOf_lt m d hpre _))
  isplitl [HinA]; · iexact HinA
  isplitl [HfT_dst]; · iexact HfT_dst
  isplitl [HfoA_src]; · iexact HfoA_src
  iintro ⟨HinA, HixA, HouA⟩
  ihave HinA := (Entails.of_eq (pts_inA (F := F) d L _)) $$ HinA
  ihave Hh := (split_inA (F := F) d L _).1 $$ HinA
  icases Hh with ⟨Hb0lo, Hb0hi⟩
  ihave Ht2 := (Entails.of_eq (todo_step (fun j : Fin 32 => (iprop(∃ f, oCol d (batchOf (L 0).val (L 1).val j.val) f) : sProp 𝕄)) k.val hk)) $$ Htodo
  icases Ht2 with ⟨⟨%fc0, Hc0⟩, ⟨%fc1, Hc1⟩, Htodo⟩
  ihave Hc0 := (Entails.of_eq (col0_as_dst (F := F) d L k hk fc0)) $$ Hc0
  ihave Hc1 := (Entails.of_eq (col1_as_dst (F := F) d L k hk fc1)) $$ Hc1
  sl_exec
  -- the second slot: what landed is the next batch's table and index rows
  have hb1 : (bOf L (2 * k.val + 1)).val = 64 * (L 1).val + 32 * (L 0).val + (2 * k.val + 1) := bOf_val L (by omega)
  ihave Hb1lo := (pts_congr' (F := F) (g := tabOf (m (xLoc d)) (bOf L (2 * k.val + 1))) ?hBlo) $$ Hb1lo
  case hBlo =>
    exact landed_Blo (m (xLoc d)) (bOf L (2 * k.val + 1)) (k0_off4 L k) (k0_off4_inb L k k0_h1) (by rw [k0_off4_eq, hb1, Nat.add_assoc]) _
  ihave Hb1hi := (pts_congr' (F := F) (g := tabOf (m (xLoc d)) (bOf L (2 * k.val + 1))) ?hBhi) $$ Hb1hi
  case hBhi =>
    exact landed_Bhi (m (xLoc d)) (bOf L (2 * k.val + 1)) (k0_off5 L k) (k0_off5_inb L k k0_h1) (by rw [k0_off5_eq, hb1, Nat.add_assoc]) _
  ihave Hb3 := (pts_eq' (F := F) (g := colOf (itOf m d) (bOf L (2 * k.val + 1))) ?hBix) $$ Hb3
  case hBix =>
    exact landed_ixB (F := F) (itOf m d) (bOf L (2 * k.val + 1)) (k0_off6 L k) (k0_off6_inb L k k0_h1) (by rw [k0_off6_eq, hb1, Nat.add_assoc]) g3
  ihave HinB := (split_inB (F := F) d L _).2 $$ [Hb1lo Hb1hi]
  · isplitl [Hb1lo] <;> iassumption
  ihave HinB := (Entails.of_eq (pts_inB (F := F) d L _).symm) $$ HinB
  iapply (compute_B_bind (F := F) d L v5 v7 v9 v11 v13 v15 v17 v19 h5 h7 h9 h11 h13 h15 h17 h19 _ _ _ (colOf_lt m d hpre _))
  isplitl [HinB]; · iexact HinB
  isplitl [Hb3]; · iexact Hb3
  isplitl [HfoB_src]; · iexact HfoB_src
  iintro ⟨HinB, HixB, HouB⟩
  ihave HinB := (Entails.of_eq (pts_inB (F := F) d L _)) $$ HinB
  ihave Hh := (split_inB (F := F) d L _).1 $$ HinB
  icases Hh with ⟨Hb1lo, Hb1hi⟩
  sl_exec
  sl_step
  -- the invariant after the last pair: the first slot idle, its read shares whole, its semaphores at zero
  isplitr; · iexact Hmw
  isplitl [Hb0lo Hb0hi HixA HrA HrB HrT HfA HfB HfT]
  · isplitl [Hb0lo]; · iexists _; iexact Hb0lo
    isplitl [Hb0hi]; · iexists _; iexact Hb0hi
    isplitl [HixA]; · iexists _; iexact HixA
    isplitl [HrA]; · iexact HrA
    isplitl [HrB]; · iexact HrB
    isplitl [HrT]; · iexact HrT
    isplitl [HfA]; · iexact HfA
    isplitl [HfB]; · iexact HfB
    iexact HfT
  isplitl [Hb1lo Hb1hi HixB Hx1 Hx3 Ht5 Hs7 Hs9 Hs11]
  · isplitl [Hb1lo]; · iexists _; iexact Hb1lo
    isplitl [Hb1hi]; · iexists _; iexact Hb1hi
    isplitl [HixB]; · iexists _; iexact HixB
    isplitl [Hx1]; · iexact Hx1
    isplitl [Hx3]; · iexact Hx3
    isplitl [Ht5]; · iexact Ht5
    isplitl [Hs7]; · iexact Hs7
    isplitl [Hs9]; · iexact Hs9
    iexact Hs11
  isplitl [HfoA HfoB]
  · isplitl [HfoA]
    · ihave HfoA := (Transfers.Flight_mono countersEmb (thr d L)
          (D' := iprop(oCol d (bOf L (2 * k.val)).val (otOf m d) ∗ ((ouA).view.loc (thr d L) ↦{fullShare} _))) ?hoA) $$ HfoA
      case hoA => exact BIClass.sep_mono (out_landed0 (F := F) m d L k hk fc0 _ rfl) (Entails.of_eq (ouA_set (F := F) d L _))
      iexists _; iexact HfoA
    · ihave HfoB := (Transfers.Flight_mono countersEmb (thr d L)
          (D' := iprop(oCol d (bOf L (2 * k.val + 1)).val (otOf m d) ∗ ((ouB).view.loc (thr d L) ↦{fullShare} _))) ?hoB) $$ HfoB
      case hoB => exact BIClass.sep_mono (out_landed1 (F := F) m d L k hk fc1 _ rfl) (Entails.of_eq (ouB_set (F := F) d L _))
      iexists _; iexact HfoB
  isplitl [Hdone HfoA_dst HfoB_dst]
  · iapply (Entails.of_eq (done_step (fun j : Fin 32 => (oCol d (batchOf (L 0).val (L 1).val j.val) (otOf m d) : sProp 𝕄)) k.val hk0 hk).symm)
    isplitl [Hdone]; · iexact Hdone
    isplitl [HfoA_dst]
    · iapply (Entails.of_eq (congrArg (fun b => (oCol d b (otOf m d) : sProp 𝕄)) (bOf_batch L (j := 2 * k.val - 2) (by omega)))); iexact HfoA_dst
    · iapply (Entails.of_eq (congrArg (fun b => (oCol d b (otOf m d) : sProp 𝕄)) (bOf_batch L (j := 2 * k.val - 1) (by omega)))); iexact HfoB_dst
  isplitl [Htodo]; · iexact Htodo
  iexists _; isplitr
  rotate_left
  · iexact HO
  · ipureintro
    intro p hp
    simp only [Finset.mem_insert] at hp
    rcases hp with rfl | rfl | rfl | rfl | rfl | rfl | rfl | rfl | hp
    all_goals first | exact .inr rfl | exact hW' p hp

end Tile

end Cert.Proof.OnKernel

end
-- ==== Proof.OnKernel.Trip.lean ====
/-
  One pair of batches on one vector subcore, whichever pair it is.

  The first pair has no earlier result blocks to wait for, the last has no later batch to fetch; every other pair has
  both. The three cases, each proved on its own, together carry the state before pair `k` to the state before pair
  `k + 1` for every `k`.
-/
import proofs.«216842_g32469952758108_cont_8to1_b_497_34_alg».proof.Proof.OnKernel.TripFirst
import proofs.«216842_g32469952758108_cont_8to1_b_497_34_alg».proof.Proof.OnKernel.TripMid
import proofs.«216842_g32469952758108_cont_8to1_b_497_34_alg».proof.Proof.OnKernel.TripLast

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.Kernel.main_arg0_scv : Memref Cert.Kernel.sig Kind.scVector Space.hbm Cert.Kernel.S1024x200x128 EltTy.f32)
local notation "tW" => (Memref.whole Cert.Kernel.main_v0_scv : Memref Cert.Kernel.sig Kind.scVector Space.hbm Cert.Kernel.S50x1024x128 EltTy.i32)
local notation "oW" => (Memref.whole Cert.Kernel.main_v1_scv : Memref Cert.Kernel.sig Kind.scVector Space.hbm Cert.Kernel.S50x1024x128 EltTy.f32)
local notation "inA" => (Memref.whole Cert.Kernel.cc0_scratch0 : Memref Cert.Kernel.sig Kind.scVector Space.vmem Cert.Kernel.S200x128 EltTy.f32)
local notation "inB" => (Memref.whole Cert.Kernel.cc0_scratch1 : Memref Cert.Kernel.sig Kind.scVector Space.vmem Cert.Kernel.S200x128 EltTy.f32)
local notation "ixA" => (Memref.whole Cert.Kernel.cc0_scratch2 : Memref Cert.Kernel.sig Kind.scVector Space.vmem Cert.Kernel.S50x128 EltTy.i32)
local notation "ixB" => (Memref.whole Cert.Kernel.cc0_scratch3 : Memref Cert.Kernel.sig Kind.scVector Space.vmem Cert.Kernel.S50x128 EltTy.i32)
local notation "ouA" => (Memref.whole Cert.Kernel.cc0_scratch4 : Memref Cert.Kernel.sig Kind.scVector Space.vmem Cert.Kernel.S50x128 EltTy.f32)
local notation "ouB" => (Memref.whole Cert.Kernel.cc0_scratch5 : Memref Cert.Kernel.sig Kind.scVector Space.vmem Cert.Kernel.S50x128 EltTy.f32)

variable [FloatOps F]

section Tile
variable (d : Dev nD) (L : grid0.Coords)

set_option maxHeartbeats 4000000 in
theorem trip (O : CellTallies nD τ sig (HIx 1)) (W : Waits sig (HIx 1)) (v2 : BitVec 32) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (hpre : PreOK m) (k : Fin k0_t1_loop.trips) (acc : PUnit) :
    inv m d L O W k.val acc ⊢ wp frame (wpE (defs₀ (F := F)) 𝒱₀ (thr d L) none) Set.univ
      (k0_t1_body L xW (Memref.isWhole_whole _) tW (Memref.isWhole_whole _) oW (Memref.isWhole_whole _)
        inA (Memref.isWhole_whole _) inB (Memref.isWhole_whole _) ixA (Memref.isWhole_whole _) ixB (Memref.isWhole_whole _)
        ouA (Memref.isWhole_whole _) ouB (Memref.isWhole_whole _)
        cc0_scratch6 cc0_scratch7 cc0_scratch8 cc0_scratch9 cc0_scratch10 cc0_scratch11 cc0_scratch12 cc0_scratch13
        v2 v5 v7 v9 v11 v13 v15 v17 v19 k acc)
      (inv m d L O W (k.val + 1)) := by
  have hk : k.val < 16 := lt_of_lt_of_le k.isLt k0_t1_abs.2.1
  rcases Nat.eq_zero_or_pos k.val with h0 | hpos
  · exact trip_first m d L O W v2 v5 v7 v9 v11 v13 v15 v17 v19 h5 h7 h9 h11 h13 h15 h17 h19 hpre k acc h0
  · by_cases h15' : k.val < 15
    · exact trip_mid m d L O W v2 v5 v7 v9 v11 v13 v15 v17 v19 h5 h7 h9 h11 h13 h15 h17 h19 hpre k acc hpos h15'
    · exact trip_last m d L O W v2 v5 v7 v9 v11 v13 v15 v17 v19 h5 h7 h9 h11 h13 h15 h17 h19 hpre k acc (Nat.le_antisymm (Nat.le_of_lt_succ hk) (Nat.not_lt.mp h15'))

end Tile

end Cert.Proof.OnKernel

end
-- ==== Proof.OnKernel.Body.lean ====
/-
  The task of one vector subcore, and the launch theorem's obligation for it.

  A subcore takes its 32 batches two at a time. Before the first pair it starts the copies that bring batch 0's table
  (two halves) and index rows into the first slot; each pair then computes on one slot while the other fills and the
  previous results leave (`trip`, which carries the invariant `inv` from one pair to the next); after the sixteenth pair
  it waits for the last two result blocks to land. What it holds at the start is cut into the pieces the copies move —
  read shares of `x` and `it`, the halves of the table buffers — and at the end everything is put back: the shares
  rejoined, the halves joined, and the 32 columns of the result, each at the expected gather.
-/
import proofs.«216842_g32469952758108_cont_8to1_b_497_34_alg».proof.Proof.OnKernel.Inv
import proofs.«216842_g32469952758108_cont_8to1_b_497_34_alg».proof.Proof.OnKernel.Compute
import proofs.«216842_g32469952758108_cont_8to1_b_497_34_alg».proof.Proof.OnKernel.Trip

noncomputable section

namespace Cert.Proof.OnKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.Kernel.main_arg0_scv : Memref Cert.Kernel.sig Kind.scVector Space.hbm Cert.Kernel.S1024x200x128 EltTy.f32)
local notation "tW" => (Memref.whole Cert.Kernel.main_v0_scv : Memref Cert.Kernel.sig Kind.scVector Space.hbm Cert.Kernel.S50x1024x128 EltTy.i32)
local notation "oW" => (Memref.whole Cert.Kernel.main_v1_scv : Memref Cert.Kernel.sig Kind.scVector Space.hbm Cert.Kernel.S50x1024x128 EltTy.f32)
local notation "inA" => (Memref.whole Cert.Kernel.cc0_scratch0 : Memref Cert.Kernel.sig Kind.scVector Space.vmem Cert.Kernel.S200x128 EltTy.f32)
local notation "inB" => (Memref.whole Cert.Kernel.cc0_scratch1 : Memref Cert.Kernel.sig Kind.scVector Space.vmem Cert.Kernel.S200x128 EltTy.f32)
local notation "ixA" => (Memref.whole Cert.Kernel.cc0_scratch2 : Memref Cert.Kernel.sig Kind.scVector Space.vmem Cert.Kernel.S50x128 EltTy.i32)
local notation "ixB" => (Memref.whole Cert.Kernel.cc0_scratch3 : Memref Cert.Kernel.sig Kind.scVector Space.vmem Cert.Kernel.S50x128 EltTy.i32)
local notation "ouA" => (Memref.whole Cert.Kernel.cc0_scratch4 : Memref Cert.Kernel.sig Kind.scVector Space.vmem Cert.Kernel.S50x128 EltTy.f32)
local notation "ouB" => (Memref.whole Cert.Kernel.cc0_scratch5 : Memref Cert.Kernel.sig Kind.scVector Space.vmem Cert.Kernel.S50x128 EltTy.f32)

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_sc (coordsV c s)
          xW (Memref.isWhole_whole _) tW (Memref.isWhole_whole _) oW (Memref.isWhole_whole _)
          inA (Memref.isWhole_whole _) inB (Memref.isWhole_whole _) ixA (Memref.isWhole_whole _) ixB (Memref.isWhole_whole _)
          ouA (Memref.isWhole_whole _) ouB (Memref.isWhole_whole _)
          cc0_scratch6 cc0_scratch7 cc0_scratch8 cc0_scratch9 cc0_scratch10 cc0_scratch11 cc0_scratch12 cc0_scratch13) ⟨⟩ c s := rfl

section Tile
variable (d : Dev nD) (L : grid0.Coords)

/-- A table buffer's two halves, each at some contents, are the buffer at some contents. -/
theorem join_inA (f g : Buf (Elt F) ((thr d L).loc cc0_scratch0)) :
    iprop((inAlo.view.loc (thr d L) ↦[inAlo.view.set]{fullShare} f) ∗ (inAhi.view.loc (thr d L) ↦[inAhi.view.set]{fullShare} g))
      ⊢ (iprop(∃ h, (thr d L).loc cc0_scratch0 ↦{fullShare} h) : sProp 𝕄) := by
  have e1 : inAlo.view.set = loR.set := View.set_slice_whole _ _
  have e2 : inAhi.view.set = hiR.set := View.set_slice_whole _ _
  rw [e1, e2]
  refine (pointsTo_join (ℓ := (thr d L).loc cc0_scratch0) lo_hi_disjoint).trans ?_
  rw [lo_hi_union]
  iintro H; iexists _; iexact H
theorem join_inB (f g : Buf (Elt F) ((thr d L).loc cc0_scratch1)) :
    iprop((inBlo.view.loc (thr d L) ↦[inBlo.view.set]{fullShare} f) ∗ (inBhi.view.loc (thr d L) ↦[inBhi.view.set]{fullShare} g))
      ⊢ (iprop(∃ h, (thr d L).loc cc0_scratch1 ↦{fullShare} h) : sProp 𝕄) := by
  have e1 : inBlo.view.set = loR.set := View.set_slice_whole _ _
  have e2 : inBhi.view.set = hiR.set := View.set_slice_whole _ _
  rw [e1, e2]
  refine (pointsTo_join (ℓ := (thr d L).loc cc0_scratch1) lo_hi_disjoint).trans ?_
  rw [lo_hi_union]
  iintro H; iexists _; iexact H

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (xPts m d (tileShare (L 0).val (L 1).val) ∗ tPts m d (tileShare (L 0).val (L 1).val)
            ∗ bigSep Finset.univ fun k : Fin 32 => iprop(∃ f, oCol d (batchOf (L 0).val (L 1).val k.val) f))
        ∗ scopedBufs (thr d L) ∗ scopedSems0 (thr d L) ∗ owes (thr d L) O W)
      ⊢ wp frame (wpE (defs₀ (F := F)) 𝒱₀ (thr d L) none) Set.univ
          (cc0__gather_sc L xW (Memref.isWhole_whole _) tW (Memref.isWhole_whole _) oW (Memref.isWhole_whole _)
            inA (Memref.isWhole_whole _) inB (Memref.isWhole_whole _) ixA (Memref.isWhole_whole _) ixB (Memref.isWhole_whole _)
            ouA (Memref.isWhole_whole _) ouB (Memref.isWhole_whole _)
            cc0_scratch6 cc0_scratch7 cc0_scratch8 cc0_scratch9 cc0_scratch10 cc0_scratch11 cc0_scratch12 cc0_scratch13)
          fun _ => iprop((xPts m d (tileShare (L 0).val (L 1).val) ∗ tPts m d (tileShare (L 0).val (L 1).val)
              ∗ bigSep Finset.univ fun k : Fin 32 => oCol d (batchOf (L 0).val (L 1).val k.val) (otOf m d))
            ∗ scopedBufs (thr d L) ∗ scopedSems0 (thr d L)
            ∗ ∃ W', ⌜∀ p ∈ W', p ∈ W ∨ p.2 = none⌝ ∗ owes (thr d L) O W') := by
  simp only [cc0__gather_sc_eq_skeleton]; unfold cc0__gather_sc_skel
  rw [(K (F := F)).scopedBufs_V hF d (cV L) (jV L), SparseCore.Cfg.scopedSems0_V (Val := Elt F) d (cV L) (jV L), ownSems0_V, ownBufs_V]
  iintro ⟨#Hlv, -, ⟨Hx, Ht, Hcols⟩, ⟨⟨%f0, Hb0⟩, ⟨%f1, Hb1⟩, ⟨%f2, Hb2⟩, ⟨%f3, Hb3⟩, ⟨%f4, Hb4⟩, ⟨%f5, Hb5⟩, Hbrest⟩,
    ⟨Hs6, Hs7, Hs8, Hs9, Hs10, Hs11, Hs12, Hs13, Hsrest⟩, HO⟩
  ihave Hmw := ((K (F := F)).mayWaits_none (thr := thr d L) hO) $$ Hlv
  ihave Hx' := (Entails.of_eq (pts_x (F := F) d L _ _).symm) $$ Hx
  ihave Ht' := (Entails.of_eq (pts_t (F := F) d L _ _).symm) $$ Ht
  ihave Hxs := (toks4 (F := F) (tileShare (L 0).val (L 1).val)).1 $$ Hx'
  icases Hxs with ⟨Hxr, Hx0, Hx1, Hx2, Hx3⟩
  ihave Hts := (Transfers.pointsTo_toks_range (tileShare (L 0).val (L 1).val) 4).1 $$ Ht'
  icases Hts with ⟨Htd, Htside⟩
  ihave Hts := (tok_split (F := F) (tileShare (L 0).val (L 1).val) 4).1 $$ Htd
  icases Hts with ⟨Htd, Ht4⟩
  ihave Hts := (tok_split (F := F) (tileShare (L 0).val (L 1).val) 5).1 $$ Htd
  icases Hts with ⟨Htd, Ht5⟩
  ihave Hin := (split_inA (F := F) d L f0).1 $$ Hb0
  icases Hin with ⟨Hb0lo, Hb0hi⟩
  ihave Hb2' := (Entails.of_eq (pts_ixA (F := F) d L _).symm) $$ Hb2
  sl_exec
  -- the three copies under way deliver the first batch's table and index rows
  have hb0 : (bOf L 0).val = 64 * (L 1).val + 32 * (L 0).val := bOf_val L (k := 0) (by decide)
  ihave Hs6 := (Transfers.Flight_mono countersEmb (thr d L)
      (D' := iprop((inAlo.view.loc (thr d L) ↦[inAlo.view.set]{fullShare} tabOf (m (xLoc d)) (bOf L 0)) ∗ ((xW).view.loc (thr d L) ↦[_]{rtok L 0} m (xLoc d)))) ?h6) $$ Hs6
  case h6 =>
    exact sep_mono_left (Entails.of_eq (pointsTo_congr (landed_Alo (F := F) (m (xLoc d)) (bOf L 0) (k0_off1 L) (k0_off1_inb L) (by rw [k0_off1_eq, hb0]) f0)))
  ihave Hs8 := (Transfers.Flight_mono countersEmb (thr d L)
      (D' := iprop((inAhi.view.loc (thr d L) ↦[inAhi.view.set]{fullShare} tabOf (m (xLoc d)) (bOf L 0)) ∗ ((xW).view.loc (thr d L) ↦[_]{rtok L 2} m (xLoc d)))) ?h8) $$ Hs8
  case h8 =>
    exact sep_mono_left (Entails.of_eq (pointsTo_congr (landed_Ahi (F := F) (m (xLoc d)) (bOf L 0) (k0_off2 L) (k0_off2_inb L) (by rw [k0_off2_eq, hb0]) f0)))
  ihave Hs10 := (Transfers.Flight_mono countersEmb (thr d L)
      (D' := iprop(((ixA).view.loc (thr d L) ↦{fullShare} colOf (itOf m d) (bOf L 0)) ∗ ((tW).view.loc (thr d L) ↦[_]{rtok L 4} itOf m d))) ?h10) $$ Hs10
  case h10 =>
    exact sep_mono_left (Entails.of_eq (congrArg (fun g => ((ixA).view.loc (thr d L) ↦{fullShare} g : sProp 𝕄))
      (landed_ixA (F := F) (itOf m d) (bOf L 0) (k0_off3 L) (k0_off3_inb L) (by rw [k0_off3_eq, hb0]) f2)))
  -- the second table buffer as its halves; the second slot's blocks as the program names them
  ihave Hin := (split_inB (F := F) d L f1).1 $$ Hb1
  icases Hin with ⟨Hb1lo, Hb1hi⟩
  ihave Hb3' := (Entails.of_eq (pts_ixB (F := F) d L _).symm) $$ Hb3
  ihave Hb4' := (Entails.of_eq (pts_ouA (F := F) d L _).symm) $$ Hb4
  ihave Hb5' := (Entails.of_eq (pts_ouB (F := F) d L _).symm) $$ Hb5
  -- the sixteen pairs of batches
  sl_for (inv m d L O W) $$ [Hmw Hs6 Hx0 Hs8 Hx2 Hs10 Ht4 Hb1lo Hb1hi Hb3' Hx1 Hx3 Ht5 Hs7 Hs9 Hs11 Hb4' Hb5' Hs12 Hs13 Hcols HO]
  case region =>
    intro k acc
    exact trip m d L O W _ _ _ _ _ _ _ _ _ lanes_pay3 lanes_pay4 lanes_pay5 lanes_pay6 lanes_pay7 lanes_pay8 lanes_pay9 lanes_pay10 hpre k acc
  · unfold inv XFlight TFlight
    rw [if_pos (by decide : (0 : ℕ) < 16), if_pos (rfl : (0 : ℕ) = 0)]
    isplitr; · iexact Hmw
    isplitl [Hs6 Hx0 Hs8 Hx2 Hs10 Ht4]
    · isplitl [Hs6 Hx0]
      · iexists _; isplitl [Hs6]; · iexact Hs6
        iexact Hx0
      isplitl [Hs8 Hx2]
      · iexists _; isplitl [Hs8]; · iexact Hs8
        iexact Hx2
      iexists _; isplitl [Hs10]; · iexact Hs10
      iexact Ht4
    isplitl [Hb1lo Hb1hi Hb3' Hx1 Hx3 Ht5 Hs7 Hs9 Hs11]
    · isplitl [Hb1lo]; · iexists _; iexact Hb1lo
      isplitl [Hb1hi]; · iexists _; iexact Hb1hi
      isplitl [Hb3']; · iexists _; iexact Hb3'
      isplitl [Hx1]; · iexact Hx1
      isplitl [Hx3]; · iexact Hx3
      isplitl [Ht5]; · iexact Ht5
      isplitl [Hs7]; · iexact Hs7
      isplitl [Hs9]; · iexact Hs9
      iexact Hs11
    isplitl [Hb4' Hb5' Hs12 Hs13]
    · isplitl [Hb4']; · iexists _; iexact Hb4'
      isplitl [Hb5']; · iexists _; iexact Hb5'
      isplitl [Hs12]; · iexact Hs12
      iexact Hs13
    isplitr
    · rw [done_zero]; iempintro
    isplitl [Hcols]
    · rw [todo_zero]; iexact Hcols
    iexists W; isplitr
    · ipureintro; exact fun p hp => .inl hp
    · iexact HO
  iintro %acc HI
  -- after the last pair: the last two result blocks are still on their way out
  have htr : Scf.trips k0_t1_loop.lb k0_t1_loop.ub k0_t1_loop.st = 16 := by decide
  rw [htr]
  unfold inv XFlight TFlight
  rw [if_neg (by decide : ¬ (16 : ℕ) < 16), if_neg (by decide : ¬ (16 : ℕ) = 0)]
  icases HI with ⟨-, ⟨⟨%g0l, Hb0lo⟩, ⟨%g0h, Hb0hi⟩, ⟨%g2, Hb2⟩, Hx0, Hx2, Ht4, Hs6, Hs8, Hs10⟩,
    ⟨⟨%g1l, Hb1lo⟩, ⟨%g1h, Hb1hi⟩, ⟨%g3, Hb3⟩, Hx1, Hx3, Ht5, Hs7, Hs9, Hs11⟩, ⟨⟨%foA, HfoA⟩, ⟨%foB, HfoB⟩⟩, Hdone, Htodo, %W', %hW', HO⟩
  sl_exec
  sl_step
  have h30 : (bOf L (2 * 16 - 2)).val = batchOf (L 0).val (L 1).val 30 := bOf_val L (k := 30) (by decide)
  have h31 : (bOf L (2 * 16 - 1)).val = batchOf (L 0).val (L 1).val 31 := bOf_val L (k := 31) (by decide)
  -- the read shares of `x` and of `it`, put back together
  ihave Hx := (toks4 (F := F) (tileShare (L 0).val (L 1).val)).2 $$ [Hxr Hx0 Hx1 Hx2 Hx3]
  · isplitl [Hxr]; · iexact Hxr
    isplitl [Hx0]; · iexact Hx0
    isplitl [Hx1]; · iexact Hx1
    isplitl [Hx2]; · iexact Hx2
    iexact Hx3
  ihave Htd := (tok_split (F := F) (tileShare (L 0).val (L 1).val) 5).2 $$ [Htd Ht5]
  · isplitl [Htd] <;> iassumption
  ihave Htd := (tok_split (F := F) (tileShare (L 0).val (L 1).val) 4).2 $$ [Htd Ht4]
  · isplitl [Htd] <;> iassumption
  ihave Ht := (Transfers.pointsTo_toks_range (tileShare (L 0).val (L 1).val) 4).2 $$ [Htd Htside]
  · isplitl [Htd] <;> iassumption
  isplitl [Hx Ht Hdone HfoA_dst HfoB_dst]
  · isplitl [Hx]; · iapply (Entails.of_eq (pts_x (F := F) d L _ _)); iexact Hx
    isplitl [Ht]; · iapply (Entails.of_eq (pts_t (F := F) d L _ _)); iexact Ht
    -- the 32 columns: those finished before the last pair, and the last pair's two
    rw [done_end (fun j : Fin 32 => oCol d (batchOf (L 0).val (L 1).val j.val) (otOf m d))]
    isplitl [Hdone]; · iexact Hdone
    isplitl [HfoA_dst]
    · iapply (Entails.of_eq (congrArg (fun b => (oCol d b (otOf m d) : sProp 𝕄)) h30)); iexact HfoA_dst
    · iapply (Entails.of_eq (congrArg (fun b => (oCol d b (otOf m d) : sProp 𝕄)) h31)); iexact HfoB_dst
  isplitl [Hb0lo Hb0hi Hb1lo Hb1hi Hb2 Hb3 HfoA_src HfoB_src Hbrest]
  · isplitl [Hb0lo Hb0hi]
    · iapply (join_inA (F := F) d L g0l g0h); isplitl [Hb0lo] <;> iassumption
    isplitl [Hb1lo Hb1hi]
    · iapply (join_inB (F := F) d L g1l g1h); isplitl [Hb1lo] <;> iassumption
    isplitl [Hb2]; · iexists g2; iexact Hb2
    isplitl [Hb3]; · iexists g3; iexact Hb3
    isplitl [HfoA_src]; · iexists foA; iexact HfoA_src
    isplitl [HfoB_src]; · iexists foB; iexact HfoB_src
    iexact Hbrest
  isplitl [Hs6 Hs7 Hs8 Hs9 Hs10 Hs11 HfoA HfoB Hsrest]
  · isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [HfoA]; · iexact HfoA
    isplitl [HfoB]; · iexact HfoB
    iexact Hsrest
  iexists (insert (SemLoc.dma cc0_scratch13.sem, (default : HIx 1)) (insert (SemLoc.dma cc0_scratch12.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Tile

/-! ## The launch theorem's obligation for a subcore's task -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of subcore `i` of core `c`, as the launch theorem asks it: the body at that subcore's grid coordinates. -/
theorem tileObl (hpre : PreOK m) : (K (F := F)).TileObl (D (F := F)) 𝒱 (P m) v₀ 0 := by
  intro d c i O W hO _ _
  -- the task owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre O W hO).trans (wp_mono frame _ _ fun _ => obl_post)

end Cert.Proof.OnKernel

end
-- ==== Proof.OnKernelIdeal.BodyLemmas.lean ====
/-
  Bookkeeping for one vector subcore's task: what it owns, cut into the pieces its copies move.

  A subcore owns six buffers of its own memory — two tables of 200 rows (each filled by two copies, rows 0–95 and rows
  96–199, so each is held as those two halves), two index blocks and two result blocks of 50 rows — and eight
  semaphores, one per copy that can be under way at a time. Of an array that is only read it holds a share, cut
  into as many smaller shares as copies may be reading the array at once.
-/
import proofs.«216842_g32469952758108_cont_8to1_b_497_34_alg».proof.Proof.OnKernelIdeal.Common

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Listed elements of a big separating conjunction -/

/-- Distinct listed members of a finite set come out of a conjunction over it one by one, the rest staying behind. -/
theorem bigSep_peel {M : Type} [URA M] {ι : Type} [DecidableEq ι] (Φ : ι → sProp M) :
    ∀ (l : List ι) (s : Finset ι), l.Nodup → (∀ a ∈ l, a ∈ s) →
      bigSep s Φ = l.foldr (fun a acc => iprop(Φ a ∗ acc)) (bigSep (l.foldl Finset.erase s) Φ)
  | [], _, _, _ => rfl
  | a :: l, s, hnd, hs => by
    rw [SparseCore.bigSep_erase' (hs a (List.mem_cons_self ..)), List.foldr_cons, List.foldl_cons]
    congr 1
    exact bigSep_peel Φ l (s.erase a) (List.nodup_cons.mp hnd).2
      (fun b hb => Finset.mem_erase.mpr ⟨fun e => (List.nodup_cons.mp hnd).1 (e ▸ hb), hs b (List.mem_cons_of_mem _ hb)⟩)

/-! ## The subcore, its semaphores and its buffers -/

abbrev cV (L : grid0.Coords) : Fin τ.nSC := (L 0).castLE hcore0
abbrev jV (L : grid0.Coords) : Fin τ.nSub := (L 1).castLE hsub0
/-- The vector subcore at grid coordinates `L` of device `d`. -/
abbrev thr (d : Dev nD) (L : grid0.Coords) : Thread nD τ := V d (cV L) (jV L)
abbrev sem (d : Dev nD) (L : grid0.Coords) (a : DmaSems sig S_) : GSem nD τ sig := (thr d L, .dma a.sem)

variable (d : Dev nD) (L : grid0.Coords)

def semList : List (DmaSem sig) :=
  [cc0_scratch6.sem, cc0_scratch7.sem, cc0_scratch8.sem, cc0_scratch9.sem, cc0_scratch10.sem, cc0_scratch11.sem, cc0_scratch12.sem, cc0_scratch13.sem]
def restCells : Finset (GSem nD τ sig) :=
  (semList.map fun a => ((thr d L, SemLoc.dma a) : GSem nD τ sig)).foldl Finset.erase (ownCells (thr d L))

/-- The subcore's own semaphores at zero: the eight its copies complete on, and the rest. -/
theorem ownSems0_V :
    (ownSems0 (thr d L) : sProp 𝕄)
      = iprop(semVal (sem d L cc0_scratch6) 0 ∗ semVal (sem d L cc0_scratch7) 0 ∗ semVal (sem d L cc0_scratch8) 0 ∗ semVal (sem d L cc0_scratch9) 0
          ∗ semVal (sem d L cc0_scratch10) 0 ∗ semVal (sem d L cc0_scratch11) 0 ∗ semVal (sem d L cc0_scratch12) 0 ∗ semVal (sem d L cc0_scratch13) 0
          ∗ bigSep (restCells d L) fun g => semVal g 0) := by
  unfold SparseCore.Cfg.ownSems0
  refine (bigSep_peel (fun g => (semVal g 0 : sProp 𝕄)) (semList.map fun a => ((thr d L, SemLoc.dma a) : GSem nD τ sig)) (ownCells (thr d L)) ?_ ?_).trans rfl
  · refine List.Nodup.map (fun a b e => ?_) (by decide +revert)
    injection e with _ e; injection e
  · intro g hg
    obtain ⟨a, ha, rfl⟩ := List.mem_map.mp hg
    have hsc : ∀ a ∈ semList, (SemLoc.dma a : SemLoc sig).isScoped .scVector = true := by decide
    exact mem_ownCells.mpr ⟨rfl, hsc a ha⟩

def refList : List (Ref sig .scVector) := [cc0_scratch0, cc0_scratch1, cc0_scratch2, cc0_scratch3, cc0_scratch4, cc0_scratch5]
def restRefs : Finset (DevRef τ sig) :=
  (refList.map fun b => (Proc.scVector (cV L) (jV L)).devRef b).foldl Finset.erase (ownRefs (τ := τ) (.scVector (cV L) (jV L)))

/-- The subcore's own buffers at some contents: the six scratch buffers, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ bigSep (restRefs L) fun b => iprop(∃ f, ((d, b) : Loc nD τ sig) ↦{fullShare} f)) := by
  unfold SparseCore.Cfg.ownBufs
  refine (bigSep_peel (fun b => (iprop(∃ f, ((d, b) : Loc nD τ sig) ↦{fullShare} f) : sProp 𝕄))
    (refList.map fun b => (Proc.scVector (cV L) (jV L)).devRef b) (ownRefs (τ := τ) (.scVector (cV L) (jV L))) ?_ ?_).trans rfl
  · have hnd : refList.Nodup := by decide
    exact List.Nodup.map (Proc.devRef_injective _) hnd
  · intro b hb
    obtain ⟨r, hr, rfl⟩ := List.mem_map.mp hb
    simp only [refList, List.mem_cons, List.mem_nil_iff, _root_.or_false] at hr
    rcases hr with rfl | rfl | rfl | rfl | rfl | rfl <;>
      exact SparseCore.Cfg.mem_ownRefs_of_owner (p := Proc.scVector (cV L) (jV L)) rfl

/-! ## A table buffer as its two halves -/

abbrev loR : Rect S200x128 := Rect.unit (s := S200x128) ![0, 0] S96x128.size inb_S200x128_S96x128_0_0
abbrev hiR : Rect S200x128 := Rect.unit (s := S200x128) ![96, 0] S104x128.size inb_S200x128_S104x128_96_0

theorem lo_hi_disjoint : Disjoint loR.set hiR.set := by
  refine Finset.disjoint_left.mpr fun i h1 h2 => ?_
  have a1 := (Rect.mem_set_unit.mp h1) 0
  have a2 := (Rect.mem_set_unit.mp h2) 0
  simp at a1 a2
  omega

theorem lo_hi_union : loR.set ∪ hiR.set = Finset.univ := by
  ext i
  simp only [Finset.mem_union, Finset.mem_univ, iff_true, Rect.mem_set_unit]
  have h0 : (i 0).val < 200 := (i 0).isLt
  have h1 : (i 1).val < 128 := (i 1).isLt
  by_cases h : (i 0).val < 96
  · left; intro a; match a with
    | ⟨0, _⟩ => exact ⟨Nat.zero_le _, by simpa using h⟩
    | ⟨1, _⟩ => exact ⟨Nat.zero_le _, by simpa using h1⟩
  · right; intro a; match a with
    | ⟨0, _⟩ => exact ⟨by simpa using Nat.le_of_not_lt h, by simp; omega⟩
    | ⟨1, _⟩ => exact ⟨Nat.zero_le _, by simpa using h1⟩

/-- The two halves of the first and of the second table buffer, as the program slices them. -/
abbrev inAlo : Memref sig .scVector .vmem S96x128 .f32 := (Memref.whole cc0_scratch0).slice loR (fun _ => rfl)
abbrev inAhi : Memref sig .scVector .vmem S104x128 .f32 := (Memref.whole cc0_scratch0).slice hiR (fun _ => rfl)
abbrev inBlo : Memref sig .scVector .vmem S96x128 .f32 := (Memref.whole cc0_scratch1).slice loR (fun _ => rfl)
abbrev inBhi : Memref sig .scVector .vmem S104x128 .f32 := (Memref.whole cc0_scratch1).slice hiR (fun _ => rfl)

theorem split_inA (f : Buf (Elt F) ((thr d L).loc cc0_scratch0)) :
    ((thr d L).loc cc0_scratch0 ↦{fullShare} f : sProp 𝕄)
      ⊣⊢ iprop((inAlo.view.loc (thr d L) ↦[inAlo.view.set]{fullShare} f) ∗ (inAhi.view.loc (thr d L) ↦[inAhi.view.set]{fullShare} f)) := by
  have e1 : inAlo.view.set = loR.set := View.set_slice_whole _ _
  have e2 : inAhi.view.set = hiR.set := View.set_slice_whole _ _
  rw [e1, e2]
  have h : ((thr d L).loc cc0_scratch0 ↦[loR.set ∪ hiR.set]{fullShare} f : sProp 𝕄) ⊣⊢ _ := pointsTo_union lo_hi_disjoint
  rw [lo_hi_union] at h
  exact h

theorem split_inB (f : Buf (Elt F) ((thr d L).loc cc0_scratch1)) :
    ((thr d L).loc cc0_scratch1 ↦{fullShare} f : sProp 𝕄)
      ⊣⊢ iprop((inBlo.view.loc (thr d L) ↦[inBlo.view.set]{fullShare} f) ∗ (inBhi.view.loc (thr d L) ↦[inBhi.view.set]{fullShare} f)) := by
  have e1 : inBlo.view.set = loR.set := View.set_slice_whole _ _
  have e2 : inBhi.view.set = hiR.set := View.set_slice_whole _ _
  rw [e1, e2]
  have h : ((thr d L).loc cc0_scratch1 ↦[loR.set ∪ hiR.set]{fullShare} f : sProp 𝕄) ⊣⊢ _ := pointsTo_union lo_hi_disjoint
  rw [lo_hi_union] at h
  exact h

/-! ## Read shares -/

section Shares
variable {ℓ : Loc nD τ sig} {I : Finset (Idx ℓ)} {f : Buf (Elt F) ℓ}

/-- What remains of a share after `k` read shares have been cut off it gives one more. -/
theorem tok_split (q : PosShare TreeShare) (k : ℕ) :
    (ℓ ↦[I]{Transfers.shareDrop q k} f : sProp 𝕄) ⊣⊢ iprop((ℓ ↦[I]{Transfers.shareDrop q (k + 1)} f) ∗ ℓ ↦[I]{Transfers.shareTokN q k} f) :=
  pointsTo_share (PosShare.mem_left_op_right _)

theorem tok_split0 (q : PosShare TreeShare) :
    (ℓ ↦[I]{q} f : sProp 𝕄) ⊣⊢ iprop((ℓ ↦[I]{Transfers.shareDrop q 1} f) ∗ ℓ ↦[I]{Transfers.shareTokN q 0} f) :=
  tok_split (F := F) q 0

/-- A share cut into four read shares and a remainder, and put back. -/
theorem toks4 (q : PosShare TreeShare) :
    (ℓ ↦[I]{q} f : sProp 𝕄) ⊣⊢ iprop((ℓ ↦[I]{Transfers.shareDrop q 4} f) ∗ (ℓ ↦[I]{Transfers.shareTokN q 0} f) ∗ (ℓ ↦[I]{Transfers.shareTokN q 1} f)
      ∗ (ℓ ↦[I]{Transfers.shareTokN q 2} f) ∗ ℓ ↦[I]{Transfers.shareTokN q 3} f) := by
  constructor
  · iintro H
    ihave H := (tok_split0 (F := F) q).1 $$ H; icases H with ⟨H, H0⟩
    ihave H := (tok_split (F := F) q 1).1 $$ H; icases H with ⟨H, H1⟩
    ihave H := (tok_split (F := F) q 2).1 $$ H; icases H with ⟨H, H2⟩
    ihave H := (tok_split (F := F) q 3).1 $$ H; icases H with ⟨H, H3⟩
    isplitl [H]; · iexact H
    isplitl [H0]; · iexact H0
    isplitl [H1]; · iexact H1
    isplitl [H2]; · iexact H2
    iexact H3
  · iintro ⟨H, H0, H1, H2, H3⟩
    ihave H := (tok_split (F := F) q 3).2 $$ [H H3]; · isplitl [H] <;> iassumption
    ihave H := (tok_split (F := F) q 2).2 $$ [H H2]; · isplitl [H] <;> iassumption
    ihave H := (tok_split (F := F) q 1).2 $$ [H H1]; · isplitl [H] <;> iassumption
    ihave H := (tok_split0 (F := F) q).2 $$ [H H0]; · isplitl [H] <;> iassumption
    iexact H

/-- A share cut into two read shares and a remainder, and put back. -/
theorem toks2 (q : PosShare TreeShare) :
    (ℓ ↦[I]{q} f : sProp 𝕄) ⊣⊢ iprop((ℓ ↦[I]{Transfers.shareDrop q 2} f) ∗ (ℓ ↦[I]{Transfers.shareTokN q 0} f) ∗ ℓ ↦[I]{Transfers.shareTokN q 1} f) := by
  constructor
  · iintro H
    ihave H := (tok_split0 (F := F) q).1 $$ H; icases H with ⟨H, H0⟩
    ihave H := (tok_split (F := F) q 1).1 $$ H; icases H with ⟨H, H1⟩
    isplitl [H]; · iexact H
    isplitl [H0]; · iexact H0
    iexact H1
  · iintro ⟨H, H0, H1⟩
    ihave H := (tok_split (F := F) q 1).2 $$ [H H1]; · isplitl [H] <;> iassumption
    ihave H := (tok_split0 (F := F) q).2 $$ [H H0]; · isplitl [H] <;> iassumption
    iexact H

/-- Elements lent out and the elements kept, at one share and one contents, are the whole again. -/
theorem rejoin (q : PosShare TreeShare) (J : Finset (Idx ℓ)) :
    iprop((ℓ ↦[J]{q} f) ∗ ℓ ↦[Finset.univ \ J]{q} f) ⊢ (ℓ ↦{q} f : sProp 𝕄) :=
  (pointsTo_split_subset (Finset.subset_univ J)).2

end Shares

end Cert.Proof.OnKernelIdeal

end
-- ==== Proof.OnKernelIdeal.Block.lean ====
/-
  What one batch's result block holds, as a function of the batch's table and index rows.

  With the table `tab : [200, 128]` and the index rows `ix : [50, 128]` of one batch in a subcore's memory, the
  result block is `blk[i, l] = tab[ix[i, l], l]`: for every index row `i` and lane `l`, the entry of the table in
  lane `l` of the row the index word names.
-/
import proofs.«216842_g32469952758108_cont_8to1_b_497_34_alg».proof.Proof.OnKernelIdeal.BodyLemmas

noncomputable section

namespace Cert.Proof.OnKernelIdeal

open Cert.KernelIdeal Cert.KernelIdeal.Gen
open Idealize.ShloMosaic Idealize.ShloMosaic.ValueIdx

variable {α : Type}

/-- The result block of one batch: entry `(i, l)` is the table's entry in lane `l` of row `ix[i, l]`. -/
def gatherBlock (tab : S200x128.Idx → α) (ix : S50x128.Idx → BitVec 32) : S50x128.Idx → α :=
  fun j => tab (ix2 (Cert.Spec.rowOf (ix j)) (j 1))

end Cert.Proof.OnKernelIdeal

end
-- ==== Proof.OnKernelIdeal.Landed.lean ====
/-
  What a landed copy holds, read at an index.

  A subcore's copies move whole rectangles: the rows 0–95 and 96–199 of batch `b`'s table `x[b]` into the two halves
  of a table buffer, the index rows `it[:, b, :]` into an index block, and a result block out to the column
  `ot[:, b, :]`. Each source or destination is a rectangle of the array with its unit axis dropped; an index of the
  smaller shape sits in the array at the rectangle's offsets, with `0` on the dropped axis. So each landed copy,
  read at an index, is the array read at the index the offsets name.
-/
import proofs.«216842_g32469952758108_cont_8to1_b_497_34_alg».proof.Proof.OnKernelIdeal.Block
import Idealize.ShloMosaic.Lib.Writes
import Idealize.ShloMosaic.Lib.Pipeline.Value

noncomputable section

namespace Cert.Proof.OnKernelIdeal

open Cert.KernelIdeal Cert.KernelIdeal.Gen
open Idealize.ShloMosaic Idealize.ShloMosaic.ValueIdx

variable {F : FTy → Type}

-- the kernel's memrefs, spelt as the body table passes them
local notation "xW" => (Memref.whole Cert.KernelIdeal.main_arg0_scv : Memref Cert.KernelIdeal.sig Kind.scVector Space.hbm Cert.KernelIdeal.S1024x200x128 EltTy.f32)
local notation "tW" => (Memref.whole Cert.KernelIdeal.main_v0_scv : Memref Cert.KernelIdeal.sig Kind.scVector Space.hbm Cert.KernelIdeal.S50x1024x128 EltTy.i32)
local notation "oW" => (Memref.whole Cert.KernelIdeal.main_v1_scv : Memref Cert.KernelIdeal.sig Kind.scVector Space.hbm Cert.KernelIdeal.S50x1024x128 EltTy.f32)
local notation "ixA" => (Memref.whole Cert.KernelIdeal.cc0_scratch2 : Memref Cert.KernelIdeal.sig Kind.scVector Space.vmem Cert.KernelIdeal.S50x128 EltTy.i32)
local notation "ixB" => (Memref.whole Cert.KernelIdeal.cc0_scratch3 : Memref Cert.KernelIdeal.sig Kind.scVector Space.vmem Cert.KernelIdeal.S50x128 EltTy.i32)
local notation "ouA" => (Memref.whole Cert.KernelIdeal.cc0_scratch4 : Memref Cert.KernelIdeal.sig Kind.scVector Space.vmem Cert.KernelIdeal.S50x128 EltTy.f32)
local notation "ouB" => (Memref.whole Cert.KernelIdeal.cc0_scratch5 : Memref Cert.KernelIdeal.sig Kind.scVector Space.vmem Cert.KernelIdeal.S50x128 EltTy.f32)

/-! ## One batch of an array -/

/-- Batch `b`'s table: entry `(r, l)` is `x[b, r, l]`. -/
def tabOf {α : Type} (x : S1024x200x128.Idx → α) (b : Fin 1024) : S200x128.Idx → α := fun j => x (ix3 b (j 0) (j 1))
/-- Batch `b`'s index rows, or result rows: entry `(i, l)` is `it[i, b, l]`. -/
def colOf {α : Type} (it : S50x1024x128.Idx → α) (b : Fin 1024) : S50x128.Idx → α := fun j => it (ix3 (j 0) b (j 1))

/-! ## An index behind a dropped unit axis -/

/-- With the leading axis of size one dropped, index `(r, l)` is `(0, r, l)`: the two have the same row-major position. -/
theorem unsq_lead {n k : ℕ} (h : (⟨2, ![n, k]⟩ : Shape).numel = (⟨3, ![1, n, k]⟩ : Shape).numel) (y : (⟨2, ![n, k]⟩ : Shape).Idx) :
    Shape.reshapeEquiv h y = ix3 (n0 := 1) (n1 := n) (n2 := k) ⟨0, Nat.one_pos⟩ (y 0) (y 1) :=
  Shape.reshapeEquiv_eq_of_rowMajor h
    ((Shape.rowMajor_val_three (d := ![1, n, k]) _).trans
      ((show ((0 : ℕ) * n + (y 0).val) * k + (y 1).val = (y 0).val * k + (y 1).val by rw [Nat.zero_mul, Nat.zero_add]).trans
        (Shape.rowMajor_val_two (d := ![n, k]) y).symm))
/-- With the middle axis of size one dropped, index `(i, l)` is `(i, 0, l)`. -/
theorem unsq_mid {n k : ℕ} (h : (⟨2, ![n, k]⟩ : Shape).numel = (⟨3, ![n, 1, k]⟩ : Shape).numel) (y : (⟨2, ![n, k]⟩ : Shape).Idx) :
    Shape.reshapeEquiv h y = ix3 (n0 := n) (n1 := 1) (n2 := k) (y 0) ⟨0, Nat.one_pos⟩ (y 1) :=
  Shape.reshapeEquiv_eq_of_rowMajor h
    ((Shape.rowMajor_val_three (d := ![n, 1, k]) _).trans
      ((show ((y 0).val * 1 + 0) * k + (y 1).val = (y 0).val * k + (y 1).val by rw [Nat.mul_one, Nat.add_zero]).trans
        (Shape.rowMajor_val_two (d := ![n, k]) y).symm))

/-! ## The tables' rows, landed in a table buffer's halves -/

/-- Rows 0–95 of batch `b`'s table, read through the source of their copy. -/
theorem read_xLo (x : S1024x200x128.Idx → Elt F .f32) (b : Fin 1024) (off : Fin 3 → ℕ)
    (hin : ∀ a, off a + S1x96x128.size a ≤ S1024x200x128.size a) (hoff : off = ![b.val, 0, 0]) (y : S96x128.Idx) :
    (((xW).slice (Rect.unit (s := S1024x200x128) off S1x96x128.size hin) (fun _ => rfl)).squeeze S96x128 squeezes_S1x96x128_S96x128).view.read (Elt F) x y
      = x (ix3 b ⟨(y 0).val, by have := (y 0).isLt; simp at this; omega⟩ (y 1)) := by
  subst hoff
  show x _ = x _
  refine congrArg x (funext fun a => Fin.ext ?_)
  show (![b.val, 0, 0] : Fin 3 → ℕ) a + 1 * ((Shape.reshapeEquiv _ y : S1x96x128.Idx) a).val = _
  rw [unsq_lead]
  match a with
  | ⟨0, _⟩ => show b.val + 1 * 0 = b.val; omega
  | ⟨1, _⟩ => show 0 + 1 * (y 0).val = (y 0).val; omega
  | ⟨2, _⟩ => show 0 + 1 * (y 1).val = (y 1).val; omega

/-- Rows 96–199 of batch `b`'s table, read through the source of their copy. -/
theorem read_xHi (x : S1024x200x128.Idx → Elt F .f32) (b : Fin 1024) (off : Fin 3 → ℕ)
    (hin : ∀ a, off a + S1x104x128.size a ≤ S1024x200x128.size a) (hoff : off = ![b.val, 96, 0]) (y : S104x128.Idx) :
    (((xW).slice (Rect.unit (s := S1024x200x128) off S1x104x128.size hin) (fun _ => rfl)).squeeze S104x128 squeezes_S1x104x128_S104x128).view.read (Elt F) x y
      = x (ix3 b ⟨96 + (y 0).val, by have := (y 0).isLt; simp at this; omega⟩ (y 1)) := by
  subst hoff
  show x _ = x _
  refine congrArg x (funext fun a => Fin.ext ?_)
  show (![b.val, 96, 0] : Fin 3 → ℕ) a + 1 * ((Shape.reshapeEquiv _ y : S1x104x128.Idx) a).val = _
  rw [unsq_lead]
  match a with
  | ⟨0, _⟩ => show b.val + 1 * 0 = b.val; omega
  | ⟨1, _⟩ => show 96 + 1 * (y 0).val = 96 + (y 0).val; omega
  | ⟨2, _⟩ => show 0 + 1 * (y 1).val = (y 1).val; omega

/-- Rows 0–95 of batch `b`'s table, landed in the lower half of a table buffer: the half holds the table's rows. -/
theorem landed_Alo (x : S1024x200x128.Idx → Elt F .f32) (b : Fin 1024) (off : Fin 3 → ℕ)
    (hin : ∀ a, off a + S1x96x128.size a ≤ S1024x200x128.size a) (hoff : off = ![b.val, 0, 0]) (f0 : inAlo.view.ty.Contents (Elt F)) :
    ∀ i ∈ inAlo.view.set, inAlo.view.writes (Elt F) f0 [⟨Rect.whole S96x128, (((xW).slice (Rect.unit (s := S1024x200x128) off S1x96x128.size hin) (fun _ => rfl)).squeeze S96x128 squeezes_S1x96x128_S96x128).view.read (Elt F) x⟩] i = tabOf x b i := by
  intro i hi
  obtain ⟨y, -, rfl⟩ := Finset.mem_map.mp hi
  rw [View.writes_singleton]
  have e : inAlo.view.emb y = (inAlo.view.slice (Rect.whole S96x128)).emb y := by
    show _ = inAlo.view.emb ((Rect.whole S96x128).emb y); rw [Rect.emb_whole_apply]
  rw [e, View.write_emb_of_mem _ _ (Finset.mem_univ _), ← e]
  show (((xW).slice (Rect.unit (s := S1024x200x128) off S1x96x128.size hin) (fun _ => rfl)).squeeze S96x128 squeezes_S1x96x128_S96x128).view.read (Elt F) x y = tabOf x b _
  rw [read_xLo x b off hin hoff]
  unfold tabOf
  refine congrArg x (funext fun a => Fin.ext ?_)
  match a with
  | ⟨0, _⟩ => rfl
  | ⟨1, _⟩ => show (y 0).val = 0 + 1 * (y 0).val; omega
  | ⟨2, _⟩ => show (y 1).val = 0 + 1 * (y 1).val; omega

/-- Rows 96–199 of batch `b`'s table, landed in the upper half of a table buffer. -/
theorem landed_Ahi (x : S1024x200x128.Idx → Elt F .f32) (b : Fin 1024) (off : Fin 3 → ℕ)
    (hin : ∀ a, off a + S1x104x128.size a ≤ S1024x200x128.size a) (hoff : off = ![b.val, 96, 0]) (f0 : inAhi.view.ty.Contents (Elt F)) :
    ∀ i ∈ inAhi.view.set, inAhi.view.writes (Elt F) f0 [⟨Rect.whole S104x128, (((xW).slice (Rect.unit (s := S1024x200x128) off S1x104x128.size hin) (fun _ => rfl)).squeeze S104x128 squeezes_S1x104x128_S104x128).view.read (Elt F) x⟩] i = tabOf x b i := by
  intro i hi
  obtain ⟨y, -, rfl⟩ := Finset.mem_map.mp hi
  rw [View.writes_singleton]
  have e : inAhi.view.emb y = (inAhi.view.slice (Rect.whole S104x128)).emb y := by
    show _ = inAhi.view.emb ((Rect.whole S104x128).emb y); rw [Rect.emb_whole_apply]
  rw [e, View.write_emb_of_mem _ _ (Finset.mem_univ _), ← e]
  show (((xW).slice (Rect.unit (s := S1024x200x128) off S1x104x128.size hin) (fun _ => rfl)).squeeze S104x128 squeezes_S1x104x128_S104x128).view.read (Elt F) x y = tabOf x b _
  rw [read_xHi x b off hin hoff]
  unfold tabOf
  refine congrArg x (funext fun a => Fin.ext ?_)
  match a with
  | ⟨0, _⟩ => rfl
  | ⟨1, _⟩ => show 96 + (y 0).val = 96 + 1 * (y 0).val; omega
  | ⟨2, _⟩ => show (y 1).val = 0 + 1 * (y 1).val; omega

/-- Rows 0–95 of batch `b`'s table, landed in the lower half of a table buffer: the half holds the table's rows. -/
theorem landed_Blo (x : S1024x200x128.Idx → Elt F .f32) (b : Fin 1024) (off : Fin 3 → ℕ)
    (hin : ∀ a, off a + S1x96x128.size a ≤ S1024x200x128.size a) (hoff : off = ![b.val, 0, 0]) (f0 : inBlo.view.ty.Contents (Elt F)) :
    ∀ i ∈ inBlo.view.set, inBlo.view.writes (Elt F) f0 [⟨Rect.whole S96x128, (((xW).slice (Rect.unit (s := S1024x200x128) off S1x96x128.size hin) (fun _ => rfl)).squeeze S96x128 squeezes_S1x96x128_S96x128).view.read (Elt F) x⟩] i = tabOf x b i := by
  intro i hi
  obtain ⟨y, -, rfl⟩ := Finset.mem_map.mp hi
  rw [View.writes_singleton]
  have e : inBlo.view.emb y = (inBlo.view.slice (Rect.whole S96x128)).emb y := by
    show _ = inBlo.view.emb ((Rect.whole S96x128).emb y); rw [Rect.emb_whole_apply]
  rw [e, View.write_emb_of_mem _ _ (Finset.mem_univ _), ← e]
  show (((xW).slice (Rect.unit (s := S1024x200x128) off S1x96x128.size hin) (fun _ => rfl)).squeeze S96x128 squeezes_S1x96x128_S96x128).view.read (Elt F) x y = tabOf x b _
  rw [read_xLo x b off hin hoff]
  unfold tabOf
  refine congrArg x (funext fun a => Fin.ext ?_)
  match a with
  | ⟨0, _⟩ => rfl
  | ⟨1, _⟩ => show (y 0).val = 0 + 1 * (y 0).val; omega
  | ⟨2, _⟩ => show (y 1).val = 0 + 1 * (y 1).val; omega

/-- Rows 96–199 of batch `b`'s table, landed in the upper half of a table buffer. -/
theorem landed_Bhi (x : S1024x200x128.Idx → Elt F .f32) (b : Fin 1024) (off : Fin 3 → ℕ)
    (hin : ∀ a, off a + S1x104x128.size a ≤ S1024x200x128.size a) (hoff : off = ![b.val, 96, 0]) (f0 : inBhi.view.ty.Contents (Elt F)) :
    ∀ i ∈ inBhi.view.set, inBhi.view.writes (Elt F) f0 [⟨Rect.whole S104x128, (((xW).slice (Rect.unit (s := S1024x200x128) off S1x104x128.size hin) (fun _ => rfl)).squeeze S104x128 squeezes_S1x104x128_S104x128).view.read (Elt F) x⟩] i = tabOf x b i := by
  intro i hi
  obtain ⟨y, -, rfl⟩ := Finset.mem_map.mp hi
  rw [View.writes_singleton]
  have e : inBhi.view.emb y = (inBhi.view.slice (Rect.whole S104x128)).emb y := by
    show _ = inBhi.view.emb ((Rect.whole S104x128).emb y); rw [Rect.emb_whole_apply]
  rw [e, View.write_emb_of_mem _ _ (Finset.mem_univ _), ← e]
  show (((xW).slice (Rect.unit (s := S1024x200x128) off S1x104x128.size hin) (fun _ => rfl)).squeeze S104x128 squeezes_S1x104x128_S104x128).view.read (Elt F) x y = tabOf x b _
  rw [read_xHi x b off hin hoff]
  unfold tabOf
  refine congrArg x (funext fun a => Fin.ext ?_)
  match a with
  | ⟨0, _⟩ => rfl
  | ⟨1, _⟩ => show 96 + (y 0).val = 96 + 1 * (y 0).val; omega
  | ⟨2, _⟩ => show (y 1).val = 0 + 1 * (y 1).val; omega

/-! ## The index rows, landed in an index block -/

/-- The index rows of batch `b`, read through the source of their copy. -/
theorem read_tCol (it : S50x1024x128.Idx → BitVec 32) (b : Fin 1024) (off : Fin 3 → ℕ)
    (hin : ∀ a, off a + S50x1x128.size a ≤ S50x1024x128.size a) (hoff : off = ![0, b.val, 0]) :
    (((tW).slice (Rect.unit (s := S50x1024x128) off S50x1x128.size hin) (fun _ => rfl)).squeeze S50x128 squeezes_S50x1x128_S50x128).view.read (Elt F) it = colOf it b := by
  subst hoff
  funext y
  show it _ = it _
  refine congrArg it (funext fun a => Fin.ext ?_)
  show (![0, b.val, 0] : Fin 3 → ℕ) a + 1 * ((Shape.reshapeEquiv _ y : S50x1x128.Idx) a).val = _
  rw [unsq_mid]
  match a with
  | ⟨0, _⟩ => show 0 + 1 * (y 0).val = (y 0).val; omega
  | ⟨1, _⟩ => show b.val + 1 * 0 = b.val; omega
  | ⟨2, _⟩ => show 0 + 1 * (y 1).val = (y 1).val; omega

/-- The index rows of batch `b`, landed in the first index block: the block holds them. -/
theorem landed_ixA (it : S50x1024x128.Idx → BitVec 32) (b : Fin 1024) (off : Fin 3 → ℕ)
    (hin : ∀ a, off a + S50x1x128.size a ≤ S50x1024x128.size a) (hoff : off = ![0, b.val, 0]) (f2 : (ixA).view.ty.Contents (Elt F)) :
    View.write (Elt F) (ixA).view f2 ((((tW).slice (Rect.unit (s := S50x1024x128) off S50x1x128.size hin) (fun _ => rfl)).squeeze S50x128 squeezes_S50x1x128_S50x128).view.read (Elt F) it) Finset.univ = colOf it b := by
  rw [read_tCol (F := F) it b off hin hoff]
  exact View.write_whole_univ _ f2 (colOf it b)
/-- The same for the second index block. -/
theorem landed_ixB (it : S50x1024x128.Idx → BitVec 32) (b : Fin 1024) (off : Fin 3 → ℕ)
    (hin : ∀ a, off a + S50x1x128.size a ≤ S50x1024x128.size a) (hoff : off = ![0, b.val, 0]) (f3 : (ixB).view.ty.Contents (Elt F)) :
    View.write (Elt F) (ixB).view f3 ((((tW).slice (Rect.unit (s := S50x1024x128) off S50x1x128.size hin) (fun _ => rfl)).squeeze S50x128 squeezes_S50x1x128_S50x128).view.read (Elt F) it) Finset.univ = colOf it b := by
  rw [read_tCol (F := F) it b off hin hoff]
  exact View.write_whole_univ _ f3 (colOf it b)

/-! ## A result block, landed in its column of the result array -/

/-- The destination of a result block's copy is column `b` of the result array. -/
theorem oDst_set (b : Fin 1024) (off : Fin 3 → ℕ)
    (hin : ∀ a, off a + S50x1x128.size a ≤ S50x1024x128.size a) (hoff : off = ![0, b.val, 0]) :
    (((oW).slice (Rect.unit (s := S50x1024x128) off S50x1x128.size hin) (fun _ => rfl)).squeeze S50x128 squeezes_S50x1x128_S50x128).view.set = colSet b.val := by
  subst hoff
  rw [show colSet b.val = (Rect.part (s := S50x1024x128) (a₀ := 1) hdivB b).set from by unfold colSet; rw [dif_pos b.isLt]]
  refine ((View.set_reshape _ _).trans (View.set_slice_whole _ _)).trans ?_
  ext i
  rw [Rect.mem_set_unit, Rect.mem_set_unit]
  refine forall_congr' fun a => ?_
  match a with
  | ⟨0, _⟩ => exact Iff.of_eq (by simp [Shape.partIx, Shape.partSize])
  | ⟨1, _⟩ => exact Iff.of_eq (by simp [Shape.partIx, Shape.partSize])
  | ⟨2, _⟩ => exact Iff.of_eq (by simp [Shape.partIx, Shape.partSize])

/-- Where an index of a result block sits in the result array: `(i, l)` at `(i, b, l)`. -/
theorem oDst_emb (b : Fin 1024) (off : Fin 3 → ℕ)
    (hin : ∀ a, off a + S50x1x128.size a ≤ S50x1024x128.size a) (hoff : off = ![0, b.val, 0]) (y : S50x128.Idx) :
    (((oW).slice (Rect.unit (s := S50x1024x128) off S50x1x128.size hin) (fun _ => rfl)).squeeze S50x128 squeezes_S50x1x128_S50x128).view.emb y = ix3 (y 0) b (y 1) := by
  subst hoff
  refine funext fun a => Fin.ext ?_
  show (![0, b.val, 0] : Fin 3 → ℕ) a + 1 * ((Shape.reshapeEquiv _ y : S50x1x128.Idx) a).val = _
  rw [unsq_mid]
  match a with
  | ⟨0, _⟩ => show 0 + 1 * (y 0).val = (y 0).val; omega
  | ⟨1, _⟩ => show b.val + 1 * 0 = b.val; omega
  | ⟨2, _⟩ => show 0 + 1 * (y 1).val = (y 1).val; omega

/-- A result block written through the destination of its copy: entry `(i, b, l)` of the array is entry `(i, l)` of the block. -/
theorem landed_out_write (b : Fin 1024) (off : Fin 3 → ℕ)
    (hin : ∀ a, off a + S50x1x128.size a ≤ S50x1024x128.size a) (hoff : off = ![0, b.val, 0])
    (fd : (((oW).slice (Rect.unit (s := S50x1024x128) off S50x1x128.size hin) (fun _ => rfl)).squeeze S50x128 squeezes_S50x1x128_S50x128).view.ty.Contents (Elt F)) (blk : S50x128.Idx → Elt F .f32) :
    ∀ i ∈ (((oW).slice (Rect.unit (s := S50x1024x128) off S50x1x128.size hin) (fun _ => rfl)).squeeze S50x128 squeezes_S50x1x128_S50x128).view.set, ((((oW).slice (Rect.unit (s := S50x1024x128) off S50x1x128.size hin) (fun _ => rfl)).squeeze S50x128 squeezes_S50x1x128_S50x128).view.write (Elt F) fd blk Finset.univ) i = blk (ix2 (i 0) (i 2)) := by
  intro i hi
  obtain ⟨y, -, rfl⟩ := Finset.mem_map.mp hi
  rw [View.write_emb_of_mem _ _ (Finset.mem_univ _)]
  show blk y = _
  rw [oDst_emb b off hin hoff y]
  exact congrArg blk (eq_ix2 y)

/-- The same, the write recorded as a list of one piece. -/
theorem landed_out_writes (b : Fin 1024) (off : Fin 3 → ℕ)
    (hin : ∀ a, off a + S50x1x128.size a ≤ S50x1024x128.size a) (hoff : off = ![0, b.val, 0])
    (fd : (((oW).slice (Rect.unit (s := S50x1024x128) off S50x1x128.size hin) (fun _ => rfl)).squeeze S50x128 squeezes_S50x1x128_S50x128).view.ty.Contents (Elt F)) (blk : S50x128.Idx → Elt F .f32) :
    ∀ i ∈ (((oW).slice (Rect.unit (s := S50x1024x128) off S50x1x128.size hin) (fun _ => rfl)).squeeze S50x128 squeezes_S50x1x128_S50x128).view.set, ((((oW).slice (Rect.unit (s := S50x1024x128) off S50x1x128.size hin) (fun _ => rfl)).squeeze S50x128 squeezes_S50x1x128_S50x128).view.writes (Elt F) fd [⟨Rect.whole S50x128, blk⟩]) i = blk (ix2 (i 0) (i 2)) := by
  intro i hi
  obtain ⟨y, -, rfl⟩ := Finset.mem_map.mp hi
  rw [View.writes_singleton]
  have e : (((oW).slice (Rect.unit (s := S50x1024x128) off S50x1x128.size hin) (fun _ => rfl)).squeeze S50x128 squeezes_S50x1x128_S50x128).view.emb y = ((((oW).slice (Rect.unit (s := S50x1024x128) off S50x1x128.size hin) (fun _ => rfl)).squeeze S50x128 squeezes_S50x1x128_S50x128).view.slice (Rect.whole S50x128)).emb y := by
    show _ = (((oW).slice (Rect.unit (s := S50x1024x128) off S50x1x128.size hin) (fun _ => rfl)).squeeze S50x128 squeezes_S50x1x128_S50x128).view.emb ((Rect.whole S50x128).emb y); rw [Rect.emb_whole_apply]
  rw [e, View.write_emb_of_mem _ _ (Finset.mem_univ _), ← e]
  show blk y = _
  rw [oDst_emb b off hin hoff y]
  exact congrArg blk (eq_ix2 y)

/-- The gathered block of batch `b`, read at the block index under an entry of column `b`, is the gather at that entry. -/
theorem gatherBlock_col (x : S1024x200x128.Idx → Elt F .f32) (it : S50x1024x128.Idx → BitVec 32) (b : Fin 1024)
    (i : S50x1024x128.Idx) (hi : i ∈ colSet b.val) :
    gatherBlock (tabOf x b) (colOf it b) (ix2 (i 0) (i 2)) = Cert.Spec.gatherT x it i := by
  have hb : i 1 = b := by
    have h := hi
    rw [show colSet b.val = (Rect.part (s := S50x1024x128) (a₀ := 1) hdivB b).set from by unfold colSet; rw [dif_pos b.isLt]] at h
    have h1 := (Rect.mem_set_unit.mp h) 1
    simp [Shape.partIx, Shape.partSize] at h1
    exact Fin.ext (by omega)
  obtain ⟨a, c, l, rfl⟩ : ∃ (a : Fin 50) (c : Fin 1024) (l : Fin 128), i = ix3 a c l := ⟨i 0, i 1, i 2, eq_ix3 i⟩
  have hc : c = b := hb
  subst hc
  rfl

/-- So the gathered block of batch `b`, landed in its column, leaves the gather there. -/
theorem landed_col_write (x : S1024x200x128.Idx → Elt F .f32) (it : S50x1024x128.Idx → BitVec 32) (b : Fin 1024) (off : Fin 3 → ℕ)
    (hin : ∀ a, off a + S50x1x128.size a ≤ S50x1024x128.size a) (hoff : off = ![0, b.val, 0])
    (fd : (((oW).slice (Rect.unit (s := S50x1024x128) off S50x1x128.size hin) (fun _ => rfl)).squeeze S50x128 squeezes_S50x1x128_S50x128).view.ty.Contents (Elt F)) (blk : S50x128.Idx → Elt F .f32) (hblk : blk = gatherBlock (tabOf x b) (colOf it b)) :
    ∀ i ∈ colSet b.val, ((((oW).slice (Rect.unit (s := S50x1024x128) off S50x1x128.size hin) (fun _ => rfl)).squeeze S50x128 squeezes_S50x1x128_S50x128).view.write (Elt F) fd blk Finset.univ) i = Cert.Spec.gatherT x it i := by
  intro i hi
  rw [landed_out_write b off hin hoff fd blk i (by rw [oDst_set b off hin hoff]; exact hi), hblk]
  exact gatherBlock_col x it b i hi
theorem landed_col_writes (x : S1024x200x128.Idx → Elt F .f32) (it : S50x1024x128.Idx → BitVec 32) (b : Fin 1024) (off : Fin 3 → ℕ)
    (hin : ∀ a, off a + S50x1x128.size a ≤ S50x1024x128.size a) (hoff : off = ![0, b.val, 0])
    (fd : (((oW).slice (Rect.unit (s := S50x1024x128) off S50x1x128.size hin) (fun _ => rfl)).squeeze S50x128 squeezes_S50x1x128_S50x128).view.ty.Contents (Elt F)) (blk : S50x128.Idx → Elt F .f32) (hblk : blk = gatherBlock (tabOf x b) (colOf it b)) :
    ∀ i ∈ colSet b.val, ((((oW).slice (Rect.unit (s := S50x1024x128) off S50x1x128.size hin) (fun _ => rfl)).squeeze S50x128 squeezes_S50x1x128_S50x128).view.writes (Elt F) fd [⟨Rect.whole S50x128, blk⟩]) i = Cert.Spec.gatherT x it i := by
  intro i hi
  rw [landed_out_writes b off hin hoff fd blk i (by rw [oDst_set b off hin hoff]; exact hi), hblk]
  exact gatherBlock_col x it b i hi

/-! ## A subcore's own blocks read whole -/

theorem read_ixA (f : (ixA).view.ty.Contents (Elt F)) : (ixA).view.read (Elt F) f = f := rfl
theorem read_ixB (f : (ixB).view.ty.Contents (Elt F)) : (ixB).view.read (Elt F) f = f := rfl
theorem read_ouA (f : (ouA).view.ty.Contents (Elt F)) : (ouA).view.read (Elt F) f = f := rfl
theorem read_ouB (f : (ouB).view.ty.Contents (Elt F)) : (ouB).view.read (Elt F) f = f := rfl

end Cert.Proof.OnKernelIdeal

end
-- ==== Proof.OnKernelIdeal.Cols.lean ====
/-
  A subcore's 32 batch numbers, cut by how far its pairs of batches have progressed.

  A subcore handles its batches two at a time. At pair `k` the batches `2 k` and above are still to be started, and the
  batches below `2 k - 2` are finished (the two before `2 k` are still on their way out). A separating conjunction over
  the batches still to do gives up its first two when a pair starts; the one over the finished batches takes in two more
  when a pair ends.
-/
import proofs.«216842_g32469952758108_cont_8to1_b_497_34_alg».proof.Proof.OnKernelIdeal.Common

noncomputable section

namespace Cert.Proof.OnKernelIdeal

open Idealize.SL Idealize.SL.RA Idealize.SL.BI
open scoped Idealize.SL.BI
open Idealize.SL.BI.BIBase Idealize.SL.BI.Laws Idealize.SL.ProofMode

variable {M : Type} [URA M] (Φ : Fin 32 → sProp M)

/-- The batches from `2 k` on are `2 k`, `2 k + 1`, and those from `2 (k + 1)` on. -/
theorem todo_step (k : ℕ) (hk : k < 16) :
    bigSep (Finset.univ.filter fun j : Fin 32 => 2 * k ≤ j.val) Φ
      = iprop(Φ ⟨2 * k, by omega⟩ ∗ Φ ⟨2 * k + 1, by omega⟩ ∗ bigSep (Finset.univ.filter fun j : Fin 32 => 2 * (k + 1) ≤ j.val) Φ) := by
  have e : (Finset.univ.filter fun j : Fin 32 => 2 * k ≤ j.val)
      = insert (⟨2 * k, by omega⟩ : Fin 32) (insert (⟨2 * k + 1, by omega⟩ : Fin 32) (Finset.univ.filter fun j : Fin 32 => 2 * (k + 1) ≤ j.val)) := by
    ext j
    simp only [Finset.mem_filter, Finset.mem_univ, _root_.true_and, Finset.mem_insert, Fin.ext_iff]
    omega
  rw [e, bigSep_insert (by simp only [Finset.mem_filter, Finset.mem_univ, _root_.true_and, Finset.mem_insert, Fin.ext_iff]; omega),
    bigSep_insert (by simp only [Finset.mem_filter, Finset.mem_univ, _root_.true_and]; omega)]
  rfl

/-- The batches finished by pair `k + 1` are those finished by pair `k`, and `2 k - 2` and `2 k - 1`. -/
theorem done_step (k : ℕ) (hk0 : 0 < k) (hk : k < 16) :
    bigSep (Finset.univ.filter fun j : Fin 32 => j.val + 2 < 2 * (k + 1)) Φ
      = iprop(bigSep (Finset.univ.filter fun j : Fin 32 => j.val + 2 < 2 * k) Φ ∗ Φ ⟨2 * k - 2, by omega⟩ ∗ Φ ⟨2 * k - 1, by omega⟩) := by
  have e : (Finset.univ.filter fun j : Fin 32 => j.val + 2 < 2 * (k + 1))
      = (Finset.univ.filter fun j : Fin 32 => j.val + 2 < 2 * k) ∪ insert (⟨2 * k - 2, by omega⟩ : Fin 32) {(⟨2 * k - 1, by omega⟩ : Fin 32)} := by
    ext j
    simp only [Finset.mem_filter, Finset.mem_univ, _root_.true_and, Finset.mem_union, Finset.mem_insert, Finset.mem_singleton, Fin.ext_iff]
    omega
  have hd : Disjoint (Finset.univ.filter fun j : Fin 32 => j.val + 2 < 2 * k) (insert (⟨2 * k - 2, by omega⟩ : Fin 32) {(⟨2 * k - 1, by omega⟩ : Fin 32)}) := by
    refine Finset.disjoint_left.mpr fun j h1 h2 => ?_
    simp only [Finset.mem_filter, Finset.mem_univ, _root_.true_and] at h1
    simp only [Finset.mem_insert, Finset.mem_singleton, Fin.ext_iff] at h2
    omega
  rw [e, bigSep_union hd, bigSep_insert (by simp only [Finset.mem_singleton, Fin.ext_iff]; omega), bigSep_singleton]
  rfl

/-- Before the first pair, and before the second, no batch is finished. -/
theorem done_zero : bigSep (Finset.univ.filter fun j : Fin 32 => j.val + 2 < 2 * 0) Φ = iprop(emp) := by
  rw [show (Finset.univ.filter fun j : Fin 32 => j.val + 2 < 2 * 0) = ∅ from Finset.filter_false_of_mem fun j _ => by omega]
  rfl
theorem done_one : bigSep (Finset.univ.filter fun j : Fin 32 => j.val + 2 < 2 * (0 + 1)) Φ = iprop(emp) := by
  rw [show (Finset.univ.filter fun j : Fin 32 => j.val + 2 < 2 * (0 + 1)) = ∅ from Finset.filter_false_of_mem fun j _ => by omega]
  rfl

/-- Before the first pair every batch is still to do. -/
theorem todo_zero : bigSep (Finset.univ.filter fun j : Fin 32 => 2 * 0 ≤ j.val) Φ = bigSep Finset.univ Φ := by
  rw [show (Finset.univ.filter fun j : Fin 32 => 2 * 0 ≤ j.val) = Finset.univ from Finset.filter_true_of_mem fun j _ => by omega]

/-- After the last pair none is. -/
theorem todo_end : bigSep (Finset.univ.filter fun j : Fin 32 => 2 * 16 ≤ j.val) Φ = iprop(emp) := by
  rw [show (Finset.univ.filter fun j : Fin 32 => 2 * 16 ≤ j.val) = ∅ from Finset.filter_false_of_mem fun j _ => by have := j.isLt; omega]
  rfl

/-- All 32 batches are those finished by the last pair's start, and the last two. -/
theorem done_end :
    bigSep Finset.univ Φ = iprop(bigSep (Finset.univ.filter fun j : Fin 32 => j.val + 2 < 2 * 16) Φ ∗ Φ ⟨30, by omega⟩ ∗ Φ ⟨31, by omega⟩) := by
  have e : (Finset.univ : Finset (Fin 32))
      = (Finset.univ.filter fun j : Fin 32 => j.val + 2 < 2 * 16) ∪ insert (⟨30, by omega⟩ : Fin 32) {(⟨31, by omega⟩ : Fin 32)} := by
    ext j
    have hj := j.isLt
    constructor
    · intro _
      by_cases h : j.val + 2 < 2 * 16
      · exact Finset.mem_union_left _ (Finset.mem_filter.mpr ⟨Finset.mem_univ j, h⟩)
      · refine Finset.mem_union_right _ ?_
        simp only [Finset.mem_insert, Finset.mem_singleton, Fin.ext_iff]
        omega
    · intro _; exact Finset.mem_univ j
  have hd : Disjoint (Finset.univ.filter fun j : Fin 32 => j.val + 2 < 2 * 16) (insert (⟨30, by omega⟩ : Fin 32) {(⟨31, by omega⟩ : Fin 32)}) := by
    refine Finset.disjoint_left.mpr fun j h1 h2 => ?_
    simp only [Finset.mem_filter, Finset.mem_univ, _root_.true_and] at h1
    simp only [Finset.mem_insert, Finset.mem_singleton, Fin.ext_iff] at h2
    omega
  conv_lhs => rw [e]
  rw [bigSep_union hd, bigSep_insert (by simp only [Finset.mem_singleton, Fin.ext_iff]; omega), bigSep_singleton]
  rfl

end Cert.Proof.OnKernelIdeal

end
-- ==== Proof.OnKernelIdeal.Inv.lean ====
/-
  The state of one vector subcore between two pairs of batches.

  A subcore works through its 32 batches two at a time, one in each of two buffer slots, and keeps copies under way
  across the pairs: while it computes on one slot the next batch's table and index rows are arriving in the other, and
  the finished result rows of the previous two batches are still leaving. The invariant below says, before pair `k`,
  which copies are under way and what each will deliver, stated over the arrays' contents: batch `b`'s table is
  `x[b]`, its index rows are `it[:, b, :]`, and a finished column of the result holds the expected gather.
-/
import proofs.«216842_g32469952758108_cont_8to1_b_497_34_alg».proof.Proof.OnKernelIdeal.Landed
import proofs.«216842_g32469952758108_cont_8to1_b_497_34_alg».proof.Proof.OnKernelIdeal.Cols
import proofs.«216842_g32469952758108_cont_8to1_b_497_34_alg».proof.Proof.Gen.KernelIdeal.Skeleton

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.KernelIdeal.main_arg0_scv : Memref Cert.KernelIdeal.sig Kind.scVector Space.hbm Cert.KernelIdeal.S1024x200x128 EltTy.f32)
local notation "tW" => (Memref.whole Cert.KernelIdeal.main_v0_scv : Memref Cert.KernelIdeal.sig Kind.scVector Space.hbm Cert.KernelIdeal.S50x1024x128 EltTy.i32)
local notation "oW" => (Memref.whole Cert.KernelIdeal.main_v1_scv : Memref Cert.KernelIdeal.sig Kind.scVector Space.hbm Cert.KernelIdeal.S50x1024x128 EltTy.f32)
local notation "inA" => (Memref.whole Cert.KernelIdeal.cc0_scratch0 : Memref Cert.KernelIdeal.sig Kind.scVector Space.vmem Cert.KernelIdeal.S200x128 EltTy.f32)
local notation "inB" => (Memref.whole Cert.KernelIdeal.cc0_scratch1 : Memref Cert.KernelIdeal.sig Kind.scVector Space.vmem Cert.KernelIdeal.S200x128 EltTy.f32)
local notation "ixA" => (Memref.whole Cert.KernelIdeal.cc0_scratch2 : Memref Cert.KernelIdeal.sig Kind.scVector Space.vmem Cert.KernelIdeal.S50x128 EltTy.i32)
local notation "ixB" => (Memref.whole Cert.KernelIdeal.cc0_scratch3 : Memref Cert.KernelIdeal.sig Kind.scVector Space.vmem Cert.KernelIdeal.S50x128 EltTy.i32)
local notation "ouA" => (Memref.whole Cert.KernelIdeal.cc0_scratch4 : Memref Cert.KernelIdeal.sig Kind.scVector Space.vmem Cert.KernelIdeal.S50x128 EltTy.f32)
local notation "ouB" => (Memref.whole Cert.KernelIdeal.cc0_scratch5 : Memref Cert.KernelIdeal.sig Kind.scVector Space.vmem Cert.KernelIdeal.S50x128 EltTy.f32)

variable [FloatOps F]

section Tile
variable (d : Dev nD) (L : grid0.Coords)
omit [FloatOps F] in
theorem pts_x (q : PosShare TreeShare) (f : Buf (Elt F) (xLoc d)) : ((xW).view.loc (thr d L) ↦{q} f : sProp 𝕄) = xLoc d ↦{q} f := by
  simp only [Memref.view_whole, View.set_whole]
omit [FloatOps F] in
theorem pts_t (q : PosShare TreeShare) (f : Buf (Elt F) (tLoc d)) : ((tW).view.loc (thr d L) ↦{q} f : sProp 𝕄) = tLoc d ↦{q} f := by
  simp only [Memref.view_whole, View.set_whole]

omit [FloatOps F] in
theorem pts_ixA (f : Buf (Elt F) ((thr d L).loc cc0_scratch2)) : ((ixA).view.loc (thr d L) ↦{fullShare} f : sProp 𝕄) = (thr d L).loc cc0_scratch2 ↦{fullShare} f := rfl
omit [FloatOps F] in
theorem pts_ixB (f : Buf (Elt F) ((thr d L).loc cc0_scratch3)) : ((ixB).view.loc (thr d L) ↦{fullShare} f : sProp 𝕄) = (thr d L).loc cc0_scratch3 ↦{fullShare} f := rfl
omit [FloatOps F] in
theorem pts_ouA (f : Buf (Elt F) ((thr d L).loc cc0_scratch4)) : ((ouA).view.loc (thr d L) ↦{fullShare} f : sProp 𝕄) = (thr d L).loc cc0_scratch4 ↦{fullShare} f := rfl
omit [FloatOps F] in
theorem pts_ouB (f : Buf (Elt F) ((thr d L).loc cc0_scratch5)) : ((ouB).view.loc (thr d L) ↦{fullShare} f : sProp 𝕄) = (thr d L).loc cc0_scratch5 ↦{fullShare} f := rfl

omit [FloatOps F] in
theorem pts_inB (f : Buf (Elt F) ((thr d L).loc cc0_scratch1)) : ((inB).view.loc (thr d L) ↦{fullShare} f : sProp 𝕄) = (thr d L).loc cc0_scratch1 ↦{fullShare} f := rfl
omit [FloatOps F] in
theorem pts_inA (f : Buf (Elt F) ((thr d L).loc cc0_scratch0)) : ((inA).view.loc (thr d L) ↦{fullShare} f : sProp 𝕄) = (thr d L).loc cc0_scratch0 ↦{fullShare} f := rfl

/-- The share of the read-only arrays this subcore holds, and its `i`-th read share. -/
abbrev q0 (L : grid0.Coords) : PosShare TreeShare := tileShare (L 0).val (L 1).val
abbrev rtok (L : grid0.Coords) (i : ℕ) : PosShare TreeShare := Transfers.shareTokN (q0 L) i
/-- The subcore's `k`-th batch. -/
def bOf (L : grid0.Coords) (k : ℕ) : Fin 1024 := ⟨batchOf (L 0).val (L 1).val k % 1024, Nat.mod_lt _ (by decide)⟩

/-- A copy out of the tables under way on semaphore `sm`: it delivers `Dst` and the elements it borrowed of read share
    `i`; the other elements of that share are kept beside it. -/
def XFlight (sm : DmaSems sig S_) (N : ℕ) (i : ℕ) (Dst : sProp 𝕄) : sProp 𝕄 :=
  iprop(∃ S : Finset (Idx ((xW).view.loc (thr d L))),
    Transfers.Flight countersEmb (thr d L) (SemLoc.dma sm.sem) (default : HIx 1) N
        iprop(Dst ∗ ((xW).view.loc (thr d L) ↦[S]{rtok L i} m (xLoc d)))
      ∗ ((xW).view.loc (thr d L) ↦[Finset.univ \ S]{rtok L i} m (xLoc d)))
/-- The same out of the index array. -/
def TFlight (sm : DmaSems sig S_) (i : ℕ) (Dst : sProp 𝕄) : sProp 𝕄 :=
  iprop(∃ S : Finset (Idx ((tW).view.loc (thr d L))),
    Transfers.Flight countersEmb (thr d L) (SemLoc.dma sm.sem) (default : HIx 1) 204800
        iprop(Dst ∗ ((tW).view.loc (thr d L) ↦[S]{rtok L i} itOf m d))
      ∗ ((tW).view.loc (thr d L) ↦[Finset.univ \ S]{rtok L i} itOf m d))

/-- Before pair `k` of the subcore's batches (batches `2k` and `2k + 1`): the copies that bring batch `2k` into the
    first slot are under way (unless all sixteen pairs are done), the second slot is idle, the result rows of batches
    `2k - 2` and `2k - 1` are on their way out (unless `k = 0`), the columns of earlier batches are written and those of
    batch `2k` onward are not yet. -/
def inv (O : CellTallies nD τ sig (HIx 1)) (W : Waits sig (HIx 1)) (k : ℕ) (_ : PUnit) : sProp 𝕄 :=
  iprop(Transfers.MayWaits (thr d L) (none : HIx 1) O
    ∗ (if k < 16 then
        iprop(XFlight m d L cc0_scratch6 393216 0 (inAlo.view.loc (thr d L) ↦[inAlo.view.set]{fullShare} tabOf (m (xLoc d)) (bOf L (2 * k)))
          ∗ XFlight m d L cc0_scratch8 425984 2 (inAhi.view.loc (thr d L) ↦[inAhi.view.set]{fullShare} tabOf (m (xLoc d)) (bOf L (2 * k)))
          ∗ TFlight m d L cc0_scratch10 4 ((ixA).view.loc (thr d L) ↦{fullShare} colOf (itOf m d) (bOf L (2 * k))))
      else
        iprop((∃ f, inAlo.view.loc (thr d L) ↦[inAlo.view.set]{fullShare} f) ∗ (∃ f, inAhi.view.loc (thr d L) ↦[inAhi.view.set]{fullShare} f)
          ∗ (∃ f, (ixA).view.loc (thr d L) ↦{fullShare} f)
          ∗ ((xW).view.loc (thr d L) ↦{rtok L 0} m (xLoc d)) ∗ ((xW).view.loc (thr d L) ↦{rtok L 2} m (xLoc d))
          ∗ ((tW).view.loc (thr d L) ↦{rtok L 4} itOf m d)
          ∗ semVal (sem d L cc0_scratch6) 0 ∗ semVal (sem d L cc0_scratch8) 0 ∗ semVal (sem d L cc0_scratch10) 0))
    ∗ ((∃ f, inBlo.view.loc (thr d L) ↦[inBlo.view.set]{fullShare} f) ∗ (∃ f, inBhi.view.loc (thr d L) ↦[inBhi.view.set]{fullShare} f)
        ∗ (∃ f, (ixB).view.loc (thr d L) ↦{fullShare} f)
        ∗ ((xW).view.loc (thr d L) ↦{rtok L 1} m (xLoc d)) ∗ ((xW).view.loc (thr d L) ↦{rtok L 3} m (xLoc d))
        ∗ ((tW).view.loc (thr d L) ↦{rtok L 5} itOf m d)
        ∗ semVal (sem d L cc0_scratch7) 0 ∗ semVal (sem d L cc0_scratch9) 0 ∗ semVal (sem d L cc0_scratch11) 0)
    ∗ (if k = 0 then
        iprop((∃ f, (ouA).view.loc (thr d L) ↦{fullShare} f) ∗ (∃ f, (ouB).view.loc (thr d L) ↦{fullShare} f)
          ∗ semVal (sem d L cc0_scratch12) 0 ∗ semVal (sem d L cc0_scratch13) 0)
      else
        iprop((∃ fo, Transfers.Flight countersEmb (thr d L) (SemLoc.dma cc0_scratch12.sem) (default : HIx 1) 204800
            iprop(oCol d (bOf L (2 * k - 2)).val (otOf m d) ∗ ((ouA).view.loc (thr d L) ↦{fullShare} fo)))
          ∗ (∃ fo, Transfers.Flight countersEmb (thr d L) (SemLoc.dma cc0_scratch13.sem) (default : HIx 1) 204800
            iprop(oCol d (bOf L (2 * k - 1)).val (otOf m d) ∗ ((ouB).view.loc (thr d L) ↦{fullShare} fo)))))
    ∗ (bigSep (Finset.univ.filter fun j : Fin 32 => j.val + 2 < 2 * k) fun j => oCol d (batchOf (L 0).val (L 1).val j.val) (otOf m d))
    ∗ (bigSep (Finset.univ.filter fun j : Fin 32 => 2 * k ≤ j.val) fun j => iprop(∃ f, oCol d (batchOf (L 0).val (L 1).val j.val) f))
    ∗ ∃ W', ⌜∀ p ∈ W', p ∈ W ∨ p.2 = none⌝ ∗ owes (thr d L) O W')

omit [FloatOps F] in
theorem L_lt : (L 0).val < 2 ∧ (L 1).val < 16 := ⟨(L 0).isLt, (L 1).isLt⟩
omit [FloatOps F] in
theorem bOf_val {k : ℕ} (hk : k < 32) : (bOf L k).val = 64 * (L 1).val + 32 * (L 0).val + k := by
  have h := L_lt L
  unfold bOf batchOf
  show (64 * (L 1).val + 32 * (L 0).val + k) % 1024 = _
  exact Nat.mod_eq_of_lt (by omega)

omit [FloatOps F] in
theorem cond1_all : ∀ k : Fin k0_t1_loop.trips, k0_cond1 k = 1#1 := by decide +kernel
omit [FloatOps F] in
theorem cond2_pos : ∀ k : Fin k0_t1_loop.trips, 0 < k.val → k0_cond2 k = 1#1 := by decide +kernel
omit [FloatOps F] in
theorem cond2_neg : ∀ k : Fin k0_t1_loop.trips, k.val = 0 → ¬ k0_cond2 k = 1#1 := by decide +kernel
omit [FloatOps F] in
theorem cond4_pos : ∀ k : Fin k0_t1_loop.trips, 0 < k.val → k0_cond4 k = 1#1 := by decide +kernel
omit [FloatOps F] in
theorem cond4_neg : ∀ k : Fin k0_t1_loop.trips, k.val = 0 → ¬ k0_cond4 k = 1#1 := by decide +kernel
omit [FloatOps F] in
theorem cond3_pos : ∀ k : Fin k0_t1_loop.trips, k.val < 15 → k0_cond3 k = 1#1 := by decide +kernel
omit [FloatOps F] in
theorem cond3_neg : ∀ k : Fin k0_t1_loop.trips, k.val = 15 → ¬ k0_cond3 k = 1#1 := by decide +kernel

omit [FloatOps F] in
/-- Every index word, also read in the layout with the index row first, names a row of its table. -/
theorem itOf_lt (hpre : PreOK m) (j : S50x1024x128.Idx) : (itOf m d j).toNat < 200 := hpre d _

end Tile

end Cert.Proof.OnKernelIdeal

end
-- ==== Proof.OnKernelIdeal.Compute.lean ====
/-
  The inner loops of one vector subcore's task: one batch's gather, row by row.

  With a batch's table `tab : [200, 128]` and index rows `ix : [50, 128]` in the subcore's memory, trip `i` of the loop
  reads the 128 index words of row `i` in eight pieces of 16 lanes, reads for each piece the 16 table entries
  `tab[ix[i, l], l]` with one indexed load, and stores them to row `i` of the result block. After the 50 trips the
  result block holds `gatherBlock tab ix`. Every index word is below 200, so every indexed load is in range.
-/
import proofs.«216842_g32469952758108_cont_8to1_b_497_34_alg».proof.Proof.OnKernelIdeal.Block
import proofs.«216842_g32469952758108_cont_8to1_b_497_34_alg».proof.Proof.Gen.KernelIdeal.Skeleton

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

-- the kernel's memrefs, spelt as the body table passes them
local notation "xW" => (Memref.whole Cert.KernelIdeal.main_arg0_scv : Memref Cert.KernelIdeal.sig Kind.scVector Space.hbm Cert.KernelIdeal.S1024x200x128 EltTy.f32)
local notation "tW" => (Memref.whole Cert.KernelIdeal.main_v0_scv : Memref Cert.KernelIdeal.sig Kind.scVector Space.hbm Cert.KernelIdeal.S50x1024x128 EltTy.i32)
local notation "oW" => (Memref.whole Cert.KernelIdeal.main_v1_scv : Memref Cert.KernelIdeal.sig Kind.scVector Space.hbm Cert.KernelIdeal.S50x1024x128 EltTy.f32)
local notation "inA" => (Memref.whole Cert.KernelIdeal.cc0_scratch0 : Memref Cert.KernelIdeal.sig Kind.scVector Space.vmem Cert.KernelIdeal.S200x128 EltTy.f32)
local notation "inB" => (Memref.whole Cert.KernelIdeal.cc0_scratch1 : Memref Cert.KernelIdeal.sig Kind.scVector Space.vmem Cert.KernelIdeal.S200x128 EltTy.f32)
local notation "ixA" => (Memref.whole Cert.KernelIdeal.cc0_scratch2 : Memref Cert.KernelIdeal.sig Kind.scVector Space.vmem Cert.KernelIdeal.S50x128 EltTy.i32)
local notation "ixB" => (Memref.whole Cert.KernelIdeal.cc0_scratch3 : Memref Cert.KernelIdeal.sig Kind.scVector Space.vmem Cert.KernelIdeal.S50x128 EltTy.i32)
local notation "ouA" => (Memref.whole Cert.KernelIdeal.cc0_scratch4 : Memref Cert.KernelIdeal.sig Kind.scVector Space.vmem Cert.KernelIdeal.S50x128 EltTy.f32)
local notation "ouB" => (Memref.whole Cert.KernelIdeal.cc0_scratch5 : Memref Cert.KernelIdeal.sig Kind.scVector Space.vmem Cert.KernelIdeal.S50x128 EltTy.f32)

variable [FloatOps F]

/-! ## The eight lane vectors

Piece `g` of a row is read in the lanes `16 g … 16 g + 15`: its lane vector is the lane sequence `0 … 15` plus `16 g`. -/

omit [FloatOps F] in
theorem lanes_pay3 : ∀ x, (k0_pay3 x).toNat = (x 0).val := by
  intro x
  have hx : (x 0).val < 16 := (x 0).isLt
  simp [k0_pay3, addi, iota, broadcast, IntOp.addi, BitVec.toNat_add, BitVec.toNat_ofNat]
  omega

omit [FloatOps F] in
theorem lanes_pay4 : ∀ x, (k0_pay4 x).toNat = (x 0).val + 16 := by
  intro x
  have hx : (x 0).val < 16 := (x 0).isLt
  simp [k0_pay4, addi, iota, broadcast, IntOp.addi, BitVec.toNat_add, BitVec.toNat_ofNat]
  omega

omit [FloatOps F] in
theorem lanes_pay5 : ∀ x, (k0_pay5 x).toNat = (x 0).val + 32 := by
  intro x
  have hx : (x 0).val < 16 := (x 0).isLt
  simp [k0_pay5, addi, iota, broadcast, IntOp.addi, BitVec.toNat_add, BitVec.toNat_ofNat]
  omega

omit [FloatOps F] in
theorem lanes_pay6 : ∀ x, (k0_pay6 x).toNat = (x 0).val + 48 := by
  intro x
  have hx : (x 0).val < 16 := (x 0).isLt
  simp [k0_pay6, addi, iota, broadcast, IntOp.addi, BitVec.toNat_add, BitVec.toNat_ofNat]
  omega

omit [FloatOps F] in
theorem lanes_pay7 : ∀ x, (k0_pay7 x).toNat = (x 0).val + 64 := by
  intro x
  have hx : (x 0).val < 16 := (x 0).isLt
  simp [k0_pay7, addi, iota, broadcast, IntOp.addi, BitVec.toNat_add, BitVec.toNat_ofNat]
  omega

omit [FloatOps F] in
theorem lanes_pay8 : ∀ x, (k0_pay8 x).toNat = (x 0).val + 80 := by
  intro x
  have hx : (x 0).val < 16 := (x 0).isLt
  simp [k0_pay8, addi, iota, broadcast, IntOp.addi, BitVec.toNat_add, BitVec.toNat_ofNat]
  omega

omit [FloatOps F] in
theorem lanes_pay9 : ∀ x, (k0_pay9 x).toNat = (x 0).val + 96 := by
  intro x
  have hx : (x 0).val < 16 := (x 0).isLt
  simp [k0_pay9, addi, iota, broadcast, IntOp.addi, BitVec.toNat_add, BitVec.toNat_ofNat]
  omega

omit [FloatOps F] in
theorem lanes_pay10 : ∀ x, (k0_pay10 x).toNat = (x 0).val + 112 := by
  intro x
  have hx : (x 0).val < 16 := (x 0).isLt
  simp [k0_pay10, addi, iota, broadcast, IntOp.addi, BitVec.toNat_add, BitVec.toNat_ofNat]
  omega

/-! ## The check before an indexed load

The index words of a piece are below 200 and its lanes are below 128: the indexed load is in range. -/

omit [FloatOps F] in
theorem lane_lt {v : IVec S16 32} (c : Nat) (hc : c ≤ 112) (hv : ∀ x, (v x).toNat = (x 0).val + c) : ∀ x, (v x).toNat < 128 := by
  intro x
  have hx : (x 0).val < 16 := (x 0).isLt
  have := hv x
  omega

omit [FloatOps F] in
theorem chk_ok (v w : IVec S16 32) (hv : ∀ x, (v x).toNat < 128) (hw : ∀ x, (w x).toNat < 200) :
    ∀ a x, ((![w, v] : Fin 2 → IVec S16 32) a x).toNat < S200x128.size a := by
  intro a x
  match a with
  | ⟨0, _⟩ => exact hw x
  | ⟨1, _⟩ => exact hv x

/-! ## A table buffer held through its whole rectangle, as an indexed load reads it -/

omit [FloatOps F] in
theorem pts_inA_access (d : Dev nD) (L : grid0.Coords) (f : Buf (Elt F) ((thr d L).loc cc0_scratch0)) :
    ((inA).view.loc (thr d L) ↦{fullShare} f : sProp 𝕄) = (((inA).access (.whole S200x128)).loc (thr d L) ↦{fullShare} f) := rfl

omit [FloatOps F] in
theorem pts_inB_access (d : Dev nD) (L : grid0.Coords) (f : Buf (Elt F) ((thr d L).loc cc0_scratch1)) :
    ((inB).view.loc (thr d L) ↦{fullShare} f : sProp 𝕄) = (((inB).access (.whole S200x128)).loc (thr d L) ↦{fullShare} f) := rfl

/-! ## What the stores of one trip leave

A trip stores row `k` of the result block in eight pieces of 16 lanes, left to right. `Filled tab ix k c g` says
that the rows below `k` of `g`, and the lanes below `c` of its row `k`, hold the batch's result; each store moves
`c` on by 16, and at `c = 128` row `k` is complete. -/

/-- Rows below `k` of a block, and the lanes below `c` of its row `k`, hold the batch's result. -/
def Filled (tab : Vec F S200x128 .f32) (ix : S50x128.Idx → BitVec 32) (k c : Nat) (g : Vec F S50x128 .f32) : Prop :=
  ∀ j : S50x128.Idx, ((j 0).val < k ∨ ((j 0).val = k ∧ (j 1).val < c)) → g j = gatherBlock tab ix j

omit [FloatOps F] in
theorem filled_zero {tab : Vec F S200x128 .f32} {ix : S50x128.Idx → BitVec 32} {k : Nat} (g : Vec F S50x128 .f32)
    (h : ∀ j : S50x128.Idx, (j 0).val < k → g j = gatherBlock tab ix j) : Filled tab ix k 0 g :=
  fun j hj => h j (by omega)

omit [FloatOps F] in
theorem filled_done {tab : Vec F S200x128 .f32} {ix : S50x128.Idx → BitVec 32} {k : Nat} {g : Vec F S50x128 .f32}
    (hF : Filled tab ix k 128 g) : ∀ j : S50x128.Idx, (j 0).val < k + 1 → g j = gatherBlock tab ix j :=
  fun j hj => hF j (by have := idx2_lt1 j; omega)

omit [FloatOps F] in
/-- One more piece of row `k`, holding the result in its 16 lanes from `c`, stored over a block filled up to lane `c`. -/
theorem filled_cons {sig' : RefSig} {κ' : Kind} {sp' : Space} {tab : Vec F S200x128 .f32} {ix : S50x128.Idx → BitVec 32} {k c : Nat}
    (v : View sig' κ' sp' S50x128 .f32) (f : v.ty.Contents (Elt F)) (L : List (View.Piece (Elt F) S50x128 .f32))
    (hF : Filled tab ix k c (v.read (Elt F) (v.writes (Elt F) f L)))
    (off : Fin 2 → Nat) (hoff : off = ![k, c]) (inb : ∀ a, off a + S1x16.size a ≤ S50x128.size a) (w : S1x16.Idx → Elt F .f32)
    (hw : ∀ x : S1x16.Idx, w x = gatherBlock tab ix ((Rect.unit (s := S50x128) off S1x16.size inb).emb x)) :
    Filled tab ix k (c + 16) (v.read (Elt F) (v.writes (Elt F) f (⟨Rect.unit (s := S50x128) off S1x16.size inb, w⟩ :: L))) := by
  intro j hj
  by_cases hm : j ∈ (Rect.unit (s := S50x128) off S1x16.size inb).set
  · obtain ⟨x, rfl⟩ : ∃ x, (Rect.unit (s := S50x128) off S1x16.size inb).emb x = j := (Rect.unit (s := S50x128) off S1x16.size inb).exists_idx_of_mem hm
    rw [View.read_writes_cons_emb]; exact hw x
  · have hy' : j ∉ Finset.univ.map (Rect.unit (s := S50x128) off S1x16.size inb).emb := by rwa [Rect.map_emb_univ]
    rw [View.writes_cons, View.read_slice_write_of_not_mem _ _ _ _ hy']
    apply hF
    subst hoff
    have hm' : ¬ ((k ≤ (j 0).val ∧ (j 0).val < k + 1) ∧ (c ≤ (j 1).val ∧ (j 1).val < c + 16)) :=
      fun h => hm (Rect.mem_set_unit.mpr (Fin.forall_fin_two.mpr h))
    omega

omit [FloatOps F] in
/-- The 16 index words read at row `k` from lane `c`, as a vector: word `x` is the index row's word in lane `c + x`. -/
theorem words_at (ix : S50x128.Idx → BitVec 32) (off : Fin 2 → Nat) {k c : Nat} (hoff : off = ![k, c])
    (inb : ∀ a, off a + S1x16.size a ≤ S50x128.size a) (hc : S1x16.ShapeCasts S16) :
    ∀ (x : S16.Idx) (j : S50x128.Idx), (j 0).val = k → (j 1).val = c + (x 0).val →
      shapeCast S16 (fun y : S1x16.Idx => ix ((Rect.unit (s := S50x128) off S1x16.size inb).emb y)) hc x = ix j := by
  intro x j h0 h1
  subst hoff
  refine (shapeCast_dropUnit_apply (n := 1) ![16] _ hc x).trans ?_
  refine congrArg ix (funext fun a => Fin.ext ?_)
  match a with
  | ⟨0, _⟩ => show k + 1 * 0 = (j 0).val; omega
  | ⟨1, _⟩ => show c + 1 * (x 0).val = (j 1).val; omega

omit [FloatOps F] in
/-- The piece an indexed load reads for row `k` from lane `c`: entry `x` is the table's entry in lane `c + x` of the
    row the index word in that lane names. -/
theorem piece_val (tab tabr : Vec F S200x128 .f32) (htab : ∀ i, tabr i = tab i) (ix : S50x128.Idx → BitVec 32) (hix : ∀ j, (ix j).toNat < 200) {k c : Nat}
    (off : Fin 2 → Nat) (hoff : off = ![k, c]) (inb : ∀ a, off a + S1x16.size a ≤ S50x128.size a)
    (V W : IVec S16 32) (hV : ∀ x, (V x).toNat = (x 0).val + c)
    (hW : ∀ (x : S16.Idx) (j : S50x128.Idx), (j 0).val = k → (j 1).val = c + (x 0).val → W x = ix j)
    (h : ∀ a x, ((![W, V] : Fin 2 → IVec S16 32) a x).toNat < S200x128.size a) (hc : S16.ShapeCasts S1x16) (x : S1x16.Idx) :
    shapeCast S1x16 (loadIdx tabr ![W, V] h) hc x = gatherBlock tab ix ((Rect.unit (s := S50x128) off S1x16.size inb).emb x) := by
  subst hoff
  refine (shapeCast_addUnit_apply (n := 1) ![16] _ hc x).trans ?_
  have h0 : (x 0).val = 0 := by have h1 : (x 0).val < 1 := (x 0).isLt; omega
  have hj0 : (((Rect.unit (s := S50x128) ![k, c] S1x16.size inb).emb x) 0).val = k := by show k + 1 * (x 0).val = k; omega
  have hj1 : (((Rect.unit (s := S50x128) ![k, c] S1x16.size inb).emb x) 1).val = c + (x 1).val := by show c + 1 * (x 1).val = _; omega
  have hWx := hW (fun a => x a.succ) _ hj0 hj1
  unfold loadIdx gatherBlock
  rw [htab]
  refine congrArg tab (funext fun a => Fin.ext ?_)
  match a with
  | ⟨0, _⟩ =>
    show (W (fun a => x a.succ)).toNat = (Cert.Spec.rowOf (ix ((Rect.unit (s := S50x128) ![k, c] S1x16.size inb).emb x))).val
    rw [hWx, Cert.Spec.rowOf_val_of_lt (hix _)]
  | ⟨1, _⟩ =>
    refine (hV (fun a => x a.succ)).trans ?_
    show (x 1).val + c = (((Rect.unit (s := S50x128) ![k, c] S1x16.size inb).emb x) 1).val
    rw [hj1]; omega

omit [FloatOps F] in
/-- Read through its whole rectangle, a buffer's view reads the buffer's contents. -/
theorem read_access_whole {κ' : Kind} (b : Ref sig κ') (f : b.ty.Contents (Elt F)) (i : b.ty.shape.Idx) :
    ((Memref.whole b).access (Rect.whole b.ty.shape)).read (Elt F) f i = f i := by
  show f ((Rect.whole b.ty.shape).emb i) = f i
  rw [Rect.emb_whole_apply]

omit [FloatOps F] in
theorem trips_A : Scf.trips k0_t2_loop.lb k0_t2_loop.ub k0_t2_loop.st = 50 := by decide

omit [FloatOps F] in
theorem trips_B : Scf.trips k0_t3_loop.lb k0_t3_loop.ub k0_t3_loop.st = 50 := by decide

/-! ## The first slot's loop -/

/-- Before trip `k` of the first slot's loop: the table and the index rows as they were, the result block's rows below `k` filled. -/
def invA (d : Dev nD) (L : grid0.Coords) (tab : Buf (Elt F) ((thr d L).loc cc0_scratch0)) (ix : Buf (Elt F) ((thr d L).loc cc0_scratch2))
    (k : Nat) (_ : Unit) : sProp 𝕄 :=
  iprop(((inA).view.loc (thr d L) ↦{fullShare} tab) ∗ ((ixA).view.loc (thr d L) ↦{fullShare} ix)
    ∗ ∃ fo' : Buf (Elt F) ((thr d L).loc cc0_scratch4), ((ouA).view.loc (thr d L) ↦{fullShare} fo')
        ∗ ⌜∀ j : S50x128.Idx, (j 0).val < k → fo' j = gatherBlock tab ix j⌝)

set_option maxHeartbeats 4000000 in
theorem compute_A (d : Dev nD) (L : grid0.Coords) (v2 arg19 v49 : BitVec 32) (k0_t1 : Fin k0_t1_loop.trips) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (tab : Buf (Elt F) ((thr d L).loc cc0_scratch0)) (ix : Buf (Elt F) ((thr d L).loc cc0_scratch2)) (fo : Buf (Elt F) ((thr d L).loc cc0_scratch4))
    (hix : ∀ j, (ix j).toNat < 200) (Φ : PUnit → sProp 𝕄) :
    iprop(((inA).view.loc (thr d L) ↦{fullShare} tab) ∗ ((ixA).view.loc (thr d L) ↦{fullShare} ix) ∗ ((ouA).view.loc (thr d L) ↦{fullShare} fo)
        ∗ ((((inA).view.loc (thr d L) ↦{fullShare} tab) ∗ ((ixA).view.loc (thr d L) ↦{fullShare} ix) ∗ ((ouA).view.loc (thr d L) ↦{fullShare} gatherBlock tab ix)) -∗ Φ ⟨⟩))
      ⊢ wp frame (wpE (defs₀ (F := F)) 𝒱₀ (thr d L) none) Set.univ
          (Scf.Loop.for k0_t2_loop k0_t2_ok ⟨⟩ (k0_t2_body L xW (Memref.isWhole_whole _) tW (Memref.isWhole_whole _) oW (Memref.isWhole_whole _) inA (Memref.isWhole_whole _) inB (Memref.isWhole_whole _) ixA (Memref.isWhole_whole _) ixB (Memref.isWhole_whole _) ouA (Memref.isWhole_whole _) ouB (Memref.isWhole_whole _) cc0_scratch6 cc0_scratch7 cc0_scratch8 cc0_scratch9 cc0_scratch10 cc0_scratch11 cc0_scratch12 cc0_scratch13 v2 v5 v7 v9 v11 v13 v15 v17 v19 k0_t1 arg19 v49)) Φ := by
  iintro ⟨Htab, Hix, Hou, HΦ⟩
  sl_for (invA d L tab ix) $$ [Htab Hix Hou HΦ]
  case region =>
    intro k _
    unfold invA
    iintro ⟨Htab, Hix, ⟨%fo', Hou, %hfo⟩⟩
    -- piece 0: its index words, their check, the indexed load; then its store
    sl_exec (disch := exact chk_ok _ _ (lane_lt 0 (by omega) h5) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 1: its index words, their check, the indexed load; then its store
    sl_exec (disch := exact chk_ok _ _ (lane_lt 16 (by omega) h7) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 2: its index words, their check, the indexed load; then its store
    sl_exec (disch := exact chk_ok _ _ (lane_lt 32 (by omega) h9) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 3: its index words, their check, the indexed load; then its store
    sl_exec (disch := exact chk_ok _ _ (lane_lt 48 (by omega) h11) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 4: its index words, their check, the indexed load; then its store
    sl_exec (disch := exact chk_ok _ _ (lane_lt 64 (by omega) h13) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 5: its index words, their check, the indexed load; then its store
    sl_exec (disch := exact chk_ok _ _ (lane_lt 80 (by omega) h15) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 6: its index words, their check, the indexed load; then its store
    sl_exec (disch := exact chk_ok _ _ (lane_lt 96 (by omega) h17) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    -- piece 7: its index words, their check, the indexed load; then its store
    sl_exec (disch := exact chk_ok _ _ (lane_lt 112 (by omega) h19) (fun x => hix _))
    ihave Htab' := (Entails.of_eq (pts_inA_access (F := F) d L _)) $$ Htab
    iapply (SparseCore.wp_vectorLoadIdx 𝒱₀ (thr d L) none Set.univ (base := inA) (S := Finset.univ) (q := fullShare) (Finset.subset_univ _)) $$ Htab'; iintro Htab'
    ihave Htab := (Entails.of_eq (pts_inA_access (F := F) d L _).symm) $$ Htab'
    sl_exec
    sl_step
    isplitl [Htab]; · iexact Htab
    isplitl [Hix]; · iexact Hix
    iexists _
    isplitl [Hou]; · iexact Hou
    ipureintro
    -- row `k` piece by piece: after piece `g` the lanes below `16 (g + 1)` of the row are filled
    have hr : ∀ i, View.read (Elt F) ((inA).access (Rect.whole S200x128)) tab i = tab i := read_access_whole cc0_scratch0 tab
    have F0 : Filled tab ix k.val 0 ((ouA).view.read (Elt F) ((ouA).view.writes (Elt F) fo' [])) := filled_zero _ hfo
    have F1 := filled_cons (k := k.val) (c := 0) (ouA).view fo' _ F0 (k0_off12 k) (k0_off12_eq k) (k0_off12_inb k) _
      (piece_val tab _ hr ix hix (k0_off12 k) (k0_off12_eq k) (k0_off12_inb k) v5 _ h5
        (words_at ix (k0_off11 k) (k0_off11_eq k) (k0_off11_inb k) shapeCasts_S1x16_S16)
        (chk_ok _ _ (lane_lt 0 (by omega) h5) (fun x => hix _)) shapeCasts_S16_S1x16)
    have F2 := filled_cons (k := k.val) (c := 16) (ouA).view fo' _ F1 (k0_off14 k) (k0_off14_eq k) (k0_off14_inb k) _
      (piece_val tab _ hr ix hix (k0_off14 k) (k0_off14_eq k) (k0_off14_inb k) v7 _ h7
        (words_at ix (k0_off13 k) (k0_off13_eq k) (k0_off13_inb k) shapeCasts_S1x16_S16)
        (chk_ok _ _ (lane_lt 16 (by omega) h7) (fun x => hix _)) shapeCasts_S16_S1x16)
    have F3 := filled_cons (k := k.val) (c := 32) (ouA).view fo' _ F2 (k0_off16 k) (k0_off16_eq k) (k0_off16_inb k) _
      (piece_val tab _ hr ix hix (k0_off16 k) (k0_off16_eq k) (k0_off16_inb k) v9 _ h9
        (words_at ix (k0_off15 k) (k0_off15_eq k) (k0_off15_inb k) shapeCasts_S1x16_S16)
        (chk_ok _ _ (lane_lt 32 (by omega) h9) (fun x => hix _)) shapeCasts_S16_S1x16)
    have F4 := filled_cons (k := k.val) (c := 48) (ouA).view fo' _ F3 (k0_off18 k) (k0_off18_eq k) (k0_off18_inb k) _
      (piece_val tab _ hr ix hix (k0_off18 k) (k0_off18_eq k) (k0_off18_inb k) v11 _ h11
        (words_at ix (k0_off17 k) (k0_off17_eq k) (k0_off17_inb k) shapeCasts_S1x16_S16)
        (chk_ok _ _ (lane_lt 48 (by omega) h11) (fun x => hix _)) shapeCasts_S16_S1x16)
    have F5 := filled_cons (k := k.val) (c := 64) (ouA).view fo' _ F4 (k0_off20 k) (k0_off20_eq k) (k0_off20_inb k) _
      (piece_val tab _ hr ix hix (k0_off20 k) (k0_off20_eq k) (k0_off20_inb k) v13 _ h13
        (words_at ix (k0_off19 k) (k0_off19_eq k) (k0_off19_inb k) shapeCasts_S1x16_S16)
        (chk_ok _ _ (lane_lt 64 (by omega) h13) (fun x => hix _)) shapeCasts_S16_S1x16)
    have F6 := filled_cons (k := k.val) (c := 80) (ouA).view fo' _ F5 (k0_off22 k) (k0_off22_eq k) (k0_off22_inb k) _
      (piece_val tab _ hr ix hix (k0_off22 k) (k0_off22_eq k) (k0_off22_inb k) v15 _ h15
        (words_at ix (k0_off21 k) (k0_off21_eq k) (k0_off21_inb k) shapeCasts_S1x16_S16)
        (chk_ok _ _ (lane_lt 80 (by omega) h15) (fun x => hix _)) shapeCasts_S16_S1x16)
    have F7 := filled_cons (k := k.val) (c := 96) (ouA).view fo' _ F6 (k0_off24 k) (k0_off24_eq k) (k0_off24_inb k) _
      (piece_val tab _ hr ix hix (k0_off24 k) (k0_off24_eq k) (k0_off24_inb k) v17 _ h17
        (words_at ix (k0_off23 k) (k0_off23_eq k) (k0_off23_inb k) shapeCasts_S1x16_S16)
        (chk_ok _ _ (lane_lt 96 (by omega) h17) (fun x => hix _)) shapeCasts_S16_S1x16)
    have F8 := filled_cons (k := k.val) (c := 112) (ouA).view fo' _ F7 (k0_off26 k) (k0_off26_eq k) (k0_off26_inb k) _
      (piece_val tab _ hr ix hix (k0_off26 k) (k0_off26_eq k) (k0_off26_inb k) v19 _ h19
        (words_at ix (k0_off25 k) (k0_off25_eq k) (k0_off25_inb k) shapeCasts_S1x16_S16)
        (chk_ok _ _ (lane_lt 112 (by omega) h19) (fun x => hix _)) shapeCasts_S16_S1x16)
    exact filled_done F8
  isplitl [Htab Hix Hou]
  · -- before the first trip no row is asked for
    unfold invA
    isplitl [Htab]; · iexact Htab
    isplitl [Hix]; · iexact Hix
    iexists fo
    isplitl [Hou]; · iexact Hou
    ipureintro
    intro j hj
    exact absurd hj (Nat.not_lt_zero _)
  · -- after the last trip every row is filled
    iintro %acc HI
    unfold invA
    icases HI with ⟨Htab, Hix, ⟨%fo', Hou, %hfo⟩⟩
    have e : fo' = gatherBlock tab ix := funext fun j => hfo j (by rw [trips_A]; exact idx2_lt0 j)
    subst e
    iapply HΦ
    isplitl [Htab]; · iexact Htab
    isplitl [Hix]; · iexact Hix
    iexact Hou

/-! ## The second slot's loop -/

/-- Before trip `k` of the second slot's loop: the table and the index rows as they were, the result block's rows below `k` filled. -/
def invB (d : Dev nD) (L : grid0.Coords) (tab : Buf (Elt F) ((thr d L).loc cc0_scratch1)) (ix : Buf (Elt F) ((thr d L).loc cc0_scratch3))
    (k : Nat) (_ : Unit) : sProp 𝕄 :=
  iprop(((inB).view.loc (thr d L) ↦{fullShare} tab) ∗ ((ixB).view.loc (thr d L) ↦{fullShare} ix)
    ∗ ∃ fo' : Buf (Elt F) ((thr d L).loc cc0_scratch5), ((ouB).view.loc (thr d L) ↦{fullShare} fo')
        ∗ ⌜∀ j : S50x128.Idx, (j 0).val < k → fo' j = gatherBlock tab ix j⌝)

set_option maxHeartbeats 4000000 in
theorem compute_B (d : Dev nD) (L : grid0.Coords) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (tab : Buf (Elt F) ((thr d L).loc cc0_scratch1)) (ix : Buf (Elt F) ((thr d L).loc cc0_scratch3)) (fo : Buf (Elt F) ((thr d L).loc cc0_scratch5))
    (hix : ∀ j, (ix j).toNat < 200) (Φ : PUnit → sProp 𝕄) :
    iprop(((inB).view.loc (thr d L) ↦{fullShare} tab) ∗ ((ixB).view.loc (thr d L) ↦{fullShare} ix) ∗ ((ouB).view.loc (thr d L) ↦{fullShare} fo)
        ∗ ((((inB).view.loc (thr d L) ↦{fullShare} tab) ∗ ((ixB).view.loc (thr d L) ↦{fullShare} ix) ∗ ((ouB).view.loc (thr d L) ↦{fullShare} gatherBlock tab ix)) -∗ Φ ⟨⟩))
      ⊢ wp frame (wpE (defs₀ (F := F)) 𝒱₀ (thr d L) none) Set.univ
          (Scf.Loop.for k0_t3_loop k0_t3_ok ⟨⟩ (k0_t3_body L xW (Memref.isWhole_whole _) tW (Memref.isWhole_whole _) oW (Memref.isWhole_whole _) inA (Memref.isWhole_whole _) inB (Memref.isWhole_whole _) ixA (Memref.isWhole_whole _) ixB (Memref.isWhole_whole _) ouA (Memref.isWhole_whole _) ouB (Memref.isWhole_whole _) cc0_scratch6 cc0_scratch7 cc0_scratch8 cc0_scratch9 cc0_scratch10 cc0_scratch11 cc0_scratch12 cc0_scratch13 v5 v7 v9 v11 v13 v15 v17 v19)) Φ := by
  iintro ⟨Htab, Hix, Hou, HΦ⟩
  sl_for (invB d L tab ix) $$ [Htab Hix Hou HΦ]
  case region =>
    intro k _
    unfold invB
    iintro ⟨Htab, Hix, ⟨%fo', Hou, %hfo⟩⟩
    -- piece 0: its index words, their check, the indexed load; then its store
    sl_exec (disch := exact chk_ok _ _ (lane_lt 0 (by omega) h5) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 1: its index words, their check, the indexed load; then its store
    sl_exec (disch := exact chk_ok _ _ (lane_lt 16 (by omega) h7) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 2: its index words, their check, the indexed load; then its store
    sl_exec (disch := exact chk_ok _ _ (lane_lt 32 (by omega) h9) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 3: its index words, their check, the indexed load; then its store
    sl_exec (disch := exact chk_ok _ _ (lane_lt 48 (by omega) h11) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 4: its index words, their check, the indexed load; then its store
    sl_exec (disch := exact chk_ok _ _ (lane_lt 64 (by omega) h13) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 5: its index words, their check, the indexed load; then its store
    sl_exec (disch := exact chk_ok _ _ (lane_lt 80 (by omega) h15) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 6: its index words, their check, the indexed load; then its store
    sl_exec (disch := exact chk_ok _ _ (lane_lt 96 (by omega) h17) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    -- piece 7: its index words, their check, the indexed load; then its store
    sl_exec (disch := exact chk_ok _ _ (lane_lt 112 (by omega) h19) (fun x => hix _))
    ihave Htab' := (Entails.of_eq (pts_inB_access (F := F) d L _)) $$ Htab
    iapply (SparseCore.wp_vectorLoadIdx 𝒱₀ (thr d L) none Set.univ (base := inB) (S := Finset.univ) (q := fullShare) (Finset.subset_univ _)) $$ Htab'; iintro Htab'
    ihave Htab := (Entails.of_eq (pts_inB_access (F := F) d L _).symm) $$ Htab'
    sl_exec
    sl_step
    isplitl [Htab]; · iexact Htab
    isplitl [Hix]; · iexact Hix
    iexists _
    isplitl [Hou]; · iexact Hou
    ipureintro
    -- row `k` piece by piece: after piece `g` the lanes below `16 (g + 1)` of the row are filled
    have hr : ∀ i, View.read (Elt F) ((inB).access (Rect.whole S200x128)) tab i = tab i := read_access_whole cc0_scratch1 tab
    have F0 : Filled tab ix k.val 0 ((ouB).view.read (Elt F) ((ouB).view.writes (Elt F) fo' [])) := filled_zero _ hfo
    have F1 := filled_cons (k := k.val) (c := 0) (ouB).view fo' _ F0 (k0_off35 k) (k0_off35_eq k) (k0_off35_inb k) _
      (piece_val tab _ hr ix hix (k0_off35 k) (k0_off35_eq k) (k0_off35_inb k) v5 _ h5
        (words_at ix (k0_off34 k) (k0_off34_eq k) (k0_off34_inb k) shapeCasts_S1x16_S16)
        (chk_ok _ _ (lane_lt 0 (by omega) h5) (fun x => hix _)) shapeCasts_S16_S1x16)
    have F2 := filled_cons (k := k.val) (c := 16) (ouB).view fo' _ F1 (k0_off37 k) (k0_off37_eq k) (k0_off37_inb k) _
      (piece_val tab _ hr ix hix (k0_off37 k) (k0_off37_eq k) (k0_off37_inb k) v7 _ h7
        (words_at ix (k0_off36 k) (k0_off36_eq k) (k0_off36_inb k) shapeCasts_S1x16_S16)
        (chk_ok _ _ (lane_lt 16 (by omega) h7) (fun x => hix _)) shapeCasts_S16_S1x16)
    have F3 := filled_cons (k := k.val) (c := 32) (ouB).view fo' _ F2 (k0_off39 k) (k0_off39_eq k) (k0_off39_inb k) _
      (piece_val tab _ hr ix hix (k0_off39 k) (k0_off39_eq k) (k0_off39_inb k) v9 _ h9
        (words_at ix (k0_off38 k) (k0_off38_eq k) (k0_off38_inb k) shapeCasts_S1x16_S16)
        (chk_ok _ _ (lane_lt 32 (by omega) h9) (fun x => hix _)) shapeCasts_S16_S1x16)
    have F4 := filled_cons (k := k.val) (c := 48) (ouB).view fo' _ F3 (k0_off41 k) (k0_off41_eq k) (k0_off41_inb k) _
      (piece_val tab _ hr ix hix (k0_off41 k) (k0_off41_eq k) (k0_off41_inb k) v11 _ h11
        (words_at ix (k0_off40 k) (k0_off40_eq k) (k0_off40_inb k) shapeCasts_S1x16_S16)
        (chk_ok _ _ (lane_lt 48 (by omega) h11) (fun x => hix _)) shapeCasts_S16_S1x16)
    have F5 := filled_cons (k := k.val) (c := 64) (ouB).view fo' _ F4 (k0_off43 k) (k0_off43_eq k) (k0_off43_inb k) _
      (piece_val tab _ hr ix hix (k0_off43 k) (k0_off43_eq k) (k0_off43_inb k) v13 _ h13
        (words_at ix (k0_off42 k) (k0_off42_eq k) (k0_off42_inb k) shapeCasts_S1x16_S16)
        (chk_ok _ _ (lane_lt 64 (by omega) h13) (fun x => hix _)) shapeCasts_S16_S1x16)
    have F6 := filled_cons (k := k.val) (c := 80) (ouB).view fo' _ F5 (k0_off45 k) (k0_off45_eq k) (k0_off45_inb k) _
      (piece_val tab _ hr ix hix (k0_off45 k) (k0_off45_eq k) (k0_off45_inb k) v15 _ h15
        (words_at ix (k0_off44 k) (k0_off44_eq k) (k0_off44_inb k) shapeCasts_S1x16_S16)
        (chk_ok _ _ (lane_lt 80 (by omega) h15) (fun x => hix _)) shapeCasts_S16_S1x16)
    have F7 := filled_cons (k := k.val) (c := 96) (ouB).view fo' _ F6 (k0_off47 k) (k0_off47_eq k) (k0_off47_inb k) _
      (piece_val tab _ hr ix hix (k0_off47 k) (k0_off47_eq k) (k0_off47_inb k) v17 _ h17
        (words_at ix (k0_off46 k) (k0_off46_eq k) (k0_off46_inb k) shapeCasts_S1x16_S16)
        (chk_ok _ _ (lane_lt 96 (by omega) h17) (fun x => hix _)) shapeCasts_S16_S1x16)
    have F8 := filled_cons (k := k.val) (c := 112) (ouB).view fo' _ F7 (k0_off49 k) (k0_off49_eq k) (k0_off49_inb k) _
      (piece_val tab _ hr ix hix (k0_off49 k) (k0_off49_eq k) (k0_off49_inb k) v19 _ h19
        (words_at ix (k0_off48 k) (k0_off48_eq k) (k0_off48_inb k) shapeCasts_S1x16_S16)
        (chk_ok _ _ (lane_lt 112 (by omega) h19) (fun x => hix _)) shapeCasts_S16_S1x16)
    exact filled_done F8
  isplitl [Htab Hix Hou]
  · -- before the first trip no row is asked for
    unfold invB
    isplitl [Htab]; · iexact Htab
    isplitl [Hix]; · iexact Hix
    iexists fo
    isplitl [Hou]; · iexact Hou
    ipureintro
    intro j hj
    exact absurd hj (Nat.not_lt_zero _)
  · -- after the last trip every row is filled
    iintro %acc HI
    unfold invB
    icases HI with ⟨Htab, Hix, ⟨%fo', Hou, %hfo⟩⟩
    have e : fo' = gatherBlock tab ix := funext fun j => hfo j (by rw [trips_B]; exact idx2_lt0 j)
    subst e
    iapply HΦ
    isplitl [Htab]; · iexact Htab
    isplitl [Hix]; · iexact Hix
    iexact Hou

end Cert.Proof.OnKernelIdeal

end
-- ==== Proof.OnKernelIdeal.TripLemmas.lean ====
/-
  What the proofs of one pair of batches share: a landed column of the result read as the expected gather, a result
  column spelt as the program slices it, and the two compute loops placed in front of the rest of the program.
-/
import proofs.«216842_g32469952758108_cont_8to1_b_497_34_alg».proof.Proof.OnKernelIdeal.Inv
import proofs.«216842_g32469952758108_cont_8to1_b_497_34_alg».proof.Proof.OnKernelIdeal.Compute

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.KernelIdeal.main_arg0_scv : Memref Cert.KernelIdeal.sig Kind.scVector Space.hbm Cert.KernelIdeal.S1024x200x128 EltTy.f32)
local notation "tW" => (Memref.whole Cert.KernelIdeal.main_v0_scv : Memref Cert.KernelIdeal.sig Kind.scVector Space.hbm Cert.KernelIdeal.S50x1024x128 EltTy.i32)
local notation "oW" => (Memref.whole Cert.KernelIdeal.main_v1_scv : Memref Cert.KernelIdeal.sig Kind.scVector Space.hbm Cert.KernelIdeal.S50x1024x128 EltTy.f32)
local notation "inA" => (Memref.whole Cert.KernelIdeal.cc0_scratch0 : Memref Cert.KernelIdeal.sig Kind.scVector Space.vmem Cert.KernelIdeal.S200x128 EltTy.f32)
local notation "inB" => (Memref.whole Cert.KernelIdeal.cc0_scratch1 : Memref Cert.KernelIdeal.sig Kind.scVector Space.vmem Cert.KernelIdeal.S200x128 EltTy.f32)
local notation "ixA" => (Memref.whole Cert.KernelIdeal.cc0_scratch2 : Memref Cert.KernelIdeal.sig Kind.scVector Space.vmem Cert.KernelIdeal.S50x128 EltTy.i32)
local notation "ixB" => (Memref.whole Cert.KernelIdeal.cc0_scratch3 : Memref Cert.KernelIdeal.sig Kind.scVector Space.vmem Cert.KernelIdeal.S50x128 EltTy.i32)
local notation "ouA" => (Memref.whole Cert.KernelIdeal.cc0_scratch4 : Memref Cert.KernelIdeal.sig Kind.scVector Space.vmem Cert.KernelIdeal.S50x128 EltTy.f32)
local notation "ouB" => (Memref.whole Cert.KernelIdeal.cc0_scratch5 : Memref Cert.KernelIdeal.sig Kind.scVector Space.vmem Cert.KernelIdeal.S50x128 EltTy.f32)

variable [FloatOps F]

section Tile
variable (d : Dev nD) (L : grid0.Coords)

theorem pts_congr' {ℓ : Loc nD τ sig} {I : Finset (Idx ℓ)} {q : PosShare TreeShare} {f g : Buf (Elt F) ℓ} (h : ∀ i ∈ I, f i = g i) :
    (ℓ ↦[I]{q} f : sProp 𝕄) ⊢ ℓ ↦[I]{q} g := Entails.of_eq (pointsTo_congr h)

theorem pts_eq' {ℓ : Loc nD τ sig} {I : Finset (Idx ℓ)} {q : PosShare TreeShare} {f g : Buf (Elt F) ℓ} (h : f = g) :
    (ℓ ↦[I]{q} f : sProp 𝕄) ⊢ ℓ ↦[I]{q} g := Entails.of_eq (congrArg _ h)

/-- The columns of the result a pair's two copy-outs write, as the program slices them. -/
abbrev oDst0 (k : Fin k0_t1_loop.trips) : Memref sig .scVector .hbm S50x128 .f32 :=
  ((oW).slice (Rect.unit (s := S50x1024x128) (k0_off27 L k 0#32) S50x1x128.size (k0_off27_inb L k 0)) (fun _ => rfl)).squeeze S50x128 squeezes_S50x1x128_S50x128
abbrev oDst1 (k : Fin k0_t1_loop.trips) : Memref sig .scVector .hbm S50x128 .f32 :=
  ((oW).slice (Rect.unit (s := S50x1024x128) (k0_off27 L k 1#32) S50x1x128.size (k0_off27_inb L k 1)) (fun _ => rfl)).squeeze S50x128 squeezes_S50x1x128_S50x128

omit [FloatOps F] in
theorem off27_eq (k : Fin k0_t1_loop.trips) (r : Fin 2) (hk : k.val < 16) :
    k0_off27 L k (BitVec.ofNat 32 r.val) = ![0, (bOf L (2 * k.val + r.val)).val, 0] := by
  have hb := bOf_val L (k := 2 * k.val + r.val) (by have := r.isLt; omega)
  rw [k0_off27_eq, hb, Nat.add_assoc]

omit [FloatOps F] in
theorem col0_as_dst (k : Fin k0_t1_loop.trips) (hk : k.val < 16) (f : Buf (Elt F) (oLoc d)) :
    (oCol d (batchOf (L 0).val (L 1).val (2 * k.val)) f : sProp 𝕄) = ((oDst0 L k).view.loc (thr d L) ↦[(oDst0 L k).view.set]{fullShare} f) := by
  have hb := bOf_val L (k := 2 * k.val + 0) (by omega)
  show _ = ((oDst0 L k).view.loc (thr d L) ↦[(oDst0 L k).view.set]{fullShare} f)
  rw [oDst_set (bOf L (2 * k.val + 0)) (k0_off27 L k 0#32) (k0_off27_inb L k 0) (off27_eq L k 0 hk), hb]
  rfl
omit [FloatOps F] in
theorem col1_as_dst (k : Fin k0_t1_loop.trips) (hk : k.val < 16) (f : Buf (Elt F) (oLoc d)) :
    (oCol d (batchOf (L 0).val (L 1).val (2 * k.val + 1)) f : sProp 𝕄) = ((oDst1 L k).view.loc (thr d L) ↦[(oDst1 L k).view.set]{fullShare} f) := by
  have hb := bOf_val L (k := 2 * k.val + 1) (by omega)
  show _ = ((oDst1 L k).view.loc (thr d L) ↦[(oDst1 L k).view.set]{fullShare} f)
  rw [oDst_set (bOf L (2 * k.val + 1)) (k0_off27 L k 1#32) (k0_off27_inb L k 1) (off27_eq L k 1 hk), hb]
  rfl

/-- The first slot's compute loop in front of the rest of the program. -/
theorem compute_A_bind {β : Type} (v2 arg19 v49 : BitVec 32) (k0_t1 : Fin k0_t1_loop.trips) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (tab : Buf (Elt F) ((thr d L).loc cc0_scratch0)) (ix : Buf (Elt F) ((thr d L).loc cc0_scratch2)) (fo : Buf (Elt F) ((thr d L).loc cc0_scratch4))
    (hix : ∀ j, (ix j).toNat < 200)
    (kk : PUnit → Prog (TpuEff nD τ sig (Elt F) Λ₀ (.scVector ((L 0).castLE hcore0) ((L 1).castLE hsub0))) β) (Q : β → sProp 𝕄) :
    iprop(((inA).view.loc (thr d L) ↦{fullShare} tab) ∗ ((ixA).view.loc (thr d L) ↦{fullShare} ix) ∗ ((ouA).view.loc (thr d L) ↦{fullShare} fo)
        ∗ ((((inA).view.loc (thr d L) ↦{fullShare} tab) ∗ ((ixA).view.loc (thr d L) ↦{fullShare} ix) ∗ ((ouA).view.loc (thr d L) ↦{fullShare} gatherBlock tab ix))
            -∗ wp frame (wpE (defs₀ (F := F)) 𝒱₀ (thr d L) none) Set.univ (kk ⟨⟩) Q))
      ⊢ wp frame (wpE (defs₀ (F := F)) 𝒱₀ (thr d L) none) Set.univ
          (Scf.Loop.for k0_t2_loop k0_t2_ok ⟨⟩ (k0_t2_body L xW (Memref.isWhole_whole _) tW (Memref.isWhole_whole _) oW (Memref.isWhole_whole _) inA (Memref.isWhole_whole _) inB (Memref.isWhole_whole _) ixA (Memref.isWhole_whole _) ixB (Memref.isWhole_whole _) ouA (Memref.isWhole_whole _) ouB (Memref.isWhole_whole _) cc0_scratch6 cc0_scratch7 cc0_scratch8 cc0_scratch9 cc0_scratch10 cc0_scratch11 cc0_scratch12 cc0_scratch13 v2 v5 v7 v9 v11 v13 v15 v17 v19 k0_t1 arg19 v49) >>= kk) Q := by
  rw [wp_bind]
  exact compute_A (F := F) d L v2 arg19 v49 k0_t1 v5 v7 v9 v11 v13 v15 v17 v19 h5 h7 h9 h11 h13 h15 h17 h19 tab ix fo hix
    (fun r => wp frame (wpE (defs₀ (F := F)) 𝒱₀ (thr d L) none) Set.univ (kk r) Q)

/-- The second slot's compute loop in front of the rest of the program. -/
theorem compute_B_bind {β : Type} (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (tab : Buf (Elt F) ((thr d L).loc cc0_scratch1)) (ix : Buf (Elt F) ((thr d L).loc cc0_scratch3)) (fo : Buf (Elt F) ((thr d L).loc cc0_scratch5))
    (hix : ∀ j, (ix j).toNat < 200)
    (kk : PUnit → Prog (TpuEff nD τ sig (Elt F) Λ₀ (.scVector ((L 0).castLE hcore0) ((L 1).castLE hsub0))) β) (Q : β → sProp 𝕄) :
    iprop(((inB).view.loc (thr d L) ↦{fullShare} tab) ∗ ((ixB).view.loc (thr d L) ↦{fullShare} ix) ∗ ((ouB).view.loc (thr d L) ↦{fullShare} fo)
        ∗ ((((inB).view.loc (thr d L) ↦{fullShare} tab) ∗ ((ixB).view.loc (thr d L) ↦{fullShare} ix) ∗ ((ouB).view.loc (thr d L) ↦{fullShare} gatherBlock tab ix))
            -∗ wp frame (wpE (defs₀ (F := F)) 𝒱₀ (thr d L) none) Set.univ (kk ⟨⟩) Q))
      ⊢ wp frame (wpE (defs₀ (F := F)) 𝒱₀ (thr d L) none) Set.univ
          (Scf.Loop.for k0_t3_loop k0_t3_ok ⟨⟩ (k0_t3_body L xW (Memref.isWhole_whole _) tW (Memref.isWhole_whole _) oW (Memref.isWhole_whole _) inA (Memref.isWhole_whole _) inB (Memref.isWhole_whole _) ixA (Memref.isWhole_whole _) ixB (Memref.isWhole_whole _) ouA (Memref.isWhole_whole _) ouB (Memref.isWhole_whole _) cc0_scratch6 cc0_scratch7 cc0_scratch8 cc0_scratch9 cc0_scratch10 cc0_scratch11 cc0_scratch12 cc0_scratch13 v5 v7 v9 v11 v13 v15 v17 v19) >>= kk) Q := by
  rw [wp_bind]
  exact compute_B (F := F) d L v5 v7 v9 v11 v13 v15 v17 v19 h5 h7 h9 h11 h13 h15 h17 h19 tab ix fo hix
    (fun r => wp frame (wpE (defs₀ (F := F)) 𝒱₀ (thr d L) none) Set.univ (kk r) Q)

omit [FloatOps F] in
/-- The index rows of any batch name rows of the table. -/
theorem colOf_lt (hpre : PreOK m) (b : Fin 1024) (j : S50x128.Idx) : (colOf (itOf m d) b j).toNat < 200 := itOf_lt m d hpre _

omit [FloatOps F] in
theorem bOf_batch {j : ℕ} (hj : j < 32) : (bOf L j).val = batchOf (L 0).val (L 1).val j := by rw [bOf_val L hj]; rfl

omit [FloatOps F] in
theorem ouA_set (f : Buf (Elt F) ((thr d L).loc cc0_scratch4)) :
    ((ouA).view.loc (thr d L) ↦[(ouA).view.set]{fullShare} f : sProp 𝕄) = ((ouA).view.loc (thr d L) ↦{fullShare} f) := by
  simp only [Memref.view_whole, View.set_whole]
omit [FloatOps F] in
theorem ouB_set (f : Buf (Elt F) ((thr d L).loc cc0_scratch5)) :
    ((ouB).view.loc (thr d L) ↦[(ouB).view.set]{fullShare} f : sProp 𝕄) = ((ouB).view.loc (thr d L) ↦{fullShare} f) := by
  simp only [Memref.view_whole, View.set_whole]

/-- What a pair's first copy-out lands in its column is the expected gather there. -/
theorem out_landed0 (k : Fin k0_t1_loop.trips) (hk : k.val < 16) (fc0 : Buf (Elt F) (oLoc d)) (blk : S50x128.Idx → Elt F .f32)
    (hblk : blk = gatherBlock (tabOf (m (xLoc d)) (bOf L (2 * k.val))) (colOf (itOf m d) (bOf L (2 * k.val)))) :
    ((oDst0 L k).view.loc (thr d L) ↦[(oDst0 L k).view.set]{fullShare} (oDst0 L k).view.writes (Elt F) fc0 [⟨Rect.whole S50x128, blk⟩] : sProp 𝕄)
      ⊢ oCol d (bOf L (2 * k.val)).val (otOf m d) := by
  rw [← col0_as_dst (F := F) d L k hk, ← bOf_batch L (j := 2 * k.val) (by omega)]
  exact Entails.of_eq (pointsTo_congr (fun i hi =>
    landed_col_writes (F := F) (m (xLoc d)) (itOf m d) (bOf L (2 * k.val)) (k0_off27 L k 0#32) (k0_off27_inb L k 0) (off27_eq L k 0 hk) fc0 blk hblk i hi))
/-- The same for the pair's second copy-out. -/
theorem out_landed1 (k : Fin k0_t1_loop.trips) (hk : k.val < 16) (fc1 : Buf (Elt F) (oLoc d)) (blk : S50x128.Idx → Elt F .f32)
    (hblk : blk = gatherBlock (tabOf (m (xLoc d)) (bOf L (2 * k.val + 1))) (colOf (itOf m d) (bOf L (2 * k.val + 1)))) :
    ((oDst1 L k).view.loc (thr d L) ↦[(oDst1 L k).view.set]{fullShare} (oDst1 L k).view.writes (Elt F) fc1 [⟨Rect.whole S50x128, blk⟩] : sProp 𝕄)
      ⊢ oCol d (bOf L (2 * k.val + 1)).val (otOf m d) := by
  rw [← col1_as_dst (F := F) d L k hk, ← bOf_batch L (j := 2 * k.val + 1) (by omega)]
  exact Entails.of_eq (pointsTo_congr (fun i hi =>
    landed_col_writes (F := F) (m (xLoc d)) (itOf m d) (bOf L (2 * k.val + 1)) (k0_off27 L k 1#32) (k0_off27_inb L k 1) (off27_eq L k 1 hk) fc1 blk hblk i hi))

end Tile

end Cert.Proof.OnKernelIdeal

end
-- ==== Proof.OnKernelIdeal.TripFirst.lean ====
/-
  The first pair of batches on one vector subcore.

  Before the first pair the first slot's table and index rows are arriving, and nothing is leaving yet: both result
  blocks are idle. The subcore starts the copies of the second batch into the second slot, waits for the first
  slot's incoming table and index rows (there is no outgoing block to wait for), gathers, sends the block out; then
  starts the copies of the next pair's first batch into the first slot, waits for the second slot's incoming table
  and index rows, gathers, sends that block out. No column of the result is finished before this pair, and none
  after it: the two blocks just sent are still on their way. The state before the second pair is the general one,
  with batches 0 and 1 leaving.
-/
import proofs.«216842_g32469952758108_cont_8to1_b_497_34_alg».proof.Proof.OnKernelIdeal.TripLemmas

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.KernelIdeal.main_arg0_scv : Memref Cert.KernelIdeal.sig Kind.scVector Space.hbm Cert.KernelIdeal.S1024x200x128 EltTy.f32)
local notation "tW" => (Memref.whole Cert.KernelIdeal.main_v0_scv : Memref Cert.KernelIdeal.sig Kind.scVector Space.hbm Cert.KernelIdeal.S50x1024x128 EltTy.i32)
local notation "oW" => (Memref.whole Cert.KernelIdeal.main_v1_scv : Memref Cert.KernelIdeal.sig Kind.scVector Space.hbm Cert.KernelIdeal.S50x1024x128 EltTy.f32)
local notation "inA" => (Memref.whole Cert.KernelIdeal.cc0_scratch0 : Memref Cert.KernelIdeal.sig Kind.scVector Space.vmem Cert.KernelIdeal.S200x128 EltTy.f32)
local notation "inB" => (Memref.whole Cert.KernelIdeal.cc0_scratch1 : Memref Cert.KernelIdeal.sig Kind.scVector Space.vmem Cert.KernelIdeal.S200x128 EltTy.f32)
local notation "ixA" => (Memref.whole Cert.KernelIdeal.cc0_scratch2 : Memref Cert.KernelIdeal.sig Kind.scVector Space.vmem Cert.KernelIdeal.S50x128 EltTy.i32)
local notation "ixB" => (Memref.whole Cert.KernelIdeal.cc0_scratch3 : Memref Cert.KernelIdeal.sig Kind.scVector Space.vmem Cert.KernelIdeal.S50x128 EltTy.i32)
local notation "ouA" => (Memref.whole Cert.KernelIdeal.cc0_scratch4 : Memref Cert.KernelIdeal.sig Kind.scVector Space.vmem Cert.KernelIdeal.S50x128 EltTy.f32)
local notation "ouB" => (Memref.whole Cert.KernelIdeal.cc0_scratch5 : Memref Cert.KernelIdeal.sig Kind.scVector Space.vmem Cert.KernelIdeal.S50x128 EltTy.f32)

variable [FloatOps F]

section Tile
variable (d : Dev nD) (L : grid0.Coords)

set_option maxHeartbeats 4000000 in
theorem trip_first (O : CellTallies nD τ sig (HIx 1)) (W : Waits sig (HIx 1)) (v2 : BitVec 32) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (hpre : PreOK m) (k : Fin k0_t1_loop.trips) (acc : PUnit) (hk0 : k.val = 0) :
    inv m d L O W k.val acc ⊢ wp frame (wpE (defs₀ (F := F)) 𝒱₀ (thr d L) none) Set.univ
      (k0_t1_body L xW (Memref.isWhole_whole _) tW (Memref.isWhole_whole _) oW (Memref.isWhole_whole _)
        inA (Memref.isWhole_whole _) inB (Memref.isWhole_whole _) ixA (Memref.isWhole_whole _) ixB (Memref.isWhole_whole _)
        ouA (Memref.isWhole_whole _) ouB (Memref.isWhole_whole _)
        cc0_scratch6 cc0_scratch7 cc0_scratch8 cc0_scratch9 cc0_scratch10 cc0_scratch11 cc0_scratch12 cc0_scratch13
        v2 v5 v7 v9 v11 v13 v15 v17 v19 k acc)
      (inv m d L O W (k.val + 1)) := by
  have hk : k.val < 16 := by omega
  have hk15 : k.val < 15 := by omega
  have k0_h1 : k0_cond1 k = 1#1 := cond1_all k
  have k0_h2 : ¬ k0_cond2 k = 1#1 := cond2_neg k hk0
  have k0_h3 : k0_cond3 k = 1#1 := cond3_pos k hk15
  have k0_h4 : ¬ k0_cond4 k = 1#1 := cond4_neg k hk0
  unfold inv XFlight TFlight
  rw [if_pos hk, if_pos hk0, if_pos (by omega : k.val + 1 < 16), if_neg (by omega : ¬ k.val + 1 = 0),
    show 2 * (k.val + 1) - 2 = 2 * k.val from by omega, show 2 * (k.val + 1) - 1 = 2 * k.val + 1 from by omega]
  iintro ⟨#Hmw, ⟨⟨%SA, HfA, HrA⟩, ⟨%SB, HfB, HrB⟩, ⟨%ST, HfT, HrT⟩⟩, ⟨⟨%g1l, Hb1lo⟩, ⟨%g1h, Hb1hi⟩, ⟨%g3, Hb3⟩, Hx1, Hx3, Ht5, Hs7, Hs9, Hs11⟩, ⟨⟨%foA, HouA0⟩, ⟨%foB, HouB0⟩, Hs12, Hs13⟩, Hdone, Htodo, %W', %hW', HO⟩
  unfold k0_t1_body
  rw [k0_part4_eq_skeleton]
  sl_exec
  -- the first slot: its table from the two halves, the gather, the block on its way out
  ihave HinA := (split_inA (F := F) d L _).2 $$ [HfA_dst HfB_dst]
  · isplitl [HfA_dst] <;> iassumption
  ihave HinA := (Entails.of_eq (pts_inA (F := F) d L _).symm) $$ HinA
  iapply (compute_A_bind (F := F) d L v2 _ _ k v5 v7 v9 v11 v13 v15 v17 v19 h5 h7 h9 h11 h13 h15 h17 h19 _ _ _ (colOf_lt m d hpre _))
  isplitl [HinA]; · iexact HinA
  isplitl [HfT_dst]; · iexact HfT_dst
  isplitl [HouA0]; · iexact HouA0
  iintro ⟨HinA, HixA, HouA⟩
  ihave HinA := (Entails.of_eq (pts_inA (F := F) d L _)) $$ HinA
  ihave Hh := (split_inA (F := F) d L _).1 $$ HinA
  icases Hh with ⟨Hb0lo, Hb0hi⟩
  ihave Ht2 := (Entails.of_eq (todo_step (fun j : Fin 32 => (iprop(∃ f, oCol d (batchOf (L 0).val (L 1).val j.val) f) : sProp 𝕄)) k.val hk)) $$ Htodo
  icases Ht2 with ⟨⟨%fc0, Hc0⟩, ⟨%fc1, Hc1⟩, Htodo⟩
  ihave Hc0 := (Entails.of_eq (col0_as_dst (F := F) d L k hk fc0)) $$ Hc0
  ihave Hc1 := (Entails.of_eq (col1_as_dst (F := F) d L k hk fc1)) $$ Hc1
  sl_exec
  -- the second slot: what landed is the next batch's table and index rows
  have hb1 : (bOf L (2 * k.val + 1)).val = 64 * (L 1).val + 32 * (L 0).val + (2 * k.val + 1) := bOf_val L (by omega)
  ihave Hb1lo := (pts_congr' (F := F) (g := tabOf (m (xLoc d)) (bOf L (2 * k.val + 1))) ?hBlo) $$ Hb1lo
  case hBlo =>
    exact landed_Blo (m (xLoc d)) (bOf L (2 * k.val + 1)) (k0_off4 L k) (k0_off4_inb L k k0_h1) (by rw [k0_off4_eq, hb1, Nat.add_assoc]) _
  ihave Hb1hi := (pts_congr' (F := F) (g := tabOf (m (xLoc d)) (bOf L (2 * k.val + 1))) ?hBhi) $$ Hb1hi
  case hBhi =>
    exact landed_Bhi (m (xLoc d)) (bOf L (2 * k.val + 1)) (k0_off5 L k) (k0_off5_inb L k k0_h1) (by rw [k0_off5_eq, hb1, Nat.add_assoc]) _
  ihave Hb3 := (pts_eq' (F := F) (g := colOf (itOf m d) (bOf L (2 * k.val + 1))) ?hBix) $$ Hb3
  case hBix =>
    exact landed_ixB (F := F) (itOf m d) (bOf L (2 * k.val + 1)) (k0_off6 L k) (k0_off6_inb L k k0_h1) (by rw [k0_off6_eq, hb1, Nat.add_assoc]) g3
  ihave HinB := (split_inB (F := F) d L _).2 $$ [Hb1lo Hb1hi]
  · isplitl [Hb1lo] <;> iassumption
  ihave HinB := (Entails.of_eq (pts_inB (F := F) d L _).symm) $$ HinB
  iapply (compute_B_bind (F := F) d L v5 v7 v9 v11 v13 v15 v17 v19 h5 h7 h9 h11 h13 h15 h17 h19 _ _ _ (colOf_lt m d hpre _))
  isplitl [HinB]; · iexact HinB
  isplitl [Hb3]; · iexact Hb3
  isplitl [HouB0]; · iexact HouB0
  iintro ⟨HinB, HixB, HouB⟩
  ihave HinB := (Entails.of_eq (pts_inB (F := F) d L _)) $$ HinB
  ihave Hh := (split_inB (F := F) d L _).1 $$ HinB
  icases Hh with ⟨Hb1lo, Hb1hi⟩
  sl_exec
  sl_step
  -- the invariant before the next pair
  have hb2 : (bOf L (2 * (k.val + 1))).val = 64 * (L 1).val + 32 * (L 0).val + 2 * (k.val + 1) := bOf_val L (by omega)
  have e28 : 64 * (L 1).val + 32 * (L 0).val + 2 * k.val + 2 = 64 * (L 1).val + 32 * (L 0).val + 2 * (k.val + 1) := by omega
  isplitr; · iexact Hmw
  isplitl [HfA HrA HfB HrB HfT HrT]
  · isplitl [HfA HrA]
    · ihave HfA := (Transfers.Flight_mono countersEmb (thr d L)
          (D' := iprop((inAlo.view.loc (thr d L) ↦[inAlo.view.set]{fullShare} tabOf (m (xLoc d)) (bOf L (2 * (k.val + 1)))) ∗ ((xW).view.loc (thr d L) ↦[_]{rtok L 0} m (xLoc d)))) ?hA) $$ HfA
      case hA =>
        exact sep_mono_left (Entails.of_eq (pointsTo_congr (landed_Alo (F := F) (m (xLoc d)) (bOf L (2 * (k.val + 1))) (k0_off28 L k) (k0_off28_inb L k k0_h3) (by rw [k0_off28_eq, hb2, e28]) _)))
      iexists _; isplitl [HfA]; · iexact HfA
      iexact HrA
    isplitl [HfB HrB]
    · ihave HfB := (Transfers.Flight_mono countersEmb (thr d L)
          (D' := iprop((inAhi.view.loc (thr d L) ↦[inAhi.view.set]{fullShare} tabOf (m (xLoc d)) (bOf L (2 * (k.val + 1)))) ∗ ((xW).view.loc (thr d L) ↦[_]{rtok L 2} m (xLoc d)))) ?hB) $$ HfB
      case hB =>
        exact sep_mono_left (Entails.of_eq (pointsTo_congr (landed_Ahi (F := F) (m (xLoc d)) (bOf L (2 * (k.val + 1))) (k0_off29 L k) (k0_off29_inb L k k0_h3) (by rw [k0_off29_eq, hb2, e28]) _)))
      iexists _; isplitl [HfB]; · iexact HfB
      iexact HrB
    · ihave HfT := (Transfers.Flight_mono countersEmb (thr d L)
          (D' := iprop(((ixA).view.loc (thr d L) ↦{fullShare} colOf (itOf m d) (bOf L (2 * (k.val + 1)))) ∗ ((tW).view.loc (thr d L) ↦[_]{rtok L 4} itOf m d))) ?hT) $$ HfT
      case hT =>
        exact sep_mono_left (pts_eq' (F := F) (landed_ixA (F := F) (itOf m d) (bOf L (2 * (k.val + 1))) (k0_off30 L k) (k0_off30_inb L k k0_h3) (by rw [k0_off30_eq, hb2, e28]) _))
      iexists _; isplitl [HfT]; · iexact HfT
      iexact HrT
  isplitl [Hb1lo Hb1hi HixB Hx1 Hx3 Ht5 Hs7 Hs9 Hs11]
  · isplitl [Hb1lo]; · iexists _; iexact Hb1lo
    isplitl [Hb1hi]; · iexists _; iexact Hb1hi
    isplitl [HixB]; · iexists _; iexact HixB
    isplitl [Hx1]; · iexact Hx1
    isplitl [Hx3]; · iexact Hx3
    isplitl [Ht5]; · iexact Ht5
    isplitl [Hs7]; · iexact Hs7
    isplitl [Hs9]; · iexact Hs9
    iexact Hs11
  isplitl [Hs12 Hs13]
  · isplitl [Hs12]
    · ihave Hs12 := (Transfers.Flight_mono countersEmb (thr d L)
          (D' := iprop(oCol d (bOf L (2 * k.val)).val (otOf m d) ∗ ((ouA).view.loc (thr d L) ↦{fullShare} _))) ?hoA) $$ Hs12
      case hoA => exact BIClass.sep_mono (out_landed0 (F := F) m d L k hk fc0 _ rfl) (Entails.of_eq (ouA_set (F := F) d L _))
      iexists _; iexact Hs12
    · ihave Hs13 := (Transfers.Flight_mono countersEmb (thr d L)
          (D' := iprop(oCol d (bOf L (2 * k.val + 1)).val (otOf m d) ∗ ((ouB).view.loc (thr d L) ↦{fullShare} _))) ?hoB) $$ Hs13
      case hoB => exact BIClass.sep_mono (out_landed1 (F := F) m d L k hk fc1 _ rfl) (Entails.of_eq (ouB_set (F := F) d L _))
      iexists _; iexact Hs13
  isplitl [Hdone]
  · -- no column is finished before the first pair, and none before the second
    have hd : (bigSep (Finset.univ.filter fun j : Fin 32 => j.val + 2 < 2 * (k.val + 1)) fun j : Fin 32 => (oCol d (batchOf (L 0).val (L 1).val j.val) (otOf m d) : sProp 𝕄))
        = bigSep (Finset.univ.filter fun j : Fin 32 => j.val + 2 < 2 * k.val) fun j : Fin 32 => (oCol d (batchOf (L 0).val (L 1).val j.val) (otOf m d) : sProp 𝕄) := by
      rw [hk0, done_one, done_zero]
    iapply (Entails.of_eq hd.symm); iexact Hdone
  isplitl [Htodo]; · iexact Htodo
  iexists _; isplitr
  rotate_left
  · iexact HO
  · ipureintro
    intro p hp
    simp only [Finset.mem_insert] at hp
    rcases hp with rfl | rfl | rfl | rfl | rfl | rfl | hp
    all_goals first | exact .inr rfl | exact hW' p hp

end Tile

end Cert.Proof.OnKernelIdeal

end
-- ==== Proof.OnKernelIdeal.TripMid.lean ====
/-
  One pair of batches on one vector subcore, neither the first pair nor the last.

  Before the pair the first slot's table and index rows are arriving and the previous pair's result blocks are
  leaving. The subcore starts the copies of the second batch into the second slot, waits for the first slot's
  outgoing block and for its incoming table and index rows, gathers, sends the block out; then starts the copies of
  the next pair's first batch into the first slot, waits likewise on the second slot, gathers, sends that block out.
  Every wait hands back what its copy delivered, stated over the arrays' contents, so the two columns written hold
  the expected gather and the state before the next pair is as before this one, two batches on.
-/
import proofs.«216842_g32469952758108_cont_8to1_b_497_34_alg».proof.Proof.OnKernelIdeal.TripLemmas

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.KernelIdeal.main_arg0_scv : Memref Cert.KernelIdeal.sig Kind.scVector Space.hbm Cert.KernelIdeal.S1024x200x128 EltTy.f32)
local notation "tW" => (Memref.whole Cert.KernelIdeal.main_v0_scv : Memref Cert.KernelIdeal.sig Kind.scVector Space.hbm Cert.KernelIdeal.S50x1024x128 EltTy.i32)
local notation "oW" => (Memref.whole Cert.KernelIdeal.main_v1_scv : Memref Cert.KernelIdeal.sig Kind.scVector Space.hbm Cert.KernelIdeal.S50x1024x128 EltTy.f32)
local notation "inA" => (Memref.whole Cert.KernelIdeal.cc0_scratch0 : Memref Cert.KernelIdeal.sig Kind.scVector Space.vmem Cert.KernelIdeal.S200x128 EltTy.f32)
local notation "inB" => (Memref.whole Cert.KernelIdeal.cc0_scratch1 : Memref Cert.KernelIdeal.sig Kind.scVector Space.vmem Cert.KernelIdeal.S200x128 EltTy.f32)
local notation "ixA" => (Memref.whole Cert.KernelIdeal.cc0_scratch2 : Memref Cert.KernelIdeal.sig Kind.scVector Space.vmem Cert.KernelIdeal.S50x128 EltTy.i32)
local notation "ixB" => (Memref.whole Cert.KernelIdeal.cc0_scratch3 : Memref Cert.KernelIdeal.sig Kind.scVector Space.vmem Cert.KernelIdeal.S50x128 EltTy.i32)
local notation "ouA" => (Memref.whole Cert.KernelIdeal.cc0_scratch4 : Memref Cert.KernelIdeal.sig Kind.scVector Space.vmem Cert.KernelIdeal.S50x128 EltTy.f32)
local notation "ouB" => (Memref.whole Cert.KernelIdeal.cc0_scratch5 : Memref Cert.KernelIdeal.sig Kind.scVector Space.vmem Cert.KernelIdeal.S50x128 EltTy.f32)

variable [FloatOps F]

section Tile
variable (d : Dev nD) (L : grid0.Coords)

set_option maxHeartbeats 4000000 in
theorem trip_mid (O : CellTallies nD τ sig (HIx 1)) (W : Waits sig (HIx 1)) (v2 : BitVec 32) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (hpre : PreOK m) (k : Fin k0_t1_loop.trips) (acc : PUnit) (hk0 : 0 < k.val) (hk15 : k.val < 15) :
    inv m d L O W k.val acc ⊢ wp frame (wpE (defs₀ (F := F)) 𝒱₀ (thr d L) none) Set.univ
      (k0_t1_body L xW (Memref.isWhole_whole _) tW (Memref.isWhole_whole _) oW (Memref.isWhole_whole _)
        inA (Memref.isWhole_whole _) inB (Memref.isWhole_whole _) ixA (Memref.isWhole_whole _) ixB (Memref.isWhole_whole _)
        ouA (Memref.isWhole_whole _) ouB (Memref.isWhole_whole _)
        cc0_scratch6 cc0_scratch7 cc0_scratch8 cc0_scratch9 cc0_scratch10 cc0_scratch11 cc0_scratch12 cc0_scratch13
        v2 v5 v7 v9 v11 v13 v15 v17 v19 k acc)
      (inv m d L O W (k.val + 1)) := by
  have hk : k.val < 16 := by omega
  have k0_h1 : k0_cond1 k = 1#1 := cond1_all k
  have k0_h2 : k0_cond2 k = 1#1 := cond2_pos k hk0
  have k0_h3 : k0_cond3 k = 1#1 := cond3_pos k hk15
  have k0_h4 : k0_cond4 k = 1#1 := cond4_pos k hk0
  unfold inv XFlight TFlight
  rw [if_pos hk, if_neg (by omega : ¬ k.val = 0), if_pos (by omega : k.val + 1 < 16), if_neg (by omega : ¬ k.val + 1 = 0),
    show 2 * (k.val + 1) - 2 = 2 * k.val from by omega, show 2 * (k.val + 1) - 1 = 2 * k.val + 1 from by omega]
  iintro ⟨#Hmw, ⟨⟨%SA, HfA, HrA⟩, ⟨%SB, HfB, HrB⟩, ⟨%ST, HfT, HrT⟩⟩, ⟨⟨%g1l, Hb1lo⟩, ⟨%g1h, Hb1hi⟩, ⟨%g3, Hb3⟩, Hx1, Hx3, Ht5, Hs7, Hs9, Hs11⟩, ⟨⟨%foA, HfoA⟩, ⟨%foB, HfoB⟩⟩, Hdone, Htodo, %W', %hW', HO⟩
  unfold k0_t1_body
  rw [k0_part4_eq_skeleton]
  sl_exec
  -- the first slot: its table from the two halves, the gather, the block on its way out
  ihave HinA := (split_inA (F := F) d L _).2 $$ [HfA_dst HfB_dst]
  · isplitl [HfA_dst] <;> iassumption
  ihave HinA := (Entails.of_eq (pts_inA (F := F) d L _).symm) $$ HinA
  iapply (compute_A_bind (F := F) d L v2 _ _ k v5 v7 v9 v11 v13 v15 v17 v19 h5 h7 h9 h11 h13 h15 h17 h19 _ _ _ (colOf_lt m d hpre _))
  isplitl [HinA]; · iexact HinA
  isplitl [HfT_dst]; · iexact HfT_dst
  isplitl [HfoA_src]; · iexact HfoA_src
  iintro ⟨HinA, HixA, HouA⟩
  ihave HinA := (Entails.of_eq (pts_inA (F := F) d L _)) $$ HinA
  ihave Hh := (split_inA (F := F) d L _).1 $$ HinA
  icases Hh with ⟨Hb0lo, Hb0hi⟩
  ihave Ht2 := (Entails.of_eq (todo_step (fun j : Fin 32 => (iprop(∃ f, oCol d (batchOf (L 0).val (L 1).val j.val) f) : sProp 𝕄)) k.val hk)) $$ Htodo
  icases Ht2 with ⟨⟨%fc0, Hc0⟩, ⟨%fc1, Hc1⟩, Htodo⟩
  ihave Hc0 := (Entails.of_eq (col0_as_dst (F := F) d L k hk fc0)) $$ Hc0
  ihave Hc1 := (Entails.of_eq (col1_as_dst (F := F) d L k hk fc1)) $$ Hc1
  sl_exec
  -- the second slot: what landed is the next batch's table and index rows
  have hb1 : (bOf L (2 * k.val + 1)).val = 64 * (L 1).val + 32 * (L 0).val + (2 * k.val + 1) := bOf_val L (by omega)
  ihave Hb1lo := (pts_congr' (F := F) (g := tabOf (m (xLoc d)) (bOf L (2 * k.val + 1))) ?hBlo) $$ Hb1lo
  case hBlo =>
    exact landed_Blo (m (xLoc d)) (bOf L (2 * k.val + 1)) (k0_off4 L k) (k0_off4_inb L k k0_h1) (by rw [k0_off4_eq, hb1, Nat.add_assoc]) _
  ihave Hb1hi := (pts_congr' (F := F) (g := tabOf (m (xLoc d)) (bOf L (2 * k.val + 1))) ?hBhi) $$ Hb1hi
  case hBhi =>
    exact landed_Bhi (m (xLoc d)) (bOf L (2 * k.val + 1)) (k0_off5 L k) (k0_off5_inb L k k0_h1) (by rw [k0_off5_eq, hb1, Nat.add_assoc]) _
  ihave Hb3 := (pts_eq' (F := F) (g := colOf (itOf m d) (bOf L (2 * k.val + 1))) ?hBix) $$ Hb3
  case hBix =>
    exact landed_ixB (F := F) (itOf m d) (bOf L (2 * k.val + 1)) (k0_off6 L k) (k0_off6_inb L k k0_h1) (by rw [k0_off6_eq, hb1, Nat.add_assoc]) g3
  ihave HinB := (split_inB (F := F) d L _).2 $$ [Hb1lo Hb1hi]
  · isplitl [Hb1lo] <;> iassumption
  ihave HinB := (Entails.of_eq (pts_inB (F := F) d L _).symm) $$ HinB
  iapply (compute_B_bind (F := F) d L v5 v7 v9 v11 v13 v15 v17 v19 h5 h7 h9 h11 h13 h15 h17 h19 _ _ _ (colOf_lt m d hpre _))
  isplitl [HinB]; · iexact HinB
  isplitl [Hb3]; · iexact Hb3
  isplitl [HfoB_src]; · iexact HfoB_src
  iintro ⟨HinB, HixB, HouB⟩
  ihave HinB := (Entails.of_eq (pts_inB (F := F) d L _)) $$ HinB
  ihave Hh := (split_inB (F := F) d L _).1 $$ HinB
  icases Hh with ⟨Hb1lo, Hb1hi⟩
  sl_exec
  sl_step
  -- the invariant before the next pair
  have hb2 : (bOf L (2 * (k.val + 1))).val = 64 * (L 1).val + 32 * (L 0).val + 2 * (k.val + 1) := bOf_val L (by omega)
  have e28 : 64 * (L 1).val + 32 * (L 0).val + 2 * k.val + 2 = 64 * (L 1).val + 32 * (L 0).val + 2 * (k.val + 1) := by omega
  isplitr; · iexact Hmw
  isplitl [HfA HrA HfB HrB HfT HrT]
  · isplitl [HfA HrA]
    · ihave HfA := (Transfers.Flight_mono countersEmb (thr d L)
          (D' := iprop((inAlo.view.loc (thr d L) ↦[inAlo.view.set]{fullShare} tabOf (m (xLoc d)) (bOf L (2 * (k.val + 1)))) ∗ ((xW).view.loc (thr d L) ↦[_]{rtok L 0} m (xLoc d)))) ?hA) $$ HfA
      case hA =>
        exact sep_mono_left (Entails.of_eq (pointsTo_congr (landed_Alo (F := F) (m (xLoc d)) (bOf L (2 * (k.val + 1))) (k0_off28 L k) (k0_off28_inb L k k0_h3) (by rw [k0_off28_eq, hb2, e28]) _)))
      iexists _; isplitl [HfA]; · iexact HfA
      iexact HrA
    isplitl [HfB HrB]
    · ihave HfB := (Transfers.Flight_mono countersEmb (thr d L)
          (D' := iprop((inAhi.view.loc (thr d L) ↦[inAhi.view.set]{fullShare} tabOf (m (xLoc d)) (bOf L (2 * (k.val + 1)))) ∗ ((xW).view.loc (thr d L) ↦[_]{rtok L 2} m (xLoc d)))) ?hB) $$ HfB
      case hB =>
        exact sep_mono_left (Entails.of_eq (pointsTo_congr (landed_Ahi (F := F) (m (xLoc d)) (bOf L (2 * (k.val + 1))) (k0_off29 L k) (k0_off29_inb L k k0_h3) (by rw [k0_off29_eq, hb2, e28]) _)))
      iexists _; isplitl [HfB]; · iexact HfB
      iexact HrB
    · ihave HfT := (Transfers.Flight_mono countersEmb (thr d L)
          (D' := iprop(((ixA).view.loc (thr d L) ↦{fullShare} colOf (itOf m d) (bOf L (2 * (k.val + 1)))) ∗ ((tW).view.loc (thr d L) ↦[_]{rtok L 4} itOf m d))) ?hT) $$ HfT
      case hT =>
        exact sep_mono_left (pts_eq' (F := F) (landed_ixA (F := F) (itOf m d) (bOf L (2 * (k.val + 1))) (k0_off30 L k) (k0_off30_inb L k k0_h3) (by rw [k0_off30_eq, hb2, e28]) _))
      iexists _; isplitl [HfT]; · iexact HfT
      iexact HrT
  isplitl [Hb1lo Hb1hi HixB Hx1 Hx3 Ht5 Hs7 Hs9 Hs11]
  · isplitl [Hb1lo]; · iexists _; iexact Hb1lo
    isplitl [Hb1hi]; · iexists _; iexact Hb1hi
    isplitl [HixB]; · iexists _; iexact HixB
    isplitl [Hx1]; · iexact Hx1
    isplitl [Hx3]; · iexact Hx3
    isplitl [Ht5]; · iexact Ht5
    isplitl [Hs7]; · iexact Hs7
    isplitl [Hs9]; · iexact Hs9
    iexact Hs11
  isplitl [HfoA HfoB]
  · isplitl [HfoA]
    · ihave HfoA := (Transfers.Flight_mono countersEmb (thr d L)
          (D' := iprop(oCol d (bOf L (2 * k.val)).val (otOf m d) ∗ ((ouA).view.loc (thr d L) ↦{fullShare} _))) ?hoA) $$ HfoA
      case hoA => exact BIClass.sep_mono (out_landed0 (F := F) m d L k hk fc0 _ rfl) (Entails.of_eq (ouA_set (F := F) d L _))
      iexists _; iexact HfoA
    · ihave HfoB := (Transfers.Flight_mono countersEmb (thr d L)
          (D' := iprop(oCol d (bOf L (2 * k.val + 1)).val (otOf m d) ∗ ((ouB).view.loc (thr d L) ↦{fullShare} _))) ?hoB) $$ HfoB
      case hoB => exact BIClass.sep_mono (out_landed1 (F := F) m d L k hk fc1 _ rfl) (Entails.of_eq (ouB_set (F := F) d L _))
      iexists _; iexact HfoB
  isplitl [Hdone HfoA_dst HfoB_dst]
  · iapply (Entails.of_eq (done_step (fun j : Fin 32 => (oCol d (batchOf (L 0).val (L 1).val j.val) (otOf m d) : sProp 𝕄)) k.val hk0 hk).symm)
    isplitl [Hdone]; · iexact Hdone
    isplitl [HfoA_dst]
    · iapply (Entails.of_eq (congrArg (fun b => (oCol d b (otOf m d) : sProp 𝕄)) (bOf_batch L (j := 2 * k.val - 2) (by omega)))); iexact HfoA_dst
    · iapply (Entails.of_eq (congrArg (fun b => (oCol d b (otOf m d) : sProp 𝕄)) (bOf_batch L (j := 2 * k.val - 1) (by omega)))); iexact HfoB_dst
  isplitl [Htodo]; · iexact Htodo
  iexists _; isplitr
  rotate_left
  · iexact HO
  · ipureintro
    intro p hp
    simp only [Finset.mem_insert] at hp
    rcases hp with rfl | rfl | rfl | rfl | rfl | rfl | rfl | rfl | hp
    all_goals first | exact .inr rfl | exact hW' p hp

end Tile

end Cert.Proof.OnKernelIdeal

end
-- ==== Proof.OnKernelIdeal.TripLast.lean ====
/-
  The last pair of batches on one vector subcore.

  Before the pair the first slot's table and index rows (batch 30 of the subcore's 32) are arriving and the previous
  pair's result blocks are leaving. The subcore starts the copies of batch 31 into the second slot, waits for the first
  slot's outgoing block and for its incoming table and index rows, gathers, sends the block out. There is no further
  batch, so nothing is fetched into the first slot again: it stays idle, its read shares of the tables and of the
  index array whole and its three semaphores at zero. Then the subcore waits likewise on the second slot, gathers,
  sends that block out. The two columns written hold the expected gather, no column is left to start, and the state
  after the pair is the loop's invariant at sixteen pairs done.
-/
import proofs.«216842_g32469952758108_cont_8to1_b_497_34_alg».proof.Proof.OnKernelIdeal.TripLemmas

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.KernelIdeal.main_arg0_scv : Memref Cert.KernelIdeal.sig Kind.scVector Space.hbm Cert.KernelIdeal.S1024x200x128 EltTy.f32)
local notation "tW" => (Memref.whole Cert.KernelIdeal.main_v0_scv : Memref Cert.KernelIdeal.sig Kind.scVector Space.hbm Cert.KernelIdeal.S50x1024x128 EltTy.i32)
local notation "oW" => (Memref.whole Cert.KernelIdeal.main_v1_scv : Memref Cert.KernelIdeal.sig Kind.scVector Space.hbm Cert.KernelIdeal.S50x1024x128 EltTy.f32)
local notation "inA" => (Memref.whole Cert.KernelIdeal.cc0_scratch0 : Memref Cert.KernelIdeal.sig Kind.scVector Space.vmem Cert.KernelIdeal.S200x128 EltTy.f32)
local notation "inB" => (Memref.whole Cert.KernelIdeal.cc0_scratch1 : Memref Cert.KernelIdeal.sig Kind.scVector Space.vmem Cert.KernelIdeal.S200x128 EltTy.f32)
local notation "ixA" => (Memref.whole Cert.KernelIdeal.cc0_scratch2 : Memref Cert.KernelIdeal.sig Kind.scVector Space.vmem Cert.KernelIdeal.S50x128 EltTy.i32)
local notation "ixB" => (Memref.whole Cert.KernelIdeal.cc0_scratch3 : Memref Cert.KernelIdeal.sig Kind.scVector Space.vmem Cert.KernelIdeal.S50x128 EltTy.i32)
local notation "ouA" => (Memref.whole Cert.KernelIdeal.cc0_scratch4 : Memref Cert.KernelIdeal.sig Kind.scVector Space.vmem Cert.KernelIdeal.S50x128 EltTy.f32)
local notation "ouB" => (Memref.whole Cert.KernelIdeal.cc0_scratch5 : Memref Cert.KernelIdeal.sig Kind.scVector Space.vmem Cert.KernelIdeal.S50x128 EltTy.f32)

variable [FloatOps F]

section Tile
variable (d : Dev nD) (L : grid0.Coords)

set_option maxHeartbeats 4000000 in
theorem trip_last (O : CellTallies nD τ sig (HIx 1)) (W : Waits sig (HIx 1)) (v2 : BitVec 32) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (hpre : PreOK m) (k : Fin k0_t1_loop.trips) (acc : PUnit) (hk15 : k.val = 15) :
    inv m d L O W k.val acc ⊢ wp frame (wpE (defs₀ (F := F)) 𝒱₀ (thr d L) none) Set.univ
      (k0_t1_body L xW (Memref.isWhole_whole _) tW (Memref.isWhole_whole _) oW (Memref.isWhole_whole _)
        inA (Memref.isWhole_whole _) inB (Memref.isWhole_whole _) ixA (Memref.isWhole_whole _) ixB (Memref.isWhole_whole _)
        ouA (Memref.isWhole_whole _) ouB (Memref.isWhole_whole _)
        cc0_scratch6 cc0_scratch7 cc0_scratch8 cc0_scratch9 cc0_scratch10 cc0_scratch11 cc0_scratch12 cc0_scratch13
        v2 v5 v7 v9 v11 v13 v15 v17 v19 k acc)
      (inv m d L O W (k.val + 1)) := by
  have hk : k.val < 16 := by omega
  have hk0 : 0 < k.val := by omega
  have k0_h1 : k0_cond1 k = 1#1 := cond1_all k
  have k0_h2 : k0_cond2 k = 1#1 := cond2_pos k hk0
  have k0_h3 : ¬ k0_cond3 k = 1#1 := cond3_neg k hk15
  have k0_h4 : k0_cond4 k = 1#1 := cond4_pos k hk0
  unfold inv XFlight TFlight
  rw [if_pos hk, if_neg (by omega : ¬ k.val = 0), if_neg (by omega : ¬ k.val + 1 < 16), if_neg (by omega : ¬ k.val + 1 = 0),
    show 2 * (k.val + 1) - 2 = 2 * k.val from by omega, show 2 * (k.val + 1) - 1 = 2 * k.val + 1 from by omega]
  iintro ⟨#Hmw, ⟨⟨%SA, HfA, HrA⟩, ⟨%SB, HfB, HrB⟩, ⟨%ST, HfT, HrT⟩⟩, ⟨⟨%g1l, Hb1lo⟩, ⟨%g1h, Hb1hi⟩, ⟨%g3, Hb3⟩, Hx1, Hx3, Ht5, Hs7, Hs9, Hs11⟩, ⟨⟨%foA, HfoA⟩, ⟨%foB, HfoB⟩⟩, Hdone, Htodo, %W', %hW', HO⟩
  unfold k0_t1_body
  rw [k0_part4_eq_skeleton]
  sl_exec
  -- the first slot: its table from the two halves, the gather, the block on its way out
  ihave HinA := (split_inA (F := F) d L _).2 $$ [HfA_dst HfB_dst]
  · isplitl [HfA_dst] <;> iassumption
  ihave HinA := (Entails.of_eq (pts_inA (F := F) d L _).symm) $$ HinA
  iapply (compute_A_bind (F := F) d L v2 _ _ k v5 v7 v9 v11 v13 v15 v17 v19 h5 h7 h9 h11 h13 h15 h17 h19 _ _ _ (colOf_lt m d hpre _))
  isplitl [HinA]; · iexact HinA
  isplitl [HfT_dst]; · iexact HfT_dst
  isplitl [HfoA_src]; · iexact HfoA_src
  iintro ⟨HinA, HixA, HouA⟩
  ihave HinA := (Entails.of_eq (pts_inA (F := F) d L _)) $$ HinA
  ihave Hh := (split_inA (F := F) d L _).1 $$ HinA
  icases Hh with ⟨Hb0lo, Hb0hi⟩
  ihave Ht2 := (Entails.of_eq (todo_step (fun j : Fin 32 => (iprop(∃ f, oCol d (batchOf (L 0).val (L 1).val j.val) f) : sProp 𝕄)) k.val hk)) $$ Htodo
  icases Ht2 with ⟨⟨%fc0, Hc0⟩, ⟨%fc1, Hc1⟩, Htodo⟩
  ihave Hc0 := (Entails.of_eq (col0_as_dst (F := F) d L k hk fc0)) $$ Hc0
  ihave Hc1 := (Entails.of_eq (col1_as_dst (F := F) d L k hk fc1)) $$ Hc1
  sl_exec
  -- the second slot: what landed is the next batch's table and index rows
  have hb1 : (bOf L (2 * k.val + 1)).val = 64 * (L 1).val + 32 * (L 0).val + (2 * k.val + 1) := bOf_val L (by omega)
  ihave Hb1lo := (pts_congr' (F := F) (g := tabOf (m (xLoc d)) (bOf L (2 * k.val + 1))) ?hBlo) $$ Hb1lo
  case hBlo =>
    exact landed_Blo (m (xLoc d)) (bOf L (2 * k.val + 1)) (k0_off4 L k) (k0_off4_inb L k k0_h1) (by rw [k0_off4_eq, hb1, Nat.add_assoc]) _
  ihave Hb1hi := (pts_congr' (F := F) (g := tabOf (m (xLoc d)) (bOf L (2 * k.val + 1))) ?hBhi) $$ Hb1hi
  case hBhi =>
    exact landed_Bhi (m (xLoc d)) (bOf L (2 * k.val + 1)) (k0_off5 L k) (k0_off5_inb L k k0_h1) (by rw [k0_off5_eq, hb1, Nat.add_assoc]) _
  ihave Hb3 := (pts_eq' (F := F) (g := colOf (itOf m d) (bOf L (2 * k.val + 1))) ?hBix) $$ Hb3
  case hBix =>
    exact landed_ixB (F := F) (itOf m d) (bOf L (2 * k.val + 1)) (k0_off6 L k) (k0_off6_inb L k k0_h1) (by rw [k0_off6_eq, hb1, Nat.add_assoc]) g3
  ihave HinB := (split_inB (F := F) d L _).2 $$ [Hb1lo Hb1hi]
  · isplitl [Hb1lo] <;> iassumption
  ihave HinB := (Entails.of_eq (pts_inB (F := F) d L _).symm) $$ HinB
  iapply (compute_B_bind (F := F) d L v5 v7 v9 v11 v13 v15 v17 v19 h5 h7 h9 h11 h13 h15 h17 h19 _ _ _ (colOf_lt m d hpre _))
  isplitl [HinB]; · iexact HinB
  isplitl [Hb3]; · iexact Hb3
  isplitl [HfoB_src]; · iexact HfoB_src
  iintro ⟨HinB, HixB, HouB⟩
  ihave HinB := (Entails.of_eq (pts_inB (F := F) d L _)) $$ HinB
  ihave Hh := (split_inB (F := F) d L _).1 $$ HinB
  icases Hh with ⟨Hb1lo, Hb1hi⟩
  sl_exec
  sl_step
  -- the invariant after the last pair: the first slot idle, its read shares whole, its semaphores at zero
  isplitr; · iexact Hmw
  isplitl [Hb0lo Hb0hi HixA HrA HrB HrT HfA HfB HfT]
  · isplitl [Hb0lo]; · iexists _; iexact Hb0lo
    isplitl [Hb0hi]; · iexists _; iexact Hb0hi
    isplitl [HixA]; · iexists _; iexact HixA
    isplitl [HrA]; · iexact HrA
    isplitl [HrB]; · iexact HrB
    isplitl [HrT]; · iexact HrT
    isplitl [HfA]; · iexact HfA
    isplitl [HfB]; · iexact HfB
    iexact HfT
  isplitl [Hb1lo Hb1hi HixB Hx1 Hx3 Ht5 Hs7 Hs9 Hs11]
  · isplitl [Hb1lo]; · iexists _; iexact Hb1lo
    isplitl [Hb1hi]; · iexists _; iexact Hb1hi
    isplitl [HixB]; · iexists _; iexact HixB
    isplitl [Hx1]; · iexact Hx1
    isplitl [Hx3]; · iexact Hx3
    isplitl [Ht5]; · iexact Ht5
    isplitl [Hs7]; · iexact Hs7
    isplitl [Hs9]; · iexact Hs9
    iexact Hs11
  isplitl [HfoA HfoB]
  · isplitl [HfoA]
    · ihave HfoA := (Transfers.Flight_mono countersEmb (thr d L)
          (D' := iprop(oCol d (bOf L (2 * k.val)).val (otOf m d) ∗ ((ouA).view.loc (thr d L) ↦{fullShare} _))) ?hoA) $$ HfoA
      case hoA => exact BIClass.sep_mono (out_landed0 (F := F) m d L k hk fc0 _ rfl) (Entails.of_eq (ouA_set (F := F) d L _))
      iexists _; iexact HfoA
    · ihave HfoB := (Transfers.Flight_mono countersEmb (thr d L)
          (D' := iprop(oCol d (bOf L (2 * k.val + 1)).val (otOf m d) ∗ ((ouB).view.loc (thr d L) ↦{fullShare} _))) ?hoB) $$ HfoB
      case hoB => exact BIClass.sep_mono (out_landed1 (F := F) m d L k hk fc1 _ rfl) (Entails.of_eq (ouB_set (F := F) d L _))
      iexists _; iexact HfoB
  isplitl [Hdone HfoA_dst HfoB_dst]
  · iapply (Entails.of_eq (done_step (fun j : Fin 32 => (oCol d (batchOf (L 0).val (L 1).val j.val) (otOf m d) : sProp 𝕄)) k.val hk0 hk).symm)
    isplitl [Hdone]; · iexact Hdone
    isplitl [HfoA_dst]
    · iapply (Entails.of_eq (congrArg (fun b => (oCol d b (otOf m d) : sProp 𝕄)) (bOf_batch L (j := 2 * k.val - 2) (by omega)))); iexact HfoA_dst
    · iapply (Entails.of_eq (congrArg (fun b => (oCol d b (otOf m d) : sProp 𝕄)) (bOf_batch L (j := 2 * k.val - 1) (by omega)))); iexact HfoB_dst
  isplitl [Htodo]; · iexact Htodo
  iexists _; isplitr
  rotate_left
  · iexact HO
  · ipureintro
    intro p hp
    simp only [Finset.mem_insert] at hp
    rcases hp with rfl | rfl | rfl | rfl | rfl | rfl | rfl | rfl | hp
    all_goals first | exact .inr rfl | exact hW' p hp

end Tile

end Cert.Proof.OnKernelIdeal

end
-- ==== Proof.OnKernelIdeal.Trip.lean ====
/-
  One pair of batches on one vector subcore, whichever pair it is.

  The first pair has no earlier result blocks to wait for, the last has no later batch to fetch; every other pair has
  both. The three cases, each proved on its own, together carry the state before pair `k` to the state before pair
  `k + 1` for every `k`.
-/
import proofs.«216842_g32469952758108_cont_8to1_b_497_34_alg».proof.Proof.OnKernelIdeal.TripFirst
import proofs.«216842_g32469952758108_cont_8to1_b_497_34_alg».proof.Proof.OnKernelIdeal.TripMid
import proofs.«216842_g32469952758108_cont_8to1_b_497_34_alg».proof.Proof.OnKernelIdeal.TripLast

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.KernelIdeal.main_arg0_scv : Memref Cert.KernelIdeal.sig Kind.scVector Space.hbm Cert.KernelIdeal.S1024x200x128 EltTy.f32)
local notation "tW" => (Memref.whole Cert.KernelIdeal.main_v0_scv : Memref Cert.KernelIdeal.sig Kind.scVector Space.hbm Cert.KernelIdeal.S50x1024x128 EltTy.i32)
local notation "oW" => (Memref.whole Cert.KernelIdeal.main_v1_scv : Memref Cert.KernelIdeal.sig Kind.scVector Space.hbm Cert.KernelIdeal.S50x1024x128 EltTy.f32)
local notation "inA" => (Memref.whole Cert.KernelIdeal.cc0_scratch0 : Memref Cert.KernelIdeal.sig Kind.scVector Space.vmem Cert.KernelIdeal.S200x128 EltTy.f32)
local notation "inB" => (Memref.whole Cert.KernelIdeal.cc0_scratch1 : Memref Cert.KernelIdeal.sig Kind.scVector Space.vmem Cert.KernelIdeal.S200x128 EltTy.f32)
local notation "ixA" => (Memref.whole Cert.KernelIdeal.cc0_scratch2 : Memref Cert.KernelIdeal.sig Kind.scVector Space.vmem Cert.KernelIdeal.S50x128 EltTy.i32)
local notation "ixB" => (Memref.whole Cert.KernelIdeal.cc0_scratch3 : Memref Cert.KernelIdeal.sig Kind.scVector Space.vmem Cert.KernelIdeal.S50x128 EltTy.i32)
local notation "ouA" => (Memref.whole Cert.KernelIdeal.cc0_scratch4 : Memref Cert.KernelIdeal.sig Kind.scVector Space.vmem Cert.KernelIdeal.S50x128 EltTy.f32)
local notation "ouB" => (Memref.whole Cert.KernelIdeal.cc0_scratch5 : Memref Cert.KernelIdeal.sig Kind.scVector Space.vmem Cert.KernelIdeal.S50x128 EltTy.f32)

variable [FloatOps F]

section Tile
variable (d : Dev nD) (L : grid0.Coords)

set_option maxHeartbeats 4000000 in
theorem trip (O : CellTallies nD τ sig (HIx 1)) (W : Waits sig (HIx 1)) (v2 : BitVec 32) (v5 v7 v9 v11 v13 v15 v17 v19 : IVec S16 32)
    (h5 : ∀ x, (v5 x).toNat = (x 0).val) (h7 : ∀ x, (v7 x).toNat = (x 0).val + 16) (h9 : ∀ x, (v9 x).toNat = (x 0).val + 32)
    (h11 : ∀ x, (v11 x).toNat = (x 0).val + 48) (h13 : ∀ x, (v13 x).toNat = (x 0).val + 64) (h15 : ∀ x, (v15 x).toNat = (x 0).val + 80)
    (h17 : ∀ x, (v17 x).toNat = (x 0).val + 96) (h19 : ∀ x, (v19 x).toNat = (x 0).val + 112)
    (hpre : PreOK m) (k : Fin k0_t1_loop.trips) (acc : PUnit) :
    inv m d L O W k.val acc ⊢ wp frame (wpE (defs₀ (F := F)) 𝒱₀ (thr d L) none) Set.univ
      (k0_t1_body L xW (Memref.isWhole_whole _) tW (Memref.isWhole_whole _) oW (Memref.isWhole_whole _)
        inA (Memref.isWhole_whole _) inB (Memref.isWhole_whole _) ixA (Memref.isWhole_whole _) ixB (Memref.isWhole_whole _)
        ouA (Memref.isWhole_whole _) ouB (Memref.isWhole_whole _)
        cc0_scratch6 cc0_scratch7 cc0_scratch8 cc0_scratch9 cc0_scratch10 cc0_scratch11 cc0_scratch12 cc0_scratch13
        v2 v5 v7 v9 v11 v13 v15 v17 v19 k acc)
      (inv m d L O W (k.val + 1)) := by
  have hk : k.val < 16 := lt_of_lt_of_le k.isLt k0_t1_abs.2.1
  rcases Nat.eq_zero_or_pos k.val with h0 | hpos
  · exact trip_first m d L O W v2 v5 v7 v9 v11 v13 v15 v17 v19 h5 h7 h9 h11 h13 h15 h17 h19 hpre k acc h0
  · by_cases h15' : k.val < 15
    · exact trip_mid m d L O W v2 v5 v7 v9 v11 v13 v15 v17 v19 h5 h7 h9 h11 h13 h15 h17 h19 hpre k acc hpos h15'
    · exact trip_last m d L O W v2 v5 v7 v9 v11 v13 v15 v17 v19 h5 h7 h9 h11 h13 h15 h17 h19 hpre k acc (Nat.le_antisymm (Nat.le_of_lt_succ hk) (Nat.not_lt.mp h15'))

end Tile

end Cert.Proof.OnKernelIdeal

end
-- ==== Proof.OnKernelIdeal.Body.lean ====
/-
  The task of one vector subcore, and the launch theorem's obligation for it.

  A subcore takes its 32 batches two at a time. Before the first pair it starts the copies that bring batch 0's table
  (two halves) and index rows into the first slot; each pair then computes on one slot while the other fills and the
  previous results leave (`trip`, which carries the invariant `inv` from one pair to the next); after the sixteenth pair
  it waits for the last two result blocks to land. What it holds at the start is cut into the pieces the copies move —
  read shares of `x` and `it`, the halves of the table buffers — and at the end everything is put back: the shares
  rejoined, the halves joined, and the 32 columns of the result, each at the expected gather.
-/
import proofs.«216842_g32469952758108_cont_8to1_b_497_34_alg».proof.Proof.OnKernelIdeal.Inv
import proofs.«216842_g32469952758108_cont_8to1_b_497_34_alg».proof.Proof.OnKernelIdeal.Compute
import proofs.«216842_g32469952758108_cont_8to1_b_497_34_alg».proof.Proof.OnKernelIdeal.Trip

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

-- the kernel's memrefs, spelt as the body table passes them
local notation "xW" => (Memref.whole Cert.KernelIdeal.main_arg0_scv : Memref Cert.KernelIdeal.sig Kind.scVector Space.hbm Cert.KernelIdeal.S1024x200x128 EltTy.f32)
local notation "tW" => (Memref.whole Cert.KernelIdeal.main_v0_scv : Memref Cert.KernelIdeal.sig Kind.scVector Space.hbm Cert.KernelIdeal.S50x1024x128 EltTy.i32)
local notation "oW" => (Memref.whole Cert.KernelIdeal.main_v1_scv : Memref Cert.KernelIdeal.sig Kind.scVector Space.hbm Cert.KernelIdeal.S50x1024x128 EltTy.f32)
local notation "inA" => (Memref.whole Cert.KernelIdeal.cc0_scratch0 : Memref Cert.KernelIdeal.sig Kind.scVector Space.vmem Cert.KernelIdeal.S200x128 EltTy.f32)
local notation "inB" => (Memref.whole Cert.KernelIdeal.cc0_scratch1 : Memref Cert.KernelIdeal.sig Kind.scVector Space.vmem Cert.KernelIdeal.S200x128 EltTy.f32)
local notation "ixA" => (Memref.whole Cert.KernelIdeal.cc0_scratch2 : Memref Cert.KernelIdeal.sig Kind.scVector Space.vmem Cert.KernelIdeal.S50x128 EltTy.i32)
local notation "ixB" => (Memref.whole Cert.KernelIdeal.cc0_scratch3 : Memref Cert.KernelIdeal.sig Kind.scVector Space.vmem Cert.KernelIdeal.S50x128 EltTy.i32)
local notation "ouA" => (Memref.whole Cert.KernelIdeal.cc0_scratch4 : Memref Cert.KernelIdeal.sig Kind.scVector Space.vmem Cert.KernelIdeal.S50x128 EltTy.f32)
local notation "ouB" => (Memref.whole Cert.KernelIdeal.cc0_scratch5 : Memref Cert.KernelIdeal.sig Kind.scVector Space.vmem Cert.KernelIdeal.S50x128 EltTy.f32)

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_sc (coordsV c s)
          xW (Memref.isWhole_whole _) tW (Memref.isWhole_whole _) oW (Memref.isWhole_whole _)
          inA (Memref.isWhole_whole _) inB (Memref.isWhole_whole _) ixA (Memref.isWhole_whole _) ixB (Memref.isWhole_whole _)
          ouA (Memref.isWhole_whole _) ouB (Memref.isWhole_whole _)
          cc0_scratch6 cc0_scratch7 cc0_scratch8 cc0_scratch9 cc0_scratch10 cc0_scratch11 cc0_scratch12 cc0_scratch13) ⟨⟩ c s := rfl

section Tile
variable (d : Dev nD) (L : grid0.Coords)

/-- A table buffer's two halves, each at some contents, are the buffer at some contents. -/
theorem join_inA (f g : Buf (Elt F) ((thr d L).loc cc0_scratch0)) :
    iprop((inAlo.view.loc (thr d L) ↦[inAlo.view.set]{fullShare} f) ∗ (inAhi.view.loc (thr d L) ↦[inAhi.view.set]{fullShare} g))
      ⊢ (iprop(∃ h, (thr d L).loc cc0_scratch0 ↦{fullShare} h) : sProp 𝕄) := by
  have e1 : inAlo.view.set = loR.set := View.set_slice_whole _ _
  have e2 : inAhi.view.set = hiR.set := View.set_slice_whole _ _
  rw [e1, e2]
  refine (pointsTo_join (ℓ := (thr d L).loc cc0_scratch0) lo_hi_disjoint).trans ?_
  rw [lo_hi_union]
  iintro H; iexists _; iexact H
theorem join_inB (f g : Buf (Elt F) ((thr d L).loc cc0_scratch1)) :
    iprop((inBlo.view.loc (thr d L) ↦[inBlo.view.set]{fullShare} f) ∗ (inBhi.view.loc (thr d L) ↦[inBhi.view.set]{fullShare} g))
      ⊢ (iprop(∃ h, (thr d L).loc cc0_scratch1 ↦{fullShare} h) : sProp 𝕄) := by
  have e1 : inBlo.view.set = loR.set := View.set_slice_whole _ _
  have e2 : inBhi.view.set = hiR.set := View.set_slice_whole _ _
  rw [e1, e2]
  refine (pointsTo_join (ℓ := (thr d L).loc cc0_scratch1) lo_hi_disjoint).trans ?_
  rw [lo_hi_union]
  iintro H; iexists _; iexact H

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (xPts m d (tileShare (L 0).val (L 1).val) ∗ tPts m d (tileShare (L 0).val (L 1).val)
            ∗ bigSep Finset.univ fun k : Fin 32 => iprop(∃ f, oCol d (batchOf (L 0).val (L 1).val k.val) f))
        ∗ scopedBufs (thr d L) ∗ scopedSems0 (thr d L) ∗ owes (thr d L) O W)
      ⊢ wp frame (wpE (defs₀ (F := F)) 𝒱₀ (thr d L) none) Set.univ
          (cc0__gather_sc L xW (Memref.isWhole_whole _) tW (Memref.isWhole_whole _) oW (Memref.isWhole_whole _)
            inA (Memref.isWhole_whole _) inB (Memref.isWhole_whole _) ixA (Memref.isWhole_whole _) ixB (Memref.isWhole_whole _)
            ouA (Memref.isWhole_whole _) ouB (Memref.isWhole_whole _)
            cc0_scratch6 cc0_scratch7 cc0_scratch8 cc0_scratch9 cc0_scratch10 cc0_scratch11 cc0_scratch12 cc0_scratch13)
          fun _ => iprop((xPts m d (tileShare (L 0).val (L 1).val) ∗ tPts m d (tileShare (L 0).val (L 1).val)
              ∗ bigSep Finset.univ fun k : Fin 32 => oCol d (batchOf (L 0).val (L 1).val k.val) (otOf m d))
            ∗ scopedBufs (thr d L) ∗ scopedSems0 (thr d L)
            ∗ ∃ W', ⌜∀ p ∈ W', p ∈ W ∨ p.2 = none⌝ ∗ owes (thr d L) O W') := by
  simp only [cc0__gather_sc_eq_skeleton]; unfold cc0__gather_sc_skel
  rw [(K (F := F)).scopedBufs_V hF d (cV L) (jV L), SparseCore.Cfg.scopedSems0_V (Val := Elt F) d (cV L) (jV L), ownSems0_V, ownBufs_V]
  iintro ⟨#Hlv, -, ⟨Hx, Ht, Hcols⟩, ⟨⟨%f0, Hb0⟩, ⟨%f1, Hb1⟩, ⟨%f2, Hb2⟩, ⟨%f3, Hb3⟩, ⟨%f4, Hb4⟩, ⟨%f5, Hb5⟩, Hbrest⟩,
    ⟨Hs6, Hs7, Hs8, Hs9, Hs10, Hs11, Hs12, Hs13, Hsrest⟩, HO⟩
  ihave Hmw := ((K (F := F)).mayWaits_none (thr := thr d L) hO) $$ Hlv
  ihave Hx' := (Entails.of_eq (pts_x (F := F) d L _ _).symm) $$ Hx
  ihave Ht' := (Entails.of_eq (pts_t (F := F) d L _ _).symm) $$ Ht
  ihave Hxs := (toks4 (F := F) (tileShare (L 0).val (L 1).val)).1 $$ Hx'
  icases Hxs with ⟨Hxr, Hx0, Hx1, Hx2, Hx3⟩
  ihave Hts := (Transfers.pointsTo_toks_range (tileShare (L 0).val (L 1).val) 4).1 $$ Ht'
  icases Hts with ⟨Htd, Htside⟩
  ihave Hts := (tok_split (F := F) (tileShare (L 0).val (L 1).val) 4).1 $$ Htd
  icases Hts with ⟨Htd, Ht4⟩
  ihave Hts := (tok_split (F := F) (tileShare (L 0).val (L 1).val) 5).1 $$ Htd
  icases Hts with ⟨Htd, Ht5⟩
  ihave Hin := (split_inA (F := F) d L f0).1 $$ Hb0
  icases Hin with ⟨Hb0lo, Hb0hi⟩
  ihave Hb2' := (Entails.of_eq (pts_ixA (F := F) d L _).symm) $$ Hb2
  sl_exec
  -- the three copies under way deliver the first batch's table and index rows
  have hb0 : (bOf L 0).val = 64 * (L 1).val + 32 * (L 0).val := bOf_val L (k := 0) (by decide)
  ihave Hs6 := (Transfers.Flight_mono countersEmb (thr d L)
      (D' := iprop((inAlo.view.loc (thr d L) ↦[inAlo.view.set]{fullShare} tabOf (m (xLoc d)) (bOf L 0)) ∗ ((xW).view.loc (thr d L) ↦[_]{rtok L 0} m (xLoc d)))) ?h6) $$ Hs6
  case h6 =>
    exact sep_mono_left (Entails.of_eq (pointsTo_congr (landed_Alo (F := F) (m (xLoc d)) (bOf L 0) (k0_off1 L) (k0_off1_inb L) (by rw [k0_off1_eq, hb0]) f0)))
  ihave Hs8 := (Transfers.Flight_mono countersEmb (thr d L)
      (D' := iprop((inAhi.view.loc (thr d L) ↦[inAhi.view.set]{fullShare} tabOf (m (xLoc d)) (bOf L 0)) ∗ ((xW).view.loc (thr d L) ↦[_]{rtok L 2} m (xLoc d)))) ?h8) $$ Hs8
  case h8 =>
    exact sep_mono_left (Entails.of_eq (pointsTo_congr (landed_Ahi (F := F) (m (xLoc d)) (bOf L 0) (k0_off2 L) (k0_off2_inb L) (by rw [k0_off2_eq, hb0]) f0)))
  ihave Hs10 := (Transfers.Flight_mono countersEmb (thr d L)
      (D' := iprop(((ixA).view.loc (thr d L) ↦{fullShare} colOf (itOf m d) (bOf L 0)) ∗ ((tW).view.loc (thr d L) ↦[_]{rtok L 4} itOf m d))) ?h10) $$ Hs10
  case h10 =>
    exact sep_mono_left (Entails.of_eq (congrArg (fun g => ((ixA).view.loc (thr d L) ↦{fullShare} g : sProp 𝕄))
      (landed_ixA (F := F) (itOf m d) (bOf L 0) (k0_off3 L) (k0_off3_inb L) (by rw [k0_off3_eq, hb0]) f2)))
  -- the second table buffer as its halves; the second slot's blocks as the program names them
  ihave Hin := (split_inB (F := F) d L f1).1 $$ Hb1
  icases Hin with ⟨Hb1lo, Hb1hi⟩
  ihave Hb3' := (Entails.of_eq (pts_ixB (F := F) d L _).symm) $$ Hb3
  ihave Hb4' := (Entails.of_eq (pts_ouA (F := F) d L _).symm) $$ Hb4
  ihave Hb5' := (Entails.of_eq (pts_ouB (F := F) d L _).symm) $$ Hb5
  -- the sixteen pairs of batches
  sl_for (inv m d L O W) $$ [Hmw Hs6 Hx0 Hs8 Hx2 Hs10 Ht4 Hb1lo Hb1hi Hb3' Hx1 Hx3 Ht5 Hs7 Hs9 Hs11 Hb4' Hb5' Hs12 Hs13 Hcols HO]
  case region =>
    intro k acc
    exact trip m d L O W _ _ _ _ _ _ _ _ _ lanes_pay3 lanes_pay4 lanes_pay5 lanes_pay6 lanes_pay7 lanes_pay8 lanes_pay9 lanes_pay10 hpre k acc
  · unfold inv XFlight TFlight
    rw [if_pos (by decide : (0 : ℕ) < 16), if_pos (rfl : (0 : ℕ) = 0)]
    isplitr; · iexact Hmw
    isplitl [Hs6 Hx0 Hs8 Hx2 Hs10 Ht4]
    · isplitl [Hs6 Hx0]
      · iexists _; isplitl [Hs6]; · iexact Hs6
        iexact Hx0
      isplitl [Hs8 Hx2]
      · iexists _; isplitl [Hs8]; · iexact Hs8
        iexact Hx2
      iexists _; isplitl [Hs10]; · iexact Hs10
      iexact Ht4
    isplitl [Hb1lo Hb1hi Hb3' Hx1 Hx3 Ht5 Hs7 Hs9 Hs11]
    · isplitl [Hb1lo]; · iexists _; iexact Hb1lo
      isplitl [Hb1hi]; · iexists _; iexact Hb1hi
      isplitl [Hb3']; · iexists _; iexact Hb3'
      isplitl [Hx1]; · iexact Hx1
      isplitl [Hx3]; · iexact Hx3
      isplitl [Ht5]; · iexact Ht5
      isplitl [Hs7]; · iexact Hs7
      isplitl [Hs9]; · iexact Hs9
      iexact Hs11
    isplitl [Hb4' Hb5' Hs12 Hs13]
    · isplitl [Hb4']; · iexists _; iexact Hb4'
      isplitl [Hb5']; · iexists _; iexact Hb5'
      isplitl [Hs12]; · iexact Hs12
      iexact Hs13
    isplitr
    · rw [done_zero]; iempintro
    isplitl [Hcols]
    · rw [todo_zero]; iexact Hcols
    iexists W; isplitr
    · ipureintro; exact fun p hp => .inl hp
    · iexact HO
  iintro %acc HI
  -- after the last pair: the last two result blocks are still on their way out
  have htr : Scf.trips k0_t1_loop.lb k0_t1_loop.ub k0_t1_loop.st = 16 := by decide
  rw [htr]
  unfold inv XFlight TFlight
  rw [if_neg (by decide : ¬ (16 : ℕ) < 16), if_neg (by decide : ¬ (16 : ℕ) = 0)]
  icases HI with ⟨-, ⟨⟨%g0l, Hb0lo⟩, ⟨%g0h, Hb0hi⟩, ⟨%g2, Hb2⟩, Hx0, Hx2, Ht4, Hs6, Hs8, Hs10⟩,
    ⟨⟨%g1l, Hb1lo⟩, ⟨%g1h, Hb1hi⟩, ⟨%g3, Hb3⟩, Hx1, Hx3, Ht5, Hs7, Hs9, Hs11⟩, ⟨⟨%foA, HfoA⟩, ⟨%foB, HfoB⟩⟩, Hdone, Htodo, %W', %hW', HO⟩
  sl_exec
  sl_step
  have h30 : (bOf L (2 * 16 - 2)).val = batchOf (L 0).val (L 1).val 30 := bOf_val L (k := 30) (by decide)
  have h31 : (bOf L (2 * 16 - 1)).val = batchOf (L 0).val (L 1).val 31 := bOf_val L (k := 31) (by decide)
  -- the read shares of `x` and of `it`, put back together
  ihave Hx := (toks4 (F := F) (tileShare (L 0).val (L 1).val)).2 $$ [Hxr Hx0 Hx1 Hx2 Hx3]
  · isplitl [Hxr]; · iexact Hxr
    isplitl [Hx0]; · iexact Hx0
    isplitl [Hx1]; · iexact Hx1
    isplitl [Hx2]; · iexact Hx2
    iexact Hx3
  ihave Htd := (tok_split (F := F) (tileShare (L 0).val (L 1).val) 5).2 $$ [Htd Ht5]
  · isplitl [Htd] <;> iassumption
  ihave Htd := (tok_split (F := F) (tileShare (L 0).val (L 1).val) 4).2 $$ [Htd Ht4]
  · isplitl [Htd] <;> iassumption
  ihave Ht := (Transfers.pointsTo_toks_range (tileShare (L 0).val (L 1).val) 4).2 $$ [Htd Htside]
  · isplitl [Htd] <;> iassumption
  isplitl [Hx Ht Hdone HfoA_dst HfoB_dst]
  · isplitl [Hx]; · iapply (Entails.of_eq (pts_x (F := F) d L _ _)); iexact Hx
    isplitl [Ht]; · iapply (Entails.of_eq (pts_t (F := F) d L _ _)); iexact Ht
    -- the 32 columns: those finished before the last pair, and the last pair's two
    rw [done_end (fun j : Fin 32 => oCol d (batchOf (L 0).val (L 1).val j.val) (otOf m d))]
    isplitl [Hdone]; · iexact Hdone
    isplitl [HfoA_dst]
    · iapply (Entails.of_eq (congrArg (fun b => (oCol d b (otOf m d) : sProp 𝕄)) h30)); iexact HfoA_dst
    · iapply (Entails.of_eq (congrArg (fun b => (oCol d b (otOf m d) : sProp 𝕄)) h31)); iexact HfoB_dst
  isplitl [Hb0lo Hb0hi Hb1lo Hb1hi Hb2 Hb3 HfoA_src HfoB_src Hbrest]
  · isplitl [Hb0lo Hb0hi]
    · iapply (join_inA (F := F) d L g0l g0h); isplitl [Hb0lo] <;> iassumption
    isplitl [Hb1lo Hb1hi]
    · iapply (join_inB (F := F) d L g1l g1h); isplitl [Hb1lo] <;> iassumption
    isplitl [Hb2]; · iexists g2; iexact Hb2
    isplitl [Hb3]; · iexists g3; iexact Hb3
    isplitl [HfoA_src]; · iexists foA; iexact HfoA_src
    isplitl [HfoB_src]; · iexists foB; iexact HfoB_src
    iexact Hbrest
  isplitl [Hs6 Hs7 Hs8 Hs9 Hs10 Hs11 HfoA HfoB Hsrest]
  · isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [HfoA]; · iexact HfoA
    isplitl [HfoB]; · iexact HfoB
    iexact Hsrest
  iexists (insert (SemLoc.dma cc0_scratch13.sem, (default : HIx 1)) (insert (SemLoc.dma cc0_scratch12.sem, (default : HIx 1)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Tile

/-! ## The launch theorem's obligation for a subcore's task -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of subcore `i` of core `c`, as the launch theorem asks it: the body at that subcore's grid coordinates. -/
theorem tileObl (hpre : PreOK m) : (K (F := F)).TileObl (D (F := F)) 𝒱 (P m) v₀ 0 := by
  intro d c i O W hO _ _
  -- the task owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre O W hO).trans (wp_mono frame _ _ fun _ => obl_post)

end Cert.Proof.OnKernelIdeal

end
-- ==== Proof.lean ====
/-
  The claim: both printed programs run to the end without a fault and leave their arguments unchanged, and the
  idealized program returns what the reference returns.

  The program carries the index array to the layout with the index row first, has thirty-two vector subcores gather
  `ot[i, b, l] = x[b, it[i, b, l], l]` batch by batch, and carries the result back: at `(b, i, l)` it returns
  `x[b, idx[b, i, l], l]` (`Spec.gatherB`). Its run is the launch of the subcores' task (`run_main` from `tileObl`),
  once for the program as printed and once for its idealization; each frame is that run with the result's value
  dropped. Every index word names a row of its table because the precondition says so (`PreDecode.idx_lt_of_pre`).
  The reference computes the same gather directly (`RefSide.ref_run_agree`), so from memories agreeing on the arguments
  the two results are equal. The idealization rewrote no operation, so there is nothing to preserve.
-/
import proofs.«216842_g32469952758108_cont_8to1_b_497_34_alg».proof.Defs
import proofs.«216842_g32469952758108_cont_8to1_b_497_34_alg».proof.Proof.Gen.Kernel
import proofs.«216842_g32469952758108_cont_8to1_b_497_34_alg».proof.Proof.Gen.Kernel.Skeleton
import proofs.«216842_g32469952758108_cont_8to1_b_497_34_alg».proof.Proof.Gen.KernelIdeal
import proofs.«216842_g32469952758108_cont_8to1_b_497_34_alg».proof.Proof.Gen.KernelIdeal.Skeleton
import proofs.«216842_g32469952758108_cont_8to1_b_497_34_alg».proof.Proof.Gen.ReferenceIdeal
import proofs.«216842_g32469952758108_cont_8to1_b_497_34_alg».proof.Proof.Gen.Pre_input_domain
import proofs.«216842_g32469952758108_cont_8to1_b_497_34_alg».proof.Proof.PreDecode
import proofs.«216842_g32469952758108_cont_8to1_b_497_34_alg».proof.Proof.RefSide
import proofs.«216842_g32469952758108_cont_8to1_b_497_34_alg».proof.Proof.OnKernel.Launch
import proofs.«216842_g32469952758108_cont_8to1_b_497_34_alg».proof.Proof.OnKernelIdeal.Launch
import proofs.«216842_g32469952758108_cont_8to1_b_497_34_alg».proof.Proof.OnKernel.Body
import proofs.«216842_g32469952758108_cont_8to1_b_497_34_alg».proof.Proof.OnKernelIdeal.Body
import Idealize.ShloMosaic.Adequacy
import Idealize.ShloMosaic.Init

noncomputable section

namespace Cert.Proof

open Idealize.ShloMosaic Idealize.SL.Sem

/-- Under the precondition every index word of the program as printed names a row of its table. -/
theorem preOK_Kernel (m : (ℓ : Loc Cert.Kernel.nD Cert.Kernel.τ Cert.Kernel.sig) → Buf (Elt Bits) ℓ) (hpre : Cert.Pre_Kernel m) :
    OnKernel.PreOK (F := Bits) m :=
  fun d j => PreDecode.idx_lt_of_pre (F := Bits) _ _ (hpre d) j

/-- The same for the idealized program. -/
theorem preOK_KernelIdeal (m : (ℓ : Loc Cert.KernelIdeal.nD Cert.KernelIdeal.τ Cert.KernelIdeal.sig) → Buf (Elt Ideal) ℓ) (hpre : Cert.Pre_KernelIdeal m) :
    OnKernelIdeal.PreOK (F := Ideal) m :=
  fun d j => PreDecode.idx_lt_of_pre (F := Ideal) _ _ (hpre d) j

/-- The program as printed runs to the end and leaves its arguments unchanged: its run, the result's value dropped. -/
theorem frame_Kernel : Cert.frame_Kernel := fun m g hpre =>
  (θ_run Cert.Kernel.defs _ _).mono (fun _ h c => ⟨(h c).2.1, (h c).2.2⟩)
    (OnKernel.run_main (F := Bits) m g (OnKernel.tileObl m (preOK_Kernel m hpre)))

/-- So does the idealized program. -/
theorem frame_KernelIdeal : Cert.frame_KernelIdeal := fun m g hpre =>
  (θ_run Cert.KernelIdeal.defs _ _).mono (fun _ h c => ⟨(h c).2.1, (h c).2.2⟩)
    (OnKernelIdeal.run_main (F := Ideal) m g (OnKernelIdeal.tileObl m (preOK_KernelIdeal m hpre)))

/-- From memories agreeing on the arguments the idealized program and the reference both end with the batch-major gather
    of the arguments as their result, and with their arguments unchanged. -/
theorem algebraic : Cert.algebraic_KernelIdeal_ReferenceIdeal := fun m g m' g' hpre hagree =>
  ⟨fun c => OnKernelIdeal.resOf m c,
    OnKernelIdeal.run_main (F := Ideal) m g (OnKernelIdeal.tileObl m (preOK_KernelIdeal m hpre)),
    (θ_run Cert.ReferenceIdeal.defs _ _).mono (fun _ h c => ⟨(h c).1, (h c).2.1, (h c).2.2⟩)
      (RefSide.ref_run_agree m m' g' hpre hagree)⟩

theorem claim : Cert.Claim :=
  ⟨Cert.Kernel.Gen.facts, Cert.KernelIdeal.Gen.facts, Cert.ReferenceIdeal.Gen.facts, Cert.Pre_input_domain.Gen.facts,
    frame_Kernel, frame_KernelIdeal, RefSide.frame_ref, trivial, algebraic⟩

end Cert.Proof

end
